-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v123) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v277) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S160000x128 : Shape := ⟨2, ![160000, 128]⟩
abbrev S128x128 : Shape := ⟨2, ![128, 128]⟩
abbrev S128 : Shape := ⟨1, ![128]⟩
abbrev S2x160000 : Shape := ⟨2, ![2, 160000]⟩
abbrev S2x640000 : Shape := ⟨2, ![2, 640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S160000x128 : S_.BroadcastsInDim S160000x128 (![] : Fin 0 → Fin S160000x128.rank)
  reducesTo_S160000x128_S_d0_1 : S160000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S128 .f32) (main_arg15 : FVec F S128 .f32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_v63 main_v67

def fn_part2 {F : FTy → Type} [FloatOps F] (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_v48 main_v49 main_v50

def fn_part1 {F : FTy → Type} [FloatOps F] (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S10000x128 .f32) (main_arg1 : FVec F S160000x128 .f32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : IVec S2x160000 32) (main_arg19 : IVec S2x640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S160000x128 .f32 := Host.absf main_arg1
  let main_cst_0 : FVec F S_ .f32 := constant S_ .f32 0x7F800000#32
  let main_v5 : FVec F S160000x128 .f32 := broadcastInDim S160000x128 ![] bcast_S_S160000x128 main_cst_0
  let main_v6 : IVec S160000x128 1 := cmpf .olt main_v4 main_v5
  let main_c_1 : IVec S_ 1 := constantI S_ 1 1#1
  let main_v7 : IVec S_ 1 := (fun x v => Host.reduce IntOp.andi x v reducesTo_S160000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S160000x128 : Shape := ⟨2, ![160000, 128]⟩
abbrev S128x128 : Shape := ⟨2, ![128, 128]⟩
abbrev S128 : Shape := ⟨1, ![128]⟩
abbrev S2x160000 : Shape := ⟨2, ![2, 160000]⟩
abbrev S2x640000 : Shape := ⟨2, ![2, 640000]⟩
abbrev S1x160000 : Shape := ⟨2, ![1, 160000]⟩
abbrev S160000 : Shape := ⟨1, ![160000]⟩
abbrev S1x640000 : Shape := ⟨2, ![1, 640000]⟩
abbrev S640000 : Shape := ⟨1, ![640000]⟩
abbrev S_ : Shape := ⟨0, ![]⟩
abbrev S160000x1 : Shape := ⟨2, ![160000, 1]⟩
abbrev S10000 : Shape := ⟨1, ![10000]⟩
abbrev S10000x1 : Shape := ⟨2, ![10000, 1]⟩
abbrev S2000x128 : Shape := ⟨2, ![2000, 128]⟩
abbrev S2000x1 : Shape := ⟨2, ![2000, 1]⟩
abbrev S10000x256 : Shape := ⟨2, ![10000, 256]⟩
abbrev S160000x256 : Shape := ⟨2, ![160000, 256]⟩
abbrev S1x128 : Shape := ⟨2, ![1, 128]⟩
abbrev S2000 : Shape := ⟨1, ![2000]⟩
abbrev S640000x1 : Shape := ⟨2, ![640000, 1]⟩
abbrev S4000x128 : Shape := ⟨2, ![4000, 128]⟩
abbrev S4000x1 : Shape := ⟨2, ![4000, 1]⟩
abbrev S640000x256 : Shape := ⟨2, ![640000, 256]⟩
abbrev S4000 : Shape := ⟨1, ![4000]⟩

abbrev nBuf : Space → Nat
  | .hbm => 191
  | .vmem => 60
  | .smem => 0
  | _ => 0

abbrev hbmTy0_0 (i : Nat) : BufTy := match i % 128 with
  | 0 => ⟨S10000x128, .f32⟩
  | 1 => ⟨S160000x128, .f32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S2x160000, .i32⟩
  | 19 => ⟨S2x640000, .i32⟩
  | 20 => ⟨S1x160000, .i32⟩
  | 21 => ⟨S160000, .i32⟩
  | 22 => ⟨S1x160000, .i32⟩
  | 23 => ⟨S160000, .i32⟩
  | 24 => ⟨S1x640000, .i32⟩
  | 25 => ⟨S640000, .i32⟩
  | 26 => ⟨S1x640000, .i32⟩
  | 27 => ⟨S640000, .i32⟩
  | 28 => ⟨S_, .f32⟩
  | 29 => ⟨S10000x128, .f32⟩
  | 30 => ⟨S160000x1, .i32⟩
  | 31 => ⟨S10000x128, .f32⟩
  | 32 => ⟨S_, .i32⟩
  | 33 => ⟨S10000, .i32⟩
  | 34 => ⟨S_, .i32⟩
  | 35 => ⟨S_, .i32⟩
  | 36 => ⟨S160000, .i32⟩
  | 37 => ⟨S160000, .i32⟩
  | 38 => ⟨S_, .i32⟩
  | 39 => ⟨S160000, .i32⟩
  | 40 => ⟨S160000, .i1⟩
  | 41 => ⟨S_, .i32⟩
  | 42 => ⟨S160000, .i32⟩
  | 43 => ⟨S160000, .i32⟩
  | 44 => ⟨S160000, .i32⟩
  | 45 => ⟨S160000x1, .i32⟩
  | 46 => ⟨S_, .i32⟩
  | 47 => ⟨S160000, .i32⟩
  | 48 => ⟨S10000, .i32⟩
  | 49 => ⟨S_, .i32⟩
  | 50 => ⟨S10000, .i32⟩
  | 51 => ⟨S10000, .i32⟩
  | 52 => ⟨S10000, .f32⟩
  | 53 => ⟨S_, .i32⟩
  | 54 => ⟨S10000, .i32⟩
  | 55 => ⟨S_, .i32⟩
  | 56 => ⟨S_, .i32⟩
  | 57 => ⟨S160000, .i32⟩
  | 58 => ⟨S160000, .i32⟩
  | 59 => ⟨S_, .i32⟩
  | 60 => ⟨S160000, .i32⟩
  | 61 => ⟨S160000, .i1⟩
  | 62 => ⟨S_, .i32⟩
  | 63 => ⟨S160000, .i32⟩
  | 64 => ⟨S160000, .i32⟩
  | 65 => ⟨S160000, .i32⟩
  | 66 => ⟨S160000x1, .i32⟩
  | 67 => ⟨S_, .i32⟩
  | 68 => ⟨S160000, .i32⟩
  | 69 => ⟨S10000, .i32⟩
  | 70 => ⟨S_, .i32⟩
  | 71 => ⟨S10000, .i32⟩
  | 72 => ⟨S10000, .i32⟩
  | 73 => ⟨S10000, .f32⟩
  | 74 => ⟨S_, .f32⟩
  | 75 => ⟨S10000, .f32⟩
  | 76 => ⟨S10000, .f32⟩
  | 77 => ⟨S10000x1, .f32⟩
  | 78 => ⟨S_, .f32⟩
  | 79 => ⟨S10000, .f32⟩
  | 80 => ⟨S10000, .f32⟩
  | 81 => ⟨S10000x1, .f32⟩
  | 82 => ⟨S10000x128, .f32⟩
  | 83 => ⟨S10000x128, .f32⟩
  | 84 => ⟨S10000x256, .f32⟩
  | 85 => ⟨S_, .i32⟩
  | 86 => ⟨S160000, .i32⟩
  | 87 => ⟨S160000, .i1⟩
  | 88 => ⟨S_, .i32⟩
  | 89 => ⟨S160000, .i32⟩
  | 90 => ⟨S160000, .i32⟩
  | 91 => ⟨S160000, .i32⟩
  | 92 => ⟨S160000x1, .i32⟩
  | 93 => ⟨S160000x256, .f32⟩
  | 94 => ⟨S_, .f32⟩
  | 95 => ⟨S10000x256, .f32⟩
  | 96 => ⟨S160000x1, .i32⟩
  | 97 => ⟨S10000x256, .f32⟩
  | 98 => ⟨S10000x128, .f32⟩
  | 99 => ⟨S10000x128, .f32⟩
  | 100 => ⟨S1x128, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S10000x128, .f32⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S160000x128, .f32⟩
  | 116 => ⟨S_, .i32⟩
  | 117 => ⟨S160000, .i32⟩
  | 118 => ⟨S_, .i32⟩
  | 119 => ⟨S_, .i32⟩
  | 120 => ⟨S640000, .i32⟩
  | 121 => ⟨S640000, .i32⟩
  | 122 => ⟨S_, .i32⟩
  | 123 => ⟨S640000, .i32⟩
  | 124 => ⟨S640000, .i1⟩
  | 125 => ⟨S_, .i32⟩
  | 126 => ⟨S640000, .i32⟩
  | 127 => ⟨S640000, .i32⟩
  | _ => ⟨S10000x128, .f32⟩

abbrev hbmTy0_1 (i : Nat) : BufTy := match i % 128 with
  | 0 => ⟨S640000, .i32⟩
  | 1 => ⟨S640000x1, .i32⟩
  | 2 => ⟨S_, .i32⟩
  | 3 => ⟨S640000, .i32⟩
  | 4 => ⟨S160000, .i32⟩
  | 5 => ⟨S_, .i32⟩
  | 6 => ⟨S160000, .i32⟩
  | 7 => ⟨S160000, .i32⟩
  | 8 => ⟨S160000, .f32⟩
  | 9 => ⟨S_, .i32⟩
  | 10 => ⟨S160000, .i32⟩
  | 11 => ⟨S_, .i32⟩
  | 12 => ⟨S_, .i32⟩
  | 13 => ⟨S640000, .i32⟩
  | 14 => ⟨S640000, .i32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S_, .i32⟩
  | 24 => ⟨S640000, .i32⟩
  | 25 => ⟨S160000, .i32⟩
  | 26 => ⟨S_, .i32⟩
  | 27 => ⟨S160000, .i32⟩
  | 28 => ⟨S160000, .i32⟩
  | 29 => ⟨S160000, .f32⟩
  | 30 => ⟨S_, .f32⟩
  | 31 => ⟨S160000, .f32⟩
  | 32 => ⟨S160000, .f32⟩
  | 33 => ⟨S160000x1, .f32⟩
  | 34 => ⟨S_, .f32⟩
  | 35 => ⟨S160000, .f32⟩
  | 36 => ⟨S160000, .f32⟩
  | 37 => ⟨S160000x1, .f32⟩
  | 38 => ⟨S160000x128, .f32⟩
  | 39 => ⟨S160000x128, .f32⟩
  | 40 => ⟨S160000x256, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000x256, .f32⟩
  | 50 => ⟨S_, .f32⟩
  | 51 => ⟨S160000x256, .f32⟩
  | 52 => ⟨S640000x1, .i32⟩
  | 53 => ⟨S160000x256, .f32⟩
  | 54 => ⟨S160000x128, .f32⟩
  | 55 => ⟨S160000x128, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S160000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x1, .f32⟩
  | .local _ .vmem, ⟨7, _⟩ => ⟨S2000x1, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S128x128, .f32⟩
  | .local _ .vmem, ⟨35, _⟩ => ⟨S128x128, .f32⟩
  | .local _ .vmem, ⟨36, _⟩ => ⟨S4000x1, .f32⟩
  | .local _ .vmem, ⟨37, _⟩ => ⟨S4000x1, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x1, .f32⟩
  | .local _ .vmem, ⟨51, _⟩ => ⟨S4000x1, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S4000x128, .f32⟩
  | .local _ .vmem, ⟨59, _⟩ => ⟨S4000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_c_0 : Ref sig .tc := ⟨.hbm, 34, rfl⟩
abbrev main_call0_v0 : Ref sig .tc := ⟨.hbm, 35, rfl⟩
abbrev main_call0_v1 : Ref sig .tc := ⟨.hbm, 36, rfl⟩
abbrev main_v12 : Ref sig .tc := ⟨.hbm, 37, rfl⟩
abbrev main_c_1 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_c_6 : Ref sig .tc := ⟨.hbm, 55, rfl⟩
abbrev main_call1_v0 : Ref sig .tc := ⟨.hbm, 56, rfl⟩
abbrev main_call1_v1 : Ref sig .tc := ⟨.hbm, 57, rfl⟩
abbrev main_v25 : Ref sig .tc := ⟨.hbm, 58, rfl⟩
abbrev main_c_7 : Ref sig .tc := ⟨.hbm, 59, rfl⟩
abbrev main_v26 : Ref sig .tc := ⟨.hbm, 60, rfl⟩
abbrev main_v27 : Ref sig .tc := ⟨.hbm, 61, rfl⟩
abbrev main_c_8 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_9 : Ref sig .tc := ⟨.hbm, 67, rfl⟩
abbrev main_v32 : Ref sig .tc := ⟨.hbm, 68, rfl⟩
abbrev main_v33 : Ref sig .tc := ⟨.hbm, 69, rfl⟩
abbrev main_c_10 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_11 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_12 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43_0 : Ref sig .tc := ⟨.hbm, 82, rfl⟩
abbrev main_v43_1 : Ref sig .tc := ⟨.hbm, 83, rfl⟩
abbrev main_v44 : Ref sig .tc := ⟨.hbm, 84, rfl⟩
abbrev main_c_13 : Ref sig .tc := ⟨.hbm, 85, rfl⟩
abbrev main_v45 : Ref sig .tc := ⟨.hbm, 86, rfl⟩
abbrev main_v46 : Ref sig .tc := ⟨.hbm, 87, rfl⟩
abbrev main_c_14 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_15 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_c_16 : Ref sig .tc := ⟨.hbm, 107, rfl⟩
abbrev main_v64 : Ref sig .tc := ⟨.hbm, 108, rfl⟩
abbrev main_v65 : Ref sig .tc := ⟨.hbm, 109, rfl⟩
abbrev main_c_17 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_c_18 : Ref sig .tc := ⟨.hbm, 116, rfl⟩
abbrev main_v71 : Ref sig .tc := ⟨.hbm, 117, rfl⟩
abbrev main_c_19 : Ref sig .tc := ⟨.hbm, 118, rfl⟩
abbrev main_call2_v0 : Ref sig .tc := ⟨.hbm, 119, rfl⟩
abbrev main_call2_v1 : Ref sig .tc := ⟨.hbm, 120, rfl⟩
abbrev main_v72 : Ref sig .tc := ⟨.hbm, 121, rfl⟩
abbrev main_c_20 : Ref sig .tc := ⟨.hbm, 122, rfl⟩
abbrev main_v73 : Ref sig .tc := ⟨.hbm, 123, rfl⟩
abbrev main_v74 : Ref sig .tc := ⟨.hbm, 124, rfl⟩
abbrev main_c_21 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_22 : Ref sig .tc := ⟨.hbm, 130, rfl⟩
abbrev main_v79 : Ref sig .tc := ⟨.hbm, 131, rfl⟩
abbrev main_v80 : Ref sig .tc := ⟨.hbm, 132, rfl⟩
abbrev main_c_23 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c_24 : Ref sig .tc := ⟨.hbm, 137, rfl⟩
abbrev main_v84 : Ref sig .tc := ⟨.hbm, 138, rfl⟩
abbrev main_c_25 : Ref sig .tc := ⟨.hbm, 139, rfl⟩
abbrev main_call3_v0 : Ref sig .tc := ⟨.hbm, 140, rfl⟩
abbrev main_call3_v1 : Ref sig .tc := ⟨.hbm, 141, rfl⟩
abbrev main_v85 : Ref sig .tc := ⟨.hbm, 142, rfl⟩
abbrev main_c_26 : Ref sig .tc := ⟨.hbm, 143, rfl⟩
abbrev main_v86 : Ref sig .tc := ⟨.hbm, 144, rfl⟩
abbrev main_v87 : Ref sig .tc := ⟨.hbm, 145, rfl⟩
abbrev main_c_27 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_c_28 : Ref sig .tc := ⟨.hbm, 151, rfl⟩
abbrev main_v92 : Ref sig .tc := ⟨.hbm, 152, rfl⟩
abbrev main_v93 : Ref sig .tc := ⟨.hbm, 153, rfl⟩
abbrev main_c_29 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_30 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_31 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103_0 : Ref sig .tc := ⟨.hbm, 166, rfl⟩
abbrev main_v103_1 : Ref sig .tc := ⟨.hbm, 167, rfl⟩
abbrev main_v104 : Ref sig .tc := ⟨.hbm, 168, rfl⟩
abbrev main_c_32 : Ref sig .tc := ⟨.hbm, 169, rfl⟩
abbrev main_v105 : Ref sig .tc := ⟨.hbm, 170, rfl⟩
abbrev main_v106 : Ref sig .tc := ⟨.hbm, 171, rfl⟩
abbrev main_c_33 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_34 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg7_0 : Ref sig .tc := ⟨.vmem, 54, rfl⟩
abbrev cc3_stg8_0 : Ref sig .tc := ⟨.vmem, 55, rfl⟩
abbrev cc3_stg9_0 : Ref sig .tc := ⟨.vmem, 56, rfl⟩
abbrev cc3_stg10_0 : Ref sig .tc := ⟨.vmem, 57, rfl⟩
abbrev cc3_stg11_0 : Ref sig .tc := ⟨.vmem, 58, rfl⟩
abbrev cc3_stg11_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem6_0 : DmaSem sig := 53
abbrev cc3_sem7_0 : DmaSem sig := 54
abbrev cc3_sem8_0 : DmaSem sig := 55
abbrev cc3_sem9_0 : DmaSem sig := 56
abbrev cc3_sem10_0 : DmaSem sig := 57
abbrev cc3_sem11_0 : DmaSem sig := 58
abbrev cc3_sem11_1 : DmaSem sig := 59

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S4000x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S10000x128 : S_.BroadcastsInDim S10000x128 (![] : Fin 0 → Fin S10000x128.rank)
  bcast_S160000_S160000x1_0 : S160000.BroadcastsInDim S160000x1 (![0] : Fin 1 → Fin S160000x1.rank)
  bcast_S_S10000 : S_.BroadcastsInDim S10000 (![] : Fin 0 → Fin S10000.rank)
  bcast_S_S160000 : S_.BroadcastsInDim S160000 (![] : Fin 0 → Fin S160000.rank)
  shapeCasts_S10000_S10000x1 : S10000.ShapeCasts S10000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  broadcasts_S2000x1_S2000x128 : S2000x1.Broadcasts S2000x128
  shapeCasts_S2000x128_S2000x128 : S2000x128.ShapeCasts S2000x128
  concatenates_S10000x128_S10000x128_S10000x256_d1 : Shape.Concatenates [S10000x128, S10000x128] S10000x256 1
  bcast_S_S10000x256 : S_.BroadcastsInDim S10000x256 (![] : Fin 0 → Fin S10000x256.rank)
  slices_S10000x256_S10000x128_0_0 : S10000x256.Slices ![0, 0] S10000x128
  slices_S10000x256_S10000x128_0_128 : S10000x256.Slices ![0, 128] S10000x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  bcast_S_S640000 : S_.BroadcastsInDim S640000 (![] : Fin 0 → Fin S640000.rank)
  bcast_S640000_S640000x1_0 : S640000.BroadcastsInDim S640000x1 (![0] : Fin 1 → Fin S640000x1.rank)
  shapeCasts_S160000_S160000x1 : S160000.ShapeCasts S160000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  broadcasts_S4000x1_S4000x128 : S4000x1.Broadcasts S4000x128
  shapeCasts_S4000x128_S4000x128 : S4000x128.ShapeCasts S4000x128
  concatenates_S160000x128_S160000x128_S160000x256_d1 : Shape.Concatenates [S160000x128, S160000x128] S160000x256 1
  bcast_S_S160000x256 : S_.BroadcastsInDim S160000x256 (![] : Fin 0 → Fin S160000x256.rank)
  slices_S160000x256_S160000x128_0_0 : S160000x256.Slices ![0, 0] S160000x128
  slices_S160000x256_S160000x128_0_128 : S160000x256.Slices ![0, 128] S160000x128
  broadcasts_S1x128_S4000x128 : S1x128.Broadcasts S4000x128
  reduces_S4000x128_S4000 : S4000x128.Reduces [1] S4000
  shapeCasts_S4000_S4000x1 : S4000.ShapeCasts S4000x1
  scatter_S10000x128_S160000x1_S160000x128_1_0_0_1_wf : ScatterDims.WF S10000x128 S160000x1 S160000x128 [1] [0] [0] 1
  scatter_S10000_S160000x1_S160000_n_0_0_1_wf : ScatterDims.WF S10000 S160000x1 S160000 [] [0] [0] 1
  dot_S2000x128_S128x128_S2000x128_1_0_0_1_n_n_wf : DotDims.WF S2000x128 S128x128 S2000x128 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  gather_S10000x128_S160000x1_S160000x128_1_0_n_n_0_1_1128_wf : GatherDims.WF S10000x128 S160000x1 S160000x128 [1] [0] [] [0] [] 1 ![1, 128]
  scatter_S160000_S640000x1_S640000_n_0_0_1_wf : ScatterDims.WF S160000 S640000x1 S640000 [] [0] [0] 1
  dot_S4000x128_S128x128_S4000x128_1_0_0_1_n_n_wf : DotDims.WF S4000x128 S128x128 S4000x128 [1] [0] [0] [1] [] []
  gather_S160000x256_S640000x1_S640000x256_1_0_n_n_0_1_1256_wf : GatherDims.WF S160000x256 S640000x1 S640000x256 [1] [0] [] [0] [] 1 ![1, 256]
  scatter_S160000x256_S640000x1_S640000x256_1_0_0_1_wf : ScatterDims.WF S160000x256 S640000x1 S640000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S10000x1.size a
  hwx0_4 : ∀ i : grid0.Coords, EltTy.bits .f32 = 32 ∨ (Rect.block (s := S10000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S10000x128.size a
  hwx0_5 : ∀ i : grid0.Coords, EltTy.bits .f32 = 32 ∨ (Rect.block (s := S10000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S10000x128.size a
  hwx0_6 : ∀ i : grid0.Coords, EltTy.bits .f32 = 32 ∨ (Rect.block (s := S10000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S10000x128.size a
  hwx1_2 : ∀ i : grid1.Coords, EltTy.bits .f32 = 32 ∨ (Rect.block (s := S10000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S10000x128.size a
  hwx1_3 : ∀ i : grid1.Coords, EltTy.bits .f32 = 32 ∨ (Rect.block (s := S10000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S10000x1.size a
  hwx1_4 : ∀ i : grid1.Coords, EltTy.bits .f32 = 32 ∨ (Rect.block (s := S10000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S10000x128.size a
  hwx1_11 : ∀ i : grid1.Coords, EltTy.bits .f32 = 32 ∨ (Rect.block (s := S10000x128) S2000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S160000x128.size a
  hwx2_0 : ∀ i : grid2.Coords, EltTy.bits .f32 = 32 ∨ (Rect.block (s := S160000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S160000x128.size a
  hwx2_1 : ∀ i : grid2.Coords, EltTy.bits .f32 = 32 ∨ (Rect.block (s := S160000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S160000x1.size a
  hwx2_4 : ∀ i : grid2.Coords, EltTy.bits .f32 = 32 ∨ (Rect.block (s := S160000x1) S4000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S160000x128.size a
  hwx2_5 : ∀ i : grid2.Coords, EltTy.bits .f32 = 32 ∨ (Rect.block (s := S160000x128) S4000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S160000x128.size a
  hwx2_6 : ∀ i : grid2.Coords, EltTy.bits .f32 = 32 ∨ (Rect.block (s := S160000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S160000x128.size a
  hwx3_0 : ∀ i : grid3.Coords, EltTy.bits .f32 = 32 ∨ (Rect.block (s := S160000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S160000x128.size a
  hwx3_1 : ∀ i : grid3.Coords, EltTy.bits .f32 = 32 ∨ (Rect.block (s := S160000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S160000x128.size a
  hwx3_2 : ∀ i : grid3.Coords, EltTy.bits .f32 = 32 ∨ (Rect.block (s := S160000x128) S4000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S160000x128.size a
  hwx3_3 : ∀ i : grid3.Coords, EltTy.bits .f32 = 32 ∨ (Rect.block (s := S160000x128) S4000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x1.size a ≤ S160000x1.size a
  hwx3_4 : ∀ i : grid3.Coords, EltTy.bits .f32 = 32 ∨ (Rect.block (s := S160000x1) S4000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S4000x128.size a ≤ S160000x128.size a
  hwx3_11 : ∀ i : grid3.Coords, EltTy.bits .f32 = 32 ∨ (Rect.block (s := S160000x128) S4000x128.size (cc3_transform_11 i) (hinb3_11 i)).WholeWords (EltTy.packing .f32)

variable [Facts₀]

def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S160000_S640000x1_S640000_n_0_0_1 : ScatterDims S160000 S640000x1 S640000 where
  updateWindowDims := []
  insertedWindowDims := [0]
  scatterDimsToOperandDims := [0]
  indexVectorDim := 1
  wf := scatter_S160000_S640000x1_S640000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S160000x256_S640000x1_S640000x256_1_0_n_n_0_1_1256 : GatherDims S160000x256 S640000x1 S640000x256 where
  offsetDims := [1]
  collapsedSliceDims := [0]
  operandBatchingDims := []
  startIndicesBatchingDims := []
  startIndexMap := [0]
  indexVectorDim := 1
  sliceSizes := ![1, 256]
  wf := gather_S160000x256_S640000x1_S640000x256_1_0_n_n_0_1_1256_wf
def scatter_S160000x256_S640000x1_S640000x256_1_0_0_1 : ScatterDims S160000x256 S640000x1 S640000x256 where
  updateWindowDims := [1]
  insertedWindowDims := [0]
  scatterDimsToOperandDims := [0]
  indexVectorDim := 1
  wf := scatter_S160000x256_S640000x1_S640000x256_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v43_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v43_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v55) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43_1) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v42) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v60) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v61) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v62) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v63) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_arg1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v99) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v103_0) S4000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v103_1) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v115) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v103_0) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v116) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v103_1) S4000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v102) S4000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v117) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v118) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v119) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v120) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v121) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v122) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v123) S4000x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S10000x128 : Shape := ⟨2, ![10000, 128]⟩
abbrev S160000x128 : Shape := ⟨2, ![160000, 128]⟩
abbrev S128x128 : Shape := ⟨2, ![128, 128]⟩
abbrev S128 : Shape := ⟨1, ![128]⟩
abbrev S2x160000 : Shape := ⟨2, ![2, 160000]⟩
abbrev S2x640000 : Shape := ⟨2, ![2, 640000]⟩
abbrev S1x160000 : Shape := ⟨2, ![1, 160000]⟩
abbrev S160000 : Shape := ⟨1, ![160000]⟩
abbrev S1x640000 : Shape := ⟨2, ![1, 640000]⟩
abbrev S640000 : Shape := ⟨1, ![640000]⟩
abbrev S_ : Shape := ⟨0, ![]⟩
abbrev S160000x1 : Shape := ⟨2, ![160000, 1]⟩
abbrev S10000 : Shape := ⟨1, ![10000]⟩
abbrev S170000 : Shape := ⟨1, ![170000]⟩
abbrev S170000x1 : Shape := ⟨2, ![170000, 1]⟩
abbrev S10000x1 : Shape := ⟨2, ![10000, 1]⟩
abbrev S170000x128 : Shape := ⟨2, ![170000, 128]⟩
abbrev S1x128 : Shape := ⟨2, ![1, 128]⟩
abbrev S800000 : Shape := ⟨1, ![800000]⟩
abbrev S800000x1 : Shape := ⟨2, ![800000, 1]⟩
abbrev S800000x128 : Shape := ⟨2, ![800000, 128]⟩

abbrev nBuf : Space → Nat
  | .hbm => 391
  | .vmem => 0
  | .smem => 0
  | _ => 0

abbrev hbmTy0_0 (i : Nat) : BufTy := match i % 128 with
  | 0 => ⟨S10000x128, .f32⟩
  | 1 => ⟨S160000x128, .f32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S2x160000, .i32⟩
  | 19 => ⟨S2x640000, .i32⟩
  | 20 => ⟨S1x160000, .i32⟩
  | 21 => ⟨S160000, .i32⟩
  | 22 => ⟨S1x160000, .i32⟩
  | 23 => ⟨S160000, .i32⟩
  | 24 => ⟨S1x640000, .i32⟩
  | 25 => ⟨S640000, .i32⟩
  | 26 => ⟨S1x640000, .i32⟩
  | 27 => ⟨S640000, .i32⟩
  | 28 => ⟨S_, .f32⟩
  | 29 => ⟨S10000x128, .f32⟩
  | 30 => ⟨S160000x1, .i32⟩
  | 31 => ⟨S10000x128, .f32⟩
  | 32 => ⟨S10000, .i32⟩
  | 33 => ⟨S170000, .i32⟩
  | 34 => ⟨S170000, .i32⟩
  | 35 => ⟨S_, .i32⟩
  | 36 => ⟨S10000, .i32⟩
  | 37 => ⟨S_, .i32⟩
  | 38 => ⟨S_, .i32⟩
  | 39 => ⟨S170000, .i32⟩
  | 40 => ⟨S170000, .i32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S_, .i32⟩
  | 50 => ⟨S170000, .i32⟩
  | 51 => ⟨S10000, .i32⟩
  | 52 => ⟨S10000, .f32⟩
  | 53 => ⟨S_, .i32⟩
  | 54 => ⟨S10000, .i32⟩
  | 55 => ⟨S_, .i32⟩
  | 56 => ⟨S_, .i32⟩
  | 57 => ⟨S170000, .i32⟩
  | 58 => ⟨S170000, .i32⟩
  | 59 => ⟨S_, .i32⟩
  | 60 => ⟨S170000, .i32⟩
  | 61 => ⟨S170000, .i1⟩
  | 62 => ⟨S_, .i32⟩
  | 63 => ⟨S170000, .i32⟩
  | 64 => ⟨S170000, .i32⟩
  | 65 => ⟨S170000, .i32⟩
  | 66 => ⟨S170000x1, .i32⟩
  | 67 => ⟨S_, .i32⟩
  | 68 => ⟨S170000, .i32⟩
  | 69 => ⟨S10000, .i32⟩
  | 70 => ⟨S10000, .f32⟩
  | 71 => ⟨S_, .f32⟩
  | 72 => ⟨S10000, .f32⟩
  | 73 => ⟨S10000, .f32⟩
  | 74 => ⟨S_, .f32⟩
  | 75 => ⟨S10000, .f32⟩
  | 76 => ⟨S10000, .f32⟩
  | 77 => ⟨S10000x128, .f32⟩
  | 78 => ⟨S10000x1, .f32⟩
  | 79 => ⟨S10000x128, .f32⟩
  | 80 => ⟨S10000x128, .f32⟩
  | 81 => ⟨S_, .i32⟩
  | 82 => ⟨S170000, .i32⟩
  | 83 => ⟨S170000, .i1⟩
  | 84 => ⟨S_, .i32⟩
  | 85 => ⟨S170000, .i32⟩
  | 86 => ⟨S170000, .i32⟩
  | 87 => ⟨S170000, .i32⟩
  | 88 => ⟨S170000x1, .i32⟩
  | 89 => ⟨S170000x128, .f32⟩
  | 90 => ⟨S_, .f32⟩
  | 91 => ⟨S10000x128, .f32⟩
  | 92 => ⟨S170000x1, .i32⟩
  | 93 => ⟨S10000x128, .f32⟩
  | 94 => ⟨S10000x1, .f32⟩
  | 95 => ⟨S10000x128, .f32⟩
  | 96 => ⟨S10000x128, .f32⟩
  | 97 => ⟨S1x128, .f32⟩
  | 98 => ⟨S10000x128, .f32⟩
  | 99 => ⟨S10000x128, .f32⟩
  | 100 => ⟨S1x128, .f32⟩
  | 101 => ⟨S10000x128, .f32⟩
  | 102 => ⟨S10000x128, .f32⟩
  | 103 => ⟨S10000, .i32⟩
  | 104 => ⟨S170000, .i32⟩
  | 105 => ⟨S170000, .i32⟩
  | 106 => ⟨S_, .i32⟩
  | 107 => ⟨S10000, .i32⟩
  | 108 => ⟨S_, .i32⟩
  | 109 => ⟨S_, .i32⟩
  | 110 => ⟨S170000, .i32⟩
  | 111 => ⟨S170000, .i32⟩
  | 112 => ⟨S_, .i32⟩
  | 113 => ⟨S170000, .i32⟩
  | 114 => ⟨S170000, .i1⟩
  | 115 => ⟨S_, .i32⟩
  | 116 => ⟨S170000, .i32⟩
  | 117 => ⟨S170000, .i32⟩
  | 118 => ⟨S170000, .i32⟩
  | 119 => ⟨S170000x1, .i32⟩
  | 120 => ⟨S_, .i32⟩
  | 121 => ⟨S170000, .i32⟩
  | 122 => ⟨S10000, .i32⟩
  | 123 => ⟨S10000, .f32⟩
  | 124 => ⟨S_, .i32⟩
  | 125 => ⟨S10000, .i32⟩
  | 126 => ⟨S_, .i32⟩
  | 127 => ⟨S_, .i32⟩
  | _ => ⟨S10000x128, .f32⟩

abbrev hbmTy0_1 (i : Nat) : BufTy := match i % 128 with
  | 0 => ⟨S170000, .i32⟩
  | 1 => ⟨S170000, .i32⟩
  | 2 => ⟨S_, .i32⟩
  | 3 => ⟨S170000, .i32⟩
  | 4 => ⟨S170000, .i1⟩
  | 5 => ⟨S_, .i32⟩
  | 6 => ⟨S170000, .i32⟩
  | 7 => ⟨S170000, .i32⟩
  | 8 => ⟨S170000, .i32⟩
  | 9 => ⟨S170000x1, .i32⟩
  | 10 => ⟨S_, .i32⟩
  | 11 => ⟨S170000, .i32⟩
  | 12 => ⟨S10000, .i32⟩
  | 13 => ⟨S10000, .f32⟩
  | 14 => ⟨S_, .f32⟩
  | 15 => ⟨S10000, .f32⟩
  | 16 => ⟨S10000, .f32⟩
  | 17 => ⟨S_, .f32⟩
  | 18 => ⟨S10000, .f32⟩
  | 19 => ⟨S10000, .f32⟩
  | 20 => ⟨S10000x128, .f32⟩
  | 21 => ⟨S10000x1, .f32⟩
  | 22 => ⟨S10000x128, .f32⟩
  | 23 => ⟨S10000x128, .f32⟩
  | 24 => ⟨S_, .i32⟩
  | 25 => ⟨S170000, .i32⟩
  | 26 => ⟨S170000, .i1⟩
  | 27 => ⟨S_, .i32⟩
  | 28 => ⟨S170000, .i32⟩
  | 29 => ⟨S170000, .i32⟩
  | 30 => ⟨S170000, .i32⟩
  | 31 => ⟨S170000x1, .i32⟩
  | 32 => ⟨S170000x128, .f32⟩
  | 33 => ⟨S_, .f32⟩
  | 34 => ⟨S10000x128, .f32⟩
  | 35 => ⟨S170000x1, .i32⟩
  | 36 => ⟨S10000x128, .f32⟩
  | 37 => ⟨S10000x1, .f32⟩
  | 38 => ⟨S10000x128, .f32⟩
  | 39 => ⟨S10000x128, .f32⟩
  | 40 => ⟨S1x128, .f32⟩
  | 41 => ⟨S10000x128, .f32⟩
  | 42 => ⟨S10000x128, .f32⟩
  | 43 => ⟨S1x128, .f32⟩
  | 44 => ⟨S10000x128, .f32⟩
  | 45 => ⟨S10000x128, .f32⟩
  | 46 => ⟨S10000x128, .f32⟩
  | 47 => ⟨S_, .f32⟩
  | 48 => ⟨S10000, .f32⟩
  | 49 => ⟨S10000x1, .f32⟩
  | 50 => ⟨S_, .f32⟩
  | 51 => ⟨S10000x1, .f32⟩
  | 52 => ⟨S10000x1, .f32⟩
  | 53 => ⟨S10000x128, .f32⟩
  | 54 => ⟨S10000x128, .f32⟩
  | 55 => ⟨S10000x128, .f32⟩
  | 56 => ⟨S_, .f32⟩
  | 57 => ⟨S10000, .f32⟩
  | 58 => ⟨S10000x1, .f32⟩
  | 59 => ⟨S_, .f32⟩
  | 60 => ⟨S10000x1, .f32⟩
  | 61 => ⟨S10000x1, .f32⟩
  | 62 => ⟨S10000x128, .f32⟩
  | 63 => ⟨S10000x128, .f32⟩
  | 64 => ⟨S_, .f32⟩
  | 65 => ⟨S10000x1, .f32⟩
  | 66 => ⟨S10000x1, .f32⟩
  | 67 => ⟨S10000x1, .f32⟩
  | 68 => ⟨S10000x128, .f32⟩
  | 69 => ⟨S10000x128, .f32⟩
  | 70 => ⟨S1x128, .f32⟩
  | 71 => ⟨S10000x128, .f32⟩
  | 72 => ⟨S10000x128, .f32⟩
  | 73 => ⟨S1x128, .f32⟩
  | 74 => ⟨S10000x128, .f32⟩
  | 75 => ⟨S10000x128, .f32⟩
  | 76 => ⟨S_, .f32⟩
  | 77 => ⟨S10000x128, .f32⟩
  | 78 => ⟨S10000x128, .f32⟩
  | 79 => ⟨S_, .i32⟩
  | 80 => ⟨S160000, .i32⟩
  | 81 => ⟨S160000, .i1⟩
  | 82 => ⟨S_, .i32⟩
  | 83 => ⟨S160000, .i32⟩
  | 84 => ⟨S160000, .i32⟩
  | 85 => ⟨S160000, .i32⟩
  | 86 => ⟨S160000x1, .i32⟩
  | 87 => ⟨S160000x128, .f32⟩
  | 88 => ⟨S160000, .i32⟩
  | 89 => ⟨S800000, .i32⟩
  | 90 => ⟨S800000, .i32⟩
  | 91 => ⟨S_, .i32⟩
  | 92 => ⟨S160000, .i32⟩
  | 93 => ⟨S_, .i32⟩
  | 94 => ⟨S_, .i32⟩
  | 95 => ⟨S800000, .i32⟩
  | 96 => ⟨S800000, .i32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S_, .i32⟩
  | 106 => ⟨S800000, .i32⟩
  | 107 => ⟨S160000, .i32⟩
  | 108 => ⟨S160000, .f32⟩
  | 109 => ⟨S_, .i32⟩
  | 110 => ⟨S160000, .i32⟩
  | 111 => ⟨S_, .i32⟩
  | 112 => ⟨S_, .i32⟩
  | 113 => ⟨S800000, .i32⟩
  | 114 => ⟨S800000, .i32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S_, .i32⟩
  | 124 => ⟨S800000, .i32⟩
  | 125 => ⟨S160000, .i32⟩
  | 126 => ⟨S160000, .f32⟩
  | 127 => ⟨S_, .f32⟩
  | _ => ⟨S10000x128, .f32⟩

abbrev hbmTy0_2 (i : Nat) : BufTy := match i % 128 with
  | 0 => ⟨S160000, .f32⟩
  | 1 => ⟨S160000, .f32⟩
  | 2 => ⟨S_, .f32⟩
  | 3 => ⟨S160000, .f32⟩
  | 4 => ⟨S160000, .f32⟩
  | 5 => ⟨S160000x128, .f32⟩
  | 6 => ⟨S160000x1, .f32⟩
  | 7 => ⟨S160000x128, .f32⟩
  | 8 => ⟨S160000x128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S_, .f32⟩
  | 19 => ⟨S160000x128, .f32⟩
  | 20 => ⟨S800000x1, .i32⟩
  | 21 => ⟨S160000x128, .f32⟩
  | 22 => ⟨S160000x1, .f32⟩
  | 23 => ⟨S160000x128, .f32⟩
  | 24 => ⟨S160000x128, .f32⟩
  | 25 => ⟨S1x128, .f32⟩
  | 26 => ⟨S160000x128, .f32⟩
  | 27 => ⟨S160000x128, .f32⟩
  | 28 => ⟨S1x128, .f32⟩
  | 29 => ⟨S160000x128, .f32⟩
  | 30 => ⟨S160000x128, .f32⟩
  | 31 => ⟨S160000, .i32⟩
  | 32 => ⟨S800000, .i32⟩
  | 33 => ⟨S800000, .i32⟩
  | 34 => ⟨S_, .i32⟩
  | 35 => ⟨S160000, .i32⟩
  | 36 => ⟨S_, .i32⟩
  | 37 => ⟨S_, .i32⟩
  | 38 => ⟨S800000, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S_, .i32⟩
  | 49 => ⟨S800000, .i32⟩
  | 50 => ⟨S160000, .i32⟩
  | 51 => ⟨S160000, .f32⟩
  | 52 => ⟨S_, .i32⟩
  | 53 => ⟨S160000, .i32⟩
  | 54 => ⟨S_, .i32⟩
  | 55 => ⟨S_, .i32⟩
  | 56 => ⟨S800000, .i32⟩
  | 57 => ⟨S800000, .i32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S_, .i32⟩
  | 67 => ⟨S800000, .i32⟩
  | 68 => ⟨S160000, .i32⟩
  | 69 => ⟨S160000, .f32⟩
  | 70 => ⟨S_, .f32⟩
  | 71 => ⟨S160000, .f32⟩
  | 72 => ⟨S160000, .f32⟩
  | 73 => ⟨S_, .f32⟩
  | 74 => ⟨S160000, .f32⟩
  | 75 => ⟨S160000, .f32⟩
  | 76 => ⟨S160000x128, .f32⟩
  | 77 => ⟨S160000x1, .f32⟩
  | 78 => ⟨S160000x128, .f32⟩
  | 79 => ⟨S160000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S_, .f32⟩
  | 90 => ⟨S160000x128, .f32⟩
  | 91 => ⟨S800000x1, .i32⟩
  | 92 => ⟨S160000x128, .f32⟩
  | 93 => ⟨S160000x1, .f32⟩
  | 94 => ⟨S160000x128, .f32⟩
  | 95 => ⟨S160000x128, .f32⟩
  | 96 => ⟨S1x128, .f32⟩
  | 97 => ⟨S160000x128, .f32⟩
  | 98 => ⟨S160000x128, .f32⟩
  | 99 => ⟨S1x128, .f32⟩
  | 100 => ⟨S160000x128, .f32⟩
  | 101 => ⟨S160000x128, .f32⟩
  | 102 => ⟨S160000x128, .f32⟩
  | 103 => ⟨S_, .f32⟩
  | 104 => ⟨S160000, .f32⟩
  | 105 => ⟨S160000x1, .f32⟩
  | 106 => ⟨S_, .f32⟩
  | 107 => ⟨S160000x1, .f32⟩
  | 108 => ⟨S160000x1, .f32⟩
  | 109 => ⟨S160000x128, .f32⟩
  | 110 => ⟨S160000x128, .f32⟩
  | 111 => ⟨S160000x128, .f32⟩
  | 112 => ⟨S_, .f32⟩
  | 113 => ⟨S160000, .f32⟩
  | 114 => ⟨S160000x1, .f32⟩
  | 115 => ⟨S_, .f32⟩
  | 116 => ⟨S160000x1, .f32⟩
  | 117 => ⟨S160000x1, .f32⟩
  | 118 => ⟨S160000x128, .f32⟩
  | 119 => ⟨S160000x128, .f32⟩
  | 120 => ⟨S_, .f32⟩
  | 121 => ⟨S160000x1, .f32⟩
  | 122 => ⟨S160000x1, .f32⟩
  | 123 => ⟨S160000x1, .f32⟩
  | 124 => ⟨S160000x128, .f32⟩
  | 125 => ⟨S160000x128, .f32⟩
  | 126 => ⟨S1x128, .f32⟩
  | 127 => ⟨S160000x128, .f32⟩
  | _ => ⟨S10000x128, .f32⟩

abbrev hbmTy0_3 (i : Nat) : BufTy := match i % 128 with
  | 0 => ⟨S160000x128, .f32⟩
  | 1 => ⟨S1x128, .f32⟩
  | 2 => ⟨S160000x128, .f32⟩
  | 3 => ⟨S160000x128, .f32⟩
  | 4 => ⟨S_, .f32⟩
  | 5 => ⟨S160000x128, .f32⟩
  | 6 => ⟨S160000x128, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_c_0 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c_1 : Ref sig .tc := ⟨.hbm, 41, rfl⟩
abbrev main_v16 : Ref sig .tc := ⟨.hbm, 42, rfl⟩
abbrev main_v17 : Ref sig .tc := ⟨.hbm, 43, rfl⟩
abbrev main_c_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_c_5 : Ref sig .tc := ⟨.hbm, 55, rfl⟩
abbrev main_call1_v0 : Ref sig .tc := ⟨.hbm, 56, rfl⟩
abbrev main_call1_v1 : Ref sig .tc := ⟨.hbm, 57, rfl⟩
abbrev main_v26 : Ref sig .tc := ⟨.hbm, 58, rfl⟩
abbrev main_c_6 : Ref sig .tc := ⟨.hbm, 59, rfl⟩
abbrev main_v27 : Ref sig .tc := ⟨.hbm, 60, rfl⟩
abbrev main_v28 : Ref sig .tc := ⟨.hbm, 61, rfl⟩
abbrev main_c_7 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_8 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_9 : Ref sig .tc := ⟨.hbm, 71, rfl⟩
abbrev main_v36 : Ref sig .tc := ⟨.hbm, 72, rfl⟩
abbrev main_v37 : Ref sig .tc := ⟨.hbm, 73, rfl⟩
abbrev main_cst_10 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_c_11 : Ref sig .tc := ⟨.hbm, 81, rfl⟩
abbrev main_v44 : Ref sig .tc := ⟨.hbm, 82, rfl⟩
abbrev main_v45 : Ref sig .tc := ⟨.hbm, 83, rfl⟩
abbrev main_c_12 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_13 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_14 : Ref sig .tc := ⟨.hbm, 106, rfl⟩
abbrev main_v66 : Ref sig .tc := ⟨.hbm, 107, rfl⟩
abbrev main_c_15 : Ref sig .tc := ⟨.hbm, 108, rfl⟩
abbrev main_call2_v0 : Ref sig .tc := ⟨.hbm, 109, rfl⟩
abbrev main_call2_v1 : Ref sig .tc := ⟨.hbm, 110, rfl⟩
abbrev main_v67 : Ref sig .tc := ⟨.hbm, 111, rfl⟩
abbrev main_c_16 : Ref sig .tc := ⟨.hbm, 112, rfl⟩
abbrev main_v68 : Ref sig .tc := ⟨.hbm, 113, rfl⟩
abbrev main_v69 : Ref sig .tc := ⟨.hbm, 114, rfl⟩
abbrev main_c_17 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_c_18 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_c_19 : Ref sig .tc := ⟨.hbm, 124, rfl⟩
abbrev main_v77 : Ref sig .tc := ⟨.hbm, 125, rfl⟩
abbrev main_c_20 : Ref sig .tc := ⟨.hbm, 126, rfl⟩
abbrev main_call3_v0 : Ref sig .tc := ⟨.hbm, 127, rfl⟩
abbrev main_call3_v1 : Ref sig .tc := ⟨.hbm, 128, rfl⟩
abbrev main_v78 : Ref sig .tc := ⟨.hbm, 129, rfl⟩
abbrev main_c_21 : Ref sig .tc := ⟨.hbm, 130, rfl⟩
abbrev main_v79 : Ref sig .tc := ⟨.hbm, 131, rfl⟩
abbrev main_v80 : Ref sig .tc := ⟨.hbm, 132, rfl⟩
abbrev main_c_22 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_c_23 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_24 : Ref sig .tc := ⟨.hbm, 142, rfl⟩
abbrev main_v88 : Ref sig .tc := ⟨.hbm, 143, rfl⟩
abbrev main_v89 : Ref sig .tc := ⟨.hbm, 144, rfl⟩
abbrev main_cst_25 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_c_26 : Ref sig .tc := ⟨.hbm, 152, rfl⟩
abbrev main_v96 : Ref sig .tc := ⟨.hbm, 153, rfl⟩
abbrev main_v97 : Ref sig .tc := ⟨.hbm, 154, rfl⟩
abbrev main_c_27 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_28 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_29 : Ref sig .tc := ⟨.hbm, 175, rfl⟩
abbrev main_v116 : Ref sig .tc := ⟨.hbm, 176, rfl⟩
abbrev main_v117 : Ref sig .tc := ⟨.hbm, 177, rfl⟩
abbrev main_cst_30 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_cst_31 : Ref sig .tc := ⟨.hbm, 184, rfl⟩
abbrev main_v123 : Ref sig .tc := ⟨.hbm, 185, rfl⟩
abbrev main_v124 : Ref sig .tc := ⟨.hbm, 186, rfl⟩
abbrev main_cst_32 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_cst_33 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_call4_cst : Ref sig .tc := ⟨.hbm, 204, rfl⟩
abbrev main_call4_v0 : Ref sig .tc := ⟨.hbm, 205, rfl⟩
abbrev main_v140 : Ref sig .tc := ⟨.hbm, 206, rfl⟩
abbrev main_c_34 : Ref sig .tc := ⟨.hbm, 207, rfl⟩
abbrev main_v141 : Ref sig .tc := ⟨.hbm, 208, rfl⟩
abbrev main_v142 : Ref sig .tc := ⟨.hbm, 209, rfl⟩
abbrev main_c_35 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_c_36 : Ref sig .tc := ⟨.hbm, 219, rfl⟩
abbrev main_v151 : Ref sig .tc := ⟨.hbm, 220, rfl⟩
abbrev main_c_37 : Ref sig .tc := ⟨.hbm, 221, rfl⟩
abbrev main_call5_v0 : Ref sig .tc := ⟨.hbm, 222, rfl⟩
abbrev main_call5_v1 : Ref sig .tc := ⟨.hbm, 223, rfl⟩
abbrev main_v152 : Ref sig .tc := ⟨.hbm, 224, rfl⟩
abbrev main_c_38 : Ref sig .tc := ⟨.hbm, 225, rfl⟩
abbrev main_v153 : Ref sig .tc := ⟨.hbm, 226, rfl⟩
abbrev main_v154 : Ref sig .tc := ⟨.hbm, 227, rfl⟩
abbrev main_c_39 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_c_40 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_c_41 : Ref sig .tc := ⟨.hbm, 237, rfl⟩
abbrev main_v162 : Ref sig .tc := ⟨.hbm, 238, rfl⟩
abbrev main_c_42 : Ref sig .tc := ⟨.hbm, 239, rfl⟩
abbrev main_call6_v0 : Ref sig .tc := ⟨.hbm, 240, rfl⟩
abbrev main_call6_v1 : Ref sig .tc := ⟨.hbm, 241, rfl⟩
abbrev main_v163 : Ref sig .tc := ⟨.hbm, 242, rfl⟩
abbrev main_c_43 : Ref sig .tc := ⟨.hbm, 243, rfl⟩
abbrev main_v164 : Ref sig .tc := ⟨.hbm, 244, rfl⟩
abbrev main_v165 : Ref sig .tc := ⟨.hbm, 245, rfl⟩
abbrev main_c_44 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_c_45 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_cst_46 : Ref sig .tc := ⟨.hbm, 255, rfl⟩
abbrev main_v173 : Ref sig .tc := ⟨.hbm, 256, rfl⟩
abbrev main_v174 : Ref sig .tc := ⟨.hbm, 257, rfl⟩
abbrev main_cst_47 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_c_48 : Ref sig .tc := ⟨.hbm, 265, rfl⟩
abbrev main_v181 : Ref sig .tc := ⟨.hbm, 266, rfl⟩
abbrev main_v182 : Ref sig .tc := ⟨.hbm, 267, rfl⟩
abbrev main_c_49 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_cst_50 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_c_51 : Ref sig .tc := ⟨.hbm, 290, rfl⟩
abbrev main_v203 : Ref sig .tc := ⟨.hbm, 291, rfl⟩
abbrev main_c_52 : Ref sig .tc := ⟨.hbm, 292, rfl⟩
abbrev main_call7_v0 : Ref sig .tc := ⟨.hbm, 293, rfl⟩
abbrev main_call7_v1 : Ref sig .tc := ⟨.hbm, 294, rfl⟩
abbrev main_v204 : Ref sig .tc := ⟨.hbm, 295, rfl⟩
abbrev main_c_53 : Ref sig .tc := ⟨.hbm, 296, rfl⟩
abbrev main_v205 : Ref sig .tc := ⟨.hbm, 297, rfl⟩
abbrev main_v206 : Ref sig .tc := ⟨.hbm, 298, rfl⟩
abbrev main_c_54 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_c_55 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_c_56 : Ref sig .tc := ⟨.hbm, 308, rfl⟩
abbrev main_v214 : Ref sig .tc := ⟨.hbm, 309, rfl⟩
abbrev main_c_57 : Ref sig .tc := ⟨.hbm, 310, rfl⟩
abbrev main_call8_v0 : Ref sig .tc := ⟨.hbm, 311, rfl⟩
abbrev main_call8_v1 : Ref sig .tc := ⟨.hbm, 312, rfl⟩
abbrev main_v215 : Ref sig .tc := ⟨.hbm, 313, rfl⟩
abbrev main_c_58 : Ref sig .tc := ⟨.hbm, 314, rfl⟩
abbrev main_v216 : Ref sig .tc := ⟨.hbm, 315, rfl⟩
abbrev main_v217 : Ref sig .tc := ⟨.hbm, 316, rfl⟩
abbrev main_c_59 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_c_60 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_cst_61 : Ref sig .tc := ⟨.hbm, 326, rfl⟩
abbrev main_v225 : Ref sig .tc := ⟨.hbm, 327, rfl⟩
abbrev main_v226 : Ref sig .tc := ⟨.hbm, 328, rfl⟩
abbrev main_cst_62 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_c_63 : Ref sig .tc := ⟨.hbm, 336, rfl⟩
abbrev main_v233 : Ref sig .tc := ⟨.hbm, 337, rfl⟩
abbrev main_v234 : Ref sig .tc := ⟨.hbm, 338, rfl⟩
abbrev main_c_64 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_cst_65 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_cst_66 : Ref sig .tc := ⟨.hbm, 359, rfl⟩
abbrev main_v253 : Ref sig .tc := ⟨.hbm, 360, rfl⟩
abbrev main_v254 : Ref sig .tc := ⟨.hbm, 361, rfl⟩
abbrev main_cst_67 : Ref sig .tc := ⟨.hbm, 362, rfl⟩
abbrev main_v255 : Ref sig .tc := ⟨.hbm, 363, rfl⟩
abbrev main_v256 : Ref sig .tc := ⟨.hbm, 364, rfl⟩
abbrev main_v257 : Ref sig .tc := ⟨.hbm, 365, rfl⟩
abbrev main_v258 : Ref sig .tc := ⟨.hbm, 366, rfl⟩
abbrev main_v259 : Ref sig .tc := ⟨.hbm, 367, rfl⟩
abbrev main_cst_68 : Ref sig .tc := ⟨.hbm, 368, rfl⟩
abbrev main_v260 : Ref sig .tc := ⟨.hbm, 369, rfl⟩
abbrev main_v261 : Ref sig .tc := ⟨.hbm, 370, rfl⟩
abbrev main_cst_69 : Ref sig .tc := ⟨.hbm, 371, rfl⟩
abbrev main_v262 : Ref sig .tc := ⟨.hbm, 372, rfl⟩
abbrev main_v263 : Ref sig .tc := ⟨.hbm, 373, rfl⟩
abbrev main_v264 : Ref sig .tc := ⟨.hbm, 374, rfl⟩
abbrev main_v265 : Ref sig .tc := ⟨.hbm, 375, rfl⟩
abbrev main_cst_70 : Ref sig .tc := ⟨.hbm, 376, rfl⟩
abbrev main_v266 : Ref sig .tc := ⟨.hbm, 377, rfl⟩
abbrev main_v267 : Ref sig .tc := ⟨.hbm, 378, rfl⟩
abbrev main_v268 : Ref sig .tc := ⟨.hbm, 379, rfl⟩
abbrev main_v269 : Ref sig .tc := ⟨.hbm, 380, rfl⟩
abbrev main_v270 : Ref sig .tc := ⟨.hbm, 381, rfl⟩
abbrev main_v271 : Ref sig .tc := ⟨.hbm, 382, rfl⟩
abbrev main_v272 : Ref sig .tc := ⟨.hbm, 383, rfl⟩
abbrev main_v273 : Ref sig .tc := ⟨.hbm, 384, rfl⟩
abbrev main_v274 : Ref sig .tc := ⟨.hbm, 385, rfl⟩
abbrev main_v275 : Ref sig .tc := ⟨.hbm, 386, rfl⟩
abbrev main_v276 : Ref sig .tc := ⟨.hbm, 387, rfl⟩
abbrev main_call9_cst : Ref sig .tc := ⟨.hbm, 388, rfl⟩
abbrev main_call9_v0 : Ref sig .tc := ⟨.hbm, 389, rfl⟩
abbrev main_v277 : Ref sig .tc := ⟨.hbm, 390, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S10000x128 : S_.BroadcastsInDim S10000x128 (![] : Fin 0 → Fin S10000x128.rank)
  bcast_S160000_S160000x1_0 : S160000.BroadcastsInDim S160000x1 (![0] : Fin 1 → Fin S160000x1.rank)
  concatenates_S160000_S10000_S170000_d0 : Shape.Concatenates [S160000, S10000] S170000 0
  bcast_S_S10000 : S_.BroadcastsInDim S10000 (![] : Fin 0 → Fin S10000.rank)
  bcast_S_S170000 : S_.BroadcastsInDim S170000 (![] : Fin 0 → Fin S170000.rank)
  bcast_S170000_S170000x1_0 : S170000.BroadcastsInDim S170000x1 (![0] : Fin 1 → Fin S170000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S_S10000x1 : S_.BroadcastsInDim S10000x1 (![] : Fin 0 → Fin S10000x1.rank)
  bcast_S_S160000 : S_.BroadcastsInDim S160000 (![] : Fin 0 → Fin S160000.rank)
  concatenates_S640000_S160000_S800000_d0 : Shape.Concatenates [S640000, S160000] S800000 0
  bcast_S_S800000 : S_.BroadcastsInDim S800000 (![] : Fin 0 → Fin S800000.rank)
  bcast_S800000_S800000x1_0 : S800000.BroadcastsInDim S800000x1 (![0] : Fin 1 → Fin S800000x1.rank)
  bcast_S160000x1_S160000x128_0_1 : S160000x1.BroadcastsInDim S160000x128 (![0, 1] : Fin 2 → Fin S160000x128.rank)
  bcast_S_S160000x128 : S_.BroadcastsInDim S160000x128 (![] : Fin 0 → Fin S160000x128.rank)
  bcast_S1x128_S160000x128_0_1 : S1x128.BroadcastsInDim S160000x128 (![0, 1] : Fin 2 → Fin S160000x128.rank)
  reducesTo_S160000x128_S160000_d1 : S160000x128.ReducesTo [1] S160000
  bcast_S_S160000x1 : S_.BroadcastsInDim S160000x1 (![] : Fin 0 → Fin S160000x1.rank)
  scatter_S10000x128_S160000x1_S160000x128_1_0_0_1_wf : ScatterDims.WF S10000x128 S160000x1 S160000x128 [1] [0] [0] 1
  scatter_S10000_S170000x1_S170000_n_0_0_1_wf : ScatterDims.WF S10000 S170000x1 S170000 [] [0] [0] 1
  dot_S10000x128_S128x128_S10000x128_1_0_0_1_n_n_wf : DotDims.WF S10000x128 S128x128 S10000x128 [1] [0] [0] [1] [] []
  gather_S10000x128_S170000x1_S170000x128_1_0_n_n_0_1_1128_wf : GatherDims.WF S10000x128 S170000x1 S170000x128 [1] [0] [] [0] [] 1 ![1, 128]
  scatter_S10000x128_S170000x1_S170000x128_1_0_0_1_wf : ScatterDims.WF S10000x128 S170000x1 S170000x128 [1] [0] [0] 1
  gather_S10000x128_S160000x1_S160000x128_1_0_n_n_0_1_1128_wf : GatherDims.WF S10000x128 S160000x1 S160000x128 [1] [0] [] [0] [] 1 ![1, 128]
  scatter_S160000_S800000x1_S800000_n_0_0_1_wf : ScatterDims.WF S160000 S800000x1 S800000 [] [0] [0] 1
  dot_S160000x128_S128x128_S160000x128_1_0_0_1_n_n_wf : DotDims.WF S160000x128 S128x128 S160000x128 [1] [0] [0] [1] [] []
  gather_S160000x128_S800000x1_S800000x128_1_0_n_n_0_1_1128_wf : GatherDims.WF S160000x128 S800000x1 S800000x128 [1] [0] [] [0] [] 1 ![1, 128]
  scatter_S160000x128_S800000x1_S800000x128_1_0_0_1_wf : ScatterDims.WF S160000x128 S800000x1 S800000x128 [1] [0] [0] 1

variable [Facts₀]

def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S170000x1_S170000x128_1_0_n_n_0_1_1128 : GatherDims S10000x128 S170000x1 S170000x128 where
  offsetDims := [1]
  collapsedSliceDims := [0]
  operandBatchingDims := []
  startIndicesBatchingDims := []
  startIndexMap := [0]
  indexVectorDim := 1
  sliceSizes := ![1, 128]
  wf := gather_S10000x128_S170000x1_S170000x128_1_0_n_n_0_1_1128_wf
def scatter_S10000x128_S170000x1_S170000x128_1_0_0_1 : ScatterDims S10000x128 S170000x1 S170000x128 where
  updateWindowDims := [1]
  insertedWindowDims := [0]
  scatterDimsToOperandDims := [0]
  indexVectorDim := 1
  wf := scatter_S10000x128_S170000x1_S170000x128_1_0_0_1_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S160000_S800000x1_S800000_n_0_0_1 : ScatterDims S160000 S800000x1 S800000 where
  updateWindowDims := []
  insertedWindowDims := [0]
  scatterDimsToOperandDims := [0]
  indexVectorDim := 1
  wf := scatter_S160000_S800000x1_S800000_n_0_0_1_wf
def dot_S160000x128_S128x128_S160000x128_1_0_0_1_n_n : DotDims S160000x128 S128x128 S160000x128 where
  lhsContracting := [1]
  rhsContracting := [0]
  lhsNonContracting := [0]
  rhsNonContracting := [1]
  lhsBatch := []
  rhsBatch := []
  wf := dot_S160000x128_S128x128_S160000x128_1_0_0_1_n_n_wf
def gather_S160000x128_S800000x1_S800000x128_1_0_n_n_0_1_1128 : GatherDims S160000x128 S800000x1 S800000x128 where
  offsetDims := [1]
  collapsedSliceDims := [0]
  operandBatchingDims := []
  startIndicesBatchingDims := []
  startIndexMap := [0]
  indexVectorDim := 1
  sliceSizes := ![1, 128]
  wf := gather_S160000x128_S800000x1_S800000x128_1_0_n_n_0_1_1128_wf
def scatter_S160000x128_S800000x1_S800000x128_1_0_0_1 : ScatterDims S160000x128 S800000x1 S800000x128 where
  updateWindowDims := [1]
  insertedWindowDims := [0]
  scatterDimsToOperandDims := [0]
  indexVectorDim := 1
  wf := scatter_S160000x128_S800000x1_S800000x128_1_0_0_1_wf

class Facts : Prop extends Facts₀ where

variable [Facts]
-- ==== Proof.Spec.lean ====
/-
  The mathematics of one graph-convolution level, entry by entry, on the extended reals.

  A level takes two feature matrices with R rows and 128 columns (one per branch), two 128 × 128 weight matrices, a
  per-row scale for the sending side and one for the receiving side, and per-column biases and weights. Each branch
  first forms the row-scaled product  h = (x · W) · diag(s).  Messages travel along edges: row r of the aggregate is
  the sum of the rows h[src e] over the edges e with dst e = r, plus h[r] itself for the self-loop. The two branches
  are then recombined, each row is normalised to mean zero and unit variance over its 128 columns, mapped affinely
  and clamped at zero.
-/
import Idealize.ShloMosaic.PureOps.Ideal
import Idealize.ShloMosaic.Lib.ValueIdx

noncomputable section

namespace Cert.Spec

open Idealize.ShloMosaic Idealize.ShloMosaic.ValueIdx

/-- Entry (p, q) of the row-scaled product `(x · W) · diag(s)`: the inner product of row `p` of `x` with column
    `q` of `W`, times the scale of row `p`. -/
def scaledProd {R : ℕ} (x : (⟨2, ![R, 128]⟩ : Shape).Idx → EReal) (W : (⟨2, ![128, 128]⟩ : Shape).Idx → EReal)
    (s : (⟨2, ![R, 1]⟩ : Shape).Idx → EReal) (p : Fin R) (q : Fin 128) : EReal :=
  (∑ k : Fin 128, x (ix2 p k) * W (ix2 k q)) * s (ix2 p 0)

/-- One entry of the recombination of the two branches: each branch adds the self-loop term to its aggregate,
    scales by the receiving side's factor, adds its bias and multiplies by its column weight. -/
def combine (aa ha ab hb nd bca wca bcb wcb : EReal) : EReal :=
  ((aa + ha) * nd + bca) * wca + ((ab + hb) * nd + bcb) * wcb

/-- The number of columns, 128, as the float it is written as. -/
def cols : EReal := Ideal.ofBits .f32 0x43000000#32

/-- The variance offset (the float nearest 1e-5). -/
def eps : EReal := Ideal.ofBits .f32 0x3727C5AC#32

/-- The mean of a row. -/
def rowMean (z : Fin 128 → EReal) : EReal := Ideal.div (∑ c : Fin 128, z c) cols

/-- The variance of a row about its mean. -/
def rowVar (z : Fin 128 → EReal) : EReal :=
  Ideal.div (∑ c : Fin 128, (z c - rowMean z) * (z c - rowMean z)) cols

/-- Entry `q` of the normalised row, mapped affinely by `g`, `be` and clamped below at zero. -/
def normRelu (z g be : Fin 128 → EReal) (q : Fin 128) : EReal :=
  max (Ideal.div (z q - rowMean z) (Ideal.sqrt (rowVar z + eps)) * g q + be q) (Ideal.ofBits .f32 0x00000000#32)

end Cert.Spec

end
-- ==== Proof.SpecGraph.lean ====
/-
  The graph part of a level, in closed form.

  Edges are given by index words: edge e goes from the node its source word selects to the node its destination
  word names. A node's degree counts the edges whose word names it, plus one for its self-loop; the scale of a node
  is its degree to the power −1/2. The edge sum at node p adds, over the edges whose destination word names p, a
  value attached to the edge's source node.
-/
import Idealize.ShloMosaic.PureOps.Ideal
import Idealize.ShloMosaic.Lib.ValueIdx
import Mathlib.Data.BitVec
import proofs.«181315_g23613730193938_cont_sun_m_512_6_alg».proof.Proof.Spec

noncomputable section

namespace Cert.Spec

open Idealize.ShloMosaic Idealize.ShloMosaic.ValueIdx

/-- An index word below zero wraps around by the axis length `n`; any other word is kept. -/
def wrapNeg (n v : BitVec 32) : BitVec 32 := Scalar.select (IntOp.cmpi .slt v 0#32) (IntOp.addi v n) v

/-- An index word clipped below at zero. -/
def clipLow (v : BitVec 32) : BitVec 32 := IntOp.maxsi 0#32 v

/-- The number of edges whose word names node `p`, plus one for the self-loop, as a 32-bit word. -/
def selfDegree {N E : ℕ} (w : Fin E → BitVec 32) (p : Fin N) : BitVec 32 :=
  (∑ e : Fin E, if (w e).toInt = (p.val : ℤ) then 1#32 else 0) + 1#32

/-- A degree word to the power −1/2, on the extended reals. -/
def rowScale (d : BitVec 32) : EReal := Ideal.pow (((d.toInt : ℝ) : EReal)) (Ideal.ofBits .f32 0xBF000000#32)

/-- The sum, over the edges whose destination word names `p`, of `H` at the edge's source row. -/
def edgeSum {N E : ℕ} (d : Fin E → BitVec 32) (r : Fin E → Fin N) (H : Fin N → EReal) (p : Fin N) : EReal :=
  ∑ e : Fin E, if (d e).toInt = (p.val : ℤ) then H (r e) else 0

/-- The row an index word selects in an array of `N` rows: read signed, clamped into `[0, N − 1]`. -/
def rowOf (N : ℕ) (hN : 0 < N) (v : BitVec 32) : Fin N := ⟨min v.toInt.toNat (N - 1), by omega⟩

/-- ONE LEVEL, entry `(p, q)` of its result. `nW` is the number of nodes as a word; `xc`, `xf` the two branches'
    feature matrices, `Wc`, `Wf` their weights; `srcW`, `dstW` the edges' source and destination words. Degrees are
    counted on the clipped and wrapped words, rows are selected by the wrapped source words, and an edge lands where its
    raw destination word says. -/
def levelOut {N E : ℕ} (hN : 0 < N) (nW : BitVec 32)
    (xc xf : (⟨2, ![N, 128]⟩ : Shape).Idx → EReal) (Wc Wf : (⟨2, ![128, 128]⟩ : Shape).Idx → EReal)
    (bc wc bf wf g be : Fin 128 → EReal) (srcW dstW : Fin E → BitVec 32) (p : Fin N) (q : Fin 128) : EReal :=
  let ns : (⟨2, ![N, 1]⟩ : Shape).Idx → EReal := fun j =>
    rowScale (selfDegree (fun e => wrapNeg nW (clipLow (srcW e))) (⟨(j 0).val, idx2_lt0 j⟩ : Fin N))
  let nd : EReal := rowScale (selfDegree (fun e => wrapNeg nW (clipLow (dstW e))) p)
  let Hc : Fin N → Fin 128 → EReal := fun r c => scaledProd xc Wc ns r c
  let Hf : Fin N → Fin 128 → EReal := fun r c => scaledProd xf Wf ns r c
  let row : Fin E → Fin N := fun e => rowOf N hN (wrapNeg nW (srcW e))
  normRelu (fun c => combine (edgeSum dstW row (fun r => Hc r c) p) (Hc p c) (edgeSum dstW row (fun r => Hf r c) p) (Hf p c)
    nd (bc c) (wc c) (bf c) (wf c)) g be q

/-- The fusion input of the first level: row `r` sums the rows `e` of `h1` whose destination word names `r`. -/
def incSum {N E : ℕ} (dstW : Fin E → BitVec 32) (h1 : (⟨2, ![E, 128]⟩ : Shape).Idx → EReal) :
    (⟨2, ![N, 128]⟩ : Shape).Idx → EReal := fun j =>
  ∑ e : Fin E, if (dstW e).toInt = ((j 0).val : ℤ) then h1 (ix2 e ⟨(j 1).val, idx2_lt1 j⟩) else 0

/-- The fusion input of the second level: row `e` is the row of `h0` that edge `e`'s wrapped destination word selects. -/
def incRows {N E : ℕ} (hN : 0 < N) (nW : BitVec 32) (dstW : Fin E → BitVec 32) (h0 : (⟨2, ![N, 128]⟩ : Shape).Idx → EReal) :
    (⟨2, ![E, 128]⟩ : Shape).Idx → EReal := fun j =>
  h0 (ix2 (rowOf N hN (wrapNeg nW (dstW ⟨(j 0).val, idx2_lt0 j⟩))) ⟨(j 1).val, idx2_lt1 j⟩)

end Cert.Spec

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibSelfLoops.lean ====
/-
  Self-loops folded into an edge sum.

  A graph with E edges on N nodes gets one extra edge k → k per node. A sum over the E + N edges that land on a node
  p is then the sum over the original edges that land on p, plus the one self-loop term of p.
-/
import Mathlib.Algebra.BigOperators.Fin
import Mathlib.Data.BitVec

namespace Idealize.ShloMosaic.SelfLoops

/-- The edge sum with self-loops appended: the loop edges are the last `N` of `E + N`, and loop `k` lands on `p`
    exactly when `k = p`. -/
theorem sum_append_selfloops {M : Type} [AddCommMonoid M] {E N : ℕ} (hit : Fin (E + N) → Prop) [DecidablePred hit]
    (g : Fin (E + N) → M) (p : Fin N) (hloop : ∀ k : Fin N, hit (Fin.natAdd E k) ↔ k = p) :
    (∑ e : Fin (E + N), if hit e then g e else 0)
      = (∑ e : Fin E, if hit (Fin.castAdd N e) then g (Fin.castAdd N e) else 0) + g (Fin.natAdd E p) := by
  rw [Fin.sum_univ_add]
  congr 1
  simp only [hloop, Finset.sum_ite_eq', Finset.mem_univ, if_true]

/-- A small natural number as a 32-bit word reads back, signed, as itself. -/
theorem toInt_ofNat_small (k : ℕ) (hk : k < 2 ^ 31) : (BitVec.ofNat 32 k).toInt = (k : ℤ) := by
  have h1 : (BitVec.ofNat 32 k).toNat = k := by
    rw [BitVec.toNat_ofNat]; exact Nat.mod_eq_of_lt (by omega)
  rw [BitVec.toInt_eq_toNat_cond, h1]
  have : 2 * k < 4294967296 := by omega
  simp [this]

end Idealize.ShloMosaic.SelfLoops
-- ==== Proof.LibGraphAgg.lean ====
/-
  Edge sums of a graph with self-loops, as scatters.

  Two ways to account for the self-loops of a graph with E edges on N nodes. One appends the N loop edges k → k to the
  edge list and scatters over all E + N edges; the other scatters over the E edges only and adds the loop's own term
  afterwards. For counting edges per node (integer words) and for summing gathered rows per node (extended reals)
  the two agree.
-/
import proofs.«181315_g23613730193938_cont_sun_m_512_6_alg».proof.Proof.LibScatterRows
import proofs.«181315_g23613730193938_cont_sun_m_512_6_alg».proof.Proof.LibSelfLoops

noncomputable section

namespace Idealize.ShloMosaic.GraphAgg

open Idealize.ShloMosaic Idealize.ShloMosaic.ValueIdx Idealize.ShloMosaic.ScatterRows Idealize.ShloMosaic.SelfLoops

variable {N E : ℕ}

/-- COUNTING. Scattering ones at the indices of the E edges followed by the N loops counts, at node `p`, one more
    than scattering ones at the indices of the E edges alone. `iR` holds the E + N index words, `iK` the first E of
    them; loop `k`'s word reads `k`. -/
theorem count_selfloops
    (wfR : ScatterDims.WF ⟨1, ![N]⟩ ⟨2, ![E + N, 1]⟩ ⟨1, ![E + N]⟩ [] [0] [0] 1)
    (wfK : ScatterDims.WF ⟨1, ![N]⟩ ⟨2, ![E, 1]⟩ ⟨1, ![E]⟩ [] [0] [0] 1)
    (zR zK : (⟨1, ![N]⟩ : Shape).Idx → BitVec 32) (iR : IVec ⟨2, ![E + N, 1]⟩ 32) (iK : IVec ⟨2, ![E, 1]⟩ 32)
    (uR : (⟨1, ![E + N]⟩ : Shape).Idx → BitVec 32) (uK : (⟨1, ![E]⟩ : Shape).Idx → BitVec 32)
    (hz : ∀ j, zR j = zK j) (huR : ∀ j, uR j = 1#32) (huK : ∀ j, uK j = 1#32)
    (hE : ∀ e : Fin E, iR (ix2 (Fin.castAdd N e) 0) = iK (ix2 e 0))
    (hL : ∀ k : Fin N, (iR (ix2 (Fin.natAdd E k) 0)).toInt = (k.val : ℤ)) (p : Fin N) :
    Host.scatter (countDims N (E + N) wfR) IntOp.addi zR iR uR (ix1 p)
      = IntOp.addi (Host.scatter (countDims N E wfK) IntOp.addi zK iK uK (ix1 p)) 1#32 := by
  rw [count_scatter_apply wfR IntOp.addi (fun _ _ => rfl), count_scatter_apply wfK IntOp.addi (fun _ _ => rfl)]
  simp only [huR, huK, hz]
  rw [sum_append_selfloops (fun e => (iR (ix2 e 0)).toInt = (p.val : ℤ)) (fun _ => (1#32 : BitVec 32)) p
    (fun k => by rw [hL k]; exact ⟨fun h => Fin.ext (by exact_mod_cast h), fun h => by rw [h]⟩)]
  simp only [hE]
  show _ = (_ + _) + 1#32
  rw [add_assoc]

/-- SUMMING ROWS. Scattering, by destination, the rows gathered for the E edges followed by the N loops gives at
    `(p, q)` the sum over the E edges landing on `p` plus the loop's own row entry. `dR` holds the E + N destination
    words, `upd` the E + N gathered rows: edge `e`'s is row `r e` of `H`, loop `k`'s is row `k` of `H`. -/
theorem rows_selfloops {C : ℕ}
    (wfR : ScatterDims.WF ⟨2, ![N, C]⟩ ⟨2, ![E + N, 1]⟩ ⟨2, ![E + N, C]⟩ [1] [0] [0] 1)
    (x : (⟨2, ![N, C]⟩ : Shape).Idx → EReal) (dR : IVec ⟨2, ![E + N, 1]⟩ 32)
    (upd : (⟨2, ![E + N, C]⟩ : Shape).Idx → EReal) (H : (⟨2, ![N, C]⟩ : Shape).Idx → EReal)
    (d : Fin E → BitVec 32) (r : Fin E → Fin N)
    (hdE : ∀ e : Fin E, dR (ix2 (Fin.castAdd N e) 0) = d e)
    (hdL : ∀ k : Fin N, (dR (ix2 (Fin.natAdd E k) 0)).toInt = (k.val : ℤ))
    (huE : ∀ (e : Fin E) (c : Fin C), upd (ix2 (Fin.castAdd N e) c) = H (ix2 (r e) c))
    (huL : ∀ (k : Fin N) (c : Fin C), upd (ix2 (Fin.natAdd E k) c) = H (ix2 k c)) (p : Fin N) (q : Fin C) :
    Ideal.hostScatterAdd (rowsDims N (E + N) C wfR) x dR upd (ix2 p q)
      = x (ix2 p q) + ((∑ e : Fin E, if (d e).toInt = (p.val : ℤ) then H (ix2 (r e) q) else 0) + H (ix2 p q)) := by
  rw [rows_scatterAdd_apply wfR]
  congr 1
  rw [sum_append_selfloops (fun e => (dR (ix2 e 0)).toInt = (p.val : ℤ)) (fun e => upd (ix2 e q)) p
    (fun k => by rw [hdL k]; exact ⟨fun h => Fin.ext (by exact_mod_cast h), fun h => by rw [h]⟩)]
  simp only [hdE, huE, huL]

end Idealize.ShloMosaic.GraphAgg

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.LibIndexWords.lean ====
/-
  Index words of a self-loop.

  The self-loop of node k carries the word k itself. Such a word is not negative, so clipping it below at zero and
  wrapping negative words around both leave it alone, and the row it selects in an array of N > k rows is row k.
-/
import proofs.«181315_g23613730193938_cont_sun_m_512_6_alg».proof.Proof.SpecGraph
import proofs.«181315_g23613730193938_cont_sun_m_512_6_alg».proof.Proof.LibSelfLoops

noncomputable section

namespace Cert.Spec

open Idealize.ShloMosaic Idealize.ShloMosaic.SelfLoops

theorem slt_zero_ofNat_small (k : ℕ) (hk : k < 2 ^ 31) : (BitVec.ofNat 32 k).slt 0#32 = false := by
  rw [BitVec.slt_eq_decide, toInt_ofNat_small k hk]
  simp

/-- Clipping a loop word below at zero keeps it. -/
theorem clipLow_ofNat_small (k : ℕ) (hk : k < 2 ^ 31) : clipLow (BitVec.ofNat 32 k) = BitVec.ofNat 32 k := by
  unfold clipLow IntOp.maxsi
  rw [slt_zero_ofNat_small k hk]
  simp

/-- Wrapping negative words keeps a loop word. -/
theorem wrapNeg_ofNat_small (n : BitVec 32) (k : ℕ) (hk : k < 2 ^ 31) : wrapNeg n (BitVec.ofNat 32 k) = BitVec.ofNat 32 k := by
  unfold wrapNeg IntOp.cmpi Scalar.select
  rw [slt_zero_ofNat_small k hk]
  simp

/-- The row a loop word selects is its own node. -/
theorem rowOf_ofNat_small (N : ℕ) (hN : 0 < N) (k : Fin N) (hk : N < 2 ^ 31) : rowOf N hN (BitVec.ofNat 32 k.val) = k := by
  unfold rowOf
  refine Fin.ext ?_
  show min (BitVec.ofNat 32 k.val).toInt.toNat (N - 1) = k.val
  rw [toInt_ofNat_small k.val (by omega)]
  have := k.isLt
  simp only [Int.toNat_natCast]
  omega

end Cert.Spec

end
-- ==== Proof.RefLevel0.lean ====
/-
  The reference's level one, read entry by entry.

  The reference appends one self-loop per node to the edge list and runs each branch as a plain graph convolution over
  all edges: degrees are counted over edges and loops, rows are gathered for edges and loops, and the gathered rows are
  summed by destination. Counting over the loops adds one to every node; gathering and summing over the loops adds the
  node's own row. What is left is the closed form of SpecGraph: the edge sum plus the node's own term, scaled,
  biased and weighted per branch, the two branches added, each row normalised.
-/
import proofs.«181315_g23613730193938_cont_sun_m_512_6_alg».proof.Proof.RefRead
import proofs.«181315_g23613730193938_cont_sun_m_512_6_alg».proof.Proof.SpecGraph
import proofs.«181315_g23613730193938_cont_sun_m_512_6_alg».proof.Proof.LibGraphAgg
import proofs.«181315_g23613730193938_cont_sun_m_512_6_alg».proof.Proof.LibGatherRows
import proofs.«181315_g23613730193938_cont_sun_m_512_6_alg».proof.Proof.LibIndexWords
import Idealize.ShloMosaic.Lib.Pipeline.Value
import Idealize.ShloMosaic.PureOps.Ideal.Laws

set_option maxRecDepth 16384

noncomputable section

namespace Cert.ReferenceIdeal.RefLevel0

open Cert.ReferenceIdeal Cert.ReferenceIdeal.Gen Cert.ReferenceIdeal.Read Idealize.ShloMosaic Idealize.ShloMosaic.ValueIdx
open Idealize.ShloMosaic.ScatterRows Idealize.ShloMosaic.GraphAgg Idealize.ShloMosaic.SelfLoops Cert.Spec
open Idealize.ShloMosaic.GatherRows (rows_gather_apply clampRow)

variable (x0 : (⟨S10000x128, .f32⟩ : BufTy).Contents (Elt Ideal)) (x1 : (⟨S160000x128, .f32⟩ : BufTy).Contents (Elt Ideal))
  (x2 x4 x10 x12 : (⟨S128x128, .f32⟩ : BufTy).Contents (Elt Ideal))
  (x3 x5 x6 x7 x8 x9 x11 x13 x14 x15 x16 x17 : (⟨S128, .f32⟩ : BufTy).Contents (Elt Ideal))
  (x18 : (⟨S2x160000, .i32⟩ : BufTy).Contents (Elt Ideal)) (x19 : (⟨S2x640000, .i32⟩ : BufTy).Contents (Elt Ideal))

/-- On the extended reals the host's accumulating scatter is the exact sum (by definition). -/
theorem scatterAdd_ideal {s si u : Shape} {w : ℕ} (d : ScatterDims s si u) (x : FVec Ideal s .f32) (i : IVec si w)
    (upd : FVec Ideal u .f32) : Host.scatterAdd d x i upd = Ideal.hostScatterAdd d x i upd := rfl

/-! ### The edge words -/

/-- The source word of edge `e`: row 0 of the edge array. -/
theorem src_at (e : Fin 160000) : (val_main_v1 (F := Ideal) x18) (ix1 e) = x18 (ix2 0 e) := by
  rw [val_main_v1_apply, val_main_v0_apply]
  exact congrArg x18 (funext fun a => Fin.ext (by
    match a with
    | ⟨0, _⟩ => rfl
    | ⟨1, _⟩ => exact Nat.mod_eq_of_lt e.isLt))

/-- The destination word of edge `e`: row 1 of the edge array. -/
theorem dst_at (e : Fin 160000) : (val_main_v3 (F := Ideal) x18) (ix1 e) = x18 (ix2 1 e) := by
  rw [val_main_v3_apply, val_main_v2_apply]
  exact congrArg x18 (funext fun a => Fin.ext (by
    match a with
    | ⟨0, _⟩ => rfl
    | ⟨1, _⟩ => exact Nat.mod_eq_of_lt e.isLt))

/-- The second branch's input: row r sums the rows of the other level's features whose destination word names r. -/
theorem feat_eq : (val_main_v10 (F := Ideal) x1 x18) = incSum (fun e : Fin 160000 => x18 (ix2 1 e)) x1 := by
  funext j
  obtain ⟨r, k, rfl⟩ : ∃ (r : Fin 10000) (k : Fin 128), j = ix2 r k := ⟨j 0, j 1, eq_ix2 j⟩
  unfold val_main_v10
  refine (rows_scatterAdd_apply (N := 10000) (E := 160000) (C := 128) scatter_S10000x128_S160000x1_S160000x128_1_0_0_1.wf _ _ _ r k).trans ?_
  rw [show (val_main_v8 (F := Ideal)) (ix2 r k) = (0 : EReal) from by
    simp only [val_main_v8_apply, val_main_cst_apply, Ideal.ofBits_def, Ideal.ofBits_zero_f32], zero_add]
  unfold incSum
  refine Finset.sum_congr rfl fun e _ => ?_
  rw [val_main_v9_apply, show idx_main_v9 (ix2 e (0 : Fin 1)) = ix1 e from funext fun a => Fin.ext (by match a with | ⟨0, _⟩ => rfl), dst_at]

/-! ### Branch A: words, degrees, scales, the scaled product, the edge sum -/

theorem cat_src_leftA (e : Fin 160000) : (val_main_v12 (F := Ideal) x18) (ix1 (Fin.castAdd 10000 e)) = x18 (ix2 0 e) := by
  unfold val_main_v12
  exact (concatenate_pair_apply_left (t := S170000) (s₁ := S160000) (s₂ := S10000) 0 _ _ _ (ix1 (Fin.castAdd 10000 e)) rfl (ix1 e)
    (fun b => by match b with | ⟨0, _⟩ => rfl)).trans (src_at x18 e)

theorem cat_src_rightA (k : Fin 10000) : (val_main_v12 (F := Ideal) x18) (ix1 (Fin.natAdd 160000 k)) = BitVec.ofNat 32 k.val := by
  unfold val_main_v12
  exact concatenate_pair_apply_right (t := S170000) (s₁ := S160000) (s₂ := S10000) 0 _ _ _ (ix1 (Fin.natAdd 160000 k)) rfl rfl (ix1 k)
    (fun b hb => by match b with | ⟨0, _⟩ => exact absurd rfl hb) (by show k.val + 160000 = 160000 + k.val; omega)

theorem cat_dst_leftA (e : Fin 160000) : (val_main_v13 (F := Ideal) x18) (ix1 (Fin.castAdd 10000 e)) = x18 (ix2 1 e) := by
  unfold val_main_v13
  exact (concatenate_pair_apply_left (t := S170000) (s₁ := S160000) (s₂ := S10000) 0 _ _ _ (ix1 (Fin.castAdd 10000 e)) rfl (ix1 e)
    (fun b => by match b with | ⟨0, _⟩ => rfl)).trans (dst_at x18 e)

theorem cat_dst_rightA (k : Fin 10000) : (val_main_v13 (F := Ideal) x18) (ix1 (Fin.natAdd 160000 k)) = BitVec.ofNat 32 k.val := by
  unfold val_main_v13
  exact concatenate_pair_apply_right (t := S170000) (s₁ := S160000) (s₂ := S10000) 0 _ _ _ (ix1 (Fin.natAdd 160000 k)) rfl rfl (ix1 k)
    (fun b hb => by match b with | ⟨0, _⟩ => exact absurd rfl hb) (by show k.val + 160000 = 160000 + k.val; omega)

/-- The word an edge (or loop) is counted under on the sending side: clipped below at zero, negative words wrapped. -/
theorem degword_srcA (e : Fin (160000 + 10000)) : (val_main_v21 (F := Ideal) x18) (ix2 e 0) = wrapNeg 10000#32 (clipLow ((val_main_v12 (F := Ideal) x18) (ix1 e))) := by
  rw [val_main_v21_apply, show idx_main_v21 (ix2 e 0) = ix1 e from funext fun a => Fin.ext (by match a with | ⟨0, _⟩ => rfl)]
  simp only [val_main_v20_apply, val_main_v17_apply, val_main_v19_apply, val_main_v15_apply, val_main_v16_apply, val_main_v18_apply, val_main_call0_v1_apply,
    val_main_call0_v0_apply, val_main_c_0_apply, val_main_c_1_apply, val_main_c_2_apply]
  rfl

/-- … and on the receiving side. -/
theorem degword_dstA (e : Fin (160000 + 10000)) : (val_main_v32 (F := Ideal) x18) (ix2 e 0) = wrapNeg 10000#32 (clipLow ((val_main_v13 (F := Ideal) x18) (ix1 e))) := by
  rw [val_main_v32_apply, show idx_main_v32 (ix2 e 0) = ix1 e from funext fun a => Fin.ext (by match a with | ⟨0, _⟩ => rfl)]
  simp only [val_main_v31_apply, val_main_v28_apply, val_main_v30_apply, val_main_v26_apply, val_main_v27_apply, val_main_v29_apply, val_main_call1_v1_apply,
    val_main_call1_v0_apply, val_main_c_5_apply, val_main_c_6_apply, val_main_c_7_apply]
  rfl

/-- The out-degree with the self-loop: counting over the edges followed by the loops is the edge count plus one. -/
theorem deg_srcA (p : Fin 10000) :
    (val_main_v23 (F := Ideal) x18) (ix1 p) = selfDegree (fun e : Fin 160000 => wrapNeg 10000#32 (clipLow (x18 (ix2 0 e)))) p := by
  unfold val_main_v23
  refine (count_scatter_apply (N := 10000) (E := 160000 + 10000) scatter_S10000_S170000x1_S170000_n_0_0_1.wf IntOp.addi (fun _ _ => rfl) _ _ _ p).trans ?_
  rw [show (val_main_v14 (F := Ideal)) (ix1 p) = 0#32 from by simp only [val_main_v14_apply, val_main_c_apply]]
  simp only [degword_srcA, show ∀ j, (val_main_v22 (F := Ideal)) j = 1#32 from fun j => by simp only [val_main_v22_apply, val_main_c_3_apply]]
  rw [sum_append_selfloops (fun e => (wrapNeg 10000#32 (clipLow ((val_main_v12 (F := Ideal) x18) (ix1 e)))).toInt = (p.val : ℤ))
    (fun _ => (1#32 : BitVec 32)) p (fun k => by
      rw [cat_src_rightA, clipLow_ofNat_small _ (by have := k.isLt; omega),
        wrapNeg_ofNat_small _ _ (by have := k.isLt; omega), toInt_ofNat_small _ (by have := k.isLt; omega)]
      exact ⟨fun h => Fin.ext (by exact_mod_cast h), fun h => by rw [h]⟩)]
  simp only [cat_src_leftA]
  unfold selfDegree
  rw [BitVec.zero_add]

/-- The in-degree with the self-loop. -/
theorem deg_dstA (p : Fin 10000) :
    (val_main_v34 (F := Ideal) x18) (ix1 p) = selfDegree (fun e : Fin 160000 => wrapNeg 10000#32 (clipLow (x18 (ix2 1 e)))) p := by
  unfold val_main_v34
  refine (count_scatter_apply (N := 10000) (E := 160000 + 10000) scatter_S10000_S170000x1_S170000_n_0_0_1.wf IntOp.addi (fun _ _ => rfl) _ _ _ p).trans ?_
  rw [show (val_main_v25 (F := Ideal)) (ix1 p) = 0#32 from by simp only [val_main_v25_apply, val_main_c_4_apply]]
  simp only [degword_dstA, show ∀ j, (val_main_v33 (F := Ideal)) j = 1#32 from fun j => by simp only [val_main_v33_apply, val_main_c_8_apply]]
  rw [sum_append_selfloops (fun e => (wrapNeg 10000#32 (clipLow ((val_main_v13 (F := Ideal) x18) (ix1 e)))).toInt = (p.val : ℤ))
    (fun _ => (1#32 : BitVec 32)) p (fun k => by
      rw [cat_dst_rightA, clipLow_ofNat_small _ (by have := k.isLt; omega),
        wrapNeg_ofNat_small _ _ (by have := k.isLt; omega), toInt_ofNat_small _ (by have := k.isLt; omega)]
      exact ⟨fun h => Fin.ext (by exact_mod_cast h), fun h => by rw [h]⟩)]
  simp only [cat_dst_leftA]
  unfold selfDegree
  rw [BitVec.zero_add]

/-- The sending side's scale of a node: its out-degree to the power −1/2. -/
theorem scale_srcA (p : Fin 10000) :
    (val_main_v37 (F := Ideal) x18) (ix1 p) = rowScale (selfDegree (fun e : Fin 160000 => wrapNeg 10000#32 (clipLow (x18 (ix2 0 e)))) p) := by
  rw [val_main_v37_apply, val_main_v24_apply, deg_srcA, val_main_v36_apply, val_main_cst_9_apply]
  rfl

/-- The receiving side's scale. -/
theorem scale_dstA (p : Fin 10000) :
    (val_main_v39 (F := Ideal) x18) (ix1 p) = rowScale (selfDegree (fun e : Fin 160000 => wrapNeg 10000#32 (clipLow (x18 (ix2 1 e)))) p) := by
  rw [val_main_v39_apply, val_main_v35_apply, deg_dstA, val_main_v38_apply, val_main_cst_10_apply]
  rfl

/-- The row-scaled product of the branch, entry (r, c). -/
theorem h_atA (r : Fin 10000) (c : Fin 128) :
    (val_main_v43 (F := Ideal) x0 x2 x18) (ix2 r c) = scaledProd x0 x2
      (fun j => rowScale (selfDegree (fun e : Fin 160000 => wrapNeg 10000#32 (clipLow (x18 (ix2 0 e)))) (⟨(j 0).val, idx2_lt0 j⟩ : Fin 10000))) r c := by
  rw [val_main_v43_apply, val_main_v40_apply, val_main_v42_apply, val_main_v41_apply,
    show idx_main_v41 (idx_main_v42 (ix2 r c)) = ix1 r from funext fun a => Fin.ext (by match a with | ⟨0, _⟩ => rfl), scale_srcA]
  unfold scaledProd
  refine congrArg₂ (· * ·) (Finset.sum_congr rfl fun k _ => congrArg₂ (· * ·)
    (congrArg _ (funext fun a => Fin.ext (by match a with | ⟨0, _⟩ => rfl | ⟨1, _⟩ => rfl)))
    (congrArg _ (funext fun a => Fin.ext (by match a with | ⟨0, _⟩ => rfl | ⟨1, _⟩ => rfl)))) rfl

/-- The word that selects the row an edge (or loop) gathers: negative words wrapped, not clipped. -/
theorem gwordA (e : Fin (160000 + 10000)) : (val_main_v49 (F := Ideal) x18) (ix2 e 0) = wrapNeg 10000#32 ((val_main_v12 (F := Ideal) x18) (ix1 e)) := by
  rw [val_main_v49_apply, show idx_main_v49 (ix2 e 0) = ix1 e from funext fun a => Fin.ext (by match a with | ⟨0, _⟩ => rfl)]
  simp only [val_main_v48_apply, val_main_v45_apply, val_main_v47_apply, val_main_v44_apply, val_main_v46_apply, val_main_c_11_apply, val_main_c_12_apply]
  rfl

/-- The word that says where an edge (or loop) lands: the raw destination word. -/
theorem swordA (e : Fin (160000 + 10000)) : (val_main_v52 (F := Ideal) x18) (ix2 e 0) = (val_main_v13 (F := Ideal) x18) (ix1 e) := by
  rw [val_main_v52_apply]
  exact congrArg _ (funext fun a => Fin.ext (by match a with | ⟨0, _⟩ => rfl))

/-- THE EDGE SUM WITH SELF-LOOPS: over the edges followed by the loops it is the sum over the edges plus the
    node's own row. -/
theorem agg_atA (p : Fin 10000) (q : Fin 128) :
    (val_main_v53 (F := Ideal) x0 x2 x18) (ix2 p q)
      = edgeSum (fun e : Fin 160000 => x18 (ix2 1 e)) (fun e => rowOf 10000 (by decide) (wrapNeg 10000#32 (x18 (ix2 0 e))))
          (fun r => (val_main_v43 (F := Ideal) x0 x2 x18) (ix2 r q)) p + (val_main_v43 (F := Ideal) x0 x2 x18) (ix2 p q) := by
  unfold val_main_v53
  rw [scatterAdd_ideal, show scatter_S10000x128_S170000x1_S170000x128_1_0_0_1 = ScatterRows.rowsDims 10000 (160000 + 10000) 128 scatter_S10000x128_S170000x1_S170000x128_1_0_0_1.wf from rfl]
  refine (rows_selfloops (N := 10000) (E := 160000) (C := 128) scatter_S10000x128_S170000x1_S170000x128_1_0_0_1.wf (val_main_v51 (F := Ideal)) (val_main_v52 (F := Ideal) x18) (val_main_v50 (F := Ideal) x0 x2 x18) (val_main_v43 (F := Ideal) x0 x2 x18) (fun e => x18 (ix2 1 e))
    (fun e => rowOf 10000 (by decide) (wrapNeg 10000#32 (x18 (ix2 0 e)))) ?_ ?_ ?_ ?_ p q).trans ?_
  · intro e; rw [swordA, cat_dst_leftA]
  · intro k; rw [swordA, cat_dst_rightA, toInt_ofNat_small _ (by have := k.isLt; omega)]
  · intro e c
    unfold val_main_v50
    rw [show gather_S10000x128_S170000x1_S170000x128_1_0_n_n_0_1_1128 = GatherRows.rowsDims 10000 (160000 + 10000) 128 gather_S10000x128_S170000x1_S170000x128_1_0_n_n_0_1_1128.wf from rfl,
      rows_gather_apply (N := 10000) (E := 160000 + 10000) (C := 128) (by decide) gather_S10000x128_S170000x1_S170000x128_1_0_n_n_0_1_1128.wf (val_main_v43 (F := Ideal) x0 x2 x18) (val_main_v49 (F := Ideal) x18) (Fin.castAdd 10000 e) c,
      gwordA, cat_src_leftA]
    rfl
  · intro k c
    unfold val_main_v50
    rw [show gather_S10000x128_S170000x1_S170000x128_1_0_n_n_0_1_1128 = GatherRows.rowsDims 10000 (160000 + 10000) 128 gather_S10000x128_S170000x1_S170000x128_1_0_n_n_0_1_1128.wf from rfl,
      rows_gather_apply (N := 10000) (E := 160000 + 10000) (C := 128) (by decide) gather_S10000x128_S170000x1_S170000x128_1_0_n_n_0_1_1128.wf (val_main_v43 (F := Ideal) x0 x2 x18) (val_main_v49 (F := Ideal) x18) (Fin.natAdd 160000 k) c,
      gwordA, cat_src_rightA, wrapNeg_ofNat_small _ _ (by have := k.isLt; omega)]
    exact congrArg (val_main_v43 (F := Ideal) x0 x2 x18) (congrArg₂ ix2 (rowOf_ofNat_small 10000 (by decide) k (by decide)) rfl)
  · rw [show (val_main_v51 (F := Ideal)) (ix2 p q) = (0 : EReal) from by
      simp only [val_main_v51_apply, val_main_cst_13_apply, Ideal.ofBits_def, Ideal.ofBits_zero_f32], zero_add]
    rfl

/-- The branch's result before the two are added: scaled on the receiving side, biased, weighted. -/
theorem convoutA (p : Fin 10000) (c : Fin 128) :
    (val_main_v62 (F := Ideal) x0 x2 x3 x6 x18) (ix2 p c) = ((val_main_v53 (F := Ideal) x0 x2 x18) (ix2 p c) * (val_main_v39 (F := Ideal) x18) (ix1 p) + x3 (ix1 c)) * x6 (ix1 c) := by
  rw [val_main_v62_apply, val_main_v59_apply, val_main_v56_apply, val_main_v55_apply, val_main_v54_apply, val_main_v58_apply, val_main_v57_apply, val_main_v61_apply, val_main_v60_apply,
    show idx_main_v54 (idx_main_v55 (ix2 p c)) = ix1 p from funext fun a => Fin.ext (by match a with | ⟨0, _⟩ => rfl),
    show idx_main_v57 (idx_main_v58 (ix2 p c)) = ix1 c from funext fun a => Fin.ext (by match a with | ⟨0, _⟩ => rfl),
    show idx_main_v60 (idx_main_v61 (ix2 p c)) = ix1 c from funext fun a => Fin.ext (by match a with | ⟨0, _⟩ => rfl)]
  rfl

/-! ### Branch B: words, degrees, scales, the scaled product, the edge sum -/

theorem cat_src_leftB (e : Fin 160000) : (val_main_v64 (F := Ideal) x18) (ix1 (Fin.castAdd 10000 e)) = x18 (ix2 0 e) := by
  unfold val_main_v64
  exact (concatenate_pair_apply_left (t := S170000) (s₁ := S160000) (s₂ := S10000) 0 _ _ _ (ix1 (Fin.castAdd 10000 e)) rfl (ix1 e)
    (fun b => by match b with | ⟨0, _⟩ => rfl)).trans (src_at x18 e)

theorem cat_src_rightB (k : Fin 10000) : (val_main_v64 (F := Ideal) x18) (ix1 (Fin.natAdd 160000 k)) = BitVec.ofNat 32 k.val := by
  unfold val_main_v64
  exact concatenate_pair_apply_right (t := S170000) (s₁ := S160000) (s₂ := S10000) 0 _ _ _ (ix1 (Fin.natAdd 160000 k)) rfl rfl (ix1 k)
    (fun b hb => by match b with | ⟨0, _⟩ => exact absurd rfl hb) (by show k.val + 160000 = 160000 + k.val; omega)

theorem cat_dst_leftB (e : Fin 160000) : (val_main_v65 (F := Ideal) x18) (ix1 (Fin.castAdd 10000 e)) = x18 (ix2 1 e) := by
  unfold val_main_v65
  exact (concatenate_pair_apply_left (t := S170000) (s₁ := S160000) (s₂ := S10000) 0 _ _ _ (ix1 (Fin.castAdd 10000 e)) rfl (ix1 e)
    (fun b => by match b with | ⟨0, _⟩ => rfl)).trans (dst_at x18 e)

theorem cat_dst_rightB (k : Fin 10000) : (val_main_v65 (F := Ideal) x18) (ix1 (Fin.natAdd 160000 k)) = BitVec.ofNat 32 k.val := by
  unfold val_main_v65
  exact concatenate_pair_apply_right (t := S170000) (s₁ := S160000) (s₂ := S10000) 0 _ _ _ (ix1 (Fin.natAdd 160000 k)) rfl rfl (ix1 k)
    (fun b hb => by match b with | ⟨0, _⟩ => exact absurd rfl hb) (by show k.val + 160000 = 160000 + k.val; omega)

/-- The word an edge (or loop) is counted under on the sending side: clipped below at zero, negative words wrapped. -/
theorem degword_srcB (e : Fin (160000 + 10000)) : (val_main_v73 (F := Ideal) x18) (ix2 e 0) = wrapNeg 10000#32 (clipLow ((val_main_v64 (F := Ideal) x18) (ix1 e))) := by
  rw [val_main_v73_apply, show idx_main_v73 (ix2 e 0) = ix1 e from funext fun a => Fin.ext (by match a with | ⟨0, _⟩ => rfl)]
  simp only [val_main_v72_apply, val_main_v69_apply, val_main_v71_apply, val_main_v67_apply, val_main_v68_apply, val_main_v70_apply, val_main_call2_v1_apply,
    val_main_call2_v0_apply, val_main_c_15_apply, val_main_c_16_apply, val_main_c_17_apply]
  rfl

/-- … and on the receiving side. -/
theorem degword_dstB (e : Fin (160000 + 10000)) : (val_main_v84 (F := Ideal) x18) (ix2 e 0) = wrapNeg 10000#32 (clipLow ((val_main_v65 (F := Ideal) x18) (ix1 e))) := by
  rw [val_main_v84_apply, show idx_main_v84 (ix2 e 0) = ix1 e from funext fun a => Fin.ext (by match a with | ⟨0, _⟩ => rfl)]
  simp only [val_main_v83_apply, val_main_v80_apply, val_main_v82_apply, val_main_v78_apply, val_main_v79_apply, val_main_v81_apply, val_main_call3_v1_apply,
    val_main_call3_v0_apply, val_main_c_20_apply, val_main_c_21_apply, val_main_c_22_apply]
  rfl

/-- The out-degree with the self-loop: counting over the edges followed by the loops is the edge count plus one. -/
theorem deg_srcB (p : Fin 10000) :
    (val_main_v75 (F := Ideal) x18) (ix1 p) = selfDegree (fun e : Fin 160000 => wrapNeg 10000#32 (clipLow (x18 (ix2 0 e)))) p := by
  unfold val_main_v75
  refine (count_scatter_apply (N := 10000) (E := 160000 + 10000) scatter_S10000_S170000x1_S170000_n_0_0_1.wf IntOp.addi (fun _ _ => rfl) _ _ _ p).trans ?_
  rw [show (val_main_v66 (F := Ideal)) (ix1 p) = 0#32 from by simp only [val_main_v66_apply, val_main_c_14_apply]]
  simp only [degword_srcB, show ∀ j, (val_main_v74 (F := Ideal)) j = 1#32 from fun j => by simp only [val_main_v74_apply, val_main_c_18_apply]]
  rw [sum_append_selfloops (fun e => (wrapNeg 10000#32 (clipLow ((val_main_v64 (F := Ideal) x18) (ix1 e)))).toInt = (p.val : ℤ))
    (fun _ => (1#32 : BitVec 32)) p (fun k => by
      rw [cat_src_rightB, clipLow_ofNat_small _ (by have := k.isLt; omega),
        wrapNeg_ofNat_small _ _ (by have := k.isLt; omega), toInt_ofNat_small _ (by have := k.isLt; omega)]
      exact ⟨fun h => Fin.ext (by exact_mod_cast h), fun h => by rw [h]⟩)]
  simp only [cat_src_leftB]
  unfold selfDegree
  rw [BitVec.zero_add]

/-- The in-degree with the self-loop. -/
theorem deg_dstB (p : Fin 10000) :
    (val_main_v86 (F := Ideal) x18) (ix1 p) = selfDegree (fun e : Fin 160000 => wrapNeg 10000#32 (clipLow (x18 (ix2 1 e)))) p := by
  unfold val_main_v86
  refine (count_scatter_apply (N := 10000) (E := 160000 + 10000) scatter_S10000_S170000x1_S170000_n_0_0_1.wf IntOp.addi (fun _ _ => rfl) _ _ _ p).trans ?_
  rw [show (val_main_v77 (F := Ideal)) (ix1 p) = 0#32 from by simp only [val_main_v77_apply, val_main_c_19_apply]]
  simp only [degword_dstB, show ∀ j, (val_main_v85 (F := Ideal)) j = 1#32 from fun j => by simp only [val_main_v85_apply, val_main_c_23_apply]]
  rw [sum_append_selfloops (fun e => (wrapNeg 10000#32 (clipLow ((val_main_v65 (F := Ideal) x18) (ix1 e)))).toInt = (p.val : ℤ))
    (fun _ => (1#32 : BitVec 32)) p (fun k => by
      rw [cat_dst_rightB, clipLow_ofNat_small _ (by have := k.isLt; omega),
        wrapNeg_ofNat_small _ _ (by have := k.isLt; omega), toInt_ofNat_small _ (by have := k.isLt; omega)]
      exact ⟨fun h => Fin.ext (by exact_mod_cast h), fun h => by rw [h]⟩)]
  simp only [cat_dst_leftB]
  unfold selfDegree
  rw [BitVec.zero_add]

/-- The sending side's scale of a node: its out-degree to the power −1/2. -/
theorem scale_srcB (p : Fin 10000) :
    (val_main_v89 (F := Ideal) x18) (ix1 p) = rowScale (selfDegree (fun e : Fin 160000 => wrapNeg 10000#32 (clipLow (x18 (ix2 0 e)))) p) := by
  rw [val_main_v89_apply, val_main_v76_apply, deg_srcB, val_main_v88_apply, val_main_cst_24_apply]
  rfl

/-- The receiving side's scale. -/
theorem scale_dstB (p : Fin 10000) :
    (val_main_v91 (F := Ideal) x18) (ix1 p) = rowScale (selfDegree (fun e : Fin 160000 => wrapNeg 10000#32 (clipLow (x18 (ix2 1 e)))) p) := by
  rw [val_main_v91_apply, val_main_v87_apply, deg_dstB, val_main_v90_apply, val_main_cst_25_apply]
  rfl

/-- The row-scaled product of the branch, entry (r, c). -/
theorem h_atB (r : Fin 10000) (c : Fin 128) :
    (val_main_v95 (F := Ideal) x1 x4 x18) (ix2 r c) = scaledProd (val_main_v10 (F := Ideal) x1 x18) x4
      (fun j => rowScale (selfDegree (fun e : Fin 160000 => wrapNeg 10000#32 (clipLow (x18 (ix2 0 e)))) (⟨(j 0).val, idx2_lt0 j⟩ : Fin 10000))) r c := by
  rw [val_main_v95_apply, val_main_v92_apply, val_main_v94_apply, val_main_v93_apply,
    show idx_main_v93 (idx_main_v94 (ix2 r c)) = ix1 r from funext fun a => Fin.ext (by match a with | ⟨0, _⟩ => rfl), scale_srcB]
  unfold scaledProd
  refine congrArg₂ (· * ·) (Finset.sum_congr rfl fun k _ => congrArg₂ (· * ·)
    (congrArg _ (funext fun a => Fin.ext (by match a with | ⟨0, _⟩ => rfl | ⟨1, _⟩ => rfl)))
    (congrArg _ (funext fun a => Fin.ext (by match a with | ⟨0, _⟩ => rfl | ⟨1, _⟩ => rfl)))) rfl

/-- The word that selects the row an edge (or loop) gathers: negative words wrapped, not clipped. -/
theorem gwordB (e : Fin (160000 + 10000)) : (val_main_v101 (F := Ideal) x18) (ix2 e 0) = wrapNeg 10000#32 ((val_main_v64 (F := Ideal) x18) (ix1 e)) := by
  rw [val_main_v101_apply, show idx_main_v101 (ix2 e 0) = ix1 e from funext fun a => Fin.ext (by match a with | ⟨0, _⟩ => rfl)]
  simp only [val_main_v100_apply, val_main_v97_apply, val_main_v99_apply, val_main_v96_apply, val_main_v98_apply, val_main_c_26_apply, val_main_c_27_apply]
  rfl

/-- The word that says where an edge (or loop) lands: the raw destination word. -/
theorem swordB (e : Fin (160000 + 10000)) : (val_main_v104 (F := Ideal) x18) (ix2 e 0) = (val_main_v65 (F := Ideal) x18) (ix1 e) := by
  rw [val_main_v104_apply]
  exact congrArg _ (funext fun a => Fin.ext (by match a with | ⟨0, _⟩ => rfl))

/-- THE EDGE SUM WITH SELF-LOOPS: over the edges followed by the loops it is the sum over the edges plus the
    node's own row. -/
theorem agg_atB (p : Fin 10000) (q : Fin 128) :
    (val_main_v105 (F := Ideal) x1 x4 x18) (ix2 p q)
      = edgeSum (fun e : Fin 160000 => x18 (ix2 1 e)) (fun e => rowOf 10000 (by decide) (wrapNeg 10000#32 (x18 (ix2 0 e))))
          (fun r => (val_main_v95 (F := Ideal) x1 x4 x18) (ix2 r q)) p + (val_main_v95 (F := Ideal) x1 x4 x18) (ix2 p q) := by
  unfold val_main_v105
  rw [scatterAdd_ideal, show scatter_S10000x128_S170000x1_S170000x128_1_0_0_1 = ScatterRows.rowsDims 10000 (160000 + 10000) 128 scatter_S10000x128_S170000x1_S170000x128_1_0_0_1.wf from rfl]
  refine (rows_selfloops (N := 10000) (E := 160000) (C := 128) scatter_S10000x128_S170000x1_S170000x128_1_0_0_1.wf (val_main_v103 (F := Ideal)) (val_main_v104 (F := Ideal) x18) (val_main_v102 (F := Ideal) x1 x4 x18) (val_main_v95 (F := Ideal) x1 x4 x18) (fun e => x18 (ix2 1 e))
    (fun e => rowOf 10000 (by decide) (wrapNeg 10000#32 (x18 (ix2 0 e)))) ?_ ?_ ?_ ?_ p q).trans ?_
  · intro e; rw [swordB, cat_dst_leftB]
  · intro k; rw [swordB, cat_dst_rightB, toInt_ofNat_small _ (by have := k.isLt; omega)]
  · intro e c
    unfold val_main_v102
    rw [show gather_S10000x128_S170000x1_S170000x128_1_0_n_n_0_1_1128 = GatherRows.rowsDims 10000 (160000 + 10000) 128 gather_S10000x128_S170000x1_S170000x128_1_0_n_n_0_1_1128.wf from rfl,
      rows_gather_apply (N := 10000) (E := 160000 + 10000) (C := 128) (by decide) gather_S10000x128_S170000x1_S170000x128_1_0_n_n_0_1_1128.wf (val_main_v95 (F := Ideal) x1 x4 x18) (val_main_v101 (F := Ideal) x18) (Fin.castAdd 10000 e) c,
      gwordB, cat_src_leftB]
    rfl
  · intro k c
    unfold val_main_v102
    rw [show gather_S10000x128_S170000x1_S170000x128_1_0_n_n_0_1_1128 = GatherRows.rowsDims 10000 (160000 + 10000) 128 gather_S10000x128_S170000x1_S170000x128_1_0_n_n_0_1_1128.wf from rfl,
      rows_gather_apply (N := 10000) (E := 160000 + 10000) (C := 128) (by decide) gather_S10000x128_S170000x1_S170000x128_1_0_n_n_0_1_1128.wf (val_main_v95 (F := Ideal) x1 x4 x18) (val_main_v101 (F := Ideal) x18) (Fin.natAdd 160000 k) c,
      gwordB, cat_src_rightB, wrapNeg_ofNat_small _ _ (by have := k.isLt; omega)]
    exact congrArg (val_main_v95 (F := Ideal) x1 x4 x18) (congrArg₂ ix2 (rowOf_ofNat_small 10000 (by decide) k (by decide)) rfl)
  · rw [show (val_main_v103 (F := Ideal)) (ix2 p q) = (0 : EReal) from by
      simp only [val_main_v103_apply, val_main_cst_28_apply, Ideal.ofBits_def, Ideal.ofBits_zero_f32], zero_add]
    rfl

/-- The branch's result before the two are added: scaled on the receiving side, biased, weighted. -/
theorem convoutB (p : Fin 10000) (c : Fin 128) :
    (val_main_v114 (F := Ideal) x1 x4 x5 x7 x18) (ix2 p c) = ((val_main_v105 (F := Ideal) x1 x4 x18) (ix2 p c) * (val_main_v91 (F := Ideal) x18) (ix1 p) + x5 (ix1 c)) * x7 (ix1 c) := by
  rw [val_main_v114_apply, val_main_v111_apply, val_main_v108_apply, val_main_v107_apply, val_main_v106_apply, val_main_v110_apply, val_main_v109_apply, val_main_v113_apply, val_main_v112_apply,
    show idx_main_v106 (idx_main_v107 (ix2 p c)) = ix1 p from funext fun a => Fin.ext (by match a with | ⟨0, _⟩ => rfl),
    show idx_main_v109 (idx_main_v110 (ix2 p c)) = ix1 c from funext fun a => Fin.ext (by match a with | ⟨0, _⟩ => rfl),
    show idx_main_v112 (idx_main_v113 (ix2 p c)) = ix1 c from funext fun a => Fin.ext (by match a with | ⟨0, _⟩ => rfl)]
  rfl

/-! ### The two branches added; each row normalised, mapped affinely, clamped at zero -/

theorem mean_at (p : Fin 10000) : (val_main_v119 (F := Ideal) x0 x1 x2 x3 x4 x5 x6 x7 x18) (ix2 p (0 : Fin 1)) = rowMean (fun c => (val_main_v115 (F := Ideal) x0 x1 x2 x3 x4 x5 x6 x7 x18) (ix2 p c)) := by
  rw [val_main_v119_apply, val_main_v117_apply, val_main_v116_apply, val_main_v118_apply, val_main_cst_30_apply, val_main_cst_29_apply,
    show idx_main_v117 (ix2 p (0 : Fin 1)) = ix1 p from funext fun a => Fin.ext (by match a with | ⟨0, _⟩ => rfl)]
  unfold rowMean cols
  refine congrArg₂ Ideal.div ?_ rfl
  rw [show (FloatOps.ofBits (F := Ideal) .f32 0x00000000#32 : EReal) = 0 from Ideal.ofBits_zero_f32, zero_add]
  exact Finset.sum_congr rfl fun k _ => congrArg _ (funext fun a => Fin.ext (by match a with | ⟨0, _⟩ => rfl | ⟨1, _⟩ => rfl))

theorem var_at (p : Fin 10000) : (val_main_v126 (F := Ideal) x0 x1 x2 x3 x4 x5 x6 x7 x18) (ix2 p (0 : Fin 1)) = rowVar (fun c => (val_main_v115 (F := Ideal) x0 x1 x2 x3 x4 x5 x6 x7 x18) (ix2 p c)) := by
  rw [val_main_v126_apply, val_main_v124_apply, val_main_v123_apply, val_main_v125_apply, val_main_cst_32_apply, val_main_cst_31_apply,
    show idx_main_v124 (ix2 p (0 : Fin 1)) = ix1 p from funext fun a => Fin.ext (by match a with | ⟨0, _⟩ => rfl)]
  unfold rowVar cols
  refine congrArg₂ Ideal.div ?_ rfl
  rw [show (FloatOps.ofBits (F := Ideal) .f32 0x00000000#32 : EReal) = 0 from Ideal.ofBits_zero_f32, zero_add]
  refine Finset.sum_congr rfl fun k _ => ?_
  rw [show idx_main_v123 (ix1 p) k = ix2 p k from funext fun a => Fin.ext (by match a with | ⟨0, _⟩ => rfl | ⟨1, _⟩ => rfl), val_main_v122_apply, val_main_v121_apply, val_main_v120_apply,
    show idx_main_v120 (ix2 p k) = ix2 p (0 : Fin 1) from funext fun a => Fin.ext (by match a with | ⟨0, _⟩ => rfl | ⟨1, _⟩ => rfl), mean_at]
  rfl

theorem out_at (p : Fin 10000) (q : Fin 128) :
    (val_main_v140 (F := Ideal) x0 x1 x2 x3 x4 x5 x6 x7 x8 x9 x18) (ix2 p q) = normRelu (fun c => (val_main_v115 (F := Ideal) x0 x1 x2 x3 x4 x5 x6 x7 x18) (ix2 p c)) (fun c => x8 (ix1 c)) (fun c => x9 (ix1 c)) q := by
  rw [val_main_v140_apply, val_main_v139_apply, val_main_v136_apply, val_main_v133_apply, val_main_v128_apply, val_main_v127_apply, val_main_v132_apply, val_main_v131_apply,
    val_main_v130_apply, val_main_v129_apply, val_main_cst_33_apply, val_main_v135_apply, val_main_v134_apply, val_main_v138_apply, val_main_v137_apply,
    val_main_call4_v0_apply, val_main_call4_cst_apply,
    show idx_main_v127 (ix2 p q) = ix2 p (0 : Fin 1) from funext fun a => Fin.ext (by match a with | ⟨0, _⟩ => rfl | ⟨1, _⟩ => rfl),
    show idx_main_v132 (ix2 p q) = ix2 p (0 : Fin 1) from funext fun a => Fin.ext (by match a with | ⟨0, _⟩ => rfl | ⟨1, _⟩ => rfl), mean_at, var_at,
    show idx_main_v134 (idx_main_v135 (ix2 p q)) = ix1 q from funext fun a => Fin.ext (by match a with | ⟨0, _⟩ => rfl),
    show idx_main_v137 (idx_main_v138 (ix2 p q)) = ix1 q from funext fun a => Fin.ext (by match a with | ⟨0, _⟩ => rfl)]
  rfl

/-- THE LEVEL'S RESULT, entry (p, q), in closed form. -/
theorem level_out (p : Fin 10000) (q : Fin 128) :
    (val_main_v140 (F := Ideal) x0 x1 x2 x3 x4 x5 x6 x7 x8 x9 x18) (ix2 p q) = levelOut (N := 10000) (E := 160000) (by decide) 10000#32 x0 (incSum (fun e : Fin 160000 => x18 (ix2 1 e)) x1) x2 x4
      (fun k => x3 (ix1 k)) (fun k => x6 (ix1 k)) (fun k => x5 (ix1 k)) (fun k => x7 (ix1 k))
      (fun k => x8 (ix1 k)) (fun k => x9 (ix1 k)) (fun e => x18 (ix2 0 e)) (fun e => x18 (ix2 1 e)) p q := by
  rw [out_at]
  unfold levelOut
  refine congrArg (fun z => normRelu z _ _ q) (funext fun c => ?_)
  rw [val_main_v115_apply]
  show (val_main_v62 (F := Ideal) x0 x2 x3 x6 x18) (ix2 p c) + (val_main_v114 (F := Ideal) x1 x4 x5 x7 x18) (ix2 p c) = _
  rw [convoutA, convoutB, agg_atA, agg_atB, scale_dstA, scale_dstB]
  simp only [h_atA, h_atB, feat_eq]
  rfl

end Cert.ReferenceIdeal.RefLevel0

end
-- ==== Proof.RefLevel1.lean ====
/-
  The reference's level two, read entry by entry.

  The reference appends one self-loop per node to the edge list and runs each branch as a plain graph convolution over
  all edges: degrees are counted over edges and loops, rows are gathered for edges and loops, and the gathered rows are
  summed by destination. Counting over the loops adds one to every node; gathering and summing over the loops adds the
  node's own row. What is left is the closed form of SpecGraph: the edge sum plus the node's own term, scaled,
  biased and weighted per branch, the two branches added, each row normalised.
-/
import proofs.«181315_g23613730193938_cont_sun_m_512_6_alg».proof.Proof.RefRead
import proofs.«181315_g23613730193938_cont_sun_m_512_6_alg».proof.Proof.SpecGraph
import proofs.«181315_g23613730193938_cont_sun_m_512_6_alg».proof.Proof.LibGraphAgg
import proofs.«181315_g23613730193938_cont_sun_m_512_6_alg».proof.Proof.LibGatherRows
import proofs.«181315_g23613730193938_cont_sun_m_512_6_alg».proof.Proof.LibIndexWords
import Idealize.ShloMosaic.Lib.Pipeline.Value
import Idealize.ShloMosaic.PureOps.Ideal.Laws

set_option maxRecDepth 16384

noncomputable section

namespace Cert.ReferenceIdeal.RefLevel1

open Cert.ReferenceIdeal Cert.ReferenceIdeal.Gen Cert.ReferenceIdeal.Read Idealize.ShloMosaic Idealize.ShloMosaic.ValueIdx
open Idealize.ShloMosaic.ScatterRows Idealize.ShloMosaic.GraphAgg Idealize.ShloMosaic.SelfLoops Cert.Spec
open Idealize.ShloMosaic.GatherRows (rows_gather_apply clampRow)

variable (x0 : (⟨S10000x128, .f32⟩ : BufTy).Contents (Elt Ideal)) (x1 : (⟨S160000x128, .f32⟩ : BufTy).Contents (Elt Ideal))
  (x2 x4 x10 x12 : (⟨S128x128, .f32⟩ : BufTy).Contents (Elt Ideal))
  (x3 x5 x6 x7 x8 x9 x11 x13 x14 x15 x16 x17 : (⟨S128, .f32⟩ : BufTy).Contents (Elt Ideal))
  (x18 : (⟨S2x160000, .i32⟩ : BufTy).Contents (Elt Ideal)) (x19 : (⟨S2x640000, .i32⟩ : BufTy).Contents (Elt Ideal))

/-- On the extended reals the host's accumulating scatter is the exact sum (by definition). -/
theorem scatterAdd_ideal {s si u : Shape} {w : ℕ} (d : ScatterDims s si u) (x : FVec Ideal s .f32) (i : IVec si w)
    (upd : FVec Ideal u .f32) : Host.scatterAdd d x i upd = Ideal.hostScatterAdd d x i upd := rfl

/-! ### The edge words -/

/-- The source word of edge `e`: row 0 of the edge array. -/
theorem src_at (e : Fin 640000) : (val_main_v5 (F := Ideal) x19) (ix1 e) = x19 (ix2 0 e) := by
  rw [val_main_v5_apply, val_main_v4_apply]
  exact congrArg x19 (funext fun a => Fin.ext (by
    match a with
    | ⟨0, _⟩ => rfl
    | ⟨1, _⟩ => exact Nat.mod_eq_of_lt e.isLt))

/-- The destination word of edge `e`: row 1 of the edge array. -/
theorem dst_at (e : Fin 640000) : (val_main_v7 (F := Ideal) x19) (ix1 e) = x19 (ix2 1 e) := by
  rw [val_main_v7_apply, val_main_v6_apply]
  exact congrArg x19 (funext fun a => Fin.ext (by
    match a with
    | ⟨0, _⟩ => rfl
    | ⟨1, _⟩ => exact Nat.mod_eq_of_lt e.isLt))

/-- The destination word of edge `e` of the other level's graph. -/
theorem dst0_at (e : Fin 160000) : (val_main_v3 (F := Ideal) x18) (ix1 e) = x18 (ix2 1 e) := by
  rw [val_main_v3_apply, val_main_v2_apply]
  exact congrArg x18 (funext fun a => Fin.ext (by
    match a with
    | ⟨0, _⟩ => rfl
    | ⟨1, _⟩ => exact Nat.mod_eq_of_lt e.isLt))

/-- The second branch's input: row e is the row of the other level's features that edge e's wrapped destination word
    selects. -/
theorem feat_eq : (val_main_v147 (F := Ideal) x0 x18)
    = incRows (N := 10000) (E := 160000) (by decide) 10000#32 (fun e : Fin 160000 => x18 (ix2 1 e)) x0 := by
  funext j
  obtain ⟨e, k, rfl⟩ : ∃ (e : Fin 160000) (k : Fin 128), j = ix2 e k := ⟨j 0, j 1, eq_ix2 j⟩
  unfold val_main_v147
  refine (rows_gather_apply (N := 10000) (E := 160000) (C := 128) (by decide) gather_S10000x128_S160000x1_S160000x128_1_0_n_n_0_1_1128.wf _ _ e k).trans ?_
  rw [val_main_v146_apply, show idx_main_v146 (ix2 e (0 : Fin 1)) = ix1 e from funext fun a => Fin.ext (by match a with | ⟨0, _⟩ => rfl)]
  simp only [val_main_v145_apply, val_main_v142_apply, val_main_v144_apply, val_main_v141_apply, val_main_v143_apply,
    val_main_c_34_apply, val_main_c_35_apply, dst0_at]
  rfl

/-! ### Branch A: words, degrees, scales, the scaled product, the edge sum -/

theorem cat_src_leftA (e : Fin 640000) : (val_main_v149 (F := Ideal) x19) (ix1 (Fin.castAdd 160000 e)) = x19 (ix2 0 e) := by
  unfold val_main_v149
  exact (concatenate_pair_apply_left (t := S800000) (s₁ := S640000) (s₂ := S160000) 0 _ _ _ (ix1 (Fin.castAdd 160000 e)) rfl (ix1 e)
    (fun b => by match b with | ⟨0, _⟩ => rfl)).trans (src_at x19 e)

theorem cat_src_rightA (k : Fin 160000) : (val_main_v149 (F := Ideal) x19) (ix1 (Fin.natAdd 640000 k)) = BitVec.ofNat 32 k.val := by
  unfold val_main_v149
  exact concatenate_pair_apply_right (t := S800000) (s₁ := S640000) (s₂ := S160000) 0 _ _ _ (ix1 (Fin.natAdd 640000 k)) rfl rfl (ix1 k)
    (fun b hb => by match b with | ⟨0, _⟩ => exact absurd rfl hb) (by show k.val + 640000 = 640000 + k.val; omega)

theorem cat_dst_leftA (e : Fin 640000) : (val_main_v150 (F := Ideal) x19) (ix1 (Fin.castAdd 160000 e)) = x19 (ix2 1 e) := by
  unfold val_main_v150
  exact (concatenate_pair_apply_left (t := S800000) (s₁ := S640000) (s₂ := S160000) 0 _ _ _ (ix1 (Fin.castAdd 160000 e)) rfl (ix1 e)
    (fun b => by match b with | ⟨0, _⟩ => rfl)).trans (dst_at x19 e)

theorem cat_dst_rightA (k : Fin 160000) : (val_main_v150 (F := Ideal) x19) (ix1 (Fin.natAdd 640000 k)) = BitVec.ofNat 32 k.val := by
  unfold val_main_v150
  exact concatenate_pair_apply_right (t := S800000) (s₁ := S640000) (s₂ := S160000) 0 _ _ _ (ix1 (Fin.natAdd 640000 k)) rfl rfl (ix1 k)
    (fun b hb => by match b with | ⟨0, _⟩ => exact absurd rfl hb) (by show k.val + 640000 = 640000 + k.val; omega)

/-- The word an edge (or loop) is counted under on the sending side: clipped below at zero, negative words wrapped. -/
theorem degword_srcA (e : Fin (640000 + 160000)) : (val_main_v158 (F := Ideal) x19) (ix2 e 0) = wrapNeg 160000#32 (clipLow ((val_main_v149 (F := Ideal) x19) (ix1 e))) := by
  rw [val_main_v158_apply, show idx_main_v158 (ix2 e 0) = ix1 e from funext fun a => Fin.ext (by match a with | ⟨0, _⟩ => rfl)]
  simp only [val_main_v157_apply, val_main_v154_apply, val_main_v156_apply, val_main_v152_apply, val_main_v153_apply, val_main_v155_apply, val_main_call5_v1_apply,
    val_main_call5_v0_apply, val_main_c_37_apply, val_main_c_38_apply, val_main_c_39_apply]
  rfl

/-- … and on the receiving side. -/
theorem degword_dstA (e : Fin (640000 + 160000)) : (val_main_v169 (F := Ideal) x19) (ix2 e 0) = wrapNeg 160000#32 (clipLow ((val_main_v150 (F := Ideal) x19) (ix1 e))) := by
  rw [val_main_v169_apply, show idx_main_v169 (ix2 e 0) = ix1 e from funext fun a => Fin.ext (by match a with | ⟨0, _⟩ => rfl)]
  simp only [val_main_v168_apply, val_main_v165_apply, val_main_v167_apply, val_main_v163_apply, val_main_v164_apply, val_main_v166_apply, val_main_call6_v1_apply,
    val_main_call6_v0_apply, val_main_c_42_apply, val_main_c_43_apply, val_main_c_44_apply]
  rfl

/-- The out-degree with the self-loop: counting over the edges followed by the loops is the edge count plus one. -/
theorem deg_srcA (p : Fin 160000) :
    (val_main_v160 (F := Ideal) x19) (ix1 p) = selfDegree (fun e : Fin 640000 => wrapNeg 160000#32 (clipLow (x19 (ix2 0 e)))) p := by
  unfold val_main_v160
  refine (count_scatter_apply (N := 160000) (E := 640000 + 160000) scatter_S160000_S800000x1_S800000_n_0_0_1.wf IntOp.addi (fun _ _ => rfl) _ _ _ p).trans ?_
  rw [show (val_main_v151 (F := Ideal)) (ix1 p) = 0#32 from by simp only [val_main_v151_apply, val_main_c_36_apply]]
  simp only [degword_srcA, show ∀ j, (val_main_v159 (F := Ideal)) j = 1#32 from fun j => by simp only [val_main_v159_apply, val_main_c_40_apply]]
  rw [sum_append_selfloops (fun e => (wrapNeg 160000#32 (clipLow ((val_main_v149 (F := Ideal) x19) (ix1 e)))).toInt = (p.val : ℤ))
    (fun _ => (1#32 : BitVec 32)) p (fun k => by
      rw [cat_src_rightA, clipLow_ofNat_small _ (by have := k.isLt; omega),
        wrapNeg_ofNat_small _ _ (by have := k.isLt; omega), toInt_ofNat_small _ (by have := k.isLt; omega)]
      exact ⟨fun h => Fin.ext (by exact_mod_cast h), fun h => by rw [h]⟩)]
  simp only [cat_src_leftA]
  unfold selfDegree
  rw [BitVec.zero_add]

/-- The in-degree with the self-loop. -/
theorem deg_dstA (p : Fin 160000) :
    (val_main_v171 (F := Ideal) x19) (ix1 p) = selfDegree (fun e : Fin 640000 => wrapNeg 160000#32 (clipLow (x19 (ix2 1 e)))) p := by
  unfold val_main_v171
  refine (count_scatter_apply (N := 160000) (E := 640000 + 160000) scatter_S160000_S800000x1_S800000_n_0_0_1.wf IntOp.addi (fun _ _ => rfl) _ _ _ p).trans ?_
  rw [show (val_main_v162 (F := Ideal)) (ix1 p) = 0#32 from by simp only [val_main_v162_apply, val_main_c_41_apply]]
  simp only [degword_dstA, show ∀ j, (val_main_v170 (F := Ideal)) j = 1#32 from fun j => by simp only [val_main_v170_apply, val_main_c_45_apply]]
  rw [sum_append_selfloops (fun e => (wrapNeg 160000#32 (clipLow ((val_main_v150 (F := Ideal) x19) (ix1 e)))).toInt = (p.val : ℤ))
    (fun _ => (1#32 : BitVec 32)) p (fun k => by
      rw [cat_dst_rightA, clipLow_ofNat_small _ (by have := k.isLt; omega),
        wrapNeg_ofNat_small _ _ (by have := k.isLt; omega), toInt_ofNat_small _ (by have := k.isLt; omega)]
      exact ⟨fun h => Fin.ext (by exact_mod_cast h), fun h => by rw [h]⟩)]
  simp only [cat_dst_leftA]
  unfold selfDegree
  rw [BitVec.zero_add]

/-- The sending side's scale of a node: its out-degree to the power −1/2. -/
theorem scale_srcA (p : Fin 160000) :
    (val_main_v174 (F := Ideal) x19) (ix1 p) = rowScale (selfDegree (fun e : Fin 640000 => wrapNeg 160000#32 (clipLow (x19 (ix2 0 e)))) p) := by
  rw [val_main_v174_apply, val_main_v161_apply, deg_srcA, val_main_v173_apply, val_main_cst_46_apply]
  rfl

/-- The receiving side's scale. -/
theorem scale_dstA (p : Fin 160000) :
    (val_main_v176 (F := Ideal) x19) (ix1 p) = rowScale (selfDegree (fun e : Fin 640000 => wrapNeg 160000#32 (clipLow (x19 (ix2 1 e)))) p) := by
  rw [val_main_v176_apply, val_main_v172_apply, deg_dstA, val_main_v175_apply, val_main_cst_47_apply]
  rfl

/-- The row-scaled product of the branch, entry (r, c). -/
theorem h_atA (r : Fin 160000) (c : Fin 128) :
    (val_main_v180 (F := Ideal) x1 x10 x19) (ix2 r c) = scaledProd x1 x10
      (fun j => rowScale (selfDegree (fun e : Fin 640000 => wrapNeg 160000#32 (clipLow (x19 (ix2 0 e)))) (⟨(j 0).val, idx2_lt0 j⟩ : Fin 160000))) r c := by
  rw [val_main_v180_apply, val_main_v177_apply, val_main_v179_apply, val_main_v178_apply,
    show idx_main_v178 (idx_main_v179 (ix2 r c)) = ix1 r from funext fun a => Fin.ext (by match a with | ⟨0, _⟩ => rfl), scale_srcA]
  unfold scaledProd
  refine congrArg₂ (· * ·) (Finset.sum_congr rfl fun k _ => congrArg₂ (· * ·)
    (congrArg _ (funext fun a => Fin.ext (by match a with | ⟨0, _⟩ => rfl | ⟨1, _⟩ => rfl)))
    (congrArg _ (funext fun a => Fin.ext (by match a with | ⟨0, _⟩ => rfl | ⟨1, _⟩ => rfl)))) rfl

/-- The word that selects the row an edge (or loop) gathers: negative words wrapped, not clipped. -/
theorem gwordA (e : Fin (640000 + 160000)) : (val_main_v186 (F := Ideal) x19) (ix2 e 0) = wrapNeg 160000#32 ((val_main_v149 (F := Ideal) x19) (ix1 e)) := by
  rw [val_main_v186_apply, show idx_main_v186 (ix2 e 0) = ix1 e from funext fun a => Fin.ext (by match a with | ⟨0, _⟩ => rfl)]
  simp only [val_main_v185_apply, val_main_v182_apply, val_main_v184_apply, val_main_v181_apply, val_main_v183_apply, val_main_c_48_apply, val_main_c_49_apply]
  rfl

/-- The word that says where an edge (or loop) lands: the raw destination word. -/
theorem swordA (e : Fin (640000 + 160000)) : (val_main_v189 (F := Ideal) x19) (ix2 e 0) = (val_main_v150 (F := Ideal) x19) (ix1 e) := by
  rw [val_main_v189_apply]
  exact congrArg _ (funext fun a => Fin.ext (by match a with | ⟨0, _⟩ => rfl))

/-- THE EDGE SUM WITH SELF-LOOPS: over the edges followed by the loops it is the sum over the edges plus the
    node's own row. -/
theorem agg_atA (p : Fin 160000) (q : Fin 128) :
    (val_main_v190 (F := Ideal) x1 x10 x19) (ix2 p q)
      = edgeSum (fun e : Fin 640000 => x19 (ix2 1 e)) (fun e => rowOf 160000 (by decide) (wrapNeg 160000#32 (x19 (ix2 0 e))))
          (fun r => (val_main_v180 (F := Ideal) x1 x10 x19) (ix2 r q)) p + (val_main_v180 (F := Ideal) x1 x10 x19) (ix2 p q) := by
  unfold val_main_v190
  rw [scatterAdd_ideal, show scatter_S160000x128_S800000x1_S800000x128_1_0_0_1 = ScatterRows.rowsDims 160000 (640000 + 160000) 128 scatter_S160000x128_S800000x1_S800000x128_1_0_0_1.wf from rfl]
  refine (rows_selfloops (N := 160000) (E := 640000) (C := 128) scatter_S160000x128_S800000x1_S800000x128_1_0_0_1.wf (val_main_v188 (F := Ideal)) (val_main_v189 (F := Ideal) x19) (val_main_v187 (F := Ideal) x1 x10 x19) (val_main_v180 (F := Ideal) x1 x10 x19) (fun e => x19 (ix2 1 e))
    (fun e => rowOf 160000 (by decide) (wrapNeg 160000#32 (x19 (ix2 0 e)))) ?_ ?_ ?_ ?_ p q).trans ?_
  · intro e; rw [swordA, cat_dst_leftA]
  · intro k; rw [swordA, cat_dst_rightA, toInt_ofNat_small _ (by have := k.isLt; omega)]
  · intro e c
    unfold val_main_v187
    rw [show gather_S160000x128_S800000x1_S800000x128_1_0_n_n_0_1_1128 = GatherRows.rowsDims 160000 (640000 + 160000) 128 gather_S160000x128_S800000x1_S800000x128_1_0_n_n_0_1_1128.wf from rfl,
      rows_gather_apply (N := 160000) (E := 640000 + 160000) (C := 128) (by decide) gather_S160000x128_S800000x1_S800000x128_1_0_n_n_0_1_1128.wf (val_main_v180 (F := Ideal) x1 x10 x19) (val_main_v186 (F := Ideal) x19) (Fin.castAdd 160000 e) c,
      gwordA, cat_src_leftA]
    rfl
  · intro k c
    unfold val_main_v187
    rw [show gather_S160000x128_S800000x1_S800000x128_1_0_n_n_0_1_1128 = GatherRows.rowsDims 160000 (640000 + 160000) 128 gather_S160000x128_S800000x1_S800000x128_1_0_n_n_0_1_1128.wf from rfl,
      rows_gather_apply (N := 160000) (E := 640000 + 160000) (C := 128) (by decide) gather_S160000x128_S800000x1_S800000x128_1_0_n_n_0_1_1128.wf (val_main_v180 (F := Ideal) x1 x10 x19) (val_main_v186 (F := Ideal) x19) (Fin.natAdd 640000 k) c,
      gwordA, cat_src_rightA, wrapNeg_ofNat_small _ _ (by have := k.isLt; omega)]
    exact congrArg (val_main_v180 (F := Ideal) x1 x10 x19) (congrArg₂ ix2 (rowOf_ofNat_small 160000 (by decide) k (by decide)) rfl)
  · rw [show (val_main_v188 (F := Ideal)) (ix2 p q) = (0 : EReal) from by
      simp only [val_main_v188_apply, val_main_cst_50_apply, Ideal.ofBits_def, Ideal.ofBits_zero_f32], zero_add]
    rfl

/-- The branch's result before the two are added: scaled on the receiving side, biased, weighted. -/
theorem convoutA (p : Fin 160000) (c : Fin 128) :
    (val_main_v199 (F := Ideal) x1 x10 x11 x14 x19) (ix2 p c) = ((val_main_v190 (F := Ideal) x1 x10 x19) (ix2 p c) * (val_main_v176 (F := Ideal) x19) (ix1 p) + x11 (ix1 c)) * x14 (ix1 c) := by
  rw [val_main_v199_apply, val_main_v196_apply, val_main_v193_apply, val_main_v192_apply, val_main_v191_apply, val_main_v195_apply, val_main_v194_apply, val_main_v198_apply, val_main_v197_apply,
    show idx_main_v191 (idx_main_v192 (ix2 p c)) = ix1 p from funext fun a => Fin.ext (by match a with | ⟨0, _⟩ => rfl),
    show idx_main_v194 (idx_main_v195 (ix2 p c)) = ix1 c from funext fun a => Fin.ext (by match a with | ⟨0, _⟩ => rfl),
    show idx_main_v197 (idx_main_v198 (ix2 p c)) = ix1 c from funext fun a => Fin.ext (by match a with | ⟨0, _⟩ => rfl)]
  rfl

/-! ### Branch B: words, degrees, scales, the scaled product, the edge sum -/

theorem cat_src_leftB (e : Fin 640000) : (val_main_v201 (F := Ideal) x19) (ix1 (Fin.castAdd 160000 e)) = x19 (ix2 0 e) := by
  unfold val_main_v201
  exact (concatenate_pair_apply_left (t := S800000) (s₁ := S640000) (s₂ := S160000) 0 _ _ _ (ix1 (Fin.castAdd 160000 e)) rfl (ix1 e)
    (fun b => by match b with | ⟨0, _⟩ => rfl)).trans (src_at x19 e)

theorem cat_src_rightB (k : Fin 160000) : (val_main_v201 (F := Ideal) x19) (ix1 (Fin.natAdd 640000 k)) = BitVec.ofNat 32 k.val := by
  unfold val_main_v201
  exact concatenate_pair_apply_right (t := S800000) (s₁ := S640000) (s₂ := S160000) 0 _ _ _ (ix1 (Fin.natAdd 640000 k)) rfl rfl (ix1 k)
    (fun b hb => by match b with | ⟨0, _⟩ => exact absurd rfl hb) (by show k.val + 640000 = 640000 + k.val; omega)

theorem cat_dst_leftB (e : Fin 640000) : (val_main_v202 (F := Ideal) x19) (ix1 (Fin.castAdd 160000 e)) = x19 (ix2 1 e) := by
  unfold val_main_v202
  exact (concatenate_pair_apply_left (t := S800000) (s₁ := S640000) (s₂ := S160000) 0 _ _ _ (ix1 (Fin.castAdd 160000 e)) rfl (ix1 e)
    (fun b => by match b with | ⟨0, _⟩ => rfl)).trans (dst_at x19 e)

theorem cat_dst_rightB (k : Fin 160000) : (val_main_v202 (F := Ideal) x19) (ix1 (Fin.natAdd 640000 k)) = BitVec.ofNat 32 k.val := by
  unfold val_main_v202
  exact concatenate_pair_apply_right (t := S800000) (s₁ := S640000) (s₂ := S160000) 0 _ _ _ (ix1 (Fin.natAdd 640000 k)) rfl rfl (ix1 k)
    (fun b hb => by match b with | ⟨0, _⟩ => exact absurd rfl hb) (by show k.val + 640000 = 640000 + k.val; omega)

/-- The word an edge (or loop) is counted under on the sending side: clipped below at zero, negative words wrapped. -/
theorem degword_srcB (e : Fin (640000 + 160000)) : (val_main_v210 (F := Ideal) x19) (ix2 e 0) = wrapNeg 160000#32 (clipLow ((val_main_v201 (F := Ideal) x19) (ix1 e))) := by
  rw [val_main_v210_apply, show idx_main_v210 (ix2 e 0) = ix1 e from funext fun a => Fin.ext (by match a with | ⟨0, _⟩ => rfl)]
  simp only [val_main_v209_apply, val_main_v206_apply, val_main_v208_apply, val_main_v204_apply, val_main_v205_apply, val_main_v207_apply, val_main_call7_v1_apply,
    val_main_call7_v0_apply, val_main_c_52_apply, val_main_c_53_apply, val_main_c_54_apply]
  rfl

/-- … and on the receiving side. -/
theorem degword_dstB (e : Fin (640000 + 160000)) : (val_main_v221 (F := Ideal) x19) (ix2 e 0) = wrapNeg 160000#32 (clipLow ((val_main_v202 (F := Ideal) x19) (ix1 e))) := by
  rw [val_main_v221_apply, show idx_main_v221 (ix2 e 0) = ix1 e from funext fun a => Fin.ext (by match a with | ⟨0, _⟩ => rfl)]
  simp only [val_main_v220_apply, val_main_v217_apply, val_main_v219_apply, val_main_v215_apply, val_main_v216_apply, val_main_v218_apply, val_main_call8_v1_apply,
    val_main_call8_v0_apply, val_main_c_57_apply, val_main_c_58_apply, val_main_c_59_apply]
  rfl

/-- The out-degree with the self-loop: counting over the edges followed by the loops is the edge count plus one. -/
theorem deg_srcB (p : Fin 160000) :
    (val_main_v212 (F := Ideal) x19) (ix1 p) = selfDegree (fun e : Fin 640000 => wrapNeg 160000#32 (clipLow (x19 (ix2 0 e)))) p := by
  unfold val_main_v212
  refine (count_scatter_apply (N := 160000) (E := 640000 + 160000) scatter_S160000_S800000x1_S800000_n_0_0_1.wf IntOp.addi (fun _ _ => rfl) _ _ _ p).trans ?_
  rw [show (val_main_v203 (F := Ideal)) (ix1 p) = 0#32 from by simp only [val_main_v203_apply, val_main_c_51_apply]]
  simp only [degword_srcB, show ∀ j, (val_main_v211 (F := Ideal)) j = 1#32 from fun j => by simp only [val_main_v211_apply, val_main_c_55_apply]]
  rw [sum_append_selfloops (fun e => (wrapNeg 160000#32 (clipLow ((val_main_v201 (F := Ideal) x19) (ix1 e)))).toInt = (p.val : ℤ))
    (fun _ => (1#32 : BitVec 32)) p (fun k => by
      rw [cat_src_rightB, clipLow_ofNat_small _ (by have := k.isLt; omega),
        wrapNeg_ofNat_small _ _ (by have := k.isLt; omega), toInt_ofNat_small _ (by have := k.isLt; omega)]
      exact ⟨fun h => Fin.ext (by exact_mod_cast h), fun h => by rw [h]⟩)]
  simp only [cat_src_leftB]
  unfold selfDegree
  rw [BitVec.zero_add]

/-- The in-degree with the self-loop. -/
theorem deg_dstB (p : Fin 160000) :
    (val_main_v223 (F := Ideal) x19) (ix1 p) = selfDegree (fun e : Fin 640000 => wrapNeg 160000#32 (clipLow (x19 (ix2 1 e)))) p := by
  unfold val_main_v223
  refine (count_scatter_apply (N := 160000) (E := 640000 + 160000) scatter_S160000_S800000x1_S800000_n_0_0_1.wf IntOp.addi (fun _ _ => rfl) _ _ _ p).trans ?_
  rw [show (val_main_v214 (F := Ideal)) (ix1 p) = 0#32 from by simp only [val_main_v214_apply, val_main_c_56_apply]]
  simp only [degword_dstB, show ∀ j, (val_main_v222 (F := Ideal)) j = 1#32 from fun j => by simp only [val_main_v222_apply, val_main_c_60_apply]]
  rw [sum_append_selfloops (fun e => (wrapNeg 160000#32 (clipLow ((val_main_v202 (F := Ideal) x19) (ix1 e)))).toInt = (p.val : ℤ))
    (fun _ => (1#32 : BitVec 32)) p (fun k => by
      rw [cat_dst_rightB, clipLow_ofNat_small _ (by have := k.isLt; omega),
        wrapNeg_ofNat_small _ _ (by have := k.isLt; omega), toInt_ofNat_small _ (by have := k.isLt; omega)]
      exact ⟨fun h => Fin.ext (by exact_mod_cast h), fun h => by rw [h]⟩)]
  simp only [cat_dst_leftB]
  unfold selfDegree
  rw [BitVec.zero_add]

/-- The sending side's scale of a node: its out-degree to the power −1/2. -/
theorem scale_srcB (p : Fin 160000) :
    (val_main_v226 (F := Ideal) x19) (ix1 p) = rowScale (selfDegree (fun e : Fin 640000 => wrapNeg 160000#32 (clipLow (x19 (ix2 0 e)))) p) := by
  rw [val_main_v226_apply, val_main_v213_apply, deg_srcB, val_main_v225_apply, val_main_cst_61_apply]
  rfl

/-- The receiving side's scale. -/
theorem scale_dstB (p : Fin 160000) :
    (val_main_v228 (F := Ideal) x19) (ix1 p) = rowScale (selfDegree (fun e : Fin 640000 => wrapNeg 160000#32 (clipLow (x19 (ix2 1 e)))) p) := by
  rw [val_main_v228_apply, val_main_v224_apply, deg_dstB, val_main_v227_apply, val_main_cst_62_apply]
  rfl

/-- The row-scaled product of the branch, entry (r, c). -/
theorem h_atB (r : Fin 160000) (c : Fin 128) :
    (val_main_v232 (F := Ideal) x0 x12 x18 x19) (ix2 r c) = scaledProd (val_main_v147 (F := Ideal) x0 x18) x12
      (fun j => rowScale (selfDegree (fun e : Fin 640000 => wrapNeg 160000#32 (clipLow (x19 (ix2 0 e)))) (⟨(j 0).val, idx2_lt0 j⟩ : Fin 160000))) r c := by
  rw [val_main_v232_apply, val_main_v229_apply, val_main_v231_apply, val_main_v230_apply,
    show idx_main_v230 (idx_main_v231 (ix2 r c)) = ix1 r from funext fun a => Fin.ext (by match a with | ⟨0, _⟩ => rfl), scale_srcB]
  unfold scaledProd
  refine congrArg₂ (· * ·) (Finset.sum_congr rfl fun k _ => congrArg₂ (· * ·)
    (congrArg _ (funext fun a => Fin.ext (by match a with | ⟨0, _⟩ => rfl | ⟨1, _⟩ => rfl)))
    (congrArg _ (funext fun a => Fin.ext (by match a with | ⟨0, _⟩ => rfl | ⟨1, _⟩ => rfl)))) rfl

/-- The word that selects the row an edge (or loop) gathers: negative words wrapped, not clipped. -/
theorem gwordB (e : Fin (640000 + 160000)) : (val_main_v238 (F := Ideal) x19) (ix2 e 0) = wrapNeg 160000#32 ((val_main_v201 (F := Ideal) x19) (ix1 e)) := by
  rw [val_main_v238_apply, show idx_main_v238 (ix2 e 0) = ix1 e from funext fun a => Fin.ext (by match a with | ⟨0, _⟩ => rfl)]
  simp only [val_main_v237_apply, val_main_v234_apply, val_main_v236_apply, val_main_v233_apply, val_main_v235_apply, val_main_c_63_apply, val_main_c_64_apply]
  rfl

/-- The word that says where an edge (or loop) lands: the raw destination word. -/
theorem swordB (e : Fin (640000 + 160000)) : (val_main_v241 (F := Ideal) x19) (ix2 e 0) = (val_main_v202 (F := Ideal) x19) (ix1 e) := by
  rw [val_main_v241_apply]
  exact congrArg _ (funext fun a => Fin.ext (by match a with | ⟨0, _⟩ => rfl))

/-- THE EDGE SUM WITH SELF-LOOPS: over the edges followed by the loops it is the sum over the edges plus the
    node's own row. -/
theorem agg_atB (p : Fin 160000) (q : Fin 128) :
    (val_main_v242 (F := Ideal) x0 x12 x18 x19) (ix2 p q)
      = edgeSum (fun e : Fin 640000 => x19 (ix2 1 e)) (fun e => rowOf 160000 (by decide) (wrapNeg 160000#32 (x19 (ix2 0 e))))
          (fun r => (val_main_v232 (F := Ideal) x0 x12 x18 x19) (ix2 r q)) p + (val_main_v232 (F := Ideal) x0 x12 x18 x19) (ix2 p q) := by
  unfold val_main_v242
  rw [scatterAdd_ideal, show scatter_S160000x128_S800000x1_S800000x128_1_0_0_1 = ScatterRows.rowsDims 160000 (640000 + 160000) 128 scatter_S160000x128_S800000x1_S800000x128_1_0_0_1.wf from rfl]
  refine (rows_selfloops (N := 160000) (E := 640000) (C := 128) scatter_S160000x128_S800000x1_S800000x128_1_0_0_1.wf (val_main_v240 (F := Ideal)) (val_main_v241 (F := Ideal) x19) (val_main_v239 (F := Ideal) x0 x12 x18 x19) (val_main_v232 (F := Ideal) x0 x12 x18 x19) (fun e => x19 (ix2 1 e))
    (fun e => rowOf 160000 (by decide) (wrapNeg 160000#32 (x19 (ix2 0 e)))) ?_ ?_ ?_ ?_ p q).trans ?_
  · intro e; rw [swordB, cat_dst_leftB]
  · intro k; rw [swordB, cat_dst_rightB, toInt_ofNat_small _ (by have := k.isLt; omega)]
  · intro e c
    unfold val_main_v239
    rw [show gather_S160000x128_S800000x1_S800000x128_1_0_n_n_0_1_1128 = GatherRows.rowsDims 160000 (640000 + 160000) 128 gather_S160000x128_S800000x1_S800000x128_1_0_n_n_0_1_1128.wf from rfl,
      rows_gather_apply (N := 160000) (E := 640000 + 160000) (C := 128) (by decide) gather_S160000x128_S800000x1_S800000x128_1_0_n_n_0_1_1128.wf (val_main_v232 (F := Ideal) x0 x12 x18 x19) (val_main_v238 (F := Ideal) x19) (Fin.castAdd 160000 e) c,
      gwordB, cat_src_leftB]
    rfl
  · intro k c
    unfold val_main_v239
    rw [show gather_S160000x128_S800000x1_S800000x128_1_0_n_n_0_1_1128 = GatherRows.rowsDims 160000 (640000 + 160000) 128 gather_S160000x128_S800000x1_S800000x128_1_0_n_n_0_1_1128.wf from rfl,
      rows_gather_apply (N := 160000) (E := 640000 + 160000) (C := 128) (by decide) gather_S160000x128_S800000x1_S800000x128_1_0_n_n_0_1_1128.wf (val_main_v232 (F := Ideal) x0 x12 x18 x19) (val_main_v238 (F := Ideal) x19) (Fin.natAdd 640000 k) c,
      gwordB, cat_src_rightB, wrapNeg_ofNat_small _ _ (by have := k.isLt; omega)]
    exact congrArg (val_main_v232 (F := Ideal) x0 x12 x18 x19) (congrArg₂ ix2 (rowOf_ofNat_small 160000 (by decide) k (by decide)) rfl)
  · rw [show (val_main_v240 (F := Ideal)) (ix2 p q) = (0 : EReal) from by
      simp only [val_main_v240_apply, val_main_cst_65_apply, Ideal.ofBits_def, Ideal.ofBits_zero_f32], zero_add]
    rfl

/-- The branch's result before the two are added: scaled on the receiving side, biased, weighted. -/
theorem convoutB (p : Fin 160000) (c : Fin 128) :
    (val_main_v251 (F := Ideal) x0 x12 x13 x15 x18 x19) (ix2 p c) = ((val_main_v242 (F := Ideal) x0 x12 x18 x19) (ix2 p c) * (val_main_v228 (F := Ideal) x19) (ix1 p) + x13 (ix1 c)) * x15 (ix1 c) := by
  rw [val_main_v251_apply, val_main_v248_apply, val_main_v245_apply, val_main_v244_apply, val_main_v243_apply, val_main_v247_apply, val_main_v246_apply, val_main_v250_apply, val_main_v249_apply,
    show idx_main_v243 (idx_main_v244 (ix2 p c)) = ix1 p from funext fun a => Fin.ext (by match a with | ⟨0, _⟩ => rfl),
    show idx_main_v246 (idx_main_v247 (ix2 p c)) = ix1 c from funext fun a => Fin.ext (by match a with | ⟨0, _⟩ => rfl),
    show idx_main_v249 (idx_main_v250 (ix2 p c)) = ix1 c from funext fun a => Fin.ext (by match a with | ⟨0, _⟩ => rfl)]
  rfl

/-! ### The two branches added; each row normalised, mapped affinely, clamped at zero -/

theorem mean_at (p : Fin 160000) : (val_main_v256 (F := Ideal) x0 x1 x10 x11 x12 x13 x14 x15 x18 x19) (ix2 p (0 : Fin 1)) = rowMean (fun c => (val_main_v252 (F := Ideal) x0 x1 x10 x11 x12 x13 x14 x15 x18 x19) (ix2 p c)) := by
  rw [val_main_v256_apply, val_main_v254_apply, val_main_v253_apply, val_main_v255_apply, val_main_cst_67_apply, val_main_cst_66_apply,
    show idx_main_v254 (ix2 p (0 : Fin 1)) = ix1 p from funext fun a => Fin.ext (by match a with | ⟨0, _⟩ => rfl)]
  unfold rowMean cols
  refine congrArg₂ Ideal.div ?_ rfl
  rw [show (FloatOps.ofBits (F := Ideal) .f32 0x00000000#32 : EReal) = 0 from Ideal.ofBits_zero_f32, zero_add]
  exact Finset.sum_congr rfl fun k _ => congrArg _ (funext fun a => Fin.ext (by match a with | ⟨0, _⟩ => rfl | ⟨1, _⟩ => rfl))

theorem var_at (p : Fin 160000) : (val_main_v263 (F := Ideal) x0 x1 x10 x11 x12 x13 x14 x15 x18 x19) (ix2 p (0 : Fin 1)) = rowVar (fun c => (val_main_v252 (F := Ideal) x0 x1 x10 x11 x12 x13 x14 x15 x18 x19) (ix2 p c)) := by
  rw [val_main_v263_apply, val_main_v261_apply, val_main_v260_apply, val_main_v262_apply, val_main_cst_69_apply, val_main_cst_68_apply,
    show idx_main_v261 (ix2 p (0 : Fin 1)) = ix1 p from funext fun a => Fin.ext (by match a with | ⟨0, _⟩ => rfl)]
  unfold rowVar cols
  refine congrArg₂ Ideal.div ?_ rfl
  rw [show (FloatOps.ofBits (F := Ideal) .f32 0x00000000#32 : EReal) = 0 from Ideal.ofBits_zero_f32, zero_add]
  refine Finset.sum_congr rfl fun k _ => ?_
  rw [show idx_main_v260 (ix1 p) k = ix2 p k from funext fun a => Fin.ext (by match a with | ⟨0, _⟩ => rfl | ⟨1, _⟩ => rfl), val_main_v259_apply, val_main_v258_apply, val_main_v257_apply,
    show idx_main_v257 (ix2 p k) = ix2 p (0 : Fin 1) from funext fun a => Fin.ext (by match a with | ⟨0, _⟩ => rfl | ⟨1, _⟩ => rfl), mean_at]
  rfl

theorem out_at (p : Fin 160000) (q : Fin 128) :
    (val_main_v277 (F := Ideal) x0 x1 x10 x11 x12 x13 x14 x15 x16 x17 x18 x19) (ix2 p q) = normRelu (fun c => (val_main_v252 (F := Ideal) x0 x1 x10 x11 x12 x13 x14 x15 x18 x19) (ix2 p c)) (fun c => x16 (ix1 c)) (fun c => x17 (ix1 c)) q := by
  rw [val_main_v277_apply, val_main_v276_apply, val_main_v273_apply, val_main_v270_apply, val_main_v265_apply, val_main_v264_apply, val_main_v269_apply, val_main_v268_apply,
    val_main_v267_apply, val_main_v266_apply, val_main_cst_70_apply, val_main_v272_apply, val_main_v271_apply, val_main_v275_apply, val_main_v274_apply,
    val_main_call9_v0_apply, val_main_call9_cst_apply,
    show idx_main_v264 (ix2 p q) = ix2 p (0 : Fin 1) from funext fun a => Fin.ext (by match a with | ⟨0, _⟩ => rfl | ⟨1, _⟩ => rfl),
    show idx_main_v269 (ix2 p q) = ix2 p (0 : Fin 1) from funext fun a => Fin.ext (by match a with | ⟨0, _⟩ => rfl | ⟨1, _⟩ => rfl), mean_at, var_at,
    show idx_main_v271 (idx_main_v272 (ix2 p q)) = ix1 q from funext fun a => Fin.ext (by match a with | ⟨0, _⟩ => rfl),
    show idx_main_v274 (idx_main_v275 (ix2 p q)) = ix1 q from funext fun a => Fin.ext (by match a with | ⟨0, _⟩ => rfl)]
  rfl

/-- THE LEVEL'S RESULT, entry (p, q), in closed form. -/
theorem level_out (p : Fin 160000) (q : Fin 128) :
    (val_main_v277 (F := Ideal) x0 x1 x10 x11 x12 x13 x14 x15 x16 x17 x18 x19) (ix2 p q) = levelOut (N := 160000) (E := 640000) (by decide) 160000#32 x1 (incRows (N := 10000) (E := 160000) (by decide) 10000#32 (fun e : Fin 160000 => x18 (ix2 1 e)) x0) x10 x12
      (fun k => x11 (ix1 k)) (fun k => x14 (ix1 k)) (fun k => x13 (ix1 k)) (fun k => x15 (ix1 k))
      (fun k => x16 (ix1 k)) (fun k => x17 (ix1 k)) (fun e => x19 (ix2 0 e)) (fun e => x19 (ix2 1 e)) p q := by
  rw [out_at]
  unfold levelOut
  refine congrArg (fun z => normRelu z _ _ q) (funext fun c => ?_)
  rw [val_main_v252_apply]
  show (val_main_v199 (F := Ideal) x1 x10 x11 x14 x19) (ix2 p c) + (val_main_v251 (F := Ideal) x0 x12 x13 x15 x18 x19) (ix2 p c) = _
  rw [convoutA, convoutB, agg_atA, agg_atB, scale_dstA, scale_dstB]
  simp only [h_atA, h_atB, feat_eq]
  rfl

end Cert.ReferenceIdeal.RefLevel1

end
-- ==== Proof.KernelRun.lean ====
/-
  The kernel program's run with its two results named.

  The program is four pipelined regions among stretches of host operations. Its run from any launch memory
  terminates, and in every final state each result array holds what the fold of buffer contents through the
  segments leaves there, while every argument array is as launched. The first result is the output array of the
  second region (the first level's normalised rows), which no later stretch or region writes; the second result is
  the output array of the fourth region.
-/
import proofs.«181315_g23613730193938_cont_sun_m_512_6_alg».proof.Proof.Gen.KernelIdeal.Frame
import Idealize.ShloMosaic.Lib.StableHlo.Run

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- From any memory with zero counters, every weakly fair execution of the program on the TensorCores terminates,
    nothing faulting, and in every final state the two result arrays hold the last boundary's contents and every
    argument array is as launched. -/
theorem run_values : θ_run defs (onTc (τ := τ) (main (F := F))) ⟨m, fun _ => 0, ρ⟩ (fun r => ∀ c : Dev nD,
      r.2.mem ((c.tc : Thread nD τ).loc main_v63) = Gen.W16 m ρ c (Proc.devRef .tc main_v63)
      ∧ r.2.mem ((c.tc : Thread nD τ).loc main_v123) = Gen.W16 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W16 m ρ c) s')
      isplitl [Hh] <;> iassumption)
    (hQ := fun s h c =>
      ⟨h c _ (Gen.mem_uc main_v63 (by decide)),
       h c _ (Gen.mem_uc main_v123 (by decide)),
       (h c _ (Gen.mem_uc main_arg0 (by decide))).trans (Gen.W16_main_arg0 m ρ c),
       (h c _ (Gen.mem_uc main_arg1 (by decide))).trans (Gen.W16_main_arg1 m ρ c),
       (h c _ (Gen.mem_uc main_arg2 (by decide))).trans (Gen.W16_main_arg2 m ρ c),
       (h c _ (Gen.mem_uc main_arg3 (by decide))).trans (Gen.W16_main_arg3 m ρ c),
       (h c _ (Gen.mem_uc main_arg4 (by decide))).trans (Gen.W16_main_arg4 m ρ c),
       (h c _ (Gen.mem_uc main_arg5 (by decide))).trans (Gen.W16_main_arg5 m ρ c),
       (h c _ (Gen.mem_uc main_arg6 (by decide))).trans (Gen.W16_main_arg6 m ρ c),
       (h c _ (Gen.mem_uc main_arg7 (by decide))).trans (Gen.W16_main_arg7 m ρ c),
       (h c _ (Gen.mem_uc main_arg8 (by decide))).trans (Gen.W16_main_arg8 m ρ c),
       (h c _ (Gen.mem_uc main_arg9 (by decide))).trans (Gen.W16_main_arg9 m ρ c),
       (h c _ (Gen.mem_uc main_arg10 (by decide))).trans (Gen.W16_main_arg10 m ρ c),
       (h c _ (Gen.mem_uc main_arg11 (by decide))).trans (Gen.W16_main_arg11 m ρ c),
       (h c _ (Gen.mem_uc main_arg12 (by decide))).trans (Gen.W16_main_arg12 m ρ c),
       (h c _ (Gen.mem_uc main_arg13 (by decide))).trans (Gen.W16_main_arg13 m ρ c),
       (h c _ (Gen.mem_uc main_arg14 (by decide))).trans (Gen.W16_main_arg14 m ρ c),
       (h c _ (Gen.mem_uc main_arg15 (by decide))).trans (Gen.W16_main_arg15 m ρ c),
       (h c _ (Gen.mem_uc main_arg16 (by decide))).trans (Gen.W16_main_arg16 m ρ c),
       (h c _ (Gen.mem_uc main_arg17 (by decide))).trans (Gen.W16_main_arg17 m ρ c),
       (h c _ (Gen.mem_uc main_arg18 (by decide))).trans (Gen.W16_main_arg18 m ρ c),
       (h c _ (Gen.mem_uc main_arg19 (by decide))).trans (Gen.W16_main_arg19 m ρ c)⟩)

/-! ## The two results in terms of the regions' proof data -/

/-- The first result is the second region's output array as its write-backs leave it: no later host operation and
    no later region writes that array, so the fold of contents from the region's exit to the end leaves it alone. -/
theorem out0_eq (c : Dev nD) :
    Gen.W16 m ρ c (Proc.devRef .tc main_v63) = (Gen.dat1 (Gen.V7 m ρ) c).arrAt 11 cfg1.N :=
  calc Gen.W16 m ρ c (Proc.devRef .tc main_v63)
    _ = Gen.W15 m ρ c (Proc.devRef .tc main_v63) := Gen.W16_of_ne m ρ c main_v63 (by decide)
    _ = Gen.W14 m ρ c (Proc.devRef .tc main_v63) := StableHlo.after_of_forall_not_mem (b := Proc.devRef .tc main_v63) _ _ (List.forall_iff_forall_mem.mp (by
          simp only [Gen.hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W13 m ρ c (Proc.devRef .tc main_v63) := Gen.W14_of_ne m ρ c main_v63 (by decide)
    _ = Gen.W12 m ρ c (Proc.devRef .tc main_v63) := StableHlo.after_of_forall_not_mem (b := Proc.devRef .tc main_v63) _ _ (List.forall_iff_forall_mem.mp (by
          simp only [Gen.hostOps2_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_v63) := StableHlo.after_of_forall_not_mem (b := Proc.devRef .tc main_v63) _ _ (List.forall_iff_forall_mem.mp (by
          simp only [Gen.hostOps2_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W10 m ρ c (Proc.devRef .tc main_v63) := StableHlo.after_of_forall_not_mem (b := Proc.devRef .tc main_v63) _ _ (List.forall_iff_forall_mem.mp (by
          simp only [Gen.hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_v63) := StableHlo.after_of_forall_not_mem (b := Proc.devRef .tc main_v63) _ _ (List.forall_iff_forall_mem.mp (by
          simp only [Gen.hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W8 m ρ c (Proc.devRef .tc main_v63) := StableHlo.after_of_forall_not_mem (b := Proc.devRef .tc main_v63) _ _ (List.forall_iff_forall_mem.mp (by
          simp only [Gen.hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (Gen.dat1 (Gen.V7 m ρ) c).arrAt 11 cfg1.N := Gen.W8_arr m ρ c 11

/-- The second result is the fourth region's output array as its write-backs leave it. -/
theorem out1_eq (c : Dev nD) :
    Gen.W16 m ρ c (Proc.devRef .tc main_v123) = (Gen.dat3 (Gen.V15 m ρ) c).arrAt 11 cfg3.N :=
  Gen.W16_arr m ρ c 11

end Cert.KernelIdeal.RunValue

end
-- ==== Proof.KernelEntry.lean ====
/-
  What each of the four pipelined regions finds in its input arrays when it is entered, as terms of the host
  operations applied to the launch contents of the argument arrays and to the earlier regions' output arrays.

  The program works on two levels of a graph, the first with 10000 nodes and 160000 edges, the second with 160000
  nodes and 640000 edges. For each level the host side splits the edge table into its sending and receiving ends,
  counts the ends at each node, and turns one plus the count into the scale (count + 1)^(−1/2) of that node's row;
  between the two regions of a level it fetches the rows of the first region's two outputs at the sending end of
  every edge and sums them into the row of the receiving end. No array is ever evaluated here: each operation stays
  folded and is only named.
-/
import proofs.«181315_g23613730193938_cont_sun_m_512_6_alg».proof.Proof.Gen.KernelIdeal.Frame
import Idealize.ShloMosaic.Lib.StableHlo.Run

set_option maxRecDepth 16384

noncomputable section

namespace Cert.KernelIdeal.RunValue

open Idealize.ShloMosaic Idealize.ShloMosaic.TcCoe Idealize.ShloMosaic.Tactic
open Idealize.SL.Sem Idealize.ShloMosaic.StableHlo
open Idealize.ShloMosaic.Pipeline (Dat Cfg Window)

variable {F : FTy → Type} [FloatOps F]

/-! ## Level 1: 10000 nodes, 160000 edges -/

/-- Row 0 of the edge table as a list: the sending end of every edge. -/
def src1 (e : (⟨S2x160000, .i32⟩ : BufTy).Contents (Elt F)) : (⟨S160000, .i32⟩ : BufTy).Contents (Elt F) :=
  shapeCast _ ((extractStridedSlice S1x160000 ![0, 0] · Gen.slices_S2x160000_S1x160000_0_0 : (⟨S2x160000, .i32⟩ : BufTy).Contents (Elt F) → (⟨S1x160000, .i32⟩ : BufTy).Contents (Elt F)) e) Gen.shapeCasts_S1x160000_S160000

/-- Row 1 of the edge table as a list: the receiving end of every edge. -/
def dst1 (e : (⟨S2x160000, .i32⟩ : BufTy).Contents (Elt F)) : (⟨S160000, .i32⟩ : BufTy).Contents (Elt F) :=
  shapeCast _ ((extractStridedSlice S1x160000 ![1, 0] · Gen.slices_S2x160000_S1x160000_1_0 : (⟨S2x160000, .i32⟩ : BufTy).Contents (Elt F) → (⟨S1x160000, .i32⟩ : BufTy).Contents (Elt F)) e) Gen.shapeCasts_S1x160000_S160000

/-- A list of ends with every negative entry replaced by zero. -/
def clip1 (v : (⟨S160000, .i32⟩ : BufTy).Contents (Elt F)) : (⟨S160000, .i32⟩ : BufTy).Contents (Elt F) :=
  (maxsi : (⟨S160000, .i32⟩ : BufTy).Contents (Elt F) → (⟨S160000, .i32⟩ : BufTy).Contents (Elt F) → (⟨S160000, .i32⟩ : BufTy).Contents (Elt F)) ((broadcastInDim S160000 ![] Gen.bcast_S_S160000 : (⟨S_, .i32⟩ : BufTy).Contents (Elt F) → (⟨S160000, .i32⟩ : BufTy).Contents (Elt F)) ((id : (⟨S_, .i32⟩ : BufTy).Contents (Elt F) → (⟨S_, .i32⟩ : BufTy).Contents (Elt F)) (constantI S_ 32 0#32))) v

/-- A list of ends with the number of nodes added to every negative entry (an end counted from the last node). -/
def wrap1 (v : (⟨S160000, .i32⟩ : BufTy).Contents (Elt F)) : (⟨S160000, .i32⟩ : BufTy).Contents (Elt F) :=
  (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
    ((cmpi .slt : (⟨S160000, .i32⟩ : BufTy).Contents (Elt F) → (⟨S160000, .i32⟩ : BufTy).Contents (Elt F) → (⟨S160000, .i1⟩ : BufTy).Contents (Elt F)) v ((broadcastInDim S160000 ![] Gen.bcast_S_S160000 : (⟨S_, .i32⟩ : BufTy).Contents (Elt F) → (⟨S160000, .i32⟩ : BufTy).Contents (Elt F)) (constantI S_ 32 0#32)))
    ((addi : (⟨S160000, .i32⟩ : BufTy).Contents (Elt F) → (⟨S160000, .i32⟩ : BufTy).Contents (Elt F) → (⟨S160000, .i32⟩ : BufTy).Contents (Elt F)) v ((broadcastInDim S160000 ![] Gen.bcast_S_S160000 : (⟨S_, .i32⟩ : BufTy).Contents (Elt F) → (⟨S160000, .i32⟩ : BufTy).Contents (Elt F)) (constantI S_ 32 10000#32))) v

/-- A list of ends as a table of one column. -/
def col1 (v : (⟨S160000, .i32⟩ : BufTy).Contents (Elt F)) : (⟨S160000x1, .i32⟩ : BufTy).Contents (Elt F) :=
  (broadcastInDim S160000x1 ![0] Gen.bcast_S160000_S160000x1_0 : (⟨S160000, .i32⟩ : BufTy).Contents (Elt F) → (⟨S160000x1, .i32⟩ : BufTy).Contents (Elt F)) v

/-- One more than the number of edges with a given end at each node. -/
def degree1 (v : (⟨S160000, .i32⟩ : BufTy).Contents (Elt F)) : (⟨S10000, .i32⟩ : BufTy).Contents (Elt F) :=
  (addi : (⟨S10000, .i32⟩ : BufTy).Contents (Elt F) → (⟨S10000, .i32⟩ : BufTy).Contents (Elt F) → (⟨S10000, .i32⟩ : BufTy).Contents (Elt F))
    (((fun x i u => Host.scatter scatter_S10000_S160000x1_S160000_n_0_0_1 IntOp.addi x i u) : (⟨S10000, .i32⟩ : BufTy).Contents (Elt F) → (⟨S160000x1, .i32⟩ : BufTy).Contents (Elt F) → (⟨S160000, .i32⟩ : BufTy).Contents (Elt F) → (⟨S10000, .i32⟩ : BufTy).Contents (Elt F))
      ((broadcastInDim S10000 ![] Gen.bcast_S_S10000 : (⟨S_, .i32⟩ : BufTy).Contents (Elt F) → (⟨S10000, .i32⟩ : BufTy).Contents (Elt F)) (constantI S_ 32 0#32)) (col1 (wrap1 (clip1 v))) ((broadcastInDim S160000 ![] Gen.bcast_S_S160000 : (⟨S_, .i32⟩ : BufTy).Contents (Elt F) → (⟨S160000, .i32⟩ : BufTy).Contents (Elt F)) (constantI S_ 32 1#32)))
    ((broadcastInDim S10000 ![] Gen.bcast_S_S10000 : (⟨S_, .i32⟩ : BufTy).Contents (Elt F) → (⟨S10000, .i32⟩ : BufTy).Contents (Elt F)) (constantI S_ 32 1#32))

/-- The degree as a float, to the power −1/2, as a table of one column: the scale of each node's row. -/
def scale1 (v : (⟨S160000, .i32⟩ : BufTy).Contents (Elt F)) : (⟨S10000x1, .f32⟩ : BufTy).Contents (Elt F) :=
  shapeCast _ ((Host.powf : (⟨S10000, .f32⟩ : BufTy).Contents (Elt F) → (⟨S10000, .f32⟩ : BufTy).Contents (Elt F) → (⟨S10000, .f32⟩ : BufTy).Contents (Elt F))
    ((sitofp .f32 : (⟨S10000, .i32⟩ : BufTy).Contents (Elt F) → (⟨S10000, .f32⟩ : BufTy).Contents (Elt F)) (degree1 v))
    ((broadcastInDim S10000 ![] Gen.bcast_S_S10000 : (⟨S_, .f32⟩ : BufTy).Contents (Elt F) → (⟨S10000, .f32⟩ : BufTy).Contents (Elt F)) (constant S_ .f32 0xBF000000#32))) Gen.shapeCasts_S10000_S10000x1

/-- The two branches' rows side by side, fetched at the sending end of every edge and summed into the row of its
    receiving end, starting from zero. -/
def messages1 (h0 h1 : (⟨S10000x128, .f32⟩ : BufTy).Contents (Elt F)) (src dst : (⟨S160000, .i32⟩ : BufTy).Contents (Elt F)) : (⟨S10000x256, .f32⟩ : BufTy).Contents (Elt F) :=
  ((fun x i u => Host.scatterAdd scatter_S10000x256_S160000x1_S160000x256_1_0_0_1 x i u) : (⟨S10000x256, .f32⟩ : BufTy).Contents (Elt F) → (⟨S160000x1, .i32⟩ : BufTy).Contents (Elt F) → (⟨S160000x256, .f32⟩ : BufTy).Contents (Elt F) → (⟨S10000x256, .f32⟩ : BufTy).Contents (Elt F))
    ((broadcastInDim S10000x256 ![] Gen.bcast_S_S10000x256 : (⟨S_, .f32⟩ : BufTy).Contents (Elt F) → (⟨S10000x256, .f32⟩ : BufTy).Contents (Elt F)) (constant S_ .f32 0x00000000#32))
    (col1 dst)
    (((fun x i => Host.gather gather_S10000x256_S160000x1_S160000x256_1_0_n_n_0_1_1256 x i) : (⟨S10000x256, .f32⟩ : BufTy).Contents (Elt F) → (⟨S160000x1, .i32⟩ : BufTy).Contents (Elt F) → (⟨S160000x256, .f32⟩ : BufTy).Contents (Elt F))
      (((fun a b => concatenate S10000x256 1 [⟨S10000x128, a⟩, ⟨S10000x128, b⟩] Gen.concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)) h0 h1)
      (col1 (wrap1 src)))

/-- The first branch's half of the messages (columns 0 to 127). -/
def messagesA1 (h0 h1 : (⟨S10000x128, .f32⟩ : BufTy).Contents (Elt F)) (src dst : (⟨S160000, .i32⟩ : BufTy).Contents (Elt F)) : (⟨S10000x128, .f32⟩ : BufTy).Contents (Elt F) :=
  (extractStridedSlice S10000x128 ![0, 0] · Gen.slices_S10000x256_S10000x128_0_0 : (⟨S10000x256, .f32⟩ : BufTy).Contents (Elt F) → (⟨S10000x128, .f32⟩ : BufTy).Contents (Elt F)) (messages1 h0 h1 src dst)

/-- The second branch's half of the messages (columns 128 to 255). -/
def messagesB1 (h0 h1 : (⟨S10000x128, .f32⟩ : BufTy).Contents (Elt F)) (src dst : (⟨S160000, .i32⟩ : BufTy).Contents (Elt F)) : (⟨S10000x128, .f32⟩ : BufTy).Contents (Elt F) :=
  (extractStridedSlice S10000x128 ![0, 128] · Gen.slices_S10000x256_S10000x128_0_128 : (⟨S10000x256, .f32⟩ : BufTy).Contents (Elt F) → (⟨S10000x128, .f32⟩ : BufTy).Contents (Elt F)) (messages1 h0 h1 src dst)

/-! ## Level 2: 160000 nodes, 640000 edges -/

/-- Row 0 of the edge table as a list: the sending end of every edge. -/
def src2 (e : (⟨S2x640000, .i32⟩ : BufTy).Contents (Elt F)) : (⟨S640000, .i32⟩ : BufTy).Contents (Elt F) :=
  shapeCast _ ((extractStridedSlice S1x640000 ![0, 0] · Gen.slices_S2x640000_S1x640000_0_0 : (⟨S2x640000, .i32⟩ : BufTy).Contents (Elt F) → (⟨S1x640000, .i32⟩ : BufTy).Contents (Elt F)) e) Gen.shapeCasts_S1x640000_S640000

/-- Row 1 of the edge table as a list: the receiving end of every edge. -/
def dst2 (e : (⟨S2x640000, .i32⟩ : BufTy).Contents (Elt F)) : (⟨S640000, .i32⟩ : BufTy).Contents (Elt F) :=
  shapeCast _ ((extractStridedSlice S1x640000 ![1, 0] · Gen.slices_S2x640000_S1x640000_1_0 : (⟨S2x640000, .i32⟩ : BufTy).Contents (Elt F) → (⟨S1x640000, .i32⟩ : BufTy).Contents (Elt F)) e) Gen.shapeCasts_S1x640000_S640000

/-- A list of ends with every negative entry replaced by zero. -/
def clip2 (v : (⟨S640000, .i32⟩ : BufTy).Contents (Elt F)) : (⟨S640000, .i32⟩ : BufTy).Contents (Elt F) :=
  (maxsi : (⟨S640000, .i32⟩ : BufTy).Contents (Elt F) → (⟨S640000, .i32⟩ : BufTy).Contents (Elt F) → (⟨S640000, .i32⟩ : BufTy).Contents (Elt F)) ((broadcastInDim S640000 ![] Gen.bcast_S_S640000 : (⟨S_, .i32⟩ : BufTy).Contents (Elt F) → (⟨S640000, .i32⟩ : BufTy).Contents (Elt F)) ((id : (⟨S_, .i32⟩ : BufTy).Contents (Elt F) → (⟨S_, .i32⟩ : BufTy).Contents (Elt F)) (constantI S_ 32 0#32))) v

/-- A list of ends with the number of nodes added to every negative entry (an end counted from the last node). -/
def wrap2 (v : (⟨S640000, .i32⟩ : BufTy).Contents (Elt F)) : (⟨S640000, .i32⟩ : BufTy).Contents (Elt F) :=
  (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
    ((cmpi .slt : (⟨S640000, .i32⟩ : BufTy).Contents (Elt F) → (⟨S640000, .i32⟩ : BufTy).Contents (Elt F) → (⟨S640000, .i1⟩ : BufTy).Contents (Elt F)) v ((broadcastInDim S640000 ![] Gen.bcast_S_S640000 : (⟨S_, .i32⟩ : BufTy).Contents (Elt F) → (⟨S640000, .i32⟩ : BufTy).Contents (Elt F)) (constantI S_ 32 0#32)))
    ((addi : (⟨S640000, .i32⟩ : BufTy).Contents (Elt F) → (⟨S640000, .i32⟩ : BufTy).Contents (Elt F) → (⟨S640000, .i32⟩ : BufTy).Contents (Elt F)) v ((broadcastInDim S640000 ![] Gen.bcast_S_S640000 : (⟨S_, .i32⟩ : BufTy).Contents (Elt F) → (⟨S640000, .i32⟩ : BufTy).Contents (Elt F)) (constantI S_ 32 160000#32))) v

/-- A list of ends as a table of one column. -/
def col2 (v : (⟨S640000, .i32⟩ : BufTy).Contents (Elt F)) : (⟨S640000x1, .i32⟩ : BufTy).Contents (Elt F) :=
  (broadcastInDim S640000x1 ![0] Gen.bcast_S640000_S640000x1_0 : (⟨S640000, .i32⟩ : BufTy).Contents (Elt F) → (⟨S640000x1, .i32⟩ : BufTy).Contents (Elt F)) v

/-- One more than the number of edges with a given end at each node. -/
def degree2 (v : (⟨S640000, .i32⟩ : BufTy).Contents (Elt F)) : (⟨S160000, .i32⟩ : BufTy).Contents (Elt F) :=
  (addi : (⟨S160000, .i32⟩ : BufTy).Contents (Elt F) → (⟨S160000, .i32⟩ : BufTy).Contents (Elt F) → (⟨S160000, .i32⟩ : BufTy).Contents (Elt F))
    (((fun x i u => Host.scatter scatter_S160000_S640000x1_S640000_n_0_0_1 IntOp.addi x i u) : (⟨S160000, .i32⟩ : BufTy).Contents (Elt F) → (⟨S640000x1, .i32⟩ : BufTy).Contents (Elt F) → (⟨S640000, .i32⟩ : BufTy).Contents (Elt F) → (⟨S160000, .i32⟩ : BufTy).Contents (Elt F))
      ((broadcastInDim S160000 ![] Gen.bcast_S_S160000 : (⟨S_, .i32⟩ : BufTy).Contents (Elt F) → (⟨S160000, .i32⟩ : BufTy).Contents (Elt F)) (constantI S_ 32 0#32)) (col2 (wrap2 (clip2 v))) ((broadcastInDim S640000 ![] Gen.bcast_S_S640000 : (⟨S_, .i32⟩ : BufTy).Contents (Elt F) → (⟨S640000, .i32⟩ : BufTy).Contents (Elt F)) (constantI S_ 32 1#32)))
    ((broadcastInDim S160000 ![] Gen.bcast_S_S160000 : (⟨S_, .i32⟩ : BufTy).Contents (Elt F) → (⟨S160000, .i32⟩ : BufTy).Contents (Elt F)) (constantI S_ 32 1#32))

/-- The degree as a float, to the power −1/2, as a table of one column: the scale of each node's row. -/
def scale2 (v : (⟨S640000, .i32⟩ : BufTy).Contents (Elt F)) : (⟨S160000x1, .f32⟩ : BufTy).Contents (Elt F) :=
  shapeCast _ ((Host.powf : (⟨S160000, .f32⟩ : BufTy).Contents (Elt F) → (⟨S160000, .f32⟩ : BufTy).Contents (Elt F) → (⟨S160000, .f32⟩ : BufTy).Contents (Elt F))
    ((sitofp .f32 : (⟨S160000, .i32⟩ : BufTy).Contents (Elt F) → (⟨S160000, .f32⟩ : BufTy).Contents (Elt F)) (degree2 v))
    ((broadcastInDim S160000 ![] Gen.bcast_S_S160000 : (⟨S_, .f32⟩ : BufTy).Contents (Elt F) → (⟨S160000, .f32⟩ : BufTy).Contents (Elt F)) (constant S_ .f32 0xBF000000#32))) Gen.shapeCasts_S160000_S160000x1

/-- The two branches' rows side by side, fetched at the sending end of every edge and summed into the row of its
    receiving end, starting from zero. -/
def messages2 (h0 h1 : (⟨S160000x128, .f32⟩ : BufTy).Contents (Elt F)) (src dst : (⟨S640000, .i32⟩ : BufTy).Contents (Elt F)) : (⟨S160000x256, .f32⟩ : BufTy).Contents (Elt F) :=
  ((fun x i u => Host.scatterAdd scatter_S160000x256_S640000x1_S640000x256_1_0_0_1 x i u) : (⟨S160000x256, .f32⟩ : BufTy).Contents (Elt F) → (⟨S640000x1, .i32⟩ : BufTy).Contents (Elt F) → (⟨S640000x256, .f32⟩ : BufTy).Contents (Elt F) → (⟨S160000x256, .f32⟩ : BufTy).Contents (Elt F))
    ((broadcastInDim S160000x256 ![] Gen.bcast_S_S160000x256 : (⟨S_, .f32⟩ : BufTy).Contents (Elt F) → (⟨S160000x256, .f32⟩ : BufTy).Contents (Elt F)) (constant S_ .f32 0x00000000#32))
    (col2 dst)
    (((fun x i => Host.gather gather_S160000x256_S640000x1_S640000x256_1_0_n_n_0_1_1256 x i) : (⟨S160000x256, .f32⟩ : BufTy).Contents (Elt F) → (⟨S640000x1, .i32⟩ : BufTy).Contents (Elt F) → (⟨S640000x256, .f32⟩ : BufTy).Contents (Elt F))
      (((fun a b => concatenate S160000x256 1 [⟨S160000x128, a⟩, ⟨S160000x128, b⟩] Gen.concatenates_S160000x128_S160000x128_S160000x256_d1) : (⟨S160000x128, .f32⟩ : BufTy).Contents (Elt F) → (⟨S160000x128, .f32⟩ : BufTy).Contents (Elt F) → (⟨S160000x256, .f32⟩ : BufTy).Contents (Elt F)) h0 h1)
      (col2 (wrap2 src)))

/-- The first branch's half of the messages (columns 0 to 127). -/
def messagesA2 (h0 h1 : (⟨S160000x128, .f32⟩ : BufTy).Contents (Elt F)) (src dst : (⟨S640000, .i32⟩ : BufTy).Contents (Elt F)) : (⟨S160000x128, .f32⟩ : BufTy).Contents (Elt F) :=
  (extractStridedSlice S160000x128 ![0, 0] · Gen.slices_S160000x256_S160000x128_0_0 : (⟨S160000x256, .f32⟩ : BufTy).Contents (Elt F) → (⟨S160000x128, .f32⟩ : BufTy).Contents (Elt F)) (messages2 h0 h1 src dst)

/-- The second branch's half of the messages (columns 128 to 255). -/
def messagesB2 (h0 h1 : (⟨S160000x128, .f32⟩ : BufTy).Contents (Elt F)) (src dst : (⟨S640000, .i32⟩ : BufTy).Contents (Elt F)) : (⟨S160000x128, .f32⟩ : BufTy).Contents (Elt F) :=
  (extractStridedSlice S160000x128 ![0, 128] · Gen.slices_S160000x256_S160000x128_0_128 : (⟨S160000x256, .f32⟩ : BufTy).Contents (Elt F) → (⟨S160000x128, .f32⟩ : BufTy).Contents (Elt F)) (messages2 h0 h1 src dst)

/-- The rows of `u`, one per edge of the first level, summed into the row of the edge's receiving end, starting
    from zero. -/
def pooled (dst : (⟨S160000, .i32⟩ : BufTy).Contents (Elt F)) (u : (⟨S160000x128, .f32⟩ : BufTy).Contents (Elt F)) : (⟨S10000x128, .f32⟩ : BufTy).Contents (Elt F) :=
  ((fun x i u => Host.scatterAdd scatter_S10000x128_S160000x1_S160000x128_1_0_0_1 x i u) : (⟨S10000x128, .f32⟩ : BufTy).Contents (Elt F) → (⟨S160000x1, .i32⟩ : BufTy).Contents (Elt F) → (⟨S160000x128, .f32⟩ : BufTy).Contents (Elt F) → (⟨S10000x128, .f32⟩ : BufTy).Contents (Elt F))
    ((broadcastInDim S10000x128 ![] Gen.bcast_S_S10000x128 : (⟨S_, .f32⟩ : BufTy).Contents (Elt F) → (⟨S10000x128, .f32⟩ : BufTy).Contents (Elt F)) (constant S_ .f32 0x00000000#32))
    (col1 dst) u

/-- The rows of `x` fetched at the receiving end of every edge of the first level: one row per edge. -/
def spread (x : (⟨S10000x128, .f32⟩ : BufTy).Contents (Elt F)) (dst : (⟨S160000, .i32⟩ : BufTy).Contents (Elt F)) : (⟨S160000x128, .f32⟩ : BufTy).Contents (Elt F) :=
  ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F))
    x (col1 (wrap1 dst))

/-- A vector of 128 entries as a table of one row. -/
def asRow (v : (⟨S128, .f32⟩ : BufTy).Contents (Elt F)) : (⟨S1x128, .f32⟩ : BufTy).Contents (Elt F) := shapeCast _ v Gen.shapeCasts_S128_S1x128

/-! ## Reading a buffer back through the fold of contents -/

/-- A stretch of host operations none of which writes a buffer leaves it as it was: the goal `W… b = rhs` at the
    boundary after the stretch becomes the same at the boundary before it. -/
macro "skip_stretch " ops:ident : tactic => `(tactic|
  refine (StableHlo.after_of_forall_not_mem _ _ (List.forall_iff_forall_mem.mp (by
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_)

variable (m : (ℓ : Loc nD τ sig) → Buf (Elt F) ℓ) (ρ : Dev nD → PrngReg)

/-! ## The edge lists, where the first stretch leaves them and where later stretches find them -/

/-- After the first stretch: the sending ends of the first level's edges. -/
theorem W1_src1 (c : Dev nD) :
    Gen.W1 m ρ c (Proc.devRef .tc main_v1) = src1 (m ((c.tc : Thread nD τ).loc main_arg18)) := by
  dsimp only [Gen.W1, Gen.W0, Gen.hostOps0]
  after_results
  rfl

/-- After the first stretch: the receiving ends of the first level's edges. -/
theorem W1_dst1 (c : Dev nD) :
    Gen.W1 m ρ c (Proc.devRef .tc main_v3) = dst1 (m ((c.tc : Thread nD τ).loc main_arg18)) := by
  dsimp only [Gen.W1, Gen.W0, Gen.hostOps0]
  after_results
  rfl

/-- After the first stretch: the sending ends of the second level's edges. -/
theorem W1_src2 (c : Dev nD) :
    Gen.W1 m ρ c (Proc.devRef .tc main_v5) = src2 (m ((c.tc : Thread nD τ).loc main_arg19)) := by
  dsimp only [Gen.W1, Gen.W0, Gen.hostOps0]
  after_results
  rfl

/-- After the first stretch: the receiving ends of the second level's edges. -/
theorem W1_dst2 (c : Dev nD) :
    Gen.W1 m ρ c (Proc.devRef .tc main_v7) = dst2 (m ((c.tc : Thread nD τ).loc main_arg19)) := by
  dsimp only [Gen.W1, Gen.W0, Gen.hostOps0]
  after_results
  rfl

/-- Nothing between the first stretch and region 0's exit writes the first level's sending ends. -/
theorem W6_src1 (c : Dev nD) :
    Gen.W6 m ρ c (Proc.devRef .tc main_v1) = src1 (m ((c.tc : Thread nD τ).loc main_arg18)) := by
  refine (Gen.W6_of_ne m ρ c main_v1 (by decide)).trans ?_
  skip_stretch Gen.hostOps0_4
  skip_stretch Gen.hostOps0_3
  skip_stretch Gen.hostOps0_2
  skip_stretch Gen.hostOps0_1
  exact W1_src1 m ρ c

/-- Nothing between the first stretch and region 0's exit writes the first level's receiving ends. -/
theorem W6_dst1 (c : Dev nD) :
    Gen.W6 m ρ c (Proc.devRef .tc main_v3) = dst1 (m ((c.tc : Thread nD τ).loc main_arg18)) := by
  refine (Gen.W6_of_ne m ρ c main_v3 (by decide)).trans ?_
  skip_stretch Gen.hostOps0_4
  skip_stretch Gen.hostOps0_3
  skip_stretch Gen.hostOps0_2
  skip_stretch Gen.hostOps0_1
  exact W1_dst1 m ρ c

/-- Nothing up to region 1's exit writes the first level's receiving ends. -/
theorem W8_dst1 (c : Dev nD) :
    Gen.W8 m ρ c (Proc.devRef .tc main_v3) = dst1 (m ((c.tc : Thread nD τ).loc main_arg18)) := by
  refine (Gen.W8_of_ne m ρ c main_v3 (by decide)).trans ?_
  skip_stretch Gen.hostOps1
  refine (Gen.W6_of_ne m ρ c main_v3 (by decide)).trans ?_
  skip_stretch Gen.hostOps0_4
  skip_stretch Gen.hostOps0_3
  skip_stretch Gen.hostOps0_2
  skip_stretch Gen.hostOps0_1
  exact W1_dst1 m ρ c

/-- Nothing up to region 1's exit writes the second level's sending ends. -/
theorem W8_src2 (c : Dev nD) :
    Gen.W8 m ρ c (Proc.devRef .tc main_v5) = src2 (m ((c.tc : Thread nD τ).loc main_arg19)) := by
  refine (Gen.W8_of_ne m ρ c main_v5 (by decide)).trans ?_
  skip_stretch Gen.hostOps1
  refine (Gen.W6_of_ne m ρ c main_v5 (by decide)).trans ?_
  skip_stretch Gen.hostOps0_4
  skip_stretch Gen.hostOps0_3
  skip_stretch Gen.hostOps0_2
  skip_stretch Gen.hostOps0_1
  exact W1_src2 m ρ c

/-- Nothing up to region 1's exit writes the second level's receiving ends. -/
theorem W8_dst2 (c : Dev nD) :
    Gen.W8 m ρ c (Proc.devRef .tc main_v7) = dst2 (m ((c.tc : Thread nD τ).loc main_arg19)) := by
  refine (Gen.W8_of_ne m ρ c main_v7 (by decide)).trans ?_
  skip_stretch Gen.hostOps1
  refine (Gen.W6_of_ne m ρ c main_v7 (by decide)).trans ?_
  skip_stretch Gen.hostOps0_4
  skip_stretch Gen.hostOps0_3
  skip_stretch Gen.hostOps0_2
  skip_stretch Gen.hostOps0_1
  exact W1_dst2 m ρ c

/-- Nothing up to region 2's exit writes the second level's sending ends. -/
theorem W14_src2 (c : Dev nD) :
    Gen.W14 m ρ c (Proc.devRef .tc main_v5) = src2 (m ((c.tc : Thread nD τ).loc main_arg19)) := by
  refine (Gen.W14_of_ne m ρ c main_v5 (by decide)).trans ?_
  skip_stretch Gen.hostOps2_4
  skip_stretch Gen.hostOps2_3
  skip_stretch Gen.hostOps2_2
  skip_stretch Gen.hostOps2_1
  skip_stretch Gen.hostOps2
  refine (Gen.W8_of_ne m ρ c main_v5 (by decide)).trans ?_
  skip_stretch Gen.hostOps1
  refine (Gen.W6_of_ne m ρ c main_v5 (by decide)).trans ?_
  skip_stretch Gen.hostOps0_4
  skip_stretch Gen.hostOps0_3
  skip_stretch Gen.hostOps0_2
  skip_stretch Gen.hostOps0_1
  exact W1_src2 m ρ c

/-- Nothing up to region 2's exit writes the second level's receiving ends. -/
theorem W14_dst2 (c : Dev nD) :
    Gen.W14 m ρ c (Proc.devRef .tc main_v7) = dst2 (m ((c.tc : Thread nD τ).loc main_arg19)) := by
  refine (Gen.W14_of_ne m ρ c main_v7 (by decide)).trans ?_
  skip_stretch Gen.hostOps2_4
  skip_stretch Gen.hostOps2_3
  skip_stretch Gen.hostOps2_2
  skip_stretch Gen.hostOps2_1
  skip_stretch Gen.hostOps2
  refine (Gen.W8_of_ne m ρ c main_v7 (by decide)).trans ?_
  skip_stretch Gen.hostOps1
  refine (Gen.W6_of_ne m ρ c main_v7 (by decide)).trans ?_
  skip_stretch Gen.hostOps0_4
  skip_stretch Gen.hostOps0_3
  skip_stretch Gen.hostOps0_2
  skip_stretch Gen.hostOps0_1
  exact W1_dst2 m ρ c

/-! ## Argument arrays where a stretch reads them: as launched -/

/-- At boundary 6 the argument `main_arg3` is as launched: nothing before writes it. -/
theorem W6_arg3 (c : Dev nD) :
    Gen.W6 m ρ c (Proc.devRef .tc main_arg3) = m ((c.tc : Thread nD τ).loc main_arg3) := by
  refine (Gen.W6_of_ne m ρ c main_arg3 (by decide)).trans ?_
  skip_stretch Gen.hostOps0_4
  skip_stretch Gen.hostOps0_3
  skip_stretch Gen.hostOps0_2
  skip_stretch Gen.hostOps0_1
  skip_stretch Gen.hostOps0
  rfl

/-- At boundary 6 the argument `main_arg6` is as launched: nothing before writes it. -/
theorem W6_arg6 (c : Dev nD) :
    Gen.W6 m ρ c (Proc.devRef .tc main_arg6) = m ((c.tc : Thread nD τ).loc main_arg6) := by
  refine (Gen.W6_of_ne m ρ c main_arg6 (by decide)).trans ?_
  skip_stretch Gen.hostOps0_4
  skip_stretch Gen.hostOps0_3
  skip_stretch Gen.hostOps0_2
  skip_stretch Gen.hostOps0_1
  skip_stretch Gen.hostOps0
  rfl

/-- At boundary 6 the argument `main_arg5` is as launched: nothing before writes it. -/
theorem W6_arg5 (c : Dev nD) :
    Gen.W6 m ρ c (Proc.devRef .tc main_arg5) = m ((c.tc : Thread nD τ).loc main_arg5) := by
  refine (Gen.W6_of_ne m ρ c main_arg5 (by decide)).trans ?_
  skip_stretch Gen.hostOps0_4
  skip_stretch Gen.hostOps0_3
  skip_stretch Gen.hostOps0_2
  skip_stretch Gen.hostOps0_1
  skip_stretch Gen.hostOps0
  rfl

/-- At boundary 6 the argument `main_arg7` is as launched: nothing before writes it. -/
theorem W6_arg7 (c : Dev nD) :
    Gen.W6 m ρ c (Proc.devRef .tc main_arg7) = m ((c.tc : Thread nD τ).loc main_arg7) := by
  refine (Gen.W6_of_ne m ρ c main_arg7 (by decide)).trans ?_
  skip_stretch Gen.hostOps0_4
  skip_stretch Gen.hostOps0_3
  skip_stretch Gen.hostOps0_2
  skip_stretch Gen.hostOps0_1
  skip_stretch Gen.hostOps0
  rfl

/-- At boundary 6 the argument `main_arg8` is as launched: nothing before writes it. -/
theorem W6_arg8 (c : Dev nD) :
    Gen.W6 m ρ c (Proc.devRef .tc main_arg8) = m ((c.tc : Thread nD τ).loc main_arg8) := by
  refine (Gen.W6_of_ne m ρ c main_arg8 (by decide)).trans ?_
  skip_stretch Gen.hostOps0_4
  skip_stretch Gen.hostOps0_3
  skip_stretch Gen.hostOps0_2
  skip_stretch Gen.hostOps0_1
  skip_stretch Gen.hostOps0
  rfl

/-- At boundary 6 the argument `main_arg9` is as launched: nothing before writes it. -/
theorem W6_arg9 (c : Dev nD) :
    Gen.W6 m ρ c (Proc.devRef .tc main_arg9) = m ((c.tc : Thread nD τ).loc main_arg9) := by
  refine (Gen.W6_of_ne m ρ c main_arg9 (by decide)).trans ?_
  skip_stretch Gen.hostOps0_4
  skip_stretch Gen.hostOps0_3
  skip_stretch Gen.hostOps0_2
  skip_stretch Gen.hostOps0_1
  skip_stretch Gen.hostOps0
  rfl

/-- At boundary 8 the argument `main_arg0` is as launched: nothing before writes it. -/
theorem W8_arg0 (c : Dev nD) :
    Gen.W8 m ρ c (Proc.devRef .tc main_arg0) = m ((c.tc : Thread nD τ).loc main_arg0) := by
  refine (Gen.W8_of_ne m ρ c main_arg0 (by decide)).trans ?_
  skip_stretch Gen.hostOps1
  refine ((Gen.W6_arr m ρ c 0).trans (((Gen.dat0 (Gen.V5 m ρ) c).arrAt_in 0 rfl _).trans (Gen.A_eq0 (Gen.V5 m ρ) c 0))).trans ?_
  show Gen.W5 m ρ c (Proc.devRef .tc main_arg0) = _
  skip_stretch Gen.hostOps0_4
  skip_stretch Gen.hostOps0_3
  skip_stretch Gen.hostOps0_2
  skip_stretch Gen.hostOps0_1
  skip_stretch Gen.hostOps0
  rfl

/-- At boundary 14 the argument `main_arg11` is as launched: nothing before writes it. -/
theorem W14_arg11 (c : Dev nD) :
    Gen.W14 m ρ c (Proc.devRef .tc main_arg11) = m ((c.tc : Thread nD τ).loc main_arg11) := by
  refine (Gen.W14_of_ne m ρ c main_arg11 (by decide)).trans ?_
  skip_stretch Gen.hostOps2_4
  skip_stretch Gen.hostOps2_3
  skip_stretch Gen.hostOps2_2
  skip_stretch Gen.hostOps2_1
  skip_stretch Gen.hostOps2
  refine (Gen.W8_of_ne m ρ c main_arg11 (by decide)).trans ?_
  skip_stretch Gen.hostOps1
  refine (Gen.W6_of_ne m ρ c main_arg11 (by decide)).trans ?_
  skip_stretch Gen.hostOps0_4
  skip_stretch Gen.hostOps0_3
  skip_stretch Gen.hostOps0_2
  skip_stretch Gen.hostOps0_1
  skip_stretch Gen.hostOps0
  rfl

/-- At boundary 14 the argument `main_arg14` is as launched: nothing before writes it. -/
theorem W14_arg14 (c : Dev nD) :
    Gen.W14 m ρ c (Proc.devRef .tc main_arg14) = m ((c.tc : Thread nD τ).loc main_arg14) := by
  refine (Gen.W14_of_ne m ρ c main_arg14 (by decide)).trans ?_
  skip_stretch Gen.hostOps2_4
  skip_stretch Gen.hostOps2_3
  skip_stretch Gen.hostOps2_2
  skip_stretch Gen.hostOps2_1
  skip_stretch Gen.hostOps2
  refine (Gen.W8_of_ne m ρ c main_arg14 (by decide)).trans ?_
  skip_stretch Gen.hostOps1
  refine (Gen.W6_of_ne m ρ c main_arg14 (by decide)).trans ?_
  skip_stretch Gen.hostOps0_4
  skip_stretch Gen.hostOps0_3
  skip_stretch Gen.hostOps0_2
  skip_stretch Gen.hostOps0_1
  skip_stretch Gen.hostOps0
  rfl

/-- At boundary 14 the argument `main_arg13` is as launched: nothing before writes it. -/
theorem W14_arg13 (c : Dev nD) :
    Gen.W14 m ρ c (Proc.devRef .tc main_arg13) = m ((c.tc : Thread nD τ).loc main_arg13) := by
  refine (Gen.W14_of_ne m ρ c main_arg13 (by decide)).trans ?_
  skip_stretch Gen.hostOps2_4
  skip_stretch Gen.hostOps2_3
  skip_stretch Gen.hostOps2_2
  skip_stretch Gen.hostOps2_1
  skip_stretch Gen.hostOps2
  refine (Gen.W8_of_ne m ρ c main_arg13 (by decide)).trans ?_
  skip_stretch Gen.hostOps1
  refine (Gen.W6_of_ne m ρ c main_arg13 (by decide)).trans ?_
  skip_stretch Gen.hostOps0_4
  skip_stretch Gen.hostOps0_3
  skip_stretch Gen.hostOps0_2
  skip_stretch Gen.hostOps0_1
  skip_stretch Gen.hostOps0
  rfl

/-- At boundary 14 the argument `main_arg15` is as launched: nothing before writes it. -/
theorem W14_arg15 (c : Dev nD) :
    Gen.W14 m ρ c (Proc.devRef .tc main_arg15) = m ((c.tc : Thread nD τ).loc main_arg15) := by
  refine (Gen.W14_of_ne m ρ c main_arg15 (by decide)).trans ?_
  skip_stretch Gen.hostOps2_4
  skip_stretch Gen.hostOps2_3
  skip_stretch Gen.hostOps2_2
  skip_stretch Gen.hostOps2_1
  skip_stretch Gen.hostOps2
  refine (Gen.W8_of_ne m ρ c main_arg15 (by decide)).trans ?_
  skip_stretch Gen.hostOps1
  refine (Gen.W6_of_ne m ρ c main_arg15 (by decide)).trans ?_
  skip_stretch Gen.hostOps0_4
  skip_stretch Gen.hostOps0_3
  skip_stretch Gen.hostOps0_2
  skip_stretch Gen.hostOps0_1
  skip_stretch Gen.hostOps0
  rfl

/-- At boundary 14 the argument `main_arg16` is as launched: nothing before writes it. -/
theorem W14_arg16 (c : Dev nD) :
    Gen.W14 m ρ c (Proc.devRef .tc main_arg16) = m ((c.tc : Thread nD τ).loc main_arg16) := by
  refine (Gen.W14_of_ne m ρ c main_arg16 (by decide)).trans ?_
  skip_stretch Gen.hostOps2_4
  skip_stretch Gen.hostOps2_3
  skip_stretch Gen.hostOps2_2
  skip_stretch Gen.hostOps2_1
  skip_stretch Gen.hostOps2
  refine (Gen.W8_of_ne m ρ c main_arg16 (by decide)).trans ?_
  skip_stretch Gen.hostOps1
  refine (Gen.W6_of_ne m ρ c main_arg16 (by decide)).trans ?_
  skip_stretch Gen.hostOps0_4
  skip_stretch Gen.hostOps0_3
  skip_stretch Gen.hostOps0_2
  skip_stretch Gen.hostOps0_1
  skip_stretch Gen.hostOps0
  rfl

/-- At boundary 14 the argument `main_arg17` is as launched: nothing before writes it. -/
theorem W14_arg17 (c : Dev nD) :
    Gen.W14 m ρ c (Proc.devRef .tc main_arg17) = m ((c.tc : Thread nD τ).loc main_arg17) := by
  refine (Gen.W14_of_ne m ρ c main_arg17 (by decide)).trans ?_
  skip_stretch Gen.hostOps2_4
  skip_stretch Gen.hostOps2_3
  skip_stretch Gen.hostOps2_2
  skip_stretch Gen.hostOps2_1
  skip_stretch Gen.hostOps2
  refine (Gen.W8_of_ne m ρ c main_arg17 (by decide)).trans ?_
  skip_stretch Gen.hostOps1
  refine (Gen.W6_of_ne m ρ c main_arg17 (by decide)).trans ?_
  skip_stretch Gen.hostOps0_4
  skip_stretch Gen.hostOps0_3
  skip_stretch Gen.hostOps0_2
  skip_stretch Gen.hostOps0_1
  skip_stretch Gen.hostOps0
  rfl

/-! ## The regions' output arrays where the next stretch reads them -/

/-- Region 0's first output array at its exit. -/
theorem W6_h0 (c : Dev nD) :
    Gen.W6 m ρ c (Proc.devRef .tc main_v43_0) = ((Gen.dat0 (Gen.V5 m ρ) c).arrAt 5 cfg0.N) := by
  exact Gen.W6_arr m ρ c 5

/-- Region 0's second output array at its exit. -/
theorem W6_h1 (c : Dev nD) :
    Gen.W6 m ρ c (Proc.devRef .tc main_v43_1) = ((Gen.dat0 (Gen.V5 m ρ) c).arrAt 6 cfg0.N) := by
  exact Gen.W6_arr m ρ c 6

/-- Region 2's first output array at its exit. -/
theorem W14_h0 (c : Dev nD) :
    Gen.W14 m ρ c (Proc.devRef .tc main_v103_0) = ((Gen.dat2 (Gen.V13 m ρ) c).arrAt 5 cfg2.N) := by
  exact Gen.W14_arr m ρ c 5

/-- Region 2's second output array at its exit. -/
theorem W14_h1 (c : Dev nD) :
    Gen.W14 m ρ c (Proc.devRef .tc main_v103_1) = ((Gen.dat2 (Gen.V13 m ρ) c).arrAt 6 cfg2.N) := by
  exact Gen.W14_arr m ρ c 6

/-! ## Region 0 (first level, the two scaled products): its five input arrays at entry -/

/-- Region 0, window 0: the first branch's features, as launched. -/
theorem entry0_0 (c : Dev nD) :
    Gen.V5 m ρ c main_arg0 = m ((c.tc : Thread nD τ).loc main_arg0) := by
  show Gen.W5 m ρ c (Proc.devRef .tc main_arg0) = _
  skip_stretch Gen.hostOps0_4
  skip_stretch Gen.hostOps0_3
  skip_stretch Gen.hostOps0_2
  skip_stretch Gen.hostOps0_1
  skip_stretch Gen.hostOps0
  rfl

/-- Region 0, window 1: the second branch's features, the finer rows summed at the receiving ends. -/
theorem entry0_1 (c : Dev nD) :
    Gen.V5 m ρ c main_v10 = pooled (dst1 (m ((c.tc : Thread nD τ).loc main_arg18))) (m ((c.tc : Thread nD τ).loc main_arg1)) := by
  show Gen.W5 m ρ c (Proc.devRef .tc main_v10) = _
  skip_stretch Gen.hostOps0_4
  skip_stretch Gen.hostOps0_3
  skip_stretch Gen.hostOps0_2
  skip_stretch Gen.hostOps0_1
  dsimp only [Gen.W1, Gen.W0, Gen.hostOps0]
  after_results
  rfl

/-- Region 0, window 2: the first branch's weights, as launched. -/
theorem entry0_2 (c : Dev nD) :
    Gen.V5 m ρ c main_arg2 = m ((c.tc : Thread nD τ).loc main_arg2) := by
  show Gen.W5 m ρ c (Proc.devRef .tc main_arg2) = _
  skip_stretch Gen.hostOps0_4
  skip_stretch Gen.hostOps0_3
  skip_stretch Gen.hostOps0_2
  skip_stretch Gen.hostOps0_1
  skip_stretch Gen.hostOps0
  rfl

/-- Region 0, window 3: the second branch's weights, as launched. -/
theorem entry0_3 (c : Dev nD) :
    Gen.V5 m ρ c main_arg4 = m ((c.tc : Thread nD τ).loc main_arg4) := by
  show Gen.W5 m ρ c (Proc.devRef .tc main_arg4) = _
  skip_stretch Gen.hostOps0_4
  skip_stretch Gen.hostOps0_3
  skip_stretch Gen.hostOps0_2
  skip_stretch Gen.hostOps0_1
  skip_stretch Gen.hostOps0
  rfl

/-- Region 0, window 4: the scale of the sending side. -/
theorem entry0_4 (c : Dev nD) :
    Gen.V5 m ρ c main_v39 = scale1 (src1 (m ((c.tc : Thread nD τ).loc main_arg18))) := by
  dsimp only [Gen.V5, Gen.W5, Gen.W4, Gen.W3, Gen.W2, Gen.W1, Gen.W0, Gen.hostOps0, Gen.hostOps0_1, Gen.hostOps0_2, Gen.hostOps0_3, Gen.hostOps0_4]
  after_results_simp
  rfl

/-- At region 0's entry the scale of the receiving side is already in place. -/
theorem W5_scaleDst (c : Dev nD) :
    Gen.W5 m ρ c (Proc.devRef .tc main_v42) = scale1 (dst1 (m ((c.tc : Thread nD τ).loc main_arg18))) := by
  dsimp only [Gen.W5, Gen.W4, Gen.W3, Gen.W2, Gen.W1, Gen.W0, Gen.hostOps0, Gen.hostOps0_1, Gen.hostOps0_2, Gen.hostOps0_3, Gen.hostOps0_4]
  after_results_simp
  rfl

/-! ## Region 1 (first level, recombination and normalisation): its eleven input arrays at entry -/

/-- Region 1, window 0: the first branch's half of the messages. -/
theorem entry1_0 (c : Dev nD) :
    Gen.V7 m ρ c main_v55 = messagesA1 ((Gen.dat0 (Gen.V5 m ρ) c).arrAt 5 cfg0.N) ((Gen.dat0 (Gen.V5 m ρ) c).arrAt 6 cfg0.N) (src1 (m ((c.tc : Thread nD τ).loc main_arg18))) (dst1 (m ((c.tc : Thread nD τ).loc main_arg18))) := by
  dsimp only [Gen.V7, Gen.W7, Gen.hostOps1]
  after_results_simp
  rw [W6_h0, W6_h1, W6_src1, W6_dst1]
  rfl

/-- Region 1, window 1: region 0's first output. -/
theorem entry1_1 (c : Dev nD) :
    Gen.V7 m ρ c main_v43_0 = ((Gen.dat0 (Gen.V5 m ρ) c).arrAt 5 cfg0.N) := by
  show Gen.W7 m ρ c (Proc.devRef .tc main_v43_0) = _
  skip_stretch Gen.hostOps1
  exact Gen.W6_arr m ρ c 5

/-- Region 1, window 2: the second branch's half of the messages. -/
theorem entry1_2 (c : Dev nD) :
    Gen.V7 m ρ c main_v56 = messagesB1 ((Gen.dat0 (Gen.V5 m ρ) c).arrAt 5 cfg0.N) ((Gen.dat0 (Gen.V5 m ρ) c).arrAt 6 cfg0.N) (src1 (m ((c.tc : Thread nD τ).loc main_arg18))) (dst1 (m ((c.tc : Thread nD τ).loc main_arg18))) := by
  dsimp only [Gen.V7, Gen.W7, Gen.hostOps1]
  after_results_simp
  rw [W6_h0, W6_h1, W6_src1, W6_dst1]
  rfl

/-- Region 1, window 3: region 0's second output. -/
theorem entry1_3 (c : Dev nD) :
    Gen.V7 m ρ c main_v43_1 = ((Gen.dat0 (Gen.V5 m ρ) c).arrAt 6 cfg0.N) := by
  show Gen.W7 m ρ c (Proc.devRef .tc main_v43_1) = _
  skip_stretch Gen.hostOps1
  exact Gen.W6_arr m ρ c 6

/-- Region 1, window 4: the scale of the receiving side. -/
theorem entry1_4 (c : Dev nD) :
    Gen.V7 m ρ c main_v42 = scale1 (dst1 (m ((c.tc : Thread nD τ).loc main_arg18))) := by
  show Gen.W7 m ρ c (Proc.devRef .tc main_v42) = _
  skip_stretch Gen.hostOps1
  refine (Gen.W6_of_ne m ρ c main_v42 (by decide)).trans ?_
  exact W5_scaleDst m ρ c

/-- Region 1, window 5: the argument `main_arg3` as one row. -/
theorem entry1_5 (c : Dev nD) :
    Gen.V7 m ρ c main_v57 = asRow (m ((c.tc : Thread nD τ).loc main_arg3)) := by
  dsimp only [Gen.V7, Gen.W7, Gen.hostOps1]
  after_results
  rw [W6_arg3]
  rfl

/-- Region 1, window 6: the argument `main_arg6` as one row. -/
theorem entry1_6 (c : Dev nD) :
    Gen.V7 m ρ c main_v58 = asRow (m ((c.tc : Thread nD τ).loc main_arg6)) := by
  dsimp only [Gen.V7, Gen.W7, Gen.hostOps1]
  after_results
  rw [W6_arg6]
  rfl

/-- Region 1, window 7: the argument `main_arg5` as one row. -/
theorem entry1_7 (c : Dev nD) :
    Gen.V7 m ρ c main_v59 = asRow (m ((c.tc : Thread nD τ).loc main_arg5)) := by
  dsimp only [Gen.V7, Gen.W7, Gen.hostOps1]
  after_results
  rw [W6_arg5]
  rfl

/-- Region 1, window 8: the argument `main_arg7` as one row. -/
theorem entry1_8 (c : Dev nD) :
    Gen.V7 m ρ c main_v60 = asRow (m ((c.tc : Thread nD τ).loc main_arg7)) := by
  dsimp only [Gen.V7, Gen.W7, Gen.hostOps1]
  after_results
  rw [W6_arg7]
  rfl

/-- Region 1, window 9: the argument `main_arg8` as one row. -/
theorem entry1_9 (c : Dev nD) :
    Gen.V7 m ρ c main_v61 = asRow (m ((c.tc : Thread nD τ).loc main_arg8)) := by
  dsimp only [Gen.V7, Gen.W7, Gen.hostOps1]
  after_results
  rw [W6_arg8]
  rfl

/-- Region 1, window 10: the argument `main_arg9` as one row. -/
theorem entry1_10 (c : Dev nD) :
    Gen.V7 m ρ c main_v62 = asRow (m ((c.tc : Thread nD τ).loc main_arg9)) := by
  dsimp only [Gen.V7, Gen.W7, Gen.hostOps1]
  after_results
  rw [W6_arg9]
  rfl

/-! ## Region 2 (second level, the two scaled products): its five input arrays at entry -/

/-- Region 2, window 0: the first branch's features, as launched. -/
theorem entry2_0 (c : Dev nD) :
    Gen.V13 m ρ c main_arg1 = m ((c.tc : Thread nD τ).loc main_arg1) := by
  show Gen.W13 m ρ c (Proc.devRef .tc main_arg1) = _
  skip_stretch Gen.hostOps2_4
  skip_stretch Gen.hostOps2_3
  skip_stretch Gen.hostOps2_2
  skip_stretch Gen.hostOps2_1
  skip_stretch Gen.hostOps2
  refine (Gen.W8_of_ne m ρ c main_arg1 (by decide)).trans ?_
  skip_stretch Gen.hostOps1
  refine (Gen.W6_of_ne m ρ c main_arg1 (by decide)).trans ?_
  skip_stretch Gen.hostOps0_4
  skip_stretch Gen.hostOps0_3
  skip_stretch Gen.hostOps0_2
  skip_stretch Gen.hostOps0_1
  skip_stretch Gen.hostOps0
  rfl

/-- Region 2, window 1: the second branch's features, the coarser rows fetched at the receiving ends. -/
theorem entry2_1 (c : Dev nD) :
    Gen.V13 m ρ c main_v70 = spread (m ((c.tc : Thread nD τ).loc main_arg0)) (dst1 (m ((c.tc : Thread nD τ).loc main_arg18))) := by
  show Gen.W13 m ρ c (Proc.devRef .tc main_v70) = _
  skip_stretch Gen.hostOps2_4
  skip_stretch Gen.hostOps2_3
  skip_stretch Gen.hostOps2_2
  skip_stretch Gen.hostOps2_1
  dsimp only [Gen.W9, Gen.hostOps2]
  after_results
  rw [W8_arg0, W8_dst1]
  rfl

/-- Region 2, window 2: the first branch's weights, as launched. -/
theorem entry2_2 (c : Dev nD) :
    Gen.V13 m ρ c main_arg10 = m ((c.tc : Thread nD τ).loc main_arg10) := by
  show Gen.W13 m ρ c (Proc.devRef .tc main_arg10) = _
  skip_stretch Gen.hostOps2_4
  skip_stretch Gen.hostOps2_3
  skip_stretch Gen.hostOps2_2
  skip_stretch Gen.hostOps2_1
  skip_stretch Gen.hostOps2
  refine (Gen.W8_of_ne m ρ c main_arg10 (by decide)).trans ?_
  skip_stretch Gen.hostOps1
  refine (Gen.W6_of_ne m ρ c main_arg10 (by decide)).trans ?_
  skip_stretch Gen.hostOps0_4
  skip_stretch Gen.hostOps0_3
  skip_stretch Gen.hostOps0_2
  skip_stretch Gen.hostOps0_1
  skip_stretch Gen.hostOps0
  rfl

/-- Region 2, window 3: the second branch's weights, as launched. -/
theorem entry2_3 (c : Dev nD) :
    Gen.V13 m ρ c main_arg12 = m ((c.tc : Thread nD τ).loc main_arg12) := by
  show Gen.W13 m ρ c (Proc.devRef .tc main_arg12) = _
  skip_stretch Gen.hostOps2_4
  skip_stretch Gen.hostOps2_3
  skip_stretch Gen.hostOps2_2
  skip_stretch Gen.hostOps2_1
  skip_stretch Gen.hostOps2
  refine (Gen.W8_of_ne m ρ c main_arg12 (by decide)).trans ?_
  skip_stretch Gen.hostOps1
  refine (Gen.W6_of_ne m ρ c main_arg12 (by decide)).trans ?_
  skip_stretch Gen.hostOps0_4
  skip_stretch Gen.hostOps0_3
  skip_stretch Gen.hostOps0_2
  skip_stretch Gen.hostOps0_1
  skip_stretch Gen.hostOps0
  rfl

/-- Region 2, window 4: the scale of the sending side. -/
theorem entry2_4 (c : Dev nD) :
    Gen.V13 m ρ c main_v99 = scale2 (src2 (m ((c.tc : Thread nD τ).loc main_arg19))) := by
  dsimp only [Gen.V13, Gen.W13, Gen.W12, Gen.W11, Gen.W10, Gen.W9, Gen.hostOps2, Gen.hostOps2_1, Gen.hostOps2_2, Gen.hostOps2_3, Gen.hostOps2_4]
  after_results_simp
  rw [W8_src2]
  rfl

/-- At region 2's entry the scale of the receiving side is already in place. -/
theorem W13_scaleDst (c : Dev nD) :
    Gen.W13 m ρ c (Proc.devRef .tc main_v102) = scale2 (dst2 (m ((c.tc : Thread nD τ).loc main_arg19))) := by
  dsimp only [Gen.W13, Gen.W12, Gen.W11, Gen.W10, Gen.W9, Gen.hostOps2, Gen.hostOps2_1, Gen.hostOps2_2, Gen.hostOps2_3, Gen.hostOps2_4]
  after_results_simp
  rw [W8_dst2]
  rfl

/-! ## Region 3 (second level, recombination and normalisation): its eleven input arrays at entry -/

/-- Region 3, window 0: the first branch's half of the messages. -/
theorem entry3_0 (c : Dev nD) :
    Gen.V15 m ρ c main_v115 = messagesA2 ((Gen.dat2 (Gen.V13 m ρ) c).arrAt 5 cfg2.N) ((Gen.dat2 (Gen.V13 m ρ) c).arrAt 6 cfg2.N) (src2 (m ((c.tc : Thread nD τ).loc main_arg19))) (dst2 (m ((c.tc : Thread nD τ).loc main_arg19))) := by
  dsimp only [Gen.V15, Gen.W15, Gen.hostOps3]
  after_results_simp
  rw [W14_h0, W14_h1, W14_src2, W14_dst2]
  rfl

/-- Region 3, window 1: region 2's first output. -/
theorem entry3_1 (c : Dev nD) :
    Gen.V15 m ρ c main_v103_0 = ((Gen.dat2 (Gen.V13 m ρ) c).arrAt 5 cfg2.N) := by
  show Gen.W15 m ρ c (Proc.devRef .tc main_v103_0) = _
  skip_stretch Gen.hostOps3
  exact Gen.W14_arr m ρ c 5

/-- Region 3, window 2: the second branch's half of the messages. -/
theorem entry3_2 (c : Dev nD) :
    Gen.V15 m ρ c main_v116 = messagesB2 ((Gen.dat2 (Gen.V13 m ρ) c).arrAt 5 cfg2.N) ((Gen.dat2 (Gen.V13 m ρ) c).arrAt 6 cfg2.N) (src2 (m ((c.tc : Thread nD τ).loc main_arg19))) (dst2 (m ((c.tc : Thread nD τ).loc main_arg19))) := by
  dsimp only [Gen.V15, Gen.W15, Gen.hostOps3]
  after_results_simp
  rw [W14_h0, W14_h1, W14_src2, W14_dst2]
  rfl

/-- Region 3, window 3: region 2's second output. -/
theorem entry3_3 (c : Dev nD) :
    Gen.V15 m ρ c main_v103_1 = ((Gen.dat2 (Gen.V13 m ρ) c).arrAt 6 cfg2.N) := by
  show Gen.W15 m ρ c (Proc.devRef .tc main_v103_1) = _
  skip_stretch Gen.hostOps3
  exact Gen.W14_arr m ρ c 6

/-- Region 3, window 4: the scale of the receiving side. -/
theorem entry3_4 (c : Dev nD) :
    Gen.V15 m ρ c main_v102 = scale2 (dst2 (m ((c.tc : Thread nD τ).loc main_arg19))) := by
  show Gen.W15 m ρ c (Proc.devRef .tc main_v102) = _
  skip_stretch Gen.hostOps3
  refine (Gen.W14_of_ne m ρ c main_v102 (by decide)).trans ?_
  exact W13_scaleDst m ρ c

/-- Region 3, window 5: the argument `main_arg11` as one row. -/
theorem entry3_5 (c : Dev nD) :
    Gen.V15 m ρ c main_v117 = asRow (m ((c.tc : Thread nD τ).loc main_arg11)) := by
  dsimp only [Gen.V15, Gen.W15, Gen.hostOps3]
  after_results
  rw [W14_arg11]
  rfl

/-- Region 3, window 6: the argument `main_arg14` as one row. -/
theorem entry3_6 (c : Dev nD) :
    Gen.V15 m ρ c main_v118 = asRow (m ((c.tc : Thread nD τ).loc main_arg14)) := by
  dsimp only [Gen.V15, Gen.W15, Gen.hostOps3]
  after_results
  rw [W14_arg14]
  rfl

/-- Region 3, window 7: the argument `main_arg13` as one row. -/
theorem entry3_7 (c : Dev nD) :
    Gen.V15 m ρ c main_v119 = asRow (m ((c.tc : Thread nD τ).loc main_arg13)) := by
  dsimp only [Gen.V15, Gen.W15, Gen.hostOps3]
  after_results
  rw [W14_arg13]
  rfl

/-- Region 3, window 8: the argument `main_arg15` as one row. -/
theorem entry3_8 (c : Dev nD) :
    Gen.V15 m ρ c main_v120 = asRow (m ((c.tc : Thread nD τ).loc main_arg15)) := by
  dsimp only [Gen.V15, Gen.W15, Gen.hostOps3]
  after_results
  rw [W14_arg15]
  rfl

/-- Region 3, window 9: the argument `main_arg16` as one row. -/
theorem entry3_9 (c : Dev nD) :
    Gen.V15 m ρ c main_v121 = asRow (m ((c.tc : Thread nD τ).loc main_arg16)) := by
  dsimp only [Gen.V15, Gen.W15, Gen.hostOps3]
  after_results
  rw [W14_arg16]
  rfl

/-- Region 3, window 10: the argument `main_arg17` as one row. -/
theorem entry3_10 (c : Dev nD) :
    Gen.V15 m ρ c main_v122 = asRow (m ((c.tc : Thread nD τ).loc main_arg17)) := by
  dsimp only [Gen.V15, Gen.W15, Gen.hostOps3]
  after_results
  rw [W14_arg17]
  rfl

end Cert.KernelIdeal.RunValue

end
-- ==== Proof.PostPayload1.lean ====
/-
  The body of the recombination-and-normalisation kernel (2000-row blocks), read at one entry of its output block.

  The body recombines the two branches entry by entry (`Spec.combine`), takes each row's mean and its variance
  about the mean over the 128 columns, divides the centred row by the root of the variance plus a small offset,
  maps it affinely by two per-column rows and clamps it below at zero. Here each of the body's four intermediate
  values is read at an index `(p, q)` of its block, and the stored value is identified with `Spec.normRelu` of the
  recombined row `p`.
-/
import proofs.«181315_g23613730193938_cont_sun_m_512_6_alg».proof.Proof.Gen.KernelIdeal.Skeleton
import proofs.«181315_g23613730193938_cont_sun_m_512_6_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PostValue1

open Cert.KernelIdeal Cert.KernelIdeal.Gen Idealize.ShloMosaic Idealize.ShloMosaic.ValueIdx
open scoped BigOperators

/-! ## Layout operations with a unit trailing axis, read at an index -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the `[a, 1]` column reads, at `(p, u)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum of a `[a, b]` array over its second axis reads, at row `p`, the sum of that row's `b` entries. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show (∑ k : Fin b, src (h.lift (ix1 p) k)) = _
  refine Finset.sum_congr rfl fun k _ => congrArg src (funext fun ax => ?_)
  match ax with
  | ⟨0, _⟩ => rfl
  | ⟨1, _⟩ => rfl

/-- A square root at an index is the square root of the element. -/
theorem sqrt_apply {s : Shape} {φ : FTy} (a : FVec Ideal s φ) (i : s.Idx) : sqrt a i = Ideal.sqrt (a i) := rfl

/-! ## The body's values at an index -/

section Payload
variable (aa ha ab hb : Vec Ideal S2000x128 .f32) (nd : Vec Ideal S2000x1 .f32)
  (bca wca bcb wcb g be : Vec Ideal S1x128 .f32)

/-- The recombined row `p` of a block: entry `c` is `Spec.combine` of the block's entries at `(p, c)`, the row's scale and
    the four per-column rows. -/
abbrev zrow (p : Fin 2000) : Fin 128 → EReal := fun c =>
  Cert.Spec.combine (aa (ix2 p c)) (ha (ix2 p c)) (ab (ix2 p c)) (hb (ix2 p c)) (nd (ix2 p 0))
    (bca (ix2 0 c)) (wca (ix2 0 c)) (bcb (ix2 0 c)) (wcb (ix2 0 c))

/-- The recombination at `(p, c)`. -/
theorem pay2_apply (p : Fin 2000) (c : Fin 128) :
    k1_pay2 nd aa ha bca wca ab hb bcb wcb (ix2 p c) = zrow aa ha ab hb nd bca wca bcb wcb p c := by
  unfold k1_pay2
  simp only [shapeCast_self, addf_apply, mulf_apply, broadcastTo_a1_ab_apply, broadcastTo_1b_ab_apply]
  rfl

/-- The row mean at `(p, u)`. -/
theorem pay3_apply (p : Fin 2000) (u : Fin 1) :
    k1_pay3 nd aa ha bca wca ab hb bcb wcb (ix2 p u) = Cert.Spec.rowMean (zrow aa ha ab hb nd bca wca bcb wcb p) := by
  unfold k1_pay3
  simp only [divf_apply, shapeCast_a_a1_apply, broadcast_apply]
  rw [rowSum_apply]
  simp only [pay2_apply]
  rfl

/-- The centred recombination at `(p, c)`. -/
theorem pay4_apply (p : Fin 2000) (c : Fin 128) :
    k1_pay4 nd aa ha bca wca ab hb bcb wcb (ix2 p c)
      = zrow aa ha ab hb nd bca wca bcb wcb p c - Cert.Spec.rowMean (zrow aa ha ab hb nd bca wca bcb wcb p) := by
  unfold k1_pay4
  simp only [subf_apply, broadcastTo_a1_ab_apply, pay2_apply, pay3_apply]

/-- The last value of the body at `(p, q)`, over any recombination `z`, mean column `mu` and centred array `d`:
    the centred entry over the root of the row's mean square of `d` plus the offset, mapped affinely and clamped. -/
theorem pay1_apply (z d : FVec Ideal S2000x128 .f32) (mu : FVec Ideal S2000x1 .f32) (p : Fin 2000) (q : Fin 128) :
    k1_pay1 z mu d g be (ix2 p q)
      = max (Ideal.div (z (ix2 p q) - mu (ix2 p 0))
              (Ideal.sqrt (Ideal.div (∑ k : Fin 128, d (ix2 p k) * d (ix2 p k)) Cert.Spec.cols + Cert.Spec.eps))
            * g (ix2 0 q) + be (ix2 0 q)) (Ideal.ofBits .f32 0x00000000#32) := by
  unfold k1_pay1
  simp only [maximumf_apply, addf_apply, mulf_apply, divf_apply, subf_apply, sqrt_apply, broadcastTo_a1_ab_apply,
    broadcastTo_1b_ab_apply, shapeCast_self, shapeCast_a_a1_apply, broadcast_apply]
  rw [rowSum_apply]
  simp only [mulf_apply]
  rfl

/-- THE BODY'S STORED VALUE at `(p, q)`: the normalised, affinely mapped and clamped recombination of row `p`. -/
theorem body_apply (p : Fin 2000) (q : Fin 128) :
    k1_pay1 (k1_pay2 nd aa ha bca wca ab hb bcb wcb) (k1_pay3 nd aa ha bca wca ab hb bcb wcb)
        (k1_pay4 nd aa ha bca wca ab hb bcb wcb) g be (ix2 p q)
      = Cert.Spec.normRelu (zrow aa ha ab hb nd bca wca bcb wcb p) (fun c => g (ix2 0 c)) (fun c => be (ix2 0 c)) q := by
  rw [pay1_apply]
  simp only [pay2_apply, pay3_apply, pay4_apply]
  rfl

end Payload

end Cert.KernelIdeal.PostValue1

end
-- ==== Proof.PostValue1.lean ====
/-
  The array the recombination-and-normalisation region (2000-row blocks of a 10000-row array) leaves, entry by entry.

  Each grid point reads row block `t` of the four feature arrays and of the per-row scale, and the whole of the six
  per-column rows; it writes row block `t` of the result. The 5 blocks tile the 10000 rows, so the result array is,
  at every `(r, q)`, `Spec.normRelu` of the recombined row `r` of the arrays the region found.
-/
import proofs.«181315_g23613730193938_cont_sun_m_512_6_alg».proof.Proof.Gen.KernelIdeal.Frame
import proofs.«181315_g23613730193938_cont_sun_m_512_6_alg».proof.Proof.Spec
import proofs.«181315_g23613730193938_cont_sun_m_512_6_alg».proof.Proof.PostPayload1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PostValue1

open Cert.KernelIdeal Cert.KernelIdeal.Gen Idealize.ShloMosaic Idealize.ShloMosaic.TcCoe Idealize.ShloMosaic.ValueIdx
open Idealize.ShloMosaic.Pipeline (Dat)
open scoped BigOperators

/-! ## The result as one function of the eleven arrays -/

/-- Entry `(r, q)` of the result: the normalised, affinely mapped and clamped recombination of row `r`. -/
def G (A0 A1 A2 A3 : S10000x128.Idx → EReal) (A4 : S10000x1.Idx → EReal) (A5 A6 A7 A8 A9 A10 : S1x128.Idx → EReal)
    (r : Fin 10000) (q : Fin 128) : EReal :=
  Cert.Spec.normRelu (fun c' => Cert.Spec.combine (A0 (ix2 r c')) (A1 (ix2 r c')) (A2 (ix2 r c')) (A3 (ix2 r c'))
      (A4 (ix2 r 0)) (A5 (ix2 0 c')) (A6 (ix2 0 c')) (A7 (ix2 0 c')) (A8 (ix2 0 c')))
    (fun c' => A9 (ix2 0 c')) (fun c' => A10 (ix2 0 c')) q

/-- The same as an array. -/
def Garr (A0 A1 A2 A3 : S10000x128.Idx → EReal) (A4 : S10000x1.Idx → EReal) (A5 A6 A7 A8 A9 A10 : S1x128.Idx → EReal) :
    S10000x128.Idx → EReal :=
  fun i => G A0 A1 A2 A3 A4 A5 A6 A7 A8 A9 A10 ⟨(i 0).val, idx2_lt0 i⟩ ⟨(i 1).val, idx2_lt1 i⟩

theorem Garr_ix2 (A0 A1 A2 A3 : S10000x128.Idx → EReal) (A4 : S10000x1.Idx → EReal) (A5 A6 A7 A8 A9 A10 : S1x128.Idx → EReal)
    (r : Fin 10000) (q : Fin 128) : Garr A0 A1 A2 A3 A4 A5 A6 A7 A8 A9 A10 (ix2 r q) = G A0 A1 A2 A3 A4 A5 A6 A7 A8 A9 A10 r q := rfl

/-! ## One block's stored value from the arrays' rows -/

/-- If row `p` of each row-blocked input block is row `r` of its array, and each per-column block is its array, the
    body's stored value at `(p, q)` is the result's entry `(r, q)`. -/
theorem block_apply (x0 x1 x2 x3 : Vec Ideal S2000x128 .f32) (x4 : Vec Ideal S2000x1 .f32)
    (x5 x6 x7 x8 x9 x10 : Vec Ideal S1x128 .f32)
    (A0 A1 A2 A3 : S10000x128.Idx → EReal) (A4 : S10000x1.Idx → EReal) (A5 A6 A7 A8 A9 A10 : S1x128.Idx → EReal)
    (r : Fin 10000) (p : Fin 2000) (q : Fin 128)
    (h0 : ∀ c' : Fin 128, x0 (ix2 p c') = A0 (ix2 r c')) (h1 : ∀ c' : Fin 128, x1 (ix2 p c') = A1 (ix2 r c'))
    (h2 : ∀ c' : Fin 128, x2 (ix2 p c') = A2 (ix2 r c')) (h3 : ∀ c' : Fin 128, x3 (ix2 p c') = A3 (ix2 r c'))
    (h4 : x4 (ix2 p 0) = A4 (ix2 r 0))
    (h5 : ∀ c' : Fin 128, x5 (ix2 0 c') = A5 (ix2 0 c')) (h6 : ∀ c' : Fin 128, x6 (ix2 0 c') = A6 (ix2 0 c'))
    (h7 : ∀ c' : Fin 128, x7 (ix2 0 c') = A7 (ix2 0 c')) (h8 : ∀ c' : Fin 128, x8 (ix2 0 c') = A8 (ix2 0 c'))
    (h9 : ∀ c' : Fin 128, x9 (ix2 0 c') = A9 (ix2 0 c')) (h10 : ∀ c' : Fin 128, x10 (ix2 0 c') = A10 (ix2 0 c')) :
    k1_pay1 (k1_pay2 x4 x0 x1 x5 x6 x2 x3 x7 x8) (k1_pay3 x4 x0 x1 x5 x6 x2 x3 x7 x8)
        (k1_pay4 x4 x0 x1 x5 x6 x2 x3 x7 x8) x9 x10 (ix2 p q)
      = G A0 A1 A2 A3 A4 A5 A6 A7 A8 A9 A10 r q := by
  rw [body_apply]
  unfold G zrow
  simp only [h0, h1, h2, h3, h4, h5, h6, h7, h8, h9, h10]

/-! ## The blocks' places in their arrays -/

theorem hz : (![0, 0] : Fin 2 → Nat) = fun _ => 0 := funext fun a => by fin_cases a <;> rfl

/-- The printed index maps, decided over the 5 points: a row-blocked window's block at point `t` is row block `t`,
    a per-column window's block is the one block of its array. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

set_option maxHeartbeats 1000000 in
/-- Row `p` of window 0's block at point `t` is row `2000·t + p` of its array. -/
theorem emb_0 (t : Fin cfg1.N) (p : Fin 2000) (c' : Fin 128) (hr : t.val * 2000 + p.val < 10000) :
    ((cfg1.win 0).blk t).view.emb (ix2 p c') = ix2 (⟨t.val * 2000 + p.val, hr⟩ : Fin 10000) c' := by
  obtain ⟨⟨e0, e1⟩, -, -, -, -, -, -, -, -, -, -, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 128 + 1 * c'.val = c'.val; omega

set_option maxHeartbeats 1000000 in
/-- Row `p` of window 1's block at point `t` is row `2000·t + p` of its array. -/
theorem emb_1 (t : Fin cfg1.N) (p : Fin 2000) (c' : Fin 128) (hr : t.val * 2000 + p.val < 10000) :
    ((cfg1.win 1).blk t).view.emb (ix2 p c') = ix2 (⟨t.val * 2000 + p.val, hr⟩ : Fin 10000) c' := by
  obtain ⟨-, ⟨e0, e1⟩, -, -, -, -, -, -, -, -, -, -⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 128 + 1 * c'.val = c'.val; omega

set_option maxHeartbeats 1000000 in
/-- Row `p` of window 2's block at point `t` is row `2000·t + p` of its array. -/
theorem emb_2 (t : Fin cfg1.N) (p : Fin 2000) (c' : Fin 128) (hr : t.val * 2000 + p.val < 10000) :
    ((cfg1.win 2).blk t).view.emb (ix2 p c') = ix2 (⟨t.val * 2000 + p.val, hr⟩ : Fin 10000) c' := by
  obtain ⟨-, -, ⟨e0, e1⟩, -, -, -, -, -, -, -, -, -⟩ := idx_facts t
  funext a; apply Fin.ext
  match a with
  | ⟨0, _⟩ => show win1_2.index t (0 : Fin 2) * 2000 + 1 * p.val = t.val * 2000 + p.val; omega
  | ⟨1, _⟩ => show win1_2.index t (1 : Fin 2) * 128 + 1 * c'.val = c'.val; omega

set_option maxHeartbeats 1000000 in
/-- Row `p` of window 3's block at point `t` is row `2000·t + p` of its array. -/
theorem emb_3 (t : Fin cfg1.N) (p : Fin 2000) (c' : Fin 128) (hr : t.val * 2000 + p.val < 10000) :
    ((cfg1.win 3).blk t).view.emb (ix2 p c') = ix2 (⟨t.val * 2000 + p.val, hr⟩ : Fin 10000) c' := by
  obtain ⟨-, -, -, ⟨e0, e1⟩, -, -, -, -, -, -, -, -⟩ := idx_facts t
  funext a; apply Fin.ext
  match a with
  | ⟨0, _⟩ => show win1_3.index t (0 : Fin 2) * 2000 + 1 * p.val = t.val * 2000 + p.val; omega
  | ⟨1, _⟩ => show win1_3.index t (1 : Fin 2) * 128 + 1 * c'.val = c'.val; omega

set_option maxHeartbeats 1000000 in
/-- Row `p` of window 11's block at point `t` is row `2000·t + p` of its array. -/
theorem emb_11 (t : Fin cfg1.N) (p : Fin 2000) (c' : Fin 128) (hr : t.val * 2000 + p.val < 10000) :
    ((cfg1.win 11).blk t).view.emb (ix2 p c') = ix2 (⟨t.val * 2000 + p.val, hr⟩ : Fin 10000) c' := by
  obtain ⟨-, -, -, -, -, -, -, -, -, -, -, ⟨e0, e1⟩⟩ := idx_facts t
  funext a; apply Fin.ext
  match a with
  | ⟨0, _⟩ => show win1_11.index t (0 : Fin 2) * 2000 + 1 * p.val = t.val * 2000 + p.val; omega
  | ⟨1, _⟩ => show win1_11.index t (1 : Fin 2) * 128 + 1 * c'.val = c'.val; omega

set_option maxHeartbeats 1000000 in
/-- Row `p` of the scale window's block at point `t` is row `2000·t + p` of the scale column. -/
theorem emb_4 (t : Fin cfg1.N) (p : Fin 2000) (hr : t.val * 2000 + p.val < 10000) :
    ((cfg1.win 4).blk t).view.emb (ix2 p (0 : Fin 1)) = ix2 (⟨t.val * 2000 + p.val, hr⟩ : Fin 10000) (0 : Fin 1) := by
  obtain ⟨-, -, -, -, ⟨e0, e1⟩, -, -, -, -, -, -, -⟩ := idx_facts t
  funext a; apply Fin.ext
  match a with
  | ⟨0, _⟩ => show win1_4.index t (0 : Fin 2) * 2000 + 1 * p.val = t.val * 2000 + p.val; omega
  | ⟨1, _⟩ => show win1_4.index t (1 : Fin 2) * 1 + 1 * 0 = 0; omega

set_option maxHeartbeats 1000000 in
/-- Window 5's block at every point is its whole one-row array. -/
theorem emb_5 (t : Fin cfg1.N) (c' : Fin 128) :
    ((cfg1.win 5).blk t).view.emb (ix2 (0 : Fin 1) c') = ix2 (0 : Fin 1) c' := by
  obtain ⟨-, -, -, -, -, ⟨e0, e1⟩, -, -, -, -, -, -⟩ := idx_facts t
  funext a; apply Fin.ext
  match a with
  | ⟨0, _⟩ => show win1_5.index t (0 : Fin 2) * 1 + 1 * 0 = 0; omega
  | ⟨1, _⟩ => show win1_5.index t (1 : Fin 2) * 128 + 1 * c'.val = c'.val; omega

set_option maxHeartbeats 1000000 in
/-- Window 6's block at every point is its whole one-row array. -/
theorem emb_6 (t : Fin cfg1.N) (c' : Fin 128) :
    ((cfg1.win 6).blk t).view.emb (ix2 (0 : Fin 1) c') = ix2 (0 : Fin 1) c' := by
  obtain ⟨-, -, -, -, -, -, ⟨e0, e1⟩, -, -, -, -, -⟩ := idx_facts t
  funext a; apply Fin.ext
  match a with
  | ⟨0, _⟩ => show win1_6.index t (0 : Fin 2) * 1 + 1 * 0 = 0; omega
  | ⟨1, _⟩ => show win1_6.index t (1 : Fin 2) * 128 + 1 * c'.val = c'.val; omega

set_option maxHeartbeats 1000000 in
/-- Window 7's block at every point is its whole one-row array. -/
theorem emb_7 (t : Fin cfg1.N) (c' : Fin 128) :
    ((cfg1.win 7).blk t).view.emb (ix2 (0 : Fin 1) c') = ix2 (0 : Fin 1) c' := by
  obtain ⟨-, -, -, -, -, -, -, ⟨e0, e1⟩, -, -, -, -⟩ := idx_facts t
  funext a; apply Fin.ext
  match a with
  | ⟨0, _⟩ => show win1_7.index t (0 : Fin 2) * 1 + 1 * 0 = 0; omega
  | ⟨1, _⟩ => show win1_7.index t (1 : Fin 2) * 128 + 1 * c'.val = c'.val; omega

set_option maxHeartbeats 1000000 in
/-- Window 8's block at every point is its whole one-row array. -/
theorem emb_8 (t : Fin cfg1.N) (c' : Fin 128) :
    ((cfg1.win 8).blk t).view.emb (ix2 (0 : Fin 1) c') = ix2 (0 : Fin 1) c' := by
  obtain ⟨-, -, -, -, -, -, -, -, ⟨e0, e1⟩, -, -, -⟩ := idx_facts t
  funext a; apply Fin.ext
  match a with
  | ⟨0, _⟩ => show win1_8.index t (0 : Fin 2) * 1 + 1 * 0 = 0; omega
  | ⟨1, _⟩ => show win1_8.index t (1 : Fin 2) * 128 + 1 * c'.val = c'.val; omega

set_option maxHeartbeats 1000000 in
/-- Window 9's block at every point is its whole one-row array. -/
theorem emb_9 (t : Fin cfg1.N) (c' : Fin 128) :
    ((cfg1.win 9).blk t).view.emb (ix2 (0 : Fin 1) c') = ix2 (0 : Fin 1) c' := by
  obtain ⟨-, -, -, -, -, -, -, -, -, ⟨e0, e1⟩, -, -⟩ := idx_facts t
  funext a; apply Fin.ext
  match a with
  | ⟨0, _⟩ => show win1_9.index t (0 : Fin 2) * 1 + 1 * 0 = 0; omega
  | ⟨1, _⟩ => show win1_9.index t (1 : Fin 2) * 128 + 1 * c'.val = c'.val; omega

set_option maxHeartbeats 1000000 in
/-- Window 10's block at every point is its whole one-row array. -/
theorem emb_10 (t : Fin cfg1.N) (c' : Fin 128) :
    ((cfg1.win 10).blk t).view.emb (ix2 (0 : Fin 1) c') = ix2 (0 : Fin 1) c' := by
  obtain ⟨-, -, -, -, -, -, -, -, -, -, ⟨e0, e1⟩, -⟩ := idx_facts t
  funext a; apply Fin.ext
  match a with
  | ⟨0, _⟩ => show win1_10.index t (0 : Fin 2) * 1 + 1 * 0 = 0; omega
  | ⟨1, _⟩ => show win1_10.index t (1 : Fin 2) * 128 + 1 * c'.val = c'.val; omega

variable (V : (c : Dev nD) → (b : Ref sig .tc) → Buf (Elt Ideal) ((c : Thread nD τ).loc b))

/-- The result array as a function of the arrays the region finds. -/
abbrev GV (c : Dev nD) : S10000x128.Idx → EReal :=
  Garr (V c (Pipeline.arrRef spec1 0)) (V c (Pipeline.arrRef spec1 1)) (V c (Pipeline.arrRef spec1 2)) (V c (Pipeline.arrRef spec1 3))
    (V c (Pipeline.arrRef spec1 4)) (V c (Pipeline.arrRef spec1 5)) (V c (Pipeline.arrRef spec1 6)) (V c (Pipeline.arrRef spec1 7))
    (V c (Pipeline.arrRef spec1 8)) (V c (Pipeline.arrRef spec1 9)) (V c (Pipeline.arrRef spec1 10))

set_option maxHeartbeats 1000000 in
/-- WHAT POINT `t` WRITES BACK is row block `t` of the result. -/
theorem flushed_eq (c : Dev nD) (t : Fin cfg1.N) :
    (dat1 (F := Ideal) V c).flushed 11 t = ((cfg1.win 11).blk t).view.read (Elt Ideal) (GV V c) := by
  show (cfg1.win 11).cut (grid1.coords t) ((dat1 (F := Ideal) V c).after 11 t) = _
  rw [after1_11]
  unfold out1_11
  rw [View.canon_unit_zero hz]
  simp only [View.ld_unit_zero (S := S2000x128) hz, View.ld_unit_zero (S := S2000x1) hz, View.ld_unit_zero (S := S1x128) hz]
  have hN : t.val < 5 := Nat.lt_of_lt_of_eq t.isLt N_1
  funext j
  obtain ⟨p, q, rfl⟩ : ∃ (p : Fin 2000) (q : Fin 128), j = ix2 p q := ⟨j 0, j 1, eq_ix2 j⟩
  have hr : t.val * 2000 + p.val < 10000 := by have := p.isLt; omega
  show k1_pay1 (F := Ideal) _ _ _ _ _ (ix2 p q) = GV V c (((cfg1.win 11).blk t).view.emb (ix2 p q))
  rw [emb_11 t p q hr]
  exact block_apply (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) (iblk1 V c 10 t)
    _ _ _ _ _ _ _ _ _ _ _ (⟨t.val * 2000 + p.val, hr⟩ : Fin 10000) p q
    (fun c' => congrArg (V c (Pipeline.arrRef spec1 0)) (emb_0 t p c' hr))
    (fun c' => congrArg (V c (Pipeline.arrRef spec1 1)) (emb_1 t p c' hr))
    (fun c' => congrArg (V c (Pipeline.arrRef spec1 2)) (emb_2 t p c' hr))
    (fun c' => congrArg (V c (Pipeline.arrRef spec1 3)) (emb_3 t p c' hr))
    (congrArg (V c (Pipeline.arrRef spec1 4)) (emb_4 t p hr))
    (fun c' => congrArg (V c (Pipeline.arrRef spec1 5)) (emb_5 t c'))
    (fun c' => congrArg (V c (Pipeline.arrRef spec1 6)) (emb_6 t c'))
    (fun c' => congrArg (V c (Pipeline.arrRef spec1 7)) (emb_7 t c'))
    (fun c' => congrArg (V c (Pipeline.arrRef spec1 8)) (emb_8 t c'))
    (fun c' => congrArg (V c (Pipeline.arrRef spec1 9)) (emb_9 t c'))
    (fun c' => congrArg (V c (Pipeline.arrRef spec1 10)) (emb_10 t c'))

/-- An index of the result array is in point `t`'s block iff each coordinate is in the block's range on its axis. -/
theorem mem_blk (t : Fin cfg1.N) (i : S10000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v63).slice (win1_11.rect t)).set ↔ _
  rw [View.set_slice_whole, Rect.mem_set_unit]
  exact Iff.rfl

/-- THE COVER: row `r` of the result is in the block of point `r / 2000`. -/
theorem cover (i : S10000x128.Idx) :
    ∃ t : Fin cfg1.N, (cfg1.win 11).flush t = true ∧ i ∈ ((cfg1.win 11).blk t).view.set := by
  have hi0 : (i 0).val < 10000 := idx2_lt0 i
  have hi1 : (i 1).val < 128 := idx2_lt1 i
  obtain ⟨t, ht⟩ : ∃ t : Fin cfg1.N, t.val = (i 0).val / 2000 :=
    ⟨⟨(i 0).val / 2000, Nat.lt_of_lt_of_eq (by omega : (i 0).val / 2000 < 5) N_1.symm⟩, rfl⟩
  obtain ⟨-, -, -, -, -, -, -, -, -, -, -, ⟨e0, e1⟩⟩ := idx_facts t
  refine ⟨t, flush1_11 t, ?_⟩
  rw [mem_blk]
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 128 ≤ (i 1).val ∧ (i 1).val < win1_11.index t (1 : Fin 2) * 128 + 128; omega

/-- THE ARRAY after the region: the result function of the arrays the region found. -/
theorem final (c : Dev nD) : (dat1 (F := Ideal) V c).arrAt 11 cfg1.N = GV V c :=
  (dat1 (F := Ideal) V c).arrAt_eq_of_cover 11 (GV V c) (fun t _ => flushed_eq V c t) cover

set_option maxHeartbeats 2000000 in
/-- THE RESULT, ENTRY BY ENTRY: `(p, q)` of the array the region leaves is `Spec.normRelu` of the recombined row `p` of
    the eleven arrays the region found, mapped by the last two of them. -/
theorem out11 (c : Dev nD) (p : Fin 10000) (q : Fin 128) :
    ((dat1 (F := Ideal) V c).arrAt 11 cfg1.N : S10000x128.Idx → EReal) (ix2 p q)
      = Cert.Spec.normRelu (fun c' => Cert.Spec.combine
          ((V c (Pipeline.arrRef spec1 0) : S10000x128.Idx → EReal) (ix2 p c'))
          ((V c (Pipeline.arrRef spec1 1) : S10000x128.Idx → EReal) (ix2 p c'))
          ((V c (Pipeline.arrRef spec1 2) : S10000x128.Idx → EReal) (ix2 p c'))
          ((V c (Pipeline.arrRef spec1 3) : S10000x128.Idx → EReal) (ix2 p c'))
          ((V c (Pipeline.arrRef spec1 4) : S10000x1.Idx → EReal) (ix2 p 0))
          ((V c (Pipeline.arrRef spec1 5) : S1x128.Idx → EReal) (ix2 0 c'))
          ((V c (Pipeline.arrRef spec1 6) : S1x128.Idx → EReal) (ix2 0 c'))
          ((V c (Pipeline.arrRef spec1 7) : S1x128.Idx → EReal) (ix2 0 c'))
          ((V c (Pipeline.arrRef spec1 8) : S1x128.Idx → EReal) (ix2 0 c')))
        (fun c' => (V c (Pipeline.arrRef spec1 9) : S1x128.Idx → EReal) (ix2 0 c'))
        (fun c' => (V c (Pipeline.arrRef spec1 10) : S1x128.Idx → EReal) (ix2 0 c')) q := by
  exact congrFun (final V c) (ix2 p q)

end Cert.KernelIdeal.PostValue1

end
-- ==== Proof.MmValue0.lean ====
/-
  The value of the first matrix-product region: each of its two output arrays, entry by entry, is the row-scaled
  product of the specification, (x · W) · diag(s), of the arrays the region finds on entry.

  Three steps. (i) The body's payload at an index (r, q) of a block: a matrix product into a zero accumulator is the
  sum over the contracted coordinate of the products of the entries; the per-row scale is a column broadcast along
  the 128 columns, so it contributes the factor s(r, 0). (ii) The grid point t works on rows 2000·t … 2000·t + 1999:
  its input blocks are those rows of the two feature arrays and of the scale, and the whole of each weight array, so
  what it writes back is the restriction of the whole-array function to its block of rows. (iii) Row p lies in the
  block of point p / 2000, so the blocks cover the array and the array ends as that function everywhere.
-/
import proofs.«181315_g23613730193938_cont_sun_m_512_6_alg».proof.Proof.Gen.KernelIdeal.Frame
import proofs.«181315_g23613730193938_cont_sun_m_512_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MmValue0

open Cert.KernelIdeal Cert.KernelIdeal.Gen Idealize.ShloMosaic Idealize.ShloMosaic.TcCoe Idealize.SL.Sem
open Idealize.ShloMosaic.ValueIdx
open Idealize.ShloMosaic.Pipeline (Dat)

/-! ## (i) The payload at an index -/

/-- The left operand's row coordinate at output index i is i's row. -/
theorem lhs_row (i : S2000x128.Idx) (κ : dot_S2000x128_S128x128_S2000x128_1_0_0_1_n_n.contr.Idx) :
    (dot_S2000x128_S128x128_S2000x128_1_0_0_1_n_n.lhsIdx i κ 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The right operand's column coordinate at output index i is i's column. -/
theorem rhs_col (i : S2000x128.Idx) (κ : dot_S2000x128_S128x128_S2000x128_1_0_0_1_n_n.contr.Idx) :
    (dot_S2000x128_S128x128_S2000x128_1_0_0_1_n_n.rhsIdx i κ 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The matrix product of a [2000,128] block by a [128,128] matrix into the zero accumulator, at (r, q): the inner
    product of row r of the block with column q of the matrix. -/
theorem matmul_at (a : FVec Ideal S2000x128 .f32) (b : FVec Ideal S128x128 .f32) (r : Fin 2000) (q : Fin 128) :
    matmul dot_S2000x128_S128x128_S2000x128_1_0_0_1_n_n none a b (constant (F := Ideal) S2000x128 .f32 0x00000000#32) (ix2 r q)
      = ∑ k : Fin 128, a (ix2 r k) * b (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q)
      ((contrEquiv1 dot_S2000x128_S128x128_S2000x128_1_0_0_1_n_n 128 rfl rfl).symm k) = ix2 r k :=
    funext fun ax => Fin.ext (by
      match ax with
      | ⟨0, _⟩ => exact lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 r q)
      ((contrEquiv1 dot_S2000x128_S128x128_S2000x128_1_0_0_1_n_n 128 rfl rfl).symm k) = ix2 k q :=
    funext fun ax => Fin.ext (by
      match ax with
      | ⟨0, _⟩ => exact (dot_S2000x128_S128x128_S2000x128_1_0_0_1_n_n.rhsIdx_val_of_single rfl _ _).trans hk
      | ⟨1, _⟩ => exact rhs_col _ _)
  rw [el, er]

/-- The per-row scale broadcast along the columns, at (r, q): the scale of row r. -/
theorem scale_at (s : FVec Ideal S2000x1 .f32) (r : Fin 2000) (q : Fin 128) :
    broadcastTo S2000x128 s broadcasts_S2000x1_S2000x128 (ix2 r q) = s (ix2 r 0) := by
  refine broadcastTo_apply s broadcasts_S2000x1_S2000x128 (ix2 r q) (ix2 r 0) fun ax => ?_
  match ax with
  | ⟨0, _⟩ => rfl
  | ⟨1, _⟩ => rfl

/-- The first output's payload at (r, q). -/
theorem pay2_at (v0 : Vec Ideal S2000x1 .f32) (v2 : Vec Ideal S2000x128 .f32) (v3 : Vec Ideal S128x128 .f32)
    (r : Fin 2000) (q : Fin 128) :
    k0_pay2 (F := Ideal) v0 v2 v3 (ix2 r q) = (∑ k : Fin 128, v2 (ix2 r k) * v3 (ix2 k q)) * v0 (ix2 r 0) := by
  unfold k0_pay2 k0_pay1
  rw [shapeCast_self]
  show matmul dot_S2000x128_S128x128_S2000x128_1_0_0_1_n_n none v2 v3 (constant (F := Ideal) S2000x128 .f32 0x00000000#32) (ix2 r q)
      * broadcastTo S2000x128 v0 broadcasts_S2000x1_S2000x128 (ix2 r q) = _
  rw [matmul_at, scale_at]

/-- The second output's payload at (r, q). -/
theorem pay3_at (v0 : Vec Ideal S2000x1 .f32) (v8 : Vec Ideal S2000x128 .f32) (v10 : Vec Ideal S128x128 .f32)
    (r : Fin 2000) (q : Fin 128) :
    k0_pay3 (F := Ideal) v0 v8 v10 (ix2 r q) = (∑ k : Fin 128, v8 (ix2 r k) * v10 (ix2 k q)) * v0 (ix2 r 0) := by
  unfold k0_pay3 k0_pay1
  rw [shapeCast_self, shapeCast_self]
  show matmul dot_S2000x128_S128x128_S2000x128_1_0_0_1_n_n none v8 v10 (constant (F := Ideal) S2000x128 .f32 0x00000000#32) (ix2 r q)
      * broadcastTo S2000x128 v0 broadcasts_S2000x1_S2000x128 (ix2 r q) = _
  rw [matmul_at, scale_at]

/-! ## The whole-array function -/

/-- The row-scaled product as one function of the array index. -/
def prodArr (x : S10000x128.Idx → EReal) (W : S128x128.Idx → EReal) (s : S10000x1.Idx → EReal) : S10000x128.Idx → EReal :=
  fun i => Cert.Spec.scaledProd x W s ⟨(i 0).val, idx2_lt0 i⟩ ⟨(i 1).val, idx2_lt1 i⟩

theorem prodArr_ix2 (x : S10000x128.Idx → EReal) (W : S128x128.Idx → EReal) (s : S10000x1.Idx → EReal)
    (p : Fin 10000) (q : Fin 128) : prodArr x W s (ix2 p q) = Cert.Spec.scaledProd x W s p q := rfl

/-- A payload of blocks that are rows n·2000 … of the arrays (and the whole weight array) is, at the block index j,
    the whole-array function at the array index i that j sits at. -/
theorem block_point (pay : Vec Ideal S2000x1 .f32 → Vec Ideal S2000x128 .f32 → Vec Ideal S128x128 .f32 → FVec Ideal S2000x128 .f32)
    (hpay : ∀ v0 v2 v3 (r : Fin 2000) (q : Fin 128),
      pay v0 v2 v3 (ix2 r q) = (∑ k : Fin 128, v2 (ix2 r k) * v3 (ix2 k q)) * v0 (ix2 r 0))
    (x : S10000x128.Idx → EReal) (W : S128x128.Idx → EReal) (s : S10000x1.Idx → EReal)
    (bs : Vec Ideal S2000x1 .f32) (bx : Vec Ideal S2000x128 .f32) (bW : Vec Ideal S128x128 .f32)
    (n : Nat) (j : S2000x128.Idx) (i : S10000x128.Idx)
    (hi0 : (i 0).val = n * 2000 + (j 0).val) (hi1 : (i 1).val = (j 1).val)
    (hx : ∀ (r : Fin 2000) (k : Fin 128) (p : Fin 10000), p.val = n * 2000 + r.val → bx (ix2 r k) = x (ix2 p k))
    (hW : ∀ (k q : Fin 128), bW (ix2 k q) = W (ix2 k q))
    (hs : ∀ (r : Fin 2000) (p : Fin 10000), p.val = n * 2000 + r.val → bs (ix2 r 0) = s (ix2 p 0)) :
    pay bs bx bW j = prodArr x W s i := by
  obtain ⟨r, q, rfl⟩ : ∃ (r : Fin 2000) (q : Fin 128), j = ix2 r q := ⟨j 0, j 1, eq_ix2 j⟩
  obtain ⟨p, q', rfl⟩ : ∃ (p : Fin 10000) (q' : Fin 128), i = ix2 p q' := ⟨i 0, i 1, eq_ix2 i⟩
  have hp : p.val = n * 2000 + r.val := hi0
  obtain rfl : q' = q := Fin.ext hi1
  rw [hpay, prodArr_ix2]
  unfold Cert.Spec.scaledProd
  rw [hs r p hp]
  refine congrArg (· * s (ix2 p 0)) (Finset.sum_congr rfl fun k _ => ?_)
  rw [hx r k p hp, hW]

/-! ## (ii) What a point writes back -/

theorem hz : (![0, 0] : Fin 2 → Nat) = fun _ => 0 := funext fun a => by fin_cases a <;> rfl

/-- The index maps over the grid: the feature blocks, the scale block and the output blocks of point t are
    block t along the rows, and the weights' block is the whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Feature window 0's block at point t: rows 2000·t … of its array. -/
theorem iblk_x0 (c : Dev nD) (t : Fin cfg0.N) (r : Fin 2000) (k : Fin 128) (p : Fin 10000)
    (hp : p.val = t.val * 2000 + r.val) :
    (iblk0 V c 0 t : Vec Ideal S2000x128 .f32) (ix2 r k) = (V c (Pipeline.arrRef spec0 0) : S10000x128.Idx → EReal) (ix2 p k) := by
  obtain ⟨e00, e01, -⟩ := idx_facts t
  show (V c (Pipeline.arrRef spec0 0) : S10000x128.Idx → EReal) (((cfg0.win 0).blk t).view.emb (ix2 r k)) = _
  refine congrArg _ (funext fun a => Fin.ext ?_)
  match a with
  | ⟨0, _⟩ => show win0_0.index t (0 : Fin 2) * 2000 + 1 * r.val = p.val; omega
  | ⟨1, _⟩ => show win0_0.index t (1 : Fin 2) * 128 + 1 * k.val = k.val; omega

/-- Feature window 1's block at point t: rows 2000·t … of its array. -/
theorem iblk_x1 (c : Dev nD) (t : Fin cfg0.N) (r : Fin 2000) (k : Fin 128) (p : Fin 10000)
    (hp : p.val = t.val * 2000 + r.val) :
    (iblk0 V c 1 t : Vec Ideal S2000x128 .f32) (ix2 r k) = (V c (Pipeline.arrRef spec0 1) : S10000x128.Idx → EReal) (ix2 p k) := by
  obtain ⟨-, -, e10, e11, -⟩ := idx_facts t
  show (V c (Pipeline.arrRef spec0 1) : S10000x128.Idx → EReal) (((cfg0.win 1).blk t).view.emb (ix2 r k)) = _
  refine congrArg _ (funext fun a => Fin.ext ?_)
  match a with
  | ⟨0, _⟩ => show win0_1.index t (0 : Fin 2) * 2000 + 1 * r.val = p.val; omega
  | ⟨1, _⟩ => show win0_1.index t (1 : Fin 2) * 128 + 1 * k.val = k.val; omega

/-- Weight window 2's block at every point: the whole array. -/
theorem iblk_W2 (c : Dev nD) (t : Fin cfg0.N) (k q : Fin 128) :
    (iblk0 V c 2 t : Vec Ideal S128x128 .f32) (ix2 k q) = (V c (Pipeline.arrRef spec0 2) : S128x128.Idx → EReal) (ix2 k q) := by
  obtain ⟨-, -, -, -, e20, e21, -⟩ := idx_facts t
  show (V c (Pipeline.arrRef spec0 2) : S128x128.Idx → EReal) (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- Weight window 3's block at every point: the whole array. -/
theorem iblk_W3 (c : Dev nD) (t : Fin cfg0.N) (k q : Fin 128) :
    (iblk0 V c 3 t : Vec Ideal S128x128 .f32) (ix2 k q) = (V c (Pipeline.arrRef spec0 3) : S128x128.Idx → EReal) (ix2 k q) := by
  obtain ⟨-, -, -, -, -, -, e30, e31, -⟩ := idx_facts t
  show (V c (Pipeline.arrRef spec0 3) : S128x128.Idx → EReal) (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The scale window's block at point t: rows 2000·t … of the scale. -/
theorem iblk_s4 (c : Dev nD) (t : Fin cfg0.N) (r : Fin 2000) (p : Fin 10000)
    (hp : p.val = t.val * 2000 + r.val) :
    (iblk0 V c 4 t : Vec Ideal S2000x1 .f32) (ix2 r 0) = (V c (Pipeline.arrRef spec0 4) : S10000x1.Idx → EReal) (ix2 p 0) := by
  obtain ⟨-, -, -, -, -, -, -, -, e40, e41, -⟩ := idx_facts t
  show (V c (Pipeline.arrRef spec0 4) : S10000x1.Idx → EReal) (((cfg0.win 4).blk t).view.emb (ix2 r 0)) = _
  refine congrArg _ (funext fun a => Fin.ext ?_)
  match a with
  | ⟨0, _⟩ => show win0_4.index t (0 : Fin 2) * 2000 + 1 * r.val = p.val; omega
  | ⟨1, _⟩ => show win0_4.index t (1 : Fin 2) * 1 + 1 * (0 : Fin 1).val = (0 : Fin 1).val; omega

/-- What point t writes back to the first output is block t of the whole-array function. -/
theorem flushed5_eq (c : Dev nD) (t : Fin cfg0.N) :
    (dat0 (F := Ideal) V c).flushed 5 t = ((cfg0.win 5).blk t).view.read (Elt Ideal)
      (prodArr (V c (Pipeline.arrRef spec0 0)) (V c (Pipeline.arrRef spec0 2)) (V c (Pipeline.arrRef spec0 4))) := by
  show (cfg0.win 5).cut (grid0.coords t) ((dat0 (F := Ideal) V c).after 5 t) = _
  rw [after0_5]
  unfold out0_5
  rw [View.canon_unit_zero hz]
  simp only [View.ld_unit_zero (S := S2000x1) hz, View.ld_unit_zero (S := S2000x128) hz, View.ld_unit_zero (S := S128x128) hz]
  obtain ⟨-, -, -, -, -, -, -, -, -, -, e50, e51, -⟩ := idx_facts t
  funext j
  refine block_point k0_pay2 pay2_at _ _ _ _ _ _ t.val j (((cfg0.win 5).blk t).view.emb j) ?_ ?_
    (iblk_x0 V c t) (iblk_W2 V c t) (iblk_s4 V c t)
  · show win0_5.index t (0 : Fin 2) * 2000 + 1 * (j 0).val = t.val * 2000 + (j 0).val; omega
  · show win0_5.index t (1 : Fin 2) * 128 + 1 * (j 1).val = (j 1).val; omega

/-- What point t writes back to the second output is block t of the whole-array function. -/
theorem flushed6_eq (c : Dev nD) (t : Fin cfg0.N) :
    (dat0 (F := Ideal) V c).flushed 6 t = ((cfg0.win 6).blk t).view.read (Elt Ideal)
      (prodArr (V c (Pipeline.arrRef spec0 1)) (V c (Pipeline.arrRef spec0 3)) (V c (Pipeline.arrRef spec0 4))) := by
  show (cfg0.win 6).cut (grid0.coords t) ((dat0 (F := Ideal) V c).after 6 t) = _
  rw [after0_6]
  unfold out0_6
  rw [View.canon_unit_zero hz]
  simp only [View.ld_unit_zero (S := S2000x1) hz, View.ld_unit_zero (S := S2000x128) hz, View.ld_unit_zero (S := S128x128) hz]
  obtain ⟨-, -, -, -, -, -, -, -, -, -, -, -, e60, e61⟩ := idx_facts t
  funext j
  refine block_point k0_pay3 pay3_at _ _ _ _ _ _ t.val j (((cfg0.win 6).blk t).view.emb j) ?_ ?_
    (iblk_x1 V c t) (iblk_W3 V c t) (iblk_s4 V c t)
  · show win0_6.index t (0 : Fin 2) * 2000 + 1 * (j 0).val = t.val * 2000 + (j 0).val; omega
  · show win0_6.index t (1 : Fin 2) * 128 + 1 * (j 1).val = (j 1).val; omega

/-! ## (iii) The cover, and the arrays -/

/-- An index of the first output is in point t's block iff each coordinate is in the block's range on its axis. -/
theorem mem_blk5 (t : Fin cfg0.N) (i : S10000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v43_0).slice (win0_5.rect t)).set ↔ _
  rw [View.set_slice_whole, Rect.mem_set_unit]
  exact Iff.rfl

theorem mem_blk6 (t : Fin cfg0.N) (i : S10000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v43_1).slice (win0_6.rect t)).set ↔ _
  rw [View.set_slice_whole, Rect.mem_set_unit]
  exact Iff.rfl

/-- The point whose block holds row p: p / 2000. -/
def pointOf (i : S10000x128.Idx) : Fin cfg0.N :=
  ⟨(i 0).val / 2000, by have h : (i 0).val < 10000 := idx2_lt0 i; show (i 0).val / 2000 < grid0.N; rw [N_0]; omega⟩

theorem pointOf_val (i : S10000x128.Idx) : (pointOf i).val = (i 0).val / 2000 := rfl

theorem cover5 (i : S10000x128.Idx) : ∃ t : Fin cfg0.N, (cfg0.win 5).flush t = true ∧ i ∈ ((cfg0.win 5).blk t).view.set := by
  refine ⟨pointOf i, flush0_5 _, ?_⟩
  rw [mem_blk5]
  obtain ⟨-, -, -, -, -, -, -, -, -, -, e50, e51, -⟩ := idx_facts (pointOf i)
  have hv := pointOf_val i
  have h0 : (i 0).val < 10000 := idx2_lt0 i
  have h1 : (i 1).val < 128 := idx2_lt1 i
  intro a
  match a with
  | ⟨0, _⟩ => show win0_5.index (pointOf i) (0 : Fin 2) * 2000 ≤ (i 0).val ∧ (i 0).val < win0_5.index (pointOf i) (0 : Fin 2) * 2000 + 2000; omega
  | ⟨1, _⟩ => show win0_5.index (pointOf i) (1 : Fin 2) * 128 ≤ (i 1).val ∧ (i 1).val < win0_5.index (pointOf i) (1 : Fin 2) * 128 + 128; omega

theorem cover6 (i : S10000x128.Idx) : ∃ t : Fin cfg0.N, (cfg0.win 6).flush t = true ∧ i ∈ ((cfg0.win 6).blk t).view.set := by
  refine ⟨pointOf i, flush0_6 _, ?_⟩
  rw [mem_blk6]
  obtain ⟨-, -, -, -, -, -, -, -, -, -, -, -, e60, e61⟩ := idx_facts (pointOf i)
  have hv := pointOf_val i
  have h0 : (i 0).val < 10000 := idx2_lt0 i
  have h1 : (i 1).val < 128 := idx2_lt1 i
  intro a
  match a with
  | ⟨0, _⟩ => show win0_6.index (pointOf i) (0 : Fin 2) * 2000 ≤ (i 0).val ∧ (i 0).val < win0_6.index (pointOf i) (0 : Fin 2) * 2000 + 2000; omega
  | ⟨1, _⟩ => show win0_6.index (pointOf i) (1 : Fin 2) * 128 ≤ (i 1).val ∧ (i 1).val < win0_6.index (pointOf i) (1 : Fin 2) * 128 + 128; omega

/-- The first output array after the region, as one function of the entry arrays. -/
theorem arr5 (c : Dev nD) : (dat0 (F := Ideal) V c).arrAt 5 cfg0.N
    = prodArr (V c (Pipeline.arrRef spec0 0)) (V c (Pipeline.arrRef spec0 2)) (V c (Pipeline.arrRef spec0 4)) :=
  (dat0 (F := Ideal) V c).arrAt_eq_of_cover 5 _ (fun t _ => flushed5_eq V c t) cover5

/-- The second output array after the region, as one function of the entry arrays. -/
theorem arr6 (c : Dev nD) : (dat0 (F := Ideal) V c).arrAt 6 cfg0.N
    = prodArr (V c (Pipeline.arrRef spec0 1)) (V c (Pipeline.arrRef spec0 3)) (V c (Pipeline.arrRef spec0 4)) :=
  (dat0 (F := Ideal) V c).arrAt_eq_of_cover 6 _ (fun t _ => flushed6_eq V c t) cover6

/-- Entry (p, q) of the first output array: the row-scaled product of feature array 0, weight array 2 and the scale. -/
theorem out5 (c : Dev nD) (p : Fin 10000) (q : Fin 128) :
    ((dat0 (F := Ideal) V c).arrAt 5 cfg0.N : S10000x128.Idx → EReal) (ix2 p q)
      = Cert.Spec.scaledProd (V c (Pipeline.arrRef spec0 0)) (V c (Pipeline.arrRef spec0 2)) (V c (Pipeline.arrRef spec0 4)) p q := by
  rw [arr5 V c]; rfl

/-- Entry (p, q) of the second output array: the row-scaled product of feature array 1, weight array 3 and the scale. -/
theorem out6 (c : Dev nD) (p : Fin 10000) (q : Fin 128) :
    ((dat0 (F := Ideal) V c).arrAt 6 cfg0.N : S10000x128.Idx → EReal) (ix2 p q)
      = Cert.Spec.scaledProd (V c (Pipeline.arrRef spec0 1)) (V c (Pipeline.arrRef spec0 3)) (V c (Pipeline.arrRef spec0 4)) p q := by
  rw [arr6 V c]; rfl

end Cert.KernelIdeal.MmValue0

end
-- ==== Proof.LibGraphCat.lean ====
/-
  Two matrices side by side through a row gather and a row scatter.

  Put two N × C matrices A and B side by side (N × 2C), gather rows by edge source, and sum the gathered rows by edge
  destination. Column q of the left half of the result only ever sees A, column q of the right half only B: the
  side-by-side pass is two independent passes.
-/
import proofs.«181315_g23613730193938_cont_sun_m_512_6_alg».proof.Proof.LibScatterRows
import proofs.«181315_g23613730193938_cont_sun_m_512_6_alg».proof.Proof.LibGatherRows
import Idealize.ShloMosaic.Lib.Pipeline.Value

noncomputable section

namespace Idealize.ShloMosaic.GraphAgg

open Idealize.ShloMosaic Idealize.ShloMosaic.ValueIdx Idealize.ShloMosaic.ScatterRows Idealize.ShloMosaic.GatherRows

variable {N E C : ℕ}

/-- The side-by-side matrix at a left-half column reads `A`. -/
theorem cat_left (A B : (⟨2, ![N, C]⟩ : Shape).Idx → EReal)
    (hcat : Shape.Concatenates [(⟨2, ![N, C]⟩ : Shape), ⟨2, ![N, C]⟩] ⟨2, ![N, C + C]⟩ 1) (r : Fin N) (q : Fin C) :
    concatenate (⟨2, ![N, C + C]⟩ : Shape) 1 [⟨⟨2, ![N, C]⟩, A⟩, ⟨⟨2, ![N, C]⟩, B⟩] hcat (ix2 r (Fin.castAdd C q))
      = A (ix2 r q) :=
  concatenate_pair_apply_left (t := ⟨2, ![N, C + C]⟩) 1 A B hcat (ix2 r (Fin.castAdd C q)) rfl (ix2 r q)
    (fun b => by match b with | ⟨0, _⟩ => rfl | ⟨1, _⟩ => rfl)

/-- The side-by-side matrix at a right-half column reads `B`. -/
theorem cat_right (A B : (⟨2, ![N, C]⟩ : Shape).Idx → EReal)
    (hcat : Shape.Concatenates [(⟨2, ![N, C]⟩ : Shape), ⟨2, ![N, C]⟩] ⟨2, ![N, C + C]⟩ 1) (r : Fin N) (q : Fin C) :
    concatenate (⟨2, ![N, C + C]⟩ : Shape) 1 [⟨⟨2, ![N, C]⟩, A⟩, ⟨⟨2, ![N, C]⟩, B⟩] hcat (ix2 r (Fin.natAdd C q))
      = B (ix2 r q) :=
  concatenate_pair_apply_right (t := ⟨2, ![N, C + C]⟩) 1 A B hcat (ix2 r (Fin.natAdd C q)) rfl rfl (ix2 r q)
    (fun b hb => by match b with | ⟨0, _⟩ => rfl | ⟨1, _⟩ => exact absurd rfl hb)
    (by show q.val + C = C + q.val; omega)

/-- The edge sum of the side-by-side matrix, at a left-half column: the edge sum of `A`. -/
theorem agg_cat_left (hN : 0 < N)
    (wfS : ScatterDims.WF ⟨2, ![N, C + C]⟩ ⟨2, ![E, 1]⟩ ⟨2, ![E, C + C]⟩ [1] [0] [0] 1)
    (wfG : GatherDims.WF ⟨2, ![N, C + C]⟩ ⟨2, ![E, 1]⟩ ⟨2, ![E, C + C]⟩ [1] [0] [] [0] [] 1 ![1, C + C])
    (hcat : Shape.Concatenates [(⟨2, ![N, C]⟩ : Shape), ⟨2, ![N, C]⟩] ⟨2, ![N, C + C]⟩ 1)
    (x : (⟨2, ![N, C + C]⟩ : Shape).Idx → EReal) (dK iK : IVec ⟨2, ![E, 1]⟩ 32)
    (A B : (⟨2, ![N, C]⟩ : Shape).Idx → EReal) (p : Fin N) (q : Fin C) :
    Ideal.hostScatterAdd (ScatterRows.rowsDims N E (C + C) wfS) x dK
        (Host.gather (GatherRows.rowsDims N E (C + C) wfG)
          (concatenate (⟨2, ![N, C + C]⟩ : Shape) 1 [⟨⟨2, ![N, C]⟩, A⟩, ⟨⟨2, ![N, C]⟩, B⟩] hcat) iK) (ix2 p (Fin.castAdd C q))
      = x (ix2 p (Fin.castAdd C q))
        + ∑ e : Fin E, if (dK (ix2 e 0)).toInt = (p.val : ℤ) then A (ix2 (clampRow N hN (iK (ix2 e 0))) q) else 0 := by
  rw [rows_scatterAdd_apply wfS]
  congr 1
  refine Finset.sum_congr rfl fun e _ => ?_
  rw [rows_gather_apply hN wfG, cat_left]

/-- The edge sum of the side-by-side matrix, at a right-half column: the edge sum of `B`. -/
theorem agg_cat_right (hN : 0 < N)
    (wfS : ScatterDims.WF ⟨2, ![N, C + C]⟩ ⟨2, ![E, 1]⟩ ⟨2, ![E, C + C]⟩ [1] [0] [0] 1)
    (wfG : GatherDims.WF ⟨2, ![N, C + C]⟩ ⟨2, ![E, 1]⟩ ⟨2, ![E, C + C]⟩ [1] [0] [] [0] [] 1 ![1, C + C])
    (hcat : Shape.Concatenates [(⟨2, ![N, C]⟩ : Shape), ⟨2, ![N, C]⟩] ⟨2, ![N, C + C]⟩ 1)
    (x : (⟨2, ![N, C + C]⟩ : Shape).Idx → EReal) (dK iK : IVec ⟨2, ![E, 1]⟩ 32)
    (A B : (⟨2, ![N, C]⟩ : Shape).Idx → EReal) (p : Fin N) (q : Fin C) :
    Ideal.hostScatterAdd (ScatterRows.rowsDims N E (C + C) wfS) x dK
        (Host.gather (GatherRows.rowsDims N E (C + C) wfG)
          (concatenate (⟨2, ![N, C + C]⟩ : Shape) 1 [⟨⟨2, ![N, C]⟩, A⟩, ⟨⟨2, ![N, C]⟩, B⟩] hcat) iK) (ix2 p (Fin.natAdd C q))
      = x (ix2 p (Fin.natAdd C q))
        + ∑ e : Fin E, if (dK (ix2 e 0)).toInt = (p.val : ℤ) then B (ix2 (clampRow N hN (iK (ix2 e 0))) q) else 0 := by
  rw [rows_scatterAdd_apply wfS]
  congr 1
  refine Finset.sum_congr rfl fun e _ => ?_
  rw [rows_gather_apply hN wfG, cat_right]

end Idealize.ShloMosaic.GraphAgg

end
-- ==== Proof.KernelOps1.lean ====
/-
  The host-side operations of the first level (10000 nodes, 160000 edges), read at an index.

  Each is a short composition of layout operations, integer operations on index words, one counting scatter and one
  row gather / row scatter. At an index they are: a row of the edge table; a word clipped at zero and wrapped by the
  number of nodes; the degree count of a node; the node's scale; the edge sum of one branch's rows; the sum of the
  per-edge rows landing on a node; the row an edge's receiving end selects.
-/
import proofs.«181315_g23613730193938_cont_sun_m_512_6_alg».proof.Proof.KernelEntry
import proofs.«181315_g23613730193938_cont_sun_m_512_6_alg».proof.Proof.SpecGraph
import proofs.«181315_g23613730193938_cont_sun_m_512_6_alg».proof.Proof.LibScatterRows
import proofs.«181315_g23613730193938_cont_sun_m_512_6_alg».proof.Proof.LibGatherRows
import proofs.«181315_g23613730193938_cont_sun_m_512_6_alg».proof.Proof.LibGraphCat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Ops1

open Cert.KernelIdeal Cert.KernelIdeal.Gen Cert.KernelIdeal.RunValue Idealize.ShloMosaic Idealize.ShloMosaic.ValueIdx
open Idealize.ShloMosaic.ScatterRows Idealize.ShloMosaic.GatherRows Idealize.ShloMosaic.GraphAgg
open Cert.Spec

/-- Row 0 of the edge table, as a list, at edge `k`. -/
theorem src1_at (t : S2x160000.Idx → BitVec 32) (k : Fin 160000) : src1 (F := Ideal) t (ix1 k) = t (ix2 0 k) := by
  show shapeCast S160000 (extractStridedSlice S1x160000 ![0, 0] t slices_S2x160000_S1x160000_0_0) shapeCasts_S1x160000_S160000 (ix1 k) = _
  refine (shapeCast_1a_a_apply _ _ k).trans ?_
  exact slice2_axis0_apply 0 t _ 0 k 0 rfl

/-- Row 1 of the edge table, as a list, at edge `k`. -/
theorem dst1_at (t : S2x160000.Idx → BitVec 32) (k : Fin 160000) : dst1 (F := Ideal) t (ix1 k) = t (ix2 1 k) := by
  show shapeCast S160000 (extractStridedSlice S1x160000 ![1, 0] t slices_S2x160000_S1x160000_1_0) shapeCasts_S1x160000_S160000 (ix1 k) = _
  refine (shapeCast_1a_a_apply _ _ k).trans ?_
  exact slice2_axis0_apply 1 t _ 0 k 1 rfl

/-- A list as a one-column table, at row `k`. -/
theorem col1_at (v : S160000.Idx → BitVec 32) (k : Fin 160000) : col1 (F := Ideal) v (ix2 k 0) = v (ix1 k) := by
  show broadcastInDim S160000x1 ![0] bcast_S160000_S160000x1_0 v (ix2 k 0) = _
  refine broadcastInDim_apply _ _ v (ix2 k 0) (ix1 k) fun a => ?_
  match a with
  | ⟨0, _⟩ => rfl

/-- Clipping at zero, entry by entry. -/
theorem clip1_at (v : S160000.Idx → BitVec 32) (j : S160000.Idx) : clip1 (F := Ideal) v j = clipLow (v j) := rfl

/-- Wrapping by the number of nodes, entry by entry. -/
theorem wrap1_at (v : S160000.Idx → BitVec 32) (j : S160000.Idx) : wrap1 (F := Ideal) v j = wrapNeg 10000#32 (v j) := rfl

/-- The degree count at node `p`: the edges whose clipped and wrapped word names `p`, plus one. -/
theorem degree1_at (v : S160000.Idx → BitVec 32) (p : Fin 10000) :
    degree1 (F := Ideal) v (ix1 p) = selfDegree (fun e : Fin 160000 => wrapNeg 10000#32 (clipLow (v (ix1 e)))) p := by
  show IntOp.addi (Host.scatter scatter_S10000_S160000x1_S160000_n_0_0_1 IntOp.addi
      (broadcastInDim S10000 ![] bcast_S_S10000 (constantI S_ 32 0#32)) (col1 (F := Ideal) (wrap1 (F := Ideal) (clip1 (F := Ideal) v)))
      (broadcastInDim S160000 ![] bcast_S_S160000 (constantI S_ 32 1#32)) (ix1 p)) 1#32 = _
  refine (congrArg (IntOp.addi · 1#32) (count_scatter_apply _ IntOp.addi (fun _ _ => rfl) _ _ _ p)).trans ?_
  unfold selfDegree
  show ((0#32 : BitVec 32) + ∑ e : Fin 160000, if (col1 (F := Ideal) (wrap1 (F := Ideal) (clip1 (F := Ideal) v)) (ix2 e 0)).toInt = (p.val : ℤ) then (1#32 : BitVec 32) else 0) + 1#32 = _
  rw [BitVec.zero_add]
  refine congrArg (· + 1#32) (Finset.sum_congr rfl fun e _ => ?_)
  rw [col1_at]
  rfl

/-- A list of length 10000 as a one-column table, at row `p`. -/
theorem column_at {α : Type} (x : S10000.Idx → α) (p : Fin 10000) :
    shapeCast S10000x1 x shapeCasts_S10000_S10000x1 (ix2 p 0) = x (ix1 p) := by
  refine shapeCast_apply x _ (ix2 p 0) (ix1 p) ?_
  rw [Shape.rowMajor_val_one, Shape.rowMajor_val_two]
  show p.val = p.val * 1 + 0
  omega

/-- The scale of node `p`: its degree count to the power −1/2. -/
theorem scale1_at (v : S160000.Idx → BitVec 32) (p : Fin 10000) :
    scale1 (F := Ideal) v (ix2 p 0) = rowScale (selfDegree (fun e : Fin 160000 => wrapNeg 10000#32 (clipLow (v (ix1 e)))) p) := by
  show shapeCast S10000x1 (Host.powf (sitofp .f32 (degree1 (F := Ideal) v))
      (broadcastInDim S10000 ![] bcast_S_S10000 (constant (F := Ideal) S_ .f32 0xBF000000#32))) shapeCasts_S10000_S10000x1 (ix2 p 0) = _
  rw [column_at]
  show Ideal.pow (((degree1 (F := Ideal) v (ix1 p)).toInt : ℝ) : EReal) (Ideal.ofBits .f32 0xBF000000#32) = _
  rw [degree1_at]
  rfl

theorem hN : 0 < 10000 := by decide

/-- On the extended reals the host's add-scatter is the exact one. -/
theorem scatterAdd_ideal {s si u : Shape} {w : Nat} (d : ScatterDims s si u) (x : s.Idx → EReal) (idx : IVec si w)
    (upd : u.Idx → EReal) : Host.scatterAdd (F := Ideal) (φ := .f32) d x idx upd = Ideal.hostScatterAdd d x idx upd := rfl

/-- The program's dimension records are the row scatter's and the row gather's at these sizes. -/
theorem scatterRows1_dims : scatter_S10000x256_S160000x1_S160000x256_1_0_0_1
    = ScatterRows.rowsDims 10000 160000 256 scatter_S10000x256_S160000x1_S160000x256_1_0_0_1_wf := rfl
theorem gatherRows1_dims : gather_S10000x256_S160000x1_S160000x256_1_0_n_n_0_1_1256
    = GatherRows.rowsDims 10000 160000 256 gather_S10000x256_S160000x1_S160000x256_1_0_n_n_0_1_1256_wf := rfl
theorem scatterRowsP_dims : scatter_S10000x128_S160000x1_S160000x128_1_0_0_1
    = ScatterRows.rowsDims 10000 160000 128 scatter_S10000x128_S160000x1_S160000x128_1_0_0_1_wf := rfl
theorem gatherRowsS_dims : gather_S10000x128_S160000x1_S160000x128_1_0_n_n_0_1_1128
    = GatherRows.rowsDims 10000 160000 128 gather_S10000x128_S160000x1_S160000x128_1_0_n_n_0_1_1128_wf := rfl

/-- The first branch's half of the messages at `(p, q)`: the sum, over the edges whose receiving word names `p`, of
    entry `q` of the row of `h0` that the edge's wrapped sending word selects. -/
theorem messagesA1_at (h0 h1 : S10000x128.Idx → EReal) (src dst : S160000.Idx → BitVec 32) (p : Fin 10000) (q : Fin 128) :
    messagesA1 (F := Ideal) h0 h1 src dst (ix2 p q)
      = ∑ e : Fin 160000, if (dst (ix1 e)).toInt = (p.val : ℤ) then h0 (ix2 (rowOf 10000 hN (wrapNeg 10000#32 (src (ix1 e)))) q) else 0 := by
  show extractStridedSlice S10000x128 ![0, 0] (messages1 (F := Ideal) h0 h1 src dst) slices_S10000x256_S10000x128_0_0 (ix2 p q) = _
  refine (slice2_axis1_apply 0 (messages1 (F := Ideal) h0 h1 src dst) _ p q (Fin.castAdd 128 q) (by show q.val = 0 + q.val; omega)).trans ?_
  show Host.scatterAdd scatter_S10000x256_S160000x1_S160000x256_1_0_0_1
      (broadcastInDim S10000x256 ![] bcast_S_S10000x256 (constant (F := Ideal) S_ .f32 0x00000000#32)) (col1 (F := Ideal) dst)
      (Host.gather gather_S10000x256_S160000x1_S160000x256_1_0_n_n_0_1_1256
        (concatenate S10000x256 1 [⟨S10000x128, h0⟩, ⟨S10000x128, h1⟩] concatenates_S10000x128_S10000x128_S10000x256_d1)
        (col1 (F := Ideal) (wrap1 (F := Ideal) src))) (ix2 p (Fin.castAdd 128 q)) = _
  rw [scatterAdd_ideal, scatterRows1_dims, gatherRows1_dims]
  refine (agg_cat_left (N := 10000) (E := 160000) (C := 128) hN scatter_S10000x256_S160000x1_S160000x256_1_0_0_1_wf
    gather_S10000x256_S160000x1_S160000x256_1_0_n_n_0_1_1256_wf concatenates_S10000x128_S10000x128_S10000x256_d1
    (broadcastInDim S10000x256 ![] bcast_S_S10000x256 (constant (F := Ideal) S_ .f32 0x00000000#32))
    (col1 (F := Ideal) dst) (col1 (F := Ideal) (wrap1 (F := Ideal) src)) h0 h1 p q).trans ?_
  show Ideal.ofBits .f32 0x00000000#32 + _ = _
  rw [Ideal.ofBits_zero_f32, zero_add]
  refine Finset.sum_congr rfl fun e _ => ?_
  rw [col1_at, col1_at]
  rfl

/-- The second branch's half of the messages at `(p, q)`. -/
theorem messagesB1_at (h0 h1 : S10000x128.Idx → EReal) (src dst : S160000.Idx → BitVec 32) (p : Fin 10000) (q : Fin 128) :
    messagesB1 (F := Ideal) h0 h1 src dst (ix2 p q)
      = ∑ e : Fin 160000, if (dst (ix1 e)).toInt = (p.val : ℤ) then h1 (ix2 (rowOf 10000 hN (wrapNeg 10000#32 (src (ix1 e)))) q) else 0 := by
  show extractStridedSlice S10000x128 ![0, 128] (messages1 (F := Ideal) h0 h1 src dst) slices_S10000x256_S10000x128_0_128 (ix2 p q) = _
  refine (slice2_axis1_apply 128 (messages1 (F := Ideal) h0 h1 src dst) _ p q (Fin.natAdd 128 q) (by show 128 + q.val = 128 + q.val; rfl)).trans ?_
  show Host.scatterAdd scatter_S10000x256_S160000x1_S160000x256_1_0_0_1
      (broadcastInDim S10000x256 ![] bcast_S_S10000x256 (constant (F := Ideal) S_ .f32 0x00000000#32)) (col1 (F := Ideal) dst)
      (Host.gather gather_S10000x256_S160000x1_S160000x256_1_0_n_n_0_1_1256
        (concatenate S10000x256 1 [⟨S10000x128, h0⟩, ⟨S10000x128, h1⟩] concatenates_S10000x128_S10000x128_S10000x256_d1)
        (col1 (F := Ideal) (wrap1 (F := Ideal) src))) (ix2 p (Fin.natAdd 128 q)) = _
  rw [scatterAdd_ideal, scatterRows1_dims, gatherRows1_dims]
  refine (agg_cat_right (N := 10000) (E := 160000) (C := 128) hN scatter_S10000x256_S160000x1_S160000x256_1_0_0_1_wf
    gather_S10000x256_S160000x1_S160000x256_1_0_n_n_0_1_1256_wf concatenates_S10000x128_S10000x128_S10000x256_d1
    (broadcastInDim S10000x256 ![] bcast_S_S10000x256 (constant (F := Ideal) S_ .f32 0x00000000#32))
    (col1 (F := Ideal) dst) (col1 (F := Ideal) (wrap1 (F := Ideal) src)) h0 h1 p q).trans ?_
  show Ideal.ofBits .f32 0x00000000#32 + _ = _
  rw [Ideal.ofBits_zero_f32, zero_add]
  refine Finset.sum_congr rfl fun e _ => ?_
  rw [col1_at, col1_at]
  rfl

/-- The per-edge rows summed into the row of the edge's receiving end, as the closed form of the fusion input. -/
theorem pooled_eq (dst : S160000.Idx → BitVec 32) (u : S160000x128.Idx → EReal) :
    pooled (F := Ideal) dst u = incSum (N := 10000) (E := 160000) (fun e => dst (ix1 e)) u := by
  funext j
  obtain ⟨p, q, rfl⟩ : ∃ (p : Fin 10000) (q : Fin 128), j = ix2 p q := ⟨j 0, j 1, eq_ix2 j⟩
  show Host.scatterAdd scatter_S10000x128_S160000x1_S160000x128_1_0_0_1
      (broadcastInDim S10000x128 ![] bcast_S_S10000x128 (constant (F := Ideal) S_ .f32 0x00000000#32)) (col1 (F := Ideal) dst) u (ix2 p q) = _
  rw [scatterAdd_ideal, scatterRowsP_dims]
  refine (rows_scatterAdd_apply (N := 10000) (E := 160000) (C := 128) scatter_S10000x128_S160000x1_S160000x128_1_0_0_1_wf
    (broadcastInDim S10000x128 ![] bcast_S_S10000x128 (constant (F := Ideal) S_ .f32 0x00000000#32)) (col1 (F := Ideal) dst) u p q).trans ?_
  show Ideal.ofBits .f32 0x00000000#32 + _ = _
  rw [Ideal.ofBits_zero_f32, zero_add]
  unfold incSum
  refine Finset.sum_congr rfl fun e _ => ?_
  rw [col1_at]

/-- The rows of `x` fetched at the receiving end of every edge, as the closed form of the second level's fusion input. -/
theorem spread_eq (x : S10000x128.Idx → EReal) (dst : S160000.Idx → BitVec 32) :
    spread (F := Ideal) x dst = incRows (N := 10000) (E := 160000) hN 10000#32 (fun e => dst (ix1 e)) x := by
  funext j
  obtain ⟨e, q, rfl⟩ : ∃ (e : Fin 160000) (q : Fin 128), j = ix2 e q := ⟨j 0, j 1, eq_ix2 j⟩
  show Host.gather gather_S10000x128_S160000x1_S160000x128_1_0_n_n_0_1_1128 x (col1 (F := Ideal) (wrap1 (F := Ideal) dst)) (ix2 e q) = _
  rw [gatherRowsS_dims]
  refine (rows_gather_apply (N := 10000) (E := 160000) (C := 128) hN gather_S10000x128_S160000x1_S160000x128_1_0_n_n_0_1_1128_wf
    x (col1 (F := Ideal) (wrap1 (F := Ideal) dst)) e q).trans ?_
  rw [col1_at]
  rfl

/-- A vector of 128 entries as a one-row table, at column `k`. -/
theorem asRow_at (v : S128.Idx → EReal) (k : Fin 128) : asRow (F := Ideal) v (ix2 0 k) = v (ix1 k) :=
  shapeCast_a_1a_apply v _ 0 k

end Cert.KernelIdeal.Ops1

end
-- ==== Proof.LevelParts.lean ====
/-
  One level's result assembled from its parts.

  The level's last step normalises, row by row, a recombination of eleven arrays. When those arrays are known entry
  by entry — the two branches' scaled products, their edge sums, the receiving side's scale and the six per-column
  rows — the normalised entry is the level's closed form.
-/
import proofs.«181315_g23613730193938_cont_sun_m_512_6_alg».proof.Proof.SpecGraph

noncomputable section

namespace Cert.Spec

open Idealize.ShloMosaic Idealize.ShloMosaic.ValueIdx

/-- The closed form of a level from entrywise descriptions of the eleven arrays its last step reads: `A1`, `A3` the
    two branches' scaled products (with the sending side's scale `s`), `A0`, `A2` their edge sums, `A4` the receiving
    side's scale, `A5` … `A10` the per-column rows. -/
theorem levelOut_of_parts {N E : ℕ} (hN : 0 < N) (nW : BitVec 32)
    (xc xf : (⟨2, ![N, 128]⟩ : Shape).Idx → EReal) (Wc Wf : (⟨2, ![128, 128]⟩ : Shape).Idx → EReal)
    (bc wc bf wf g be : Fin 128 → EReal) (srcW dstW : Fin E → BitVec 32) (p : Fin N) (q : Fin 128)
    (A0 A1 A2 A3 : (⟨2, ![N, 128]⟩ : Shape).Idx → EReal) (A4 s : (⟨2, ![N, 1]⟩ : Shape).Idx → EReal)
    (A5 A6 A7 A8 A9 A10 : (⟨2, ![1, 128]⟩ : Shape).Idx → EReal)
    (hs : ∀ r : Fin N, s (ix2 r 0) = rowScale (selfDegree (fun e => wrapNeg nW (clipLow (srcW e))) r))
    (h1 : ∀ (r : Fin N) (c : Fin 128), A1 (ix2 r c) = scaledProd xc Wc s r c)
    (h3 : ∀ (r : Fin N) (c : Fin 128), A3 (ix2 r c) = scaledProd xf Wf s r c)
    (h0 : ∀ c : Fin 128, A0 (ix2 p c)
      = ∑ e : Fin E, if (dstW e).toInt = (p.val : ℤ) then A1 (ix2 (rowOf N hN (wrapNeg nW (srcW e))) c) else 0)
    (h2 : ∀ c : Fin 128, A2 (ix2 p c)
      = ∑ e : Fin E, if (dstW e).toInt = (p.val : ℤ) then A3 (ix2 (rowOf N hN (wrapNeg nW (srcW e))) c) else 0)
    (h4 : A4 (ix2 p 0) = rowScale (selfDegree (fun e => wrapNeg nW (clipLow (dstW e))) p))
    (h5 : ∀ c : Fin 128, A5 (ix2 0 c) = bc c) (h6 : ∀ c : Fin 128, A6 (ix2 0 c) = wc c)
    (h7 : ∀ c : Fin 128, A7 (ix2 0 c) = bf c) (h8 : ∀ c : Fin 128, A8 (ix2 0 c) = wf c)
    (h9 : ∀ c : Fin 128, A9 (ix2 0 c) = g c) (h10 : ∀ c : Fin 128, A10 (ix2 0 c) = be c) :
    normRelu (fun c => combine (A0 (ix2 p c)) (A1 (ix2 p c)) (A2 (ix2 p c)) (A3 (ix2 p c)) (A4 (ix2 p 0))
        (A5 (ix2 0 c)) (A6 (ix2 0 c)) (A7 (ix2 0 c)) (A8 (ix2 0 c)))
      (fun c => A9 (ix2 0 c)) (fun c => A10 (ix2 0 c)) q
      = levelOut hN nW xc xf Wc Wf bc wc bf wf g be srcW dstW p q := by
  -- the scaled products with the scale named `s` are those with the closed-form scale
  have hsc : ∀ (x : (⟨2, ![N, 128]⟩ : Shape).Idx → EReal) (W : (⟨2, ![128, 128]⟩ : Shape).Idx → EReal) (r : Fin N) (c : Fin 128),
      scaledProd x W s r c = scaledProd x W (fun j =>
        rowScale (selfDegree (fun e => wrapNeg nW (clipLow (srcW e))) (⟨(j 0).val, idx2_lt0 j⟩ : Fin N))) r c := by
    intro x W r c
    unfold scaledProd
    rw [hs r]
    rfl
  unfold levelOut
  dsimp only
  have hz : (fun c => combine (A0 (ix2 p c)) (A1 (ix2 p c)) (A2 (ix2 p c)) (A3 (ix2 p c)) (A4 (ix2 p 0))
        (A5 (ix2 0 c)) (A6 (ix2 0 c)) (A7 (ix2 0 c)) (A8 (ix2 0 c)))
      = fun c => combine
          (edgeSum dstW (fun e => rowOf N hN (wrapNeg nW (srcW e))) (fun r => scaledProd xc Wc (fun j =>
            rowScale (selfDegree (fun e => wrapNeg nW (clipLow (srcW e))) (⟨(j 0).val, idx2_lt0 j⟩ : Fin N))) r c) p)
          (scaledProd xc Wc (fun j =>
            rowScale (selfDegree (fun e => wrapNeg nW (clipLow (srcW e))) (⟨(j 0).val, idx2_lt0 j⟩ : Fin N))) p c)
          (edgeSum dstW (fun e => rowOf N hN (wrapNeg nW (srcW e))) (fun r => scaledProd xf Wf (fun j =>
            rowScale (selfDegree (fun e => wrapNeg nW (clipLow (srcW e))) (⟨(j 0).val, idx2_lt0 j⟩ : Fin N))) r c) p)
          (scaledProd xf Wf (fun j =>
            rowScale (selfDegree (fun e => wrapNeg nW (clipLow (srcW e))) (⟨(j 0).val, idx2_lt0 j⟩ : Fin N))) p c)
          (rowScale (selfDegree (fun e => wrapNeg nW (clipLow (dstW e))) p)) (bc c) (wc c) (bf c) (wf c) := by
    funext c
    rw [h0 c, h2 c, h4, h5 c, h6 c, h7 c, h8 c, h1 p c, h3 p c, hsc xc Wc p c, hsc xf Wf p c]
    unfold edgeSum
    congr 1
    · refine Finset.sum_congr rfl fun e _ => ?_
      rw [h1, hsc]
    · refine Finset.sum_congr rfl fun e _ => ?_
      rw [h3, hsc]
  have hg : (fun c => A9 (ix2 0 c)) = g := funext h9
  have hb : (fun c => A10 (ix2 0 c)) = be := funext h10
  rw [hz, hg, hb]

end Cert.Spec

end
-- ==== Proof.KernelLevel0.lean ====
/-
  The kernel program's first result in closed form.

  The first result is the array the recombination-and-normalisation region of the first level leaves. Entry by entry
  that array is the normalised recombination of the eleven arrays the region finds on entry, and each of those is
  known: the two branches' scaled products are what the matrix-product region left (its own inputs being the feature
  arrays, the weights and the sending side's scale); their edge sums, the receiving side's scale and the per-column
  rows are host operations on those and on the launch contents of the arguments. Put together this is the level's
  closed form on the launch contents.
-/
import proofs.«181315_g23613730193938_cont_sun_m_512_6_alg».proof.Proof.KernelRun
import proofs.«181315_g23613730193938_cont_sun_m_512_6_alg».proof.Proof.KernelEntry
import proofs.«181315_g23613730193938_cont_sun_m_512_6_alg».proof.Proof.PostValue1
import proofs.«181315_g23613730193938_cont_sun_m_512_6_alg».proof.Proof.MmValue0
import proofs.«181315_g23613730193938_cont_sun_m_512_6_alg».proof.Proof.KernelOps1
import proofs.«181315_g23613730193938_cont_sun_m_512_6_alg».proof.Proof.LevelParts

set_option maxRecDepth 16384

noncomputable section

namespace Cert.KernelIdeal.Level0

open Cert.KernelIdeal Cert.KernelIdeal.Gen Cert.KernelIdeal.RunValue Cert.KernelIdeal.Ops1
open Idealize.ShloMosaic Idealize.ShloMosaic.TcCoe Idealize.ShloMosaic.ValueIdx Idealize.SL.Sem
open Cert.Spec

/-! ## The arrays of the two regions' windows, by name -/

theorem ref0_0 : Pipeline.arrRef spec0 0 = main_arg0 := rfl
theorem ref0_1 : Pipeline.arrRef spec0 1 = main_v10 := rfl
theorem ref0_2 : Pipeline.arrRef spec0 2 = main_arg2 := rfl
theorem ref0_3 : Pipeline.arrRef spec0 3 = main_arg4 := rfl
theorem ref0_4 : Pipeline.arrRef spec0 4 = main_v39 := rfl
theorem ref1_0 : Pipeline.arrRef spec1 0 = main_v55 := rfl
theorem ref1_1 : Pipeline.arrRef spec1 1 = main_v43_0 := rfl
theorem ref1_2 : Pipeline.arrRef spec1 2 = main_v56 := rfl
theorem ref1_3 : Pipeline.arrRef spec1 3 = main_v43_1 := rfl
theorem ref1_4 : Pipeline.arrRef spec1 4 = main_v42 := rfl
theorem ref1_5 : Pipeline.arrRef spec1 5 = main_v57 := rfl
theorem ref1_6 : Pipeline.arrRef spec1 6 = main_v58 := rfl
theorem ref1_7 : Pipeline.arrRef spec1 7 = main_v59 := rfl
theorem ref1_8 : Pipeline.arrRef spec1 8 = main_v60 := rfl
theorem ref1_9 : Pipeline.arrRef spec1 9 = main_v61 := rfl
theorem ref1_10 : Pipeline.arrRef spec1 10 = main_v62 := rfl

/-- Contents read at two names of one array are the same contents. -/
theorem at_ref (V : (c : Dev nD) → (b : Ref sig .tc) → Buf (Elt Ideal) ((c : Thread nD τ).loc b)) (c : Dev nD)
    {b b' : Ref sig .tc} (h : b = b') : HEq (V c b) (V c b') := by subst h; rfl

/-- Two scaled products of equal arrays are equal. -/
theorem scaledProd_congr {R : ℕ} {x x' : (⟨2, ![R, 128]⟩ : Shape).Idx → EReal} {W W' : (⟨2, ![128, 128]⟩ : Shape).Idx → EReal}
    {s s' : (⟨2, ![R, 1]⟩ : Shape).Idx → EReal} (hx : x = x') (hW : W = W') (hs : s = s') (r : Fin R) (c : Fin 128) :
    scaledProd x W s r c = scaledProd x' W' s' r c := by subst hx hW hs; rfl

variable (m : (ℓ : Loc nD τ sig) → Buf (Elt Ideal) ℓ) (ρ : Dev nD → PrngReg)

/-! ## The arrays the two regions of the level find on entry -/

theorem X0_eq (c : Dev nD) : (Gen.V5 m ρ c (Pipeline.arrRef spec0 0) : S10000x128.Idx → EReal) = m ((c.tc : Thread nD τ).loc main_arg0) :=
  (eq_of_heq (at_ref (Gen.V5 m ρ) c ref0_0)).trans (entry0_0 m ρ c)
theorem X1_eq (c : Dev nD) : (Gen.V5 m ρ c (Pipeline.arrRef spec0 1) : S10000x128.Idx → EReal)
    = pooled (F := Ideal) (dst1 (F := Ideal) (m ((c.tc : Thread nD τ).loc main_arg18) : S2x160000.Idx → BitVec 32)) (m ((c.tc : Thread nD τ).loc main_arg1)) :=
  (eq_of_heq (at_ref (Gen.V5 m ρ) c ref0_1)).trans (entry0_1 m ρ c)
theorem X2_eq (c : Dev nD) : (Gen.V5 m ρ c (Pipeline.arrRef spec0 2) : S128x128.Idx → EReal) = m ((c.tc : Thread nD τ).loc main_arg2) :=
  (eq_of_heq (at_ref (Gen.V5 m ρ) c ref0_2)).trans (entry0_2 m ρ c)
theorem X3_eq (c : Dev nD) : (Gen.V5 m ρ c (Pipeline.arrRef spec0 3) : S128x128.Idx → EReal) = m ((c.tc : Thread nD τ).loc main_arg4) :=
  (eq_of_heq (at_ref (Gen.V5 m ρ) c ref0_3)).trans (entry0_3 m ρ c)
theorem X4_eq (c : Dev nD) : (Gen.V5 m ρ c (Pipeline.arrRef spec0 4) : S10000x1.Idx → EReal) = scale1 (F := Ideal) (src1 (F := Ideal) (m ((c.tc : Thread nD τ).loc main_arg18) : S2x160000.Idx → BitVec 32)) :=
  (eq_of_heq (at_ref (Gen.V5 m ρ) c ref0_4)).trans (entry0_4 m ρ c)

theorem A0_eq (c : Dev nD) : (Gen.V7 m ρ c (Pipeline.arrRef spec1 0) : S10000x128.Idx → EReal)
    = messagesA1 (F := Ideal) ((Gen.dat0 (Gen.V5 m ρ) c).arrAt 5 cfg0.N) ((Gen.dat0 (Gen.V5 m ρ) c).arrAt 6 cfg0.N)
        (src1 (F := Ideal) (m ((c.tc : Thread nD τ).loc main_arg18) : S2x160000.Idx → BitVec 32)) (dst1 (F := Ideal) (m ((c.tc : Thread nD τ).loc main_arg18) : S2x160000.Idx → BitVec 32)) :=
  (eq_of_heq (at_ref (Gen.V7 m ρ) c ref1_0)).trans (entry1_0 m ρ c)
theorem A1_eq (c : Dev nD) : (Gen.V7 m ρ c (Pipeline.arrRef spec1 1) : S10000x128.Idx → EReal) = (Gen.dat0 (Gen.V5 m ρ) c).arrAt 5 cfg0.N :=
  (eq_of_heq (at_ref (Gen.V7 m ρ) c ref1_1)).trans (entry1_1 m ρ c)
theorem A2_eq (c : Dev nD) : (Gen.V7 m ρ c (Pipeline.arrRef spec1 2) : S10000x128.Idx → EReal)
    = messagesB1 (F := Ideal) ((Gen.dat0 (Gen.V5 m ρ) c).arrAt 5 cfg0.N) ((Gen.dat0 (Gen.V5 m ρ) c).arrAt 6 cfg0.N)
        (src1 (F := Ideal) (m ((c.tc : Thread nD τ).loc main_arg18) : S2x160000.Idx → BitVec 32)) (dst1 (F := Ideal) (m ((c.tc : Thread nD τ).loc main_arg18) : S2x160000.Idx → BitVec 32)) :=
  (eq_of_heq (at_ref (Gen.V7 m ρ) c ref1_2)).trans (entry1_2 m ρ c)
theorem A3_eq (c : Dev nD) : (Gen.V7 m ρ c (Pipeline.arrRef spec1 3) : S10000x128.Idx → EReal) = (Gen.dat0 (Gen.V5 m ρ) c).arrAt 6 cfg0.N :=
  (eq_of_heq (at_ref (Gen.V7 m ρ) c ref1_3)).trans (entry1_3 m ρ c)
theorem A4_eq (c : Dev nD) : (Gen.V7 m ρ c (Pipeline.arrRef spec1 4) : S10000x1.Idx → EReal) = scale1 (F := Ideal) (dst1 (F := Ideal) (m ((c.tc : Thread nD τ).loc main_arg18) : S2x160000.Idx → BitVec 32)) :=
  (eq_of_heq (at_ref (Gen.V7 m ρ) c ref1_4)).trans (entry1_4 m ρ c)
theorem A5_eq (c : Dev nD) : (Gen.V7 m ρ c (Pipeline.arrRef spec1 5) : S1x128.Idx → EReal) = asRow (F := Ideal) (m ((c.tc : Thread nD τ).loc main_arg3)) :=
  (eq_of_heq (at_ref (Gen.V7 m ρ) c ref1_5)).trans (entry1_5 m ρ c)
theorem A6_eq (c : Dev nD) : (Gen.V7 m ρ c (Pipeline.arrRef spec1 6) : S1x128.Idx → EReal) = asRow (F := Ideal) (m ((c.tc : Thread nD τ).loc main_arg6)) :=
  (eq_of_heq (at_ref (Gen.V7 m ρ) c ref1_6)).trans (entry1_6 m ρ c)
theorem A7_eq (c : Dev nD) : (Gen.V7 m ρ c (Pipeline.arrRef spec1 7) : S1x128.Idx → EReal) = asRow (F := Ideal) (m ((c.tc : Thread nD τ).loc main_arg5)) :=
  (eq_of_heq (at_ref (Gen.V7 m ρ) c ref1_7)).trans (entry1_7 m ρ c)
theorem A8_eq (c : Dev nD) : (Gen.V7 m ρ c (Pipeline.arrRef spec1 8) : S1x128.Idx → EReal) = asRow (F := Ideal) (m ((c.tc : Thread nD τ).loc main_arg7)) :=
  (eq_of_heq (at_ref (Gen.V7 m ρ) c ref1_8)).trans (entry1_8 m ρ c)
theorem A9_eq (c : Dev nD) : (Gen.V7 m ρ c (Pipeline.arrRef spec1 9) : S1x128.Idx → EReal) = asRow (F := Ideal) (m ((c.tc : Thread nD τ).loc main_arg8)) :=
  (eq_of_heq (at_ref (Gen.V7 m ρ) c ref1_9)).trans (entry1_9 m ρ c)
theorem A10_eq (c : Dev nD) : (Gen.V7 m ρ c (Pipeline.arrRef spec1 10) : S1x128.Idx → EReal) = asRow (F := Ideal) (m ((c.tc : Thread nD τ).loc main_arg9)) :=
  (eq_of_heq (at_ref (Gen.V7 m ρ) c ref1_10)).trans (entry1_10 m ρ c)

/-! ## Each of them entry by entry -/

/-- The sending side's scale at row `r`. -/
theorem sendScale (c : Dev nD) (r : Fin 10000) :
    scale1 (F := Ideal) (src1 (F := Ideal) (m ((c.tc : Thread nD τ).loc main_arg18) : S2x160000.Idx → BitVec 32)) (ix2 r 0)
      = rowScale (selfDegree (fun e : Fin 160000 => wrapNeg 10000#32 (clipLow ((m ((c.tc : Thread nD τ).loc main_arg18) : S2x160000.Idx → BitVec 32) (ix2 0 e)))) r) := by
  refine (scale1_at _ r).trans ?_
  simp only [src1_at]

/-- The receiving side's scale at row `p`. -/
theorem recvScale (c : Dev nD) (p : Fin 10000) :
    (Gen.V7 m ρ c (Pipeline.arrRef spec1 4) : S10000x1.Idx → EReal) (ix2 p 0)
      = rowScale (selfDegree (fun e : Fin 160000 => wrapNeg 10000#32 (clipLow ((m ((c.tc : Thread nD τ).loc main_arg18) : S2x160000.Idx → BitVec 32) (ix2 1 e)))) p) := by
  refine (congrFun (A4_eq m ρ c) (ix2 p 0)).trans ((scale1_at _ p).trans ?_)
  simp only [dst1_at]

/-- The first branch's scaled product. -/
theorem branchC (c : Dev nD) (r : Fin 10000) (c' : Fin 128) :
    (Gen.V7 m ρ c (Pipeline.arrRef spec1 1) : S10000x128.Idx → EReal) (ix2 r c')
      = scaledProd (m ((c.tc : Thread nD τ).loc main_arg0)) (m ((c.tc : Thread nD τ).loc main_arg2)) (scale1 (F := Ideal) (src1 (F := Ideal) (m ((c.tc : Thread nD τ).loc main_arg18) : S2x160000.Idx → BitVec 32))) r c' :=
  (congrFun (A1_eq m ρ c) (ix2 r c')).trans ((MmValue0.out5 (Gen.V5 m ρ) c r c').trans
    (scaledProd_congr (X0_eq m ρ c) (X2_eq m ρ c) (X4_eq m ρ c) r c'))

/-- The fusion input in closed form. -/
theorem fusion_eq (c : Dev nD) : (Gen.V5 m ρ c (Pipeline.arrRef spec0 1) : S10000x128.Idx → EReal)
    = incSum (N := 10000) (E := 160000) (fun e => (m ((c.tc : Thread nD τ).loc main_arg18) : S2x160000.Idx → BitVec 32) (ix2 1 e)) (m ((c.tc : Thread nD τ).loc main_arg1)) := by
  refine (X1_eq m ρ c).trans ((pooled_eq _ _).trans ?_)
  simp only [dst1_at]

/-- The second branch's scaled product: its feature array is the fusion input. -/
theorem branchF (c : Dev nD) (r : Fin 10000) (c' : Fin 128) :
    (Gen.V7 m ρ c (Pipeline.arrRef spec1 3) : S10000x128.Idx → EReal) (ix2 r c')
      = scaledProd (incSum (N := 10000) (E := 160000) (fun e => (m ((c.tc : Thread nD τ).loc main_arg18) : S2x160000.Idx → BitVec 32) (ix2 1 e)) (m ((c.tc : Thread nD τ).loc main_arg1)))
          (m ((c.tc : Thread nD τ).loc main_arg4)) (scale1 (F := Ideal) (src1 (F := Ideal) (m ((c.tc : Thread nD τ).loc main_arg18) : S2x160000.Idx → BitVec 32))) r c' :=
  (congrFun (A3_eq m ρ c) (ix2 r c')).trans ((MmValue0.out6 (Gen.V5 m ρ) c r c').trans
    (scaledProd_congr (fusion_eq m ρ c) (X3_eq m ρ c) (X4_eq m ρ c) r c'))

/-- The first branch's edge sum at `(p, c')`. -/
theorem sumC (c : Dev nD) (p : Fin 10000) (c' : Fin 128) :
    (Gen.V7 m ρ c (Pipeline.arrRef spec1 0) : S10000x128.Idx → EReal) (ix2 p c')
      = (∑ e : Fin 160000, (if ((m ((c.tc : Thread nD τ).loc main_arg18) : S2x160000.Idx → BitVec 32) (ix2 1 e)).toInt = (p.val : ℤ)
          then ((Gen.V7 m ρ c (Pipeline.arrRef spec1 1) : S10000x128.Idx → EReal) (ix2 (rowOf 10000 Ops1.hN (wrapNeg 10000#32 ((m ((c.tc : Thread nD τ).loc main_arg18) : S2x160000.Idx → BitVec 32) (ix2 0 e)))) c') : EReal)
          else (0 : EReal) : EReal) : EReal) := by
  refine (congrFun (A0_eq m ρ c) (ix2 p c')).trans ((messagesA1_at _ _ _ _ p c').trans ?_)
  refine Finset.sum_congr rfl fun e _ => ?_
  rw [src1_at, dst1_at]
  exact if_congr Iff.rfl (congrFun (A1_eq m ρ c) _).symm rfl

/-- The second branch's edge sum at `(p, c')`. -/
theorem sumF (c : Dev nD) (p : Fin 10000) (c' : Fin 128) :
    (Gen.V7 m ρ c (Pipeline.arrRef spec1 2) : S10000x128.Idx → EReal) (ix2 p c')
      = (∑ e : Fin 160000, (if ((m ((c.tc : Thread nD τ).loc main_arg18) : S2x160000.Idx → BitVec 32) (ix2 1 e)).toInt = (p.val : ℤ)
          then ((Gen.V7 m ρ c (Pipeline.arrRef spec1 3) : S10000x128.Idx → EReal) (ix2 (rowOf 10000 Ops1.hN (wrapNeg 10000#32 ((m ((c.tc : Thread nD τ).loc main_arg18) : S2x160000.Idx → BitVec 32) (ix2 0 e)))) c') : EReal)
          else (0 : EReal) : EReal) : EReal) := by
  refine (congrFun (A2_eq m ρ c) (ix2 p c')).trans ((messagesB1_at _ _ _ _ p c').trans ?_)
  refine Finset.sum_congr rfl fun e _ => ?_
  rw [src1_at, dst1_at]
  exact if_congr Iff.rfl (congrFun (A3_eq m ρ c) _).symm rfl

theorem row5 (c : Dev nD) (c' : Fin 128) : (Gen.V7 m ρ c (Pipeline.arrRef spec1 5) : S1x128.Idx → EReal) (ix2 0 c') = (m ((c.tc : Thread nD τ).loc main_arg3) : S128.Idx → EReal) (ix1 c') :=
  (congrFun (A5_eq m ρ c) (ix2 0 c')).trans (asRow_at _ c')
theorem row6 (c : Dev nD) (c' : Fin 128) : (Gen.V7 m ρ c (Pipeline.arrRef spec1 6) : S1x128.Idx → EReal) (ix2 0 c') = (m ((c.tc : Thread nD τ).loc main_arg6) : S128.Idx → EReal) (ix1 c') :=
  (congrFun (A6_eq m ρ c) (ix2 0 c')).trans (asRow_at _ c')
theorem row7 (c : Dev nD) (c' : Fin 128) : (Gen.V7 m ρ c (Pipeline.arrRef spec1 7) : S1x128.Idx → EReal) (ix2 0 c') = (m ((c.tc : Thread nD τ).loc main_arg5) : S128.Idx → EReal) (ix1 c') :=
  (congrFun (A7_eq m ρ c) (ix2 0 c')).trans (asRow_at _ c')
theorem row8 (c : Dev nD) (c' : Fin 128) : (Gen.V7 m ρ c (Pipeline.arrRef spec1 8) : S1x128.Idx → EReal) (ix2 0 c') = (m ((c.tc : Thread nD τ).loc main_arg7) : S128.Idx → EReal) (ix1 c') :=
  (congrFun (A8_eq m ρ c) (ix2 0 c')).trans (asRow_at _ c')
theorem row9 (c : Dev nD) (c' : Fin 128) : (Gen.V7 m ρ c (Pipeline.arrRef spec1 9) : S1x128.Idx → EReal) (ix2 0 c') = (m ((c.tc : Thread nD τ).loc main_arg8) : S128.Idx → EReal) (ix1 c') :=
  (congrFun (A9_eq m ρ c) (ix2 0 c')).trans (asRow_at _ c')
theorem row10 (c : Dev nD) (c' : Fin 128) : (Gen.V7 m ρ c (Pipeline.arrRef spec1 10) : S1x128.Idx → EReal) (ix2 0 c') = (m ((c.tc : Thread nD τ).loc main_arg9) : S128.Idx → EReal) (ix1 c') :=
  (congrFun (A10_eq m ρ c) (ix2 0 c')).trans (asRow_at _ c')

/-! ## The result -/

/-- Entry `(p, q)` of the first result: the first level's closed form on the launch contents of the arguments. -/
theorem kernel_out0 (c : Dev nD) (p : Fin 10000) (q : Fin 128) :
    (Gen.W16 (F := Ideal) m ρ c (Proc.devRef .tc main_v63) : S10000x128.Idx → EReal) (ix2 p q)
      = Cert.Spec.levelOut (N := 10000) (E := 160000) (by decide) 10000#32
          (m ((c.tc : Thread nD τ).loc main_arg0))
          (Cert.Spec.incSum (fun e : Fin 160000 => (m ((c.tc : Thread nD τ).loc main_arg18) : S2x160000.Idx → BitVec 32) (ix2 1 e)) (m ((c.tc : Thread nD τ).loc main_arg1)))
          (m ((c.tc : Thread nD τ).loc main_arg2)) (m ((c.tc : Thread nD τ).loc main_arg4))
          (fun k => (m ((c.tc : Thread nD τ).loc main_arg3) : S128.Idx → EReal) (ix1 k))
          (fun k => (m ((c.tc : Thread nD τ).loc main_arg6) : S128.Idx → EReal) (ix1 k))
          (fun k => (m ((c.tc : Thread nD τ).loc main_arg5) : S128.Idx → EReal) (ix1 k))
          (fun k => (m ((c.tc : Thread nD τ).loc main_arg7) : S128.Idx → EReal) (ix1 k))
          (fun k => (m ((c.tc : Thread nD τ).loc main_arg8) : S128.Idx → EReal) (ix1 k))
          (fun k => (m ((c.tc : Thread nD τ).loc main_arg9) : S128.Idx → EReal) (ix1 k))
          (fun e : Fin 160000 => (m ((c.tc : Thread nD τ).loc main_arg18) : S2x160000.Idx → BitVec 32) (ix2 0 e)) (fun e : Fin 160000 => (m ((c.tc : Thread nD τ).loc main_arg18) : S2x160000.Idx → BitVec 32) (ix2 1 e)) p q := by
  refine (congrFun (out0_eq m ρ c) (ix2 p q)).trans ?_
  refine (PostValue1.out11 (Gen.V7 m ρ) c p q).trans ?_
  exact levelOut_of_parts (N := 10000) (E := 160000) Ops1.hN 10000#32 _ _ _ _ _ _ _ _ _ _ _ _ p q
    (Gen.V7 m ρ c (Pipeline.arrRef spec1 0)) (Gen.V7 m ρ c (Pipeline.arrRef spec1 1)) (Gen.V7 m ρ c (Pipeline.arrRef spec1 2)) (Gen.V7 m ρ c (Pipeline.arrRef spec1 3)) (Gen.V7 m ρ c (Pipeline.arrRef spec1 4))
    (scale1 (F := Ideal) (src1 (F := Ideal) (m ((c.tc : Thread nD τ).loc main_arg18) : S2x160000.Idx → BitVec 32)))
    (Gen.V7 m ρ c (Pipeline.arrRef spec1 5)) (Gen.V7 m ρ c (Pipeline.arrRef spec1 6)) (Gen.V7 m ρ c (Pipeline.arrRef spec1 7)) (Gen.V7 m ρ c (Pipeline.arrRef spec1 8)) (Gen.V7 m ρ c (Pipeline.arrRef spec1 9)) (Gen.V7 m ρ c (Pipeline.arrRef spec1 10))
    (sendScale m c) (branchC m ρ c) (branchF m ρ c) (sumC m ρ c p) (sumF m ρ c p) (recvScale m ρ c p)
    (row5 m ρ c) (row6 m ρ c) (row7 m ρ c) (row8 m ρ c) (row9 m ρ c) (row10 m ρ c)

end Cert.KernelIdeal.Level0

end
-- ==== Proof.PostPayload3.lean ====
/-
  The body of the recombination-and-normalisation kernel (4000-row blocks), read at one entry of its output block.

  The body recombines the two branches entry by entry (`Spec.combine`), takes each row's mean and its variance
  about the mean over the 128 columns, divides the centred row by the root of the variance plus a small offset,
  maps it affinely by two per-column rows and clamps it below at zero. Here each of the body's four intermediate
  values is read at an index `(p, q)` of its block, and the stored value is identified with `Spec.normRelu` of the
  recombined row `p`.
-/
import proofs.«181315_g23613730193938_cont_sun_m_512_6_alg».proof.Proof.Gen.KernelIdeal.Skeleton
import proofs.«181315_g23613730193938_cont_sun_m_512_6_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PostValue3

open Cert.KernelIdeal Cert.KernelIdeal.Gen Idealize.ShloMosaic Idealize.ShloMosaic.ValueIdx
open scoped BigOperators

/-! ## Layout operations with a unit trailing axis, read at an index -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the `[a, 1]` column reads, at `(p, u)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum of a `[a, b]` array over its second axis reads, at row `p`, the sum of that row's `b` entries. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show (∑ k : Fin b, src (h.lift (ix1 p) k)) = _
  refine Finset.sum_congr rfl fun k _ => congrArg src (funext fun ax => ?_)
  match ax with
  | ⟨0, _⟩ => rfl
  | ⟨1, _⟩ => rfl

/-- A square root at an index is the square root of the element. -/
theorem sqrt_apply {s : Shape} {φ : FTy} (a : FVec Ideal s φ) (i : s.Idx) : sqrt a i = Ideal.sqrt (a i) := rfl

/-! ## The body's values at an index -/

section Payload
variable (aa ha ab hb : Vec Ideal S4000x128 .f32) (nd : Vec Ideal S4000x1 .f32)
  (bca wca bcb wcb g be : Vec Ideal S1x128 .f32)

/-- The recombined row `p` of a block: entry `c` is `Spec.combine` of the block's entries at `(p, c)`, the row's scale and
    the four per-column rows. -/
abbrev zrow (p : Fin 4000) : Fin 128 → EReal := fun c =>
  Cert.Spec.combine (aa (ix2 p c)) (ha (ix2 p c)) (ab (ix2 p c)) (hb (ix2 p c)) (nd (ix2 p 0))
    (bca (ix2 0 c)) (wca (ix2 0 c)) (bcb (ix2 0 c)) (wcb (ix2 0 c))

/-- The recombination at `(p, c)`. -/
theorem pay2_apply (p : Fin 4000) (c : Fin 128) :
    k3_pay2 nd aa ha bca wca ab hb bcb wcb (ix2 p c) = zrow aa ha ab hb nd bca wca bcb wcb p c := by
  unfold k3_pay2
  simp only [shapeCast_self, addf_apply, mulf_apply, broadcastTo_a1_ab_apply, broadcastTo_1b_ab_apply]
  rfl

/-- The row mean at `(p, u)`. -/
theorem pay3_apply (p : Fin 4000) (u : Fin 1) :
    k3_pay3 nd aa ha bca wca ab hb bcb wcb (ix2 p u) = Cert.Spec.rowMean (zrow aa ha ab hb nd bca wca bcb wcb p) := by
  unfold k3_pay3
  simp only [divf_apply, shapeCast_a_a1_apply, broadcast_apply]
  rw [rowSum_apply]
  simp only [pay2_apply]
  rfl

/-- The centred recombination at `(p, c)`. -/
theorem pay4_apply (p : Fin 4000) (c : Fin 128) :
    k3_pay4 nd aa ha bca wca ab hb bcb wcb (ix2 p c)
      = zrow aa ha ab hb nd bca wca bcb wcb p c - Cert.Spec.rowMean (zrow aa ha ab hb nd bca wca bcb wcb p) := by
  unfold k3_pay4
  simp only [subf_apply, broadcastTo_a1_ab_apply, pay2_apply, pay3_apply]

/-- The last value of the body at `(p, q)`, over any recombination `z`, mean column `mu` and centred array `d`:
    the centred entry over the root of the row's mean square of `d` plus the offset, mapped affinely and clamped. -/
theorem pay1_apply (z d : FVec Ideal S4000x128 .f32) (mu : FVec Ideal S4000x1 .f32) (p : Fin 4000) (q : Fin 128) :
    k3_pay1 z mu d g be (ix2 p q)
      = max (Ideal.div (z (ix2 p q) - mu (ix2 p 0))
              (Ideal.sqrt (Ideal.div (∑ k : Fin 128, d (ix2 p k) * d (ix2 p k)) Cert.Spec.cols + Cert.Spec.eps))
            * g (ix2 0 q) + be (ix2 0 q)) (Ideal.ofBits .f32 0x00000000#32) := by
  unfold k3_pay1
  simp only [maximumf_apply, addf_apply, mulf_apply, divf_apply, subf_apply, sqrt_apply, broadcastTo_a1_ab_apply,
    broadcastTo_1b_ab_apply, shapeCast_self, shapeCast_a_a1_apply, broadcast_apply]
  rw [rowSum_apply]
  simp only [mulf_apply]
  rfl

/-- THE BODY'S STORED VALUE at `(p, q)`: the normalised, affinely mapped and clamped recombination of row `p`. -/
theorem body_apply (p : Fin 4000) (q : Fin 128) :
    k3_pay1 (k3_pay2 nd aa ha bca wca ab hb bcb wcb) (k3_pay3 nd aa ha bca wca ab hb bcb wcb)
        (k3_pay4 nd aa ha bca wca ab hb bcb wcb) g be (ix2 p q)
      = Cert.Spec.normRelu (zrow aa ha ab hb nd bca wca bcb wcb p) (fun c => g (ix2 0 c)) (fun c => be (ix2 0 c)) q := by
  rw [pay1_apply]
  simp only [pay2_apply, pay3_apply, pay4_apply]
  rfl

end Payload

end Cert.KernelIdeal.PostValue3

end
-- ==== Proof.PostValue3.lean ====
/-
  The array the recombination-and-normalisation region (4000-row blocks of a 160000-row array) leaves, entry by entry.

  Each grid point reads row block `t` of the four feature arrays and of the per-row scale, and the whole of the six
  per-column rows; it writes row block `t` of the result. The 40 blocks tile the 160000 rows, so the result array is,
  at every `(r, q)`, `Spec.normRelu` of the recombined row `r` of the arrays the region found.
-/
import proofs.«181315_g23613730193938_cont_sun_m_512_6_alg».proof.Proof.Gen.KernelIdeal.Frame
import proofs.«181315_g23613730193938_cont_sun_m_512_6_alg».proof.Proof.Spec
import proofs.«181315_g23613730193938_cont_sun_m_512_6_alg».proof.Proof.PostPayload3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PostValue3

open Cert.KernelIdeal Cert.KernelIdeal.Gen Idealize.ShloMosaic Idealize.ShloMosaic.TcCoe Idealize.ShloMosaic.ValueIdx
open Idealize.ShloMosaic.Pipeline (Dat)
open scoped BigOperators

/-! ## The result as one function of the eleven arrays -/

/-- Entry `(r, q)` of the result: the normalised, affinely mapped and clamped recombination of row `r`. -/
def G (A0 A1 A2 A3 : S160000x128.Idx → EReal) (A4 : S160000x1.Idx → EReal) (A5 A6 A7 A8 A9 A10 : S1x128.Idx → EReal)
    (r : Fin 160000) (q : Fin 128) : EReal :=
  Cert.Spec.normRelu (fun c' => Cert.Spec.combine (A0 (ix2 r c')) (A1 (ix2 r c')) (A2 (ix2 r c')) (A3 (ix2 r c'))
      (A4 (ix2 r 0)) (A5 (ix2 0 c')) (A6 (ix2 0 c')) (A7 (ix2 0 c')) (A8 (ix2 0 c')))
    (fun c' => A9 (ix2 0 c')) (fun c' => A10 (ix2 0 c')) q

/-- The same as an array. -/
def Garr (A0 A1 A2 A3 : S160000x128.Idx → EReal) (A4 : S160000x1.Idx → EReal) (A5 A6 A7 A8 A9 A10 : S1x128.Idx → EReal) :
    S160000x128.Idx → EReal :=
  fun i => G A0 A1 A2 A3 A4 A5 A6 A7 A8 A9 A10 ⟨(i 0).val, idx2_lt0 i⟩ ⟨(i 1).val, idx2_lt1 i⟩

theorem Garr_ix2 (A0 A1 A2 A3 : S160000x128.Idx → EReal) (A4 : S160000x1.Idx → EReal) (A5 A6 A7 A8 A9 A10 : S1x128.Idx → EReal)
    (r : Fin 160000) (q : Fin 128) : Garr A0 A1 A2 A3 A4 A5 A6 A7 A8 A9 A10 (ix2 r q) = G A0 A1 A2 A3 A4 A5 A6 A7 A8 A9 A10 r q := rfl

/-! ## One block's stored value from the arrays' rows -/

/-- If row `p` of each row-blocked input block is row `r` of its array, and each per-column block is its array, the
    body's stored value at `(p, q)` is the result's entry `(r, q)`. -/
theorem block_apply (x0 x1 x2 x3 : Vec Ideal S4000x128 .f32) (x4 : Vec Ideal S4000x1 .f32)
    (x5 x6 x7 x8 x9 x10 : Vec Ideal S1x128 .f32)
    (A0 A1 A2 A3 : S160000x128.Idx → EReal) (A4 : S160000x1.Idx → EReal) (A5 A6 A7 A8 A9 A10 : S1x128.Idx → EReal)
    (r : Fin 160000) (p : Fin 4000) (q : Fin 128)
    (h0 : ∀ c' : Fin 128, x0 (ix2 p c') = A0 (ix2 r c')) (h1 : ∀ c' : Fin 128, x1 (ix2 p c') = A1 (ix2 r c'))
    (h2 : ∀ c' : Fin 128, x2 (ix2 p c') = A2 (ix2 r c')) (h3 : ∀ c' : Fin 128, x3 (ix2 p c') = A3 (ix2 r c'))
    (h4 : x4 (ix2 p 0) = A4 (ix2 r 0))
    (h5 : ∀ c' : Fin 128, x5 (ix2 0 c') = A5 (ix2 0 c')) (h6 : ∀ c' : Fin 128, x6 (ix2 0 c') = A6 (ix2 0 c'))
    (h7 : ∀ c' : Fin 128, x7 (ix2 0 c') = A7 (ix2 0 c')) (h8 : ∀ c' : Fin 128, x8 (ix2 0 c') = A8 (ix2 0 c'))
    (h9 : ∀ c' : Fin 128, x9 (ix2 0 c') = A9 (ix2 0 c')) (h10 : ∀ c' : Fin 128, x10 (ix2 0 c') = A10 (ix2 0 c')) :
    k3_pay1 (k3_pay2 x4 x0 x1 x5 x6 x2 x3 x7 x8) (k3_pay3 x4 x0 x1 x5 x6 x2 x3 x7 x8)
        (k3_pay4 x4 x0 x1 x5 x6 x2 x3 x7 x8) x9 x10 (ix2 p q)
      = G A0 A1 A2 A3 A4 A5 A6 A7 A8 A9 A10 r q := by
  rw [body_apply]
  unfold G zrow
  simp only [h0, h1, h2, h3, h4, h5, h6, h7, h8, h9, h10]

/-! ## The blocks' places in their arrays -/

theorem hz : (![0, 0] : Fin 2 → Nat) = fun _ => 0 := funext fun a => by fin_cases a <;> rfl

/-- The printed index maps, decided over the 40 points: a row-blocked window's block at point `t` is row block `t`,
    a per-column window's block is the one block of its array. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = t.val ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = t.val ∧ win3_11.index t (1 : Fin 2) = 0) :=
  (by decide +kernel : ∀ t : Fin grid3.N, _)

set_option maxHeartbeats 1000000 in
/-- Row `p` of window 0's block at point `t` is row `4000·t + p` of its array. -/
theorem emb_0 (t : Fin cfg3.N) (p : Fin 4000) (c' : Fin 128) (hr : t.val * 4000 + p.val < 160000) :
    ((cfg3.win 0).blk t).view.emb (ix2 p c') = ix2 (⟨t.val * 4000 + p.val, hr⟩ : Fin 160000) c' := by
  obtain ⟨⟨e0, e1⟩, -, -, -, -, -, -, -, -, -, -, -⟩ := idx_facts t
  funext a; apply Fin.ext
  match a with
  | ⟨0, _⟩ => show win3_0.index t (0 : Fin 2) * 4000 + 1 * p.val = t.val * 4000 + p.val; omega
  | ⟨1, _⟩ => show win3_0.index t (1 : Fin 2) * 128 + 1 * c'.val = c'.val; omega

set_option maxHeartbeats 1000000 in
/-- Row `p` of window 1's block at point `t` is row `4000·t + p` of its array. -/
theorem emb_1 (t : Fin cfg3.N) (p : Fin 4000) (c' : Fin 128) (hr : t.val * 4000 + p.val < 160000) :
    ((cfg3.win 1).blk t).view.emb (ix2 p c') = ix2 (⟨t.val * 4000 + p.val, hr⟩ : Fin 160000) c' := by
  obtain ⟨-, ⟨e0, e1⟩, -, -, -, -, -, -, -, -, -, -⟩ := idx_facts t
  funext a; apply Fin.ext
  match a with
  | ⟨0, _⟩ => show win3_1.index t (0 : Fin 2) * 4000 + 1 * p.val = t.val * 4000 + p.val; omega
  | ⟨1, _⟩ => show win3_1.index t (1 : Fin 2) * 128 + 1 * c'.val = c'.val; omega

set_option maxHeartbeats 1000000 in
/-- Row `p` of window 2's block at point `t` is row `4000·t + p` of its array. -/
theorem emb_2 (t : Fin cfg3.N) (p : Fin 4000) (c' : Fin 128) (hr : t.val * 4000 + p.val < 160000) :
    ((cfg3.win 2).blk t).view.emb (ix2 p c') = ix2 (⟨t.val * 4000 + p.val, hr⟩ : Fin 160000) c' := by
  obtain ⟨-, -, ⟨e0, e1⟩, -, -, -, -, -, -, -, -, -⟩ := idx_facts t
  funext a; apply Fin.ext
  match a with
  | ⟨0, _⟩ => show win3_2.index t (0 : Fin 2) * 4000 + 1 * p.val = t.val * 4000 + p.val; omega
  | ⟨1, _⟩ => show win3_2.index t (1 : Fin 2) * 128 + 1 * c'.val = c'.val; omega

set_option maxHeartbeats 1000000 in
/-- Row `p` of window 3's block at point `t` is row `4000·t + p` of its array. -/
theorem emb_3 (t : Fin cfg3.N) (p : Fin 4000) (c' : Fin 128) (hr : t.val * 4000 + p.val < 160000) :
    ((cfg3.win 3).blk t).view.emb (ix2 p c') = ix2 (⟨t.val * 4000 + p.val, hr⟩ : Fin 160000) c' := by
  obtain ⟨-, -, -, ⟨e0, e1⟩, -, -, -, -, -, -, -, -⟩ := idx_facts t
  funext a; apply Fin.ext
  match a with
  | ⟨0, _⟩ => show win3_3.index t (0 : Fin 2) * 4000 + 1 * p.val = t.val * 4000 + p.val; omega
  | ⟨1, _⟩ => show win3_3.index t (1 : Fin 2) * 128 + 1 * c'.val = c'.val; omega

set_option maxHeartbeats 1000000 in
/-- Row `p` of window 11's block at point `t` is row `4000·t + p` of its array. -/
theorem emb_11 (t : Fin cfg3.N) (p : Fin 4000) (c' : Fin 128) (hr : t.val * 4000 + p.val < 160000) :
    ((cfg3.win 11).blk t).view.emb (ix2 p c') = ix2 (⟨t.val * 4000 + p.val, hr⟩ : Fin 160000) c' := by
  obtain ⟨-, -, -, -, -, -, -, -, -, -, -, ⟨e0, e1⟩⟩ := idx_facts t
  funext a; apply Fin.ext
  match a with
  | ⟨0, _⟩ => show win3_11.index t (0 : Fin 2) * 4000 + 1 * p.val = t.val * 4000 + p.val; omega
  | ⟨1, _⟩ => show win3_11.index t (1 : Fin 2) * 128 + 1 * c'.val = c'.val; omega

set_option maxHeartbeats 1000000 in
/-- Row `p` of the scale window's block at point `t` is row `4000·t + p` of the scale column. -/
theorem emb_4 (t : Fin cfg3.N) (p : Fin 4000) (hr : t.val * 4000 + p.val < 160000) :
    ((cfg3.win 4).blk t).view.emb (ix2 p (0 : Fin 1)) = ix2 (⟨t.val * 4000 + p.val, hr⟩ : Fin 160000) (0 : Fin 1) := by
  obtain ⟨-, -, -, -, ⟨e0, e1⟩, -, -, -, -, -, -, -⟩ := idx_facts t
  funext a; apply Fin.ext
  match a with
  | ⟨0, _⟩ => show win3_4.index t (0 : Fin 2) * 4000 + 1 * p.val = t.val * 4000 + p.val; omega
  | ⟨1, _⟩ => show win3_4.index t (1 : Fin 2) * 1 + 1 * 0 = 0; omega

set_option maxHeartbeats 1000000 in
/-- Window 5's block at every point is its whole one-row array. -/
theorem emb_5 (t : Fin cfg3.N) (c' : Fin 128) :
    ((cfg3.win 5).blk t).view.emb (ix2 (0 : Fin 1) c') = ix2 (0 : Fin 1) c' := by
  obtain ⟨-, -, -, -, -, ⟨e0, e1⟩, -, -, -, -, -, -⟩ := idx_facts t
  funext a; apply Fin.ext
  match a with
  | ⟨0, _⟩ => show win3_5.index t (0 : Fin 2) * 1 + 1 * 0 = 0; omega
  | ⟨1, _⟩ => show win3_5.index t (1 : Fin 2) * 128 + 1 * c'.val = c'.val; omega

set_option maxHeartbeats 1000000 in
/-- Window 6's block at every point is its whole one-row array. -/
theorem emb_6 (t : Fin cfg3.N) (c' : Fin 128) :
    ((cfg3.win 6).blk t).view.emb (ix2 (0 : Fin 1) c') = ix2 (0 : Fin 1) c' := by
  obtain ⟨-, -, -, -, -, -, ⟨e0, e1⟩, -, -, -, -, -⟩ := idx_facts t
  funext a; apply Fin.ext
  match a with
  | ⟨0, _⟩ => show win3_6.index t (0 : Fin 2) * 1 + 1 * 0 = 0; omega
  | ⟨1, _⟩ => show win3_6.index t (1 : Fin 2) * 128 + 1 * c'.val = c'.val; omega

set_option maxHeartbeats 1000000 in
/-- Window 7's block at every point is its whole one-row array. -/
theorem emb_7 (t : Fin cfg3.N) (c' : Fin 128) :
    ((cfg3.win 7).blk t).view.emb (ix2 (0 : Fin 1) c') = ix2 (0 : Fin 1) c' := by
  obtain ⟨-, -, -, -, -, -, -, ⟨e0, e1⟩, -, -, -, -⟩ := idx_facts t
  funext a; apply Fin.ext
  match a with
  | ⟨0, _⟩ => show win3_7.index t (0 : Fin 2) * 1 + 1 * 0 = 0; omega
  | ⟨1, _⟩ => show win3_7.index t (1 : Fin 2) * 128 + 1 * c'.val = c'.val; omega

set_option maxHeartbeats 1000000 in
/-- Window 8's block at every point is its whole one-row array. -/
theorem emb_8 (t : Fin cfg3.N) (c' : Fin 128) :
    ((cfg3.win 8).blk t).view.emb (ix2 (0 : Fin 1) c') = ix2 (0 : Fin 1) c' := by
  obtain ⟨-, -, -, -, -, -, -, -, ⟨e0, e1⟩, -, -, -⟩ := idx_facts t
  funext a; apply Fin.ext
  match a with
  | ⟨0, _⟩ => show win3_8.index t (0 : Fin 2) * 1 + 1 * 0 = 0; omega
  | ⟨1, _⟩ => show win3_8.index t (1 : Fin 2) * 128 + 1 * c'.val = c'.val; omega

set_option maxHeartbeats 1000000 in
/-- Window 9's block at every point is its whole one-row array. -/
theorem emb_9 (t : Fin cfg3.N) (c' : Fin 128) :
    ((cfg3.win 9).blk t).view.emb (ix2 (0 : Fin 1) c') = ix2 (0 : Fin 1) c' := by
  obtain ⟨-, -, -, -, -, -, -, -, -, ⟨e0, e1⟩, -, -⟩ := idx_facts t
  funext a; apply Fin.ext
  match a with
  | ⟨0, _⟩ => show win3_9.index t (0 : Fin 2) * 1 + 1 * 0 = 0; omega
  | ⟨1, _⟩ => show win3_9.index t (1 : Fin 2) * 128 + 1 * c'.val = c'.val; omega

set_option maxHeartbeats 1000000 in
/-- Window 10's block at every point is its whole one-row array. -/
theorem emb_10 (t : Fin cfg3.N) (c' : Fin 128) :
    ((cfg3.win 10).blk t).view.emb (ix2 (0 : Fin 1) c') = ix2 (0 : Fin 1) c' := by
  obtain ⟨-, -, -, -, -, -, -, -, -, -, ⟨e0, e1⟩, -⟩ := idx_facts t
  funext a; apply Fin.ext
  match a with
  | ⟨0, _⟩ => show win3_10.index t (0 : Fin 2) * 1 + 1 * 0 = 0; omega
  | ⟨1, _⟩ => show win3_10.index t (1 : Fin 2) * 128 + 1 * c'.val = c'.val; omega

variable (V : (c : Dev nD) → (b : Ref sig .tc) → Buf (Elt Ideal) ((c : Thread nD τ).loc b))

/-- The result array as a function of the arrays the region finds. -/
abbrev GV (c : Dev nD) : S160000x128.Idx → EReal :=
  Garr (V c (Pipeline.arrRef spec3 0)) (V c (Pipeline.arrRef spec3 1)) (V c (Pipeline.arrRef spec3 2)) (V c (Pipeline.arrRef spec3 3))
    (V c (Pipeline.arrRef spec3 4)) (V c (Pipeline.arrRef spec3 5)) (V c (Pipeline.arrRef spec3 6)) (V c (Pipeline.arrRef spec3 7))
    (V c (Pipeline.arrRef spec3 8)) (V c (Pipeline.arrRef spec3 9)) (V c (Pipeline.arrRef spec3 10))

set_option maxHeartbeats 1000000 in
/-- WHAT POINT `t` WRITES BACK is row block `t` of the result. -/
theorem flushed_eq (c : Dev nD) (t : Fin cfg3.N) :
    (dat3 (F := Ideal) V c).flushed 11 t = ((cfg3.win 11).blk t).view.read (Elt Ideal) (GV V c) := by
  show (cfg3.win 11).cut (grid3.coords t) ((dat3 (F := Ideal) V c).after 11 t) = _
  rw [after3_11]
  unfold out3_11
  rw [View.canon_unit_zero hz]
  simp only [View.ld_unit_zero (S := S4000x128) hz, View.ld_unit_zero (S := S4000x1) hz, View.ld_unit_zero (S := S1x128) hz]
  have hN : t.val < 40 := Nat.lt_of_lt_of_eq t.isLt N_3
  funext j
  obtain ⟨p, q, rfl⟩ : ∃ (p : Fin 4000) (q : Fin 128), j = ix2 p q := ⟨j 0, j 1, eq_ix2 j⟩
  have hr : t.val * 4000 + p.val < 160000 := by have := p.isLt; omega
  show k3_pay1 (F := Ideal) _ _ _ _ _ (ix2 p q) = GV V c (((cfg3.win 11).blk t).view.emb (ix2 p q))
  rw [emb_11 t p q hr]
  exact block_apply (iblk3 V c 0 t) (iblk3 V c 1 t) (iblk3 V c 2 t) (iblk3 V c 3 t) (iblk3 V c 4 t)
    (iblk3 V c 5 t) (iblk3 V c 6 t) (iblk3 V c 7 t) (iblk3 V c 8 t) (iblk3 V c 9 t) (iblk3 V c 10 t)
    _ _ _ _ _ _ _ _ _ _ _ (⟨t.val * 4000 + p.val, hr⟩ : Fin 160000) p q
    (fun c' => congrArg (V c (Pipeline.arrRef spec3 0)) (emb_0 t p c' hr))
    (fun c' => congrArg (V c (Pipeline.arrRef spec3 1)) (emb_1 t p c' hr))
    (fun c' => congrArg (V c (Pipeline.arrRef spec3 2)) (emb_2 t p c' hr))
    (fun c' => congrArg (V c (Pipeline.arrRef spec3 3)) (emb_3 t p c' hr))
    (congrArg (V c (Pipeline.arrRef spec3 4)) (emb_4 t p hr))
    (fun c' => congrArg (V c (Pipeline.arrRef spec3 5)) (emb_5 t c'))
    (fun c' => congrArg (V c (Pipeline.arrRef spec3 6)) (emb_6 t c'))
    (fun c' => congrArg (V c (Pipeline.arrRef spec3 7)) (emb_7 t c'))
    (fun c' => congrArg (V c (Pipeline.arrRef spec3 8)) (emb_8 t c'))
    (fun c' => congrArg (V c (Pipeline.arrRef spec3 9)) (emb_9 t c'))
    (fun c' => congrArg (V c (Pipeline.arrRef spec3 10)) (emb_10 t c'))

/-- An index of the result array is in point `t`'s block iff each coordinate is in the block's range on its axis. -/
theorem mem_blk (t : Fin cfg3.N) (i : S160000x128.Idx) :
    i ∈ ((cfg3.win 11).blk t).view.set ↔ ∀ a : Fin 2, win3_11.index t a * S4000x128.size a ≤ (i a).val ∧ (i a).val < win3_11.index t a * S4000x128.size a + S4000x128.size a := by
  show i ∈ ((View.whole main_v123).slice (win3_11.rect t)).set ↔ _
  rw [View.set_slice_whole, Rect.mem_set_unit]
  exact Iff.rfl

/-- THE COVER: row `r` of the result is in the block of point `r / 4000`. -/
theorem cover (i : S160000x128.Idx) :
    ∃ t : Fin cfg3.N, (cfg3.win 11).flush t = true ∧ i ∈ ((cfg3.win 11).blk t).view.set := by
  have hi0 : (i 0).val < 160000 := idx2_lt0 i
  have hi1 : (i 1).val < 128 := idx2_lt1 i
  obtain ⟨t, ht⟩ : ∃ t : Fin cfg3.N, t.val = (i 0).val / 4000 :=
    ⟨⟨(i 0).val / 4000, Nat.lt_of_lt_of_eq (by omega : (i 0).val / 4000 < 40) N_3.symm⟩, rfl⟩
  obtain ⟨-, -, -, -, -, -, -, -, -, -, -, ⟨e0, e1⟩⟩ := idx_facts t
  refine ⟨t, flush3_11 t, ?_⟩
  rw [mem_blk]
  intro a
  match a with
  | ⟨0, _⟩ => show win3_11.index t (0 : Fin 2) * 4000 ≤ (i 0).val ∧ (i 0).val < win3_11.index t (0 : Fin 2) * 4000 + 4000; omega
  | ⟨1, _⟩ => show win3_11.index t (1 : Fin 2) * 128 ≤ (i 1).val ∧ (i 1).val < win3_11.index t (1 : Fin 2) * 128 + 128; omega

/-- THE ARRAY after the region: the result function of the arrays the region found. -/
theorem final (c : Dev nD) : (dat3 (F := Ideal) V c).arrAt 11 cfg3.N = GV V c :=
  (dat3 (F := Ideal) V c).arrAt_eq_of_cover 11 (GV V c) (fun t _ => flushed_eq V c t) cover

set_option maxHeartbeats 2000000 in
/-- THE RESULT, ENTRY BY ENTRY: `(p, q)` of the array the region leaves is `Spec.normRelu` of the recombined row `p` of
    the eleven arrays the region found, mapped by the last two of them. -/
theorem out11 (c : Dev nD) (p : Fin 160000) (q : Fin 128) :
    ((dat3 (F := Ideal) V c).arrAt 11 cfg3.N : S160000x128.Idx → EReal) (ix2 p q)
      = Cert.Spec.normRelu (fun c' => Cert.Spec.combine
          ((V c (Pipeline.arrRef spec3 0) : S160000x128.Idx → EReal) (ix2 p c'))
          ((V c (Pipeline.arrRef spec3 1) : S160000x128.Idx → EReal) (ix2 p c'))
          ((V c (Pipeline.arrRef spec3 2) : S160000x128.Idx → EReal) (ix2 p c'))
          ((V c (Pipeline.arrRef spec3 3) : S160000x128.Idx → EReal) (ix2 p c'))
          ((V c (Pipeline.arrRef spec3 4) : S160000x1.Idx → EReal) (ix2 p 0))
          ((V c (Pipeline.arrRef spec3 5) : S1x128.Idx → EReal) (ix2 0 c'))
          ((V c (Pipeline.arrRef spec3 6) : S1x128.Idx → EReal) (ix2 0 c'))
          ((V c (Pipeline.arrRef spec3 7) : S1x128.Idx → EReal) (ix2 0 c'))
          ((V c (Pipeline.arrRef spec3 8) : S1x128.Idx → EReal) (ix2 0 c')))
        (fun c' => (V c (Pipeline.arrRef spec3 9) : S1x128.Idx → EReal) (ix2 0 c'))
        (fun c' => (V c (Pipeline.arrRef spec3 10) : S1x128.Idx → EReal) (ix2 0 c')) q := by
  exact congrFun (final V c) (ix2 p q)

end Cert.KernelIdeal.PostValue3

end
-- ==== Proof.MmValue2.lean ====
/-
  The value of the second matrix-product region: each of its two output arrays, entry by entry, is the row-scaled
  product of the specification, (x · W) · diag(s), of the arrays the region finds on entry.

  Three steps. (i) The body's payload at an index (r, q) of a block: a matrix product into a zero accumulator is the
  sum over the contracted coordinate of the products of the entries; the per-row scale is a column broadcast along
  the 128 columns, so it contributes the factor s(r, 0). (ii) The grid point t works on rows 4000·t … 4000·t + 3999:
  its input blocks are those rows of the two feature arrays and of the scale, and the whole of each weight array, so
  what it writes back is the restriction of the whole-array function to its block of rows. (iii) Row p lies in the
  block of point p / 4000, so the blocks cover the array and the array ends as that function everywhere.
-/
import proofs.«181315_g23613730193938_cont_sun_m_512_6_alg».proof.Proof.Gen.KernelIdeal.Frame
import proofs.«181315_g23613730193938_cont_sun_m_512_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MmValue2

open Cert.KernelIdeal Cert.KernelIdeal.Gen Idealize.ShloMosaic Idealize.ShloMosaic.TcCoe Idealize.SL.Sem
open Idealize.ShloMosaic.ValueIdx
open Idealize.ShloMosaic.Pipeline (Dat)

/-! ## (i) The payload at an index -/

/-- The left operand's row coordinate at output index i is i's row. -/
theorem lhs_row (i : S4000x128.Idx) (κ : dot_S4000x128_S128x128_S4000x128_1_0_0_1_n_n.contr.Idx) :
    (dot_S4000x128_S128x128_S4000x128_1_0_0_1_n_n.lhsIdx i κ 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- The right operand's column coordinate at output index i is i's column. -/
theorem rhs_col (i : S4000x128.Idx) (κ : dot_S4000x128_S128x128_S4000x128_1_0_0_1_n_n.contr.Idx) :
    (dot_S4000x128_S128x128_S4000x128_1_0_0_1_n_n.rhsIdx i κ 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The matrix product of a [4000,128] block by a [128,128] matrix into the zero accumulator, at (r, q): the inner
    product of row r of the block with column q of the matrix. -/
theorem matmul_at (a : FVec Ideal S4000x128 .f32) (b : FVec Ideal S128x128 .f32) (r : Fin 4000) (q : Fin 128) :
    matmul dot_S4000x128_S128x128_S4000x128_1_0_0_1_n_n none a b (constant (F := Ideal) S4000x128 .f32 0x00000000#32) (ix2 r q)
      = ∑ k : Fin 128, a (ix2 r k) * b (ix2 k q) := by
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r q)
      ((contrEquiv1 dot_S4000x128_S128x128_S4000x128_1_0_0_1_n_n 128 rfl rfl).symm k) = ix2 r k :=
    funext fun ax => Fin.ext (by
      match ax with
      | ⟨0, _⟩ => exact lhs_row _ _
      | ⟨1, _⟩ => exact (dot_S4000x128_S128x128_S4000x128_1_0_0_1_n_n.lhsIdx_val_of_single rfl _ _).trans hk)
  have er : dot_S4000x128_S128x128_S4000x128_1_0_0_1_n_n.rhsIdx (ix2 r q)
      ((contrEquiv1 dot_S4000x128_S128x128_S4000x128_1_0_0_1_n_n 128 rfl rfl).symm k) = ix2 k q :=
    funext fun ax => Fin.ext (by
      match ax with
      | ⟨0, _⟩ => exact (dot_S4000x128_S128x128_S4000x128_1_0_0_1_n_n.rhsIdx_val_of_single rfl _ _).trans hk
      | ⟨1, _⟩ => exact rhs_col _ _)
  rw [el, er]

/-- The per-row scale broadcast along the columns, at (r, q): the scale of row r. -/
theorem scale_at (s : FVec Ideal S4000x1 .f32) (r : Fin 4000) (q : Fin 128) :
    broadcastTo S4000x128 s broadcasts_S4000x1_S4000x128 (ix2 r q) = s (ix2 r 0) := by
  refine broadcastTo_apply s broadcasts_S4000x1_S4000x128 (ix2 r q) (ix2 r 0) fun ax => ?_
  match ax with
  | ⟨0, _⟩ => rfl
  | ⟨1, _⟩ => rfl

/-- The first output's payload at (r, q). -/
theorem pay2_at (v0 : Vec Ideal S4000x1 .f32) (v2 : Vec Ideal S4000x128 .f32) (v3 : Vec Ideal S128x128 .f32)
    (r : Fin 4000) (q : Fin 128) :
    k2_pay2 (F := Ideal) v0 v2 v3 (ix2 r q) = (∑ k : Fin 128, v2 (ix2 r k) * v3 (ix2 k q)) * v0 (ix2 r 0) := by
  unfold k2_pay2 k2_pay1
  rw [shapeCast_self]
  show matmul dot_S4000x128_S128x128_S4000x128_1_0_0_1_n_n none v2 v3 (constant (F := Ideal) S4000x128 .f32 0x00000000#32) (ix2 r q)
      * broadcastTo S4000x128 v0 broadcasts_S4000x1_S4000x128 (ix2 r q) = _
  rw [matmul_at, scale_at]

/-- The second output's payload at (r, q). -/
theorem pay3_at (v0 : Vec Ideal S4000x1 .f32) (v8 : Vec Ideal S4000x128 .f32) (v10 : Vec Ideal S128x128 .f32)
    (r : Fin 4000) (q : Fin 128) :
    k2_pay3 (F := Ideal) v0 v8 v10 (ix2 r q) = (∑ k : Fin 128, v8 (ix2 r k) * v10 (ix2 k q)) * v0 (ix2 r 0) := by
  unfold k2_pay3 k2_pay1
  rw [shapeCast_self, shapeCast_self]
  show matmul dot_S4000x128_S128x128_S4000x128_1_0_0_1_n_n none v8 v10 (constant (F := Ideal) S4000x128 .f32 0x00000000#32) (ix2 r q)
      * broadcastTo S4000x128 v0 broadcasts_S4000x1_S4000x128 (ix2 r q) = _
  rw [matmul_at, scale_at]

/-! ## The whole-array function -/

/-- The row-scaled product as one function of the array index. -/
def prodArr (x : S160000x128.Idx → EReal) (W : S128x128.Idx → EReal) (s : S160000x1.Idx → EReal) : S160000x128.Idx → EReal :=
  fun i => Cert.Spec.scaledProd x W s ⟨(i 0).val, idx2_lt0 i⟩ ⟨(i 1).val, idx2_lt1 i⟩

theorem prodArr_ix2 (x : S160000x128.Idx → EReal) (W : S128x128.Idx → EReal) (s : S160000x1.Idx → EReal)
    (p : Fin 160000) (q : Fin 128) : prodArr x W s (ix2 p q) = Cert.Spec.scaledProd x W s p q := rfl

/-- A payload of blocks that are rows n·4000 … of the arrays (and the whole weight array) is, at the block index j,
    the whole-array function at the array index i that j sits at. -/
theorem block_point (pay : Vec Ideal S4000x1 .f32 → Vec Ideal S4000x128 .f32 → Vec Ideal S128x128 .f32 → FVec Ideal S4000x128 .f32)
    (hpay : ∀ v0 v2 v3 (r : Fin 4000) (q : Fin 128),
      pay v0 v2 v3 (ix2 r q) = (∑ k : Fin 128, v2 (ix2 r k) * v3 (ix2 k q)) * v0 (ix2 r 0))
    (x : S160000x128.Idx → EReal) (W : S128x128.Idx → EReal) (s : S160000x1.Idx → EReal)
    (bs : Vec Ideal S4000x1 .f32) (bx : Vec Ideal S4000x128 .f32) (bW : Vec Ideal S128x128 .f32)
    (n : Nat) (j : S4000x128.Idx) (i : S160000x128.Idx)
    (hi0 : (i 0).val = n * 4000 + (j 0).val) (hi1 : (i 1).val = (j 1).val)
    (hx : ∀ (r : Fin 4000) (k : Fin 128) (p : Fin 160000), p.val = n * 4000 + r.val → bx (ix2 r k) = x (ix2 p k))
    (hW : ∀ (k q : Fin 128), bW (ix2 k q) = W (ix2 k q))
    (hs : ∀ (r : Fin 4000) (p : Fin 160000), p.val = n * 4000 + r.val → bs (ix2 r 0) = s (ix2 p 0)) :
    pay bs bx bW j = prodArr x W s i := by
  obtain ⟨r, q, rfl⟩ : ∃ (r : Fin 4000) (q : Fin 128), j = ix2 r q := ⟨j 0, j 1, eq_ix2 j⟩
  obtain ⟨p, q', rfl⟩ : ∃ (p : Fin 160000) (q' : Fin 128), i = ix2 p q' := ⟨i 0, i 1, eq_ix2 i⟩
  have hp : p.val = n * 4000 + r.val := hi0
  obtain rfl : q' = q := Fin.ext hi1
  rw [hpay, prodArr_ix2]
  unfold Cert.Spec.scaledProd
  rw [hs r p hp]
  refine congrArg (· * s (ix2 p 0)) (Finset.sum_congr rfl fun k _ => ?_)
  rw [hx r k p hp, hW]

/-! ## (ii) What a point writes back -/

theorem hz : (![0, 0] : Fin 2 → Nat) = fun _ => 0 := funext fun a => by fin_cases a <;> rfl

/-- The index maps over the grid: the feature blocks, the scale block and the output blocks of point t are
    block t along the rows, and the weights' block is the whole array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- Feature window 0's block at point t: rows 4000·t … of its array. -/
theorem iblk_x0 (c : Dev nD) (t : Fin cfg2.N) (r : Fin 4000) (k : Fin 128) (p : Fin 160000)
    (hp : p.val = t.val * 4000 + r.val) :
    (iblk2 V c 0 t : Vec Ideal S4000x128 .f32) (ix2 r k) = (V c (Pipeline.arrRef spec2 0) : S160000x128.Idx → EReal) (ix2 p k) := by
  obtain ⟨e00, e01, -⟩ := idx_facts t
  show (V c (Pipeline.arrRef spec2 0) : S160000x128.Idx → EReal) (((cfg2.win 0).blk t).view.emb (ix2 r k)) = _
  refine congrArg _ (funext fun a => Fin.ext ?_)
  match a with
  | ⟨0, _⟩ => show win2_0.index t (0 : Fin 2) * 4000 + 1 * r.val = p.val; omega
  | ⟨1, _⟩ => show win2_0.index t (1 : Fin 2) * 128 + 1 * k.val = k.val; omega

/-- Feature window 1's block at point t: rows 4000·t … of its array. -/
theorem iblk_x1 (c : Dev nD) (t : Fin cfg2.N) (r : Fin 4000) (k : Fin 128) (p : Fin 160000)
    (hp : p.val = t.val * 4000 + r.val) :
    (iblk2 V c 1 t : Vec Ideal S4000x128 .f32) (ix2 r k) = (V c (Pipeline.arrRef spec2 1) : S160000x128.Idx → EReal) (ix2 p k) := by
  obtain ⟨-, -, e10, e11, -⟩ := idx_facts t
  show (V c (Pipeline.arrRef spec2 1) : S160000x128.Idx → EReal) (((cfg2.win 1).blk t).view.emb (ix2 r k)) = _
  refine congrArg _ (funext fun a => Fin.ext ?_)
  match a with
  | ⟨0, _⟩ => show win2_1.index t (0 : Fin 2) * 4000 + 1 * r.val = p.val; omega
  | ⟨1, _⟩ => show win2_1.index t (1 : Fin 2) * 128 + 1 * k.val = k.val; omega

/-- Weight window 2's block at every point: the whole array. -/
theorem iblk_W2 (c : Dev nD) (t : Fin cfg2.N) (k q : Fin 128) :
    (iblk2 V c 2 t : Vec Ideal S128x128 .f32) (ix2 k q) = (V c (Pipeline.arrRef spec2 2) : S128x128.Idx → EReal) (ix2 k q) := by
  obtain ⟨-, -, -, -, e20, e21, -⟩ := idx_facts t
  show (V c (Pipeline.arrRef spec2 2) : S128x128.Idx → EReal) (((cfg2.win 2).blk t).view.emb (ix2 k q)) = _
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- Weight window 3's block at every point: the whole array. -/
theorem iblk_W3 (c : Dev nD) (t : Fin cfg2.N) (k q : Fin 128) :
    (iblk2 V c 3 t : Vec Ideal S128x128 .f32) (ix2 k q) = (V c (Pipeline.arrRef spec2 3) : S128x128.Idx → EReal) (ix2 k q) := by
  obtain ⟨-, -, -, -, -, -, e30, e31, -⟩ := idx_facts t
  show (V c (Pipeline.arrRef spec2 3) : S128x128.Idx → EReal) (((cfg2.win 3).blk t).view.emb (ix2 k q)) = _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The scale window's block at point t: rows 4000·t … of the scale. -/
theorem iblk_s4 (c : Dev nD) (t : Fin cfg2.N) (r : Fin 4000) (p : Fin 160000)
    (hp : p.val = t.val * 4000 + r.val) :
    (iblk2 V c 4 t : Vec Ideal S4000x1 .f32) (ix2 r 0) = (V c (Pipeline.arrRef spec2 4) : S160000x1.Idx → EReal) (ix2 p 0) := by
  obtain ⟨-, -, -, -, -, -, -, -, e40, e41, -⟩ := idx_facts t
  show (V c (Pipeline.arrRef spec2 4) : S160000x1.Idx → EReal) (((cfg2.win 4).blk t).view.emb (ix2 r 0)) = _
  refine congrArg _ (funext fun a => Fin.ext ?_)
  match a with
  | ⟨0, _⟩ => show win2_4.index t (0 : Fin 2) * 4000 + 1 * r.val = p.val; omega
  | ⟨1, _⟩ => show win2_4.index t (1 : Fin 2) * 1 + 1 * (0 : Fin 1).val = (0 : Fin 1).val; omega

/-- What point t writes back to the first output is block t of the whole-array function. -/
theorem flushed5_eq (c : Dev nD) (t : Fin cfg2.N) :
    (dat2 (F := Ideal) V c).flushed 5 t = ((cfg2.win 5).blk t).view.read (Elt Ideal)
      (prodArr (V c (Pipeline.arrRef spec2 0)) (V c (Pipeline.arrRef spec2 2)) (V c (Pipeline.arrRef spec2 4))) := by
  show (cfg2.win 5).cut (grid2.coords t) ((dat2 (F := Ideal) V c).after 5 t) = _
  rw [after2_5]
  unfold out2_5
  rw [View.canon_unit_zero hz]
  simp only [View.ld_unit_zero (S := S4000x1) hz, View.ld_unit_zero (S := S4000x128) hz, View.ld_unit_zero (S := S128x128) hz]
  obtain ⟨-, -, -, -, -, -, -, -, -, -, e50, e51, -⟩ := idx_facts t
  funext j
  refine block_point k2_pay2 pay2_at _ _ _ _ _ _ t.val j (((cfg2.win 5).blk t).view.emb j) ?_ ?_
    (iblk_x0 V c t) (iblk_W2 V c t) (iblk_s4 V c t)
  · show win2_5.index t (0 : Fin 2) * 4000 + 1 * (j 0).val = t.val * 4000 + (j 0).val; omega
  · show win2_5.index t (1 : Fin 2) * 128 + 1 * (j 1).val = (j 1).val; omega

/-- What point t writes back to the second output is block t of the whole-array function. -/
theorem flushed6_eq (c : Dev nD) (t : Fin cfg2.N) :
    (dat2 (F := Ideal) V c).flushed 6 t = ((cfg2.win 6).blk t).view.read (Elt Ideal)
      (prodArr (V c (Pipeline.arrRef spec2 1)) (V c (Pipeline.arrRef spec2 3)) (V c (Pipeline.arrRef spec2 4))) := by
  show (cfg2.win 6).cut (grid2.coords t) ((dat2 (F := Ideal) V c).after 6 t) = _
  rw [after2_6]
  unfold out2_6
  rw [View.canon_unit_zero hz]
  simp only [View.ld_unit_zero (S := S4000x1) hz, View.ld_unit_zero (S := S4000x128) hz, View.ld_unit_zero (S := S128x128) hz]
  obtain ⟨-, -, -, -, -, -, -, -, -, -, -, -, e60, e61⟩ := idx_facts t
  funext j
  refine block_point k2_pay3 pay3_at _ _ _ _ _ _ t.val j (((cfg2.win 6).blk t).view.emb j) ?_ ?_
    (iblk_x1 V c t) (iblk_W3 V c t) (iblk_s4 V c t)
  · show win2_6.index t (0 : Fin 2) * 4000 + 1 * (j 0).val = t.val * 4000 + (j 0).val; omega
  · show win2_6.index t (1 : Fin 2) * 128 + 1 * (j 1).val = (j 1).val; omega

/-! ## (iii) The cover, and the arrays -/

/-- An index of the first output is in point t's block iff each coordinate is in the block's range on its axis. -/
theorem mem_blk5 (t : Fin cfg2.N) (i : S160000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v103_0).slice (win2_5.rect t)).set ↔ _
  rw [View.set_slice_whole, Rect.mem_set_unit]
  exact Iff.rfl

theorem mem_blk6 (t : Fin cfg2.N) (i : S160000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v103_1).slice (win2_6.rect t)).set ↔ _
  rw [View.set_slice_whole, Rect.mem_set_unit]
  exact Iff.rfl

/-- The point whose block holds row p: p / 4000. -/
def pointOf (i : S160000x128.Idx) : Fin cfg2.N :=
  ⟨(i 0).val / 4000, by have h : (i 0).val < 160000 := idx2_lt0 i; show (i 0).val / 4000 < grid2.N; rw [N_2]; omega⟩

theorem pointOf_val (i : S160000x128.Idx) : (pointOf i).val = (i 0).val / 4000 := rfl

theorem cover5 (i : S160000x128.Idx) : ∃ t : Fin cfg2.N, (cfg2.win 5).flush t = true ∧ i ∈ ((cfg2.win 5).blk t).view.set := by
  refine ⟨pointOf i, flush2_5 _, ?_⟩
  rw [mem_blk5]
  obtain ⟨-, -, -, -, -, -, -, -, -, -, e50, e51, -⟩ := idx_facts (pointOf i)
  have hv := pointOf_val i
  have h0 : (i 0).val < 160000 := idx2_lt0 i
  have h1 : (i 1).val < 128 := idx2_lt1 i
  intro a
  match a with
  | ⟨0, _⟩ => show win2_5.index (pointOf i) (0 : Fin 2) * 4000 ≤ (i 0).val ∧ (i 0).val < win2_5.index (pointOf i) (0 : Fin 2) * 4000 + 4000; omega
  | ⟨1, _⟩ => show win2_5.index (pointOf i) (1 : Fin 2) * 128 ≤ (i 1).val ∧ (i 1).val < win2_5.index (pointOf i) (1 : Fin 2) * 128 + 128; omega

theorem cover6 (i : S160000x128.Idx) : ∃ t : Fin cfg2.N, (cfg2.win 6).flush t = true ∧ i ∈ ((cfg2.win 6).blk t).view.set := by
  refine ⟨pointOf i, flush2_6 _, ?_⟩
  rw [mem_blk6]
  obtain ⟨-, -, -, -, -, -, -, -, -, -, -, -, e60, e61⟩ := idx_facts (pointOf i)
  have hv := pointOf_val i
  have h0 : (i 0).val < 160000 := idx2_lt0 i
  have h1 : (i 1).val < 128 := idx2_lt1 i
  intro a
  match a with
  | ⟨0, _⟩ => show win2_6.index (pointOf i) (0 : Fin 2) * 4000 ≤ (i 0).val ∧ (i 0).val < win2_6.index (pointOf i) (0 : Fin 2) * 4000 + 4000; omega
  | ⟨1, _⟩ => show win2_6.index (pointOf i) (1 : Fin 2) * 128 ≤ (i 1).val ∧ (i 1).val < win2_6.index (pointOf i) (1 : Fin 2) * 128 + 128; omega

/-- The first output array after the region, as one function of the entry arrays. -/
theorem arr5 (c : Dev nD) : (dat2 (F := Ideal) V c).arrAt 5 cfg2.N
    = prodArr (V c (Pipeline.arrRef spec2 0)) (V c (Pipeline.arrRef spec2 2)) (V c (Pipeline.arrRef spec2 4)) :=
  (dat2 (F := Ideal) V c).arrAt_eq_of_cover 5 _ (fun t _ => flushed5_eq V c t) cover5

/-- The second output array after the region, as one function of the entry arrays. -/
theorem arr6 (c : Dev nD) : (dat2 (F := Ideal) V c).arrAt 6 cfg2.N
    = prodArr (V c (Pipeline.arrRef spec2 1)) (V c (Pipeline.arrRef spec2 3)) (V c (Pipeline.arrRef spec2 4)) :=
  (dat2 (F := Ideal) V c).arrAt_eq_of_cover 6 _ (fun t _ => flushed6_eq V c t) cover6

/-- Entry (p, q) of the first output array: the row-scaled product of feature array 0, weight array 2 and the scale. -/
theorem out5 (c : Dev nD) (p : Fin 160000) (q : Fin 128) :
    ((dat2 (F := Ideal) V c).arrAt 5 cfg2.N : S160000x128.Idx → EReal) (ix2 p q)
      = Cert.Spec.scaledProd (V c (Pipeline.arrRef spec2 0)) (V c (Pipeline.arrRef spec2 2)) (V c (Pipeline.arrRef spec2 4)) p q := by
  rw [arr5 V c]; rfl

/-- Entry (p, q) of the second output array: the row-scaled product of feature array 1, weight array 3 and the scale. -/
theorem out6 (c : Dev nD) (p : Fin 160000) (q : Fin 128) :
    ((dat2 (F := Ideal) V c).arrAt 6 cfg2.N : S160000x128.Idx → EReal) (ix2 p q)
      = Cert.Spec.scaledProd (V c (Pipeline.arrRef spec2 1)) (V c (Pipeline.arrRef spec2 3)) (V c (Pipeline.arrRef spec2 4)) p q := by
  rw [arr6 V c]; rfl

end Cert.KernelIdeal.MmValue2

end
-- ==== Proof.KernelOps2.lean ====
/-
  The host-side operations of the second level (160000 nodes, 640000 edges), read at an index.

  Each is a short composition of layout operations, integer operations on index words, one counting scatter and one
  row gather / row scatter. At an index they are: a row of the edge table; a word clipped at zero and wrapped by the
  number of nodes; the degree count of a node; the node's scale; the edge sum of one branch's rows.
-/
import proofs.«181315_g23613730193938_cont_sun_m_512_6_alg».proof.Proof.KernelEntry
import proofs.«181315_g23613730193938_cont_sun_m_512_6_alg».proof.Proof.SpecGraph
import proofs.«181315_g23613730193938_cont_sun_m_512_6_alg».proof.Proof.LibScatterRows
import proofs.«181315_g23613730193938_cont_sun_m_512_6_alg».proof.Proof.LibGatherRows
import proofs.«181315_g23613730193938_cont_sun_m_512_6_alg».proof.Proof.LibGraphCat
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Ops2

open Cert.KernelIdeal Cert.KernelIdeal.Gen Cert.KernelIdeal.RunValue Idealize.ShloMosaic Idealize.ShloMosaic.ValueIdx
open Idealize.ShloMosaic.ScatterRows Idealize.ShloMosaic.GatherRows Idealize.ShloMosaic.GraphAgg
open Cert.Spec

/-- Row 0 of the edge table, as a list, at edge `k`. -/
theorem src2_at (t : S2x640000.Idx → BitVec 32) (k : Fin 640000) : src2 (F := Ideal) t (ix1 k) = t (ix2 0 k) := by
  show shapeCast S640000 (extractStridedSlice S1x640000 ![0, 0] t slices_S2x640000_S1x640000_0_0) shapeCasts_S1x640000_S640000 (ix1 k) = _
  refine (shapeCast_1a_a_apply _ _ k).trans ?_
  exact slice2_axis0_apply 0 t _ 0 k 0 rfl

/-- Row 1 of the edge table, as a list, at edge `k`. -/
theorem dst2_at (t : S2x640000.Idx → BitVec 32) (k : Fin 640000) : dst2 (F := Ideal) t (ix1 k) = t (ix2 1 k) := by
  show shapeCast S640000 (extractStridedSlice S1x640000 ![1, 0] t slices_S2x640000_S1x640000_1_0) shapeCasts_S1x640000_S640000 (ix1 k) = _
  refine (shapeCast_1a_a_apply _ _ k).trans ?_
  exact slice2_axis0_apply 1 t _ 0 k 1 rfl

/-- A list as a one-column table, at row `k`. -/
theorem col2_at (v : S640000.Idx → BitVec 32) (k : Fin 640000) : col2 (F := Ideal) v (ix2 k 0) = v (ix1 k) := by
  show broadcastInDim S640000x1 ![0] bcast_S640000_S640000x1_0 v (ix2 k 0) = _
  refine broadcastInDim_apply _ _ v (ix2 k 0) (ix1 k) fun a => ?_
  match a with
  | ⟨0, _⟩ => rfl

/-- Clipping at zero, entry by entry. -/
theorem clip2_at (v : S640000.Idx → BitVec 32) (j : S640000.Idx) : clip2 (F := Ideal) v j = clipLow (v j) := rfl

/-- Wrapping by the number of nodes, entry by entry. -/
theorem wrap2_at (v : S640000.Idx → BitVec 32) (j : S640000.Idx) : wrap2 (F := Ideal) v j = wrapNeg 160000#32 (v j) := rfl

/-- The degree count at node `p`: the edges whose clipped and wrapped word names `p`, plus one. -/
theorem degree2_at (v : S640000.Idx → BitVec 32) (p : Fin 160000) :
    degree2 (F := Ideal) v (ix1 p) = selfDegree (fun e : Fin 640000 => wrapNeg 160000#32 (clipLow (v (ix1 e)))) p := by
  show IntOp.addi (Host.scatter scatter_S160000_S640000x1_S640000_n_0_0_1 IntOp.addi
      (broadcastInDim S160000 ![] bcast_S_S160000 (constantI S_ 32 0#32)) (col2 (F := Ideal) (wrap2 (F := Ideal) (clip2 (F := Ideal) v)))
      (broadcastInDim S640000 ![] bcast_S_S640000 (constantI S_ 32 1#32)) (ix1 p)) 1#32 = _
  refine (congrArg (IntOp.addi · 1#32) (count_scatter_apply _ IntOp.addi (fun _ _ => rfl) _ _ _ p)).trans ?_
  unfold selfDegree
  show ((0#32 : BitVec 32) + ∑ e : Fin 640000, if (col2 (F := Ideal) (wrap2 (F := Ideal) (clip2 (F := Ideal) v)) (ix2 e 0)).toInt = (p.val : ℤ) then (1#32 : BitVec 32) else 0) + 1#32 = _
  rw [BitVec.zero_add]
  refine congrArg (· + 1#32) (Finset.sum_congr rfl fun e _ => ?_)
  rw [col2_at]
  rfl

/-- A list of length 160000 as a one-column table, at row `p`. -/
theorem column_at {α : Type} (x : S160000.Idx → α) (p : Fin 160000) :
    shapeCast S160000x1 x shapeCasts_S160000_S160000x1 (ix2 p 0) = x (ix1 p) := by
  refine shapeCast_apply x _ (ix2 p 0) (ix1 p) ?_
  rw [Shape.rowMajor_val_one, Shape.rowMajor_val_two]
  show p.val = p.val * 1 + 0
  omega

/-- The scale of node `p`: its degree count to the power −1/2. -/
theorem scale2_at (v : S640000.Idx → BitVec 32) (p : Fin 160000) :
    scale2 (F := Ideal) v (ix2 p 0) = rowScale (selfDegree (fun e : Fin 640000 => wrapNeg 160000#32 (clipLow (v (ix1 e)))) p) := by
  show shapeCast S160000x1 (Host.powf (sitofp .f32 (degree2 (F := Ideal) v))
      (broadcastInDim S160000 ![] bcast_S_S160000 (constant (F := Ideal) S_ .f32 0xBF000000#32))) shapeCasts_S160000_S160000x1 (ix2 p 0) = _
  rw [column_at]
  show Ideal.pow (((degree2 (F := Ideal) v (ix1 p)).toInt : ℝ) : EReal) (Ideal.ofBits .f32 0xBF000000#32) = _
  rw [degree2_at]
  rfl

theorem hN : 0 < 160000 := by decide

/-- On the extended reals the host's accumulating scatter is the exact sum. -/
theorem scatterAdd_ideal {s si u : Shape} {w : Nat} (d : ScatterDims s si u) (x : s.Idx → EReal) (idx : IVec si w)
    (upd : u.Idx → EReal) : Host.scatterAdd (F := Ideal) (φ := .f32) d x idx upd = Ideal.hostScatterAdd d x idx upd := rfl

/-- The row scatter's dimension numbers are those of a row scatter into 160000 rows of 256 columns. -/
theorem scatterRows2_dims : scatter_S160000x256_S640000x1_S640000x256_1_0_0_1
    = ScatterRows.rowsDims 160000 640000 256 scatter_S160000x256_S640000x1_S640000x256_1_0_0_1_wf := rfl

/-- The row gather's dimension numbers are those of a row gather from 160000 rows of 256 columns. -/
theorem gatherRows2_dims : gather_S160000x256_S640000x1_S640000x256_1_0_n_n_0_1_1256
    = GatherRows.rowsDims 160000 640000 256 gather_S160000x256_S640000x1_S640000x256_1_0_n_n_0_1_1256_wf := rfl

/-- The first branch's half of the messages at `(p, q)`: the sum, over the edges whose receiving word names `p`, of
    entry `q` of the row of `h0` that the edge's wrapped sending word selects. -/
theorem messagesA2_at (h0 h1 : S160000x128.Idx → EReal) (src dst : S640000.Idx → BitVec 32) (p : Fin 160000) (q : Fin 128) :
    messagesA2 (F := Ideal) h0 h1 src dst (ix2 p q)
      = ∑ e : Fin 640000, if (dst (ix1 e)).toInt = (p.val : ℤ) then h0 (ix2 (rowOf 160000 hN (wrapNeg 160000#32 (src (ix1 e)))) q) else 0 := by
  show extractStridedSlice S160000x128 ![0, 0] (messages2 (F := Ideal) h0 h1 src dst) slices_S160000x256_S160000x128_0_0 (ix2 p q) = _
  refine (slice2_axis1_apply 0 (messages2 (F := Ideal) h0 h1 src dst) _ p q (Fin.castAdd 128 q) (by show q.val = 0 + q.val; omega)).trans ?_
  show Host.scatterAdd scatter_S160000x256_S640000x1_S640000x256_1_0_0_1
      (broadcastInDim S160000x256 ![] bcast_S_S160000x256 (constant (F := Ideal) S_ .f32 0x00000000#32)) (col2 (F := Ideal) dst)
      (Host.gather gather_S160000x256_S640000x1_S640000x256_1_0_n_n_0_1_1256
        (concatenate S160000x256 1 [⟨S160000x128, h0⟩, ⟨S160000x128, h1⟩] concatenates_S160000x128_S160000x128_S160000x256_d1)
        (col2 (F := Ideal) (wrap2 (F := Ideal) src))) (ix2 p (Fin.castAdd 128 q)) = _
  rw [scatterAdd_ideal, scatterRows2_dims, gatherRows2_dims]
  refine (agg_cat_left (N := 160000) (E := 640000) (C := 128) hN scatter_S160000x256_S640000x1_S640000x256_1_0_0_1_wf
    gather_S160000x256_S640000x1_S640000x256_1_0_n_n_0_1_1256_wf concatenates_S160000x128_S160000x128_S160000x256_d1
    (broadcastInDim S160000x256 ![] bcast_S_S160000x256 (constant (F := Ideal) S_ .f32 0x00000000#32)) (col2 (F := Ideal) dst) (col2 (F := Ideal) (wrap2 (F := Ideal) src)) h0 h1 p q).trans ?_
  show Ideal.ofBits .f32 0x00000000#32 + _ = _
  rw [Ideal.ofBits_zero_f32, zero_add]
  refine Finset.sum_congr rfl fun e _ => ?_
  rw [col2_at, col2_at]
  rfl

/-- The second branch's half of the messages at `(p, q)`. -/
theorem messagesB2_at (h0 h1 : S160000x128.Idx → EReal) (src dst : S640000.Idx → BitVec 32) (p : Fin 160000) (q : Fin 128) :
    messagesB2 (F := Ideal) h0 h1 src dst (ix2 p q)
      = ∑ e : Fin 640000, if (dst (ix1 e)).toInt = (p.val : ℤ) then h1 (ix2 (rowOf 160000 hN (wrapNeg 160000#32 (src (ix1 e)))) q) else 0 := by
  show extractStridedSlice S160000x128 ![0, 128] (messages2 (F := Ideal) h0 h1 src dst) slices_S160000x256_S160000x128_0_128 (ix2 p q) = _
  refine (slice2_axis1_apply 128 (messages2 (F := Ideal) h0 h1 src dst) _ p q (Fin.natAdd 128 q) (by show 128 + q.val = 128 + q.val; rfl)).trans ?_
  show Host.scatterAdd scatter_S160000x256_S640000x1_S640000x256_1_0_0_1
      (broadcastInDim S160000x256 ![] bcast_S_S160000x256 (constant (F := Ideal) S_ .f32 0x00000000#32)) (col2 (F := Ideal) dst)
      (Host.gather gather_S160000x256_S640000x1_S640000x256_1_0_n_n_0_1_1256
        (concatenate S160000x256 1 [⟨S160000x128, h0⟩, ⟨S160000x128, h1⟩] concatenates_S160000x128_S160000x128_S160000x256_d1)
        (col2 (F := Ideal) (wrap2 (F := Ideal) src))) (ix2 p (Fin.natAdd 128 q)) = _
  rw [scatterAdd_ideal, scatterRows2_dims, gatherRows2_dims]
  refine (agg_cat_right (N := 160000) (E := 640000) (C := 128) hN scatter_S160000x256_S640000x1_S640000x256_1_0_0_1_wf
    gather_S160000x256_S640000x1_S640000x256_1_0_n_n_0_1_1256_wf concatenates_S160000x128_S160000x128_S160000x256_d1
    (broadcastInDim S160000x256 ![] bcast_S_S160000x256 (constant (F := Ideal) S_ .f32 0x00000000#32)) (col2 (F := Ideal) dst) (col2 (F := Ideal) (wrap2 (F := Ideal) src)) h0 h1 p q).trans ?_
  show Ideal.ofBits .f32 0x00000000#32 + _ = _
  rw [Ideal.ofBits_zero_f32, zero_add]
  refine Finset.sum_congr rfl fun e _ => ?_
  rw [col2_at, col2_at]
  rfl

end Cert.KernelIdeal.Ops2

end
-- ==== Proof.KernelLevel1.lean ====
/-
  The kernel program's second result in closed form.

  The second result is the array the recombination-and-normalisation region of the second level leaves. Entry by
  entry that array is the normalised recombination of the eleven arrays the region finds on entry, and each of those
  is known: the two branches' scaled products are what the matrix-product region of the level left (its own inputs
  being the feature arrays, the weights and the sending side's scale); their edge sums, the receiving side's scale
  and the per-column rows are host operations on those and on the launch contents of the arguments. The second
  branch's features are the first level's features fetched at the receiving end of every edge of the first level.
  Put together this is the level's closed form on the launch contents.
-/
import proofs.«181315_g23613730193938_cont_sun_m_512_6_alg».proof.Proof.KernelRun
import proofs.«181315_g23613730193938_cont_sun_m_512_6_alg».proof.Proof.KernelEntry
import proofs.«181315_g23613730193938_cont_sun_m_512_6_alg».proof.Proof.PostValue3
import proofs.«181315_g23613730193938_cont_sun_m_512_6_alg».proof.Proof.MmValue2
import proofs.«181315_g23613730193938_cont_sun_m_512_6_alg».proof.Proof.KernelOps1
import proofs.«181315_g23613730193938_cont_sun_m_512_6_alg».proof.Proof.KernelOps2
import proofs.«181315_g23613730193938_cont_sun_m_512_6_alg».proof.Proof.LevelParts

set_option maxRecDepth 16384

noncomputable section

namespace Cert.KernelIdeal.Level1

open Cert.KernelIdeal Cert.KernelIdeal.Gen Cert.KernelIdeal.RunValue
open Idealize.ShloMosaic Idealize.ShloMosaic.TcCoe Idealize.ShloMosaic.ValueIdx Idealize.SL.Sem
open Cert.Spec

variable (m : (ℓ : Loc nD τ sig) → Buf (Elt Ideal) ℓ) (ρ : Dev nD → PrngReg)

/-! ## The arrays the two regions of the level find on entry -/

theorem X0_eq (c : Dev nD) : (Gen.V13 m ρ c (Pipeline.arrRef spec2 0) : S160000x128.Idx → EReal) = m ((c.tc : Thread nD τ).loc main_arg1) := entry2_0 m ρ c
theorem X1_eq (c : Dev nD) : (Gen.V13 m ρ c (Pipeline.arrRef spec2 1) : S160000x128.Idx → EReal)
    = spread (F := Ideal) (m ((c.tc : Thread nD τ).loc main_arg0)) (dst1 (F := Ideal) (m ((c.tc : Thread nD τ).loc main_arg18) : S2x160000.Idx → BitVec 32)) := entry2_1 m ρ c
theorem X2_eq (c : Dev nD) : (Gen.V13 m ρ c (Pipeline.arrRef spec2 2) : S128x128.Idx → EReal) = m ((c.tc : Thread nD τ).loc main_arg10) := entry2_2 m ρ c
theorem X3_eq (c : Dev nD) : (Gen.V13 m ρ c (Pipeline.arrRef spec2 3) : S128x128.Idx → EReal) = m ((c.tc : Thread nD τ).loc main_arg12) := entry2_3 m ρ c
theorem X4_eq (c : Dev nD) : (Gen.V13 m ρ c (Pipeline.arrRef spec2 4) : S160000x1.Idx → EReal) = scale2 (F := Ideal) (src2 (F := Ideal) (m ((c.tc : Thread nD τ).loc main_arg19) : S2x640000.Idx → BitVec 32)) := entry2_4 m ρ c

theorem A0_eq (c : Dev nD) : (Gen.V15 m ρ c (Pipeline.arrRef spec3 0) : S160000x128.Idx → EReal)
    = messagesA2 (F := Ideal) ((Gen.dat2 (Gen.V13 m ρ) c).arrAt 5 cfg2.N) ((Gen.dat2 (Gen.V13 m ρ) c).arrAt 6 cfg2.N)
        (src2 (F := Ideal) (m ((c.tc : Thread nD τ).loc main_arg19) : S2x640000.Idx → BitVec 32)) (dst2 (F := Ideal) (m ((c.tc : Thread nD τ).loc main_arg19) : S2x640000.Idx → BitVec 32)) := entry3_0 m ρ c
theorem A1_eq (c : Dev nD) : (Gen.V15 m ρ c (Pipeline.arrRef spec3 1) : S160000x128.Idx → EReal) = (Gen.dat2 (Gen.V13 m ρ) c).arrAt 5 cfg2.N := entry3_1 m ρ c
theorem A2_eq (c : Dev nD) : (Gen.V15 m ρ c (Pipeline.arrRef spec3 2) : S160000x128.Idx → EReal)
    = messagesB2 (F := Ideal) ((Gen.dat2 (Gen.V13 m ρ) c).arrAt 5 cfg2.N) ((Gen.dat2 (Gen.V13 m ρ) c).arrAt 6 cfg2.N)
        (src2 (F := Ideal) (m ((c.tc : Thread nD τ).loc main_arg19) : S2x640000.Idx → BitVec 32)) (dst2 (F := Ideal) (m ((c.tc : Thread nD τ).loc main_arg19) : S2x640000.Idx → BitVec 32)) := entry3_2 m ρ c
theorem A3_eq (c : Dev nD) : (Gen.V15 m ρ c (Pipeline.arrRef spec3 3) : S160000x128.Idx → EReal) = (Gen.dat2 (Gen.V13 m ρ) c).arrAt 6 cfg2.N := entry3_3 m ρ c
theorem A4_eq (c : Dev nD) : (Gen.V15 m ρ c (Pipeline.arrRef spec3 4) : S160000x1.Idx → EReal) = scale2 (F := Ideal) (dst2 (F := Ideal) (m ((c.tc : Thread nD τ).loc main_arg19) : S2x640000.Idx → BitVec 32)) := entry3_4 m ρ c
theorem A5_eq (c : Dev nD) : (Gen.V15 m ρ c (Pipeline.arrRef spec3 5) : S1x128.Idx → EReal) = asRow (F := Ideal) (m ((c.tc : Thread nD τ).loc main_arg11)) := entry3_5 m ρ c
theorem A6_eq (c : Dev nD) : (Gen.V15 m ρ c (Pipeline.arrRef spec3 6) : S1x128.Idx → EReal) = asRow (F := Ideal) (m ((c.tc : Thread nD τ).loc main_arg14)) := entry3_6 m ρ c
theorem A7_eq (c : Dev nD) : (Gen.V15 m ρ c (Pipeline.arrRef spec3 7) : S1x128.Idx → EReal) = asRow (F := Ideal) (m ((c.tc : Thread nD τ).loc main_arg13)) := entry3_7 m ρ c
theorem A8_eq (c : Dev nD) : (Gen.V15 m ρ c (Pipeline.arrRef spec3 8) : S1x128.Idx → EReal) = asRow (F := Ideal) (m ((c.tc : Thread nD τ).loc main_arg15)) := entry3_8 m ρ c
theorem A9_eq (c : Dev nD) : (Gen.V15 m ρ c (Pipeline.arrRef spec3 9) : S1x128.Idx → EReal) = asRow (F := Ideal) (m ((c.tc : Thread nD τ).loc main_arg16)) := entry3_9 m ρ c
theorem A10_eq (c : Dev nD) : (Gen.V15 m ρ c (Pipeline.arrRef spec3 10) : S1x128.Idx → EReal) = asRow (F := Ideal) (m ((c.tc : Thread nD τ).loc main_arg17)) := entry3_10 m ρ c

/-! ## Each of them entry by entry -/

/-- The sending side's scale at row `r`. -/
theorem sendScale (c : Dev nD) (r : Fin 160000) :
    scale2 (F := Ideal) (src2 (F := Ideal) (m ((c.tc : Thread nD τ).loc main_arg19) : S2x640000.Idx → BitVec 32)) (ix2 r 0)
      = rowScale (selfDegree (fun e : Fin 640000 => wrapNeg 160000#32 (clipLow ((m ((c.tc : Thread nD τ).loc main_arg19) : S2x640000.Idx → BitVec 32) (ix2 0 e)))) r) := by
  refine (Ops2.scale2_at _ r).trans ?_
  simp only [Ops2.src2_at]

/-- The receiving side's scale at row `p`. -/
theorem recvScale (c : Dev nD) (p : Fin 160000) :
    (Gen.V15 m ρ c (Pipeline.arrRef spec3 4) : S160000x1.Idx → EReal) (ix2 p 0)
      = rowScale (selfDegree (fun e : Fin 640000 => wrapNeg 160000#32 (clipLow ((m ((c.tc : Thread nD τ).loc main_arg19) : S2x640000.Idx → BitVec 32) (ix2 1 e)))) p) := by
  refine (congrFun (A4_eq m ρ c) (ix2 p 0)).trans ((Ops2.scale2_at _ p).trans ?_)
  simp only [Ops2.dst2_at]

/-- The first branch's scaled product. -/
theorem branchC (c : Dev nD) (r : Fin 160000) (c' : Fin 128) :
    (Gen.V15 m ρ c (Pipeline.arrRef spec3 1) : S160000x128.Idx → EReal) (ix2 r c')
      = scaledProd (m ((c.tc : Thread nD τ).loc main_arg1)) (m ((c.tc : Thread nD τ).loc main_arg10)) (scale2 (F := Ideal) (src2 (F := Ideal) (m ((c.tc : Thread nD τ).loc main_arg19) : S2x640000.Idx → BitVec 32))) r c' := by
  refine (congrFun (A1_eq m ρ c) (ix2 r c')).trans ((MmValue2.out5 (Gen.V13 m ρ) c r c').trans ?_)
  rw [X0_eq, X2_eq, X4_eq]

/-- The second branch's scaled product: its feature array is the first level's features fetched along the first
    level's edges. -/
theorem branchF (c : Dev nD) (r : Fin 160000) (c' : Fin 128) :
    (Gen.V15 m ρ c (Pipeline.arrRef spec3 3) : S160000x128.Idx → EReal) (ix2 r c')
      = scaledProd (incRows (N := 10000) (E := 160000) Ops1.hN 10000#32 (fun e => (m ((c.tc : Thread nD τ).loc main_arg18) : S2x160000.Idx → BitVec 32) (ix2 1 e)) (m ((c.tc : Thread nD τ).loc main_arg0)))
          (m ((c.tc : Thread nD τ).loc main_arg12)) (scale2 (F := Ideal) (src2 (F := Ideal) (m ((c.tc : Thread nD τ).loc main_arg19) : S2x640000.Idx → BitVec 32))) r c' := by
  refine (congrFun (A3_eq m ρ c) (ix2 r c')).trans ((MmValue2.out6 (Gen.V13 m ρ) c r c').trans ?_)
  rw [X1_eq, X3_eq, X4_eq, Ops1.spread_eq]
  simp only [Ops1.dst1_at]

/-- The first branch's edge sum at `(p, c')`. -/
theorem sumC (c : Dev nD) (p : Fin 160000) (c' : Fin 128) :
    (Gen.V15 m ρ c (Pipeline.arrRef spec3 0) : S160000x128.Idx → EReal) (ix2 p c')
      = ∑ e : Fin 640000, (if ((m ((c.tc : Thread nD τ).loc main_arg19) : S2x640000.Idx → BitVec 32) (ix2 1 e)).toInt = (p.val : ℤ)
          then (Gen.V15 m ρ c (Pipeline.arrRef spec3 1) : S160000x128.Idx → EReal) (ix2 (rowOf 160000 Ops2.hN (wrapNeg 160000#32 ((m ((c.tc : Thread nD τ).loc main_arg19) : S2x640000.Idx → BitVec 32) (ix2 0 e)))) c') else 0 : EReal) := by
  refine (congrFun (A0_eq m ρ c) (ix2 p c')).trans ((Ops2.messagesA2_at _ _ _ _ p c').trans ?_)
  rw [A1_eq]
  simp only [Ops2.src2_at, Ops2.dst2_at]

/-- The second branch's edge sum at `(p, c')`. -/
theorem sumF (c : Dev nD) (p : Fin 160000) (c' : Fin 128) :
    (Gen.V15 m ρ c (Pipeline.arrRef spec3 2) : S160000x128.Idx → EReal) (ix2 p c')
      = ∑ e : Fin 640000, (if ((m ((c.tc : Thread nD τ).loc main_arg19) : S2x640000.Idx → BitVec 32) (ix2 1 e)).toInt = (p.val : ℤ)
          then (Gen.V15 m ρ c (Pipeline.arrRef spec3 3) : S160000x128.Idx → EReal) (ix2 (rowOf 160000 Ops2.hN (wrapNeg 160000#32 ((m ((c.tc : Thread nD τ).loc main_arg19) : S2x640000.Idx → BitVec 32) (ix2 0 e)))) c') else 0 : EReal) := by
  refine (congrFun (A2_eq m ρ c) (ix2 p c')).trans ((Ops2.messagesB2_at _ _ _ _ p c').trans ?_)
  rw [A3_eq]
  simp only [Ops2.src2_at, Ops2.dst2_at]

theorem row5 (c : Dev nD) (c' : Fin 128) : (Gen.V15 m ρ c (Pipeline.arrRef spec3 5) : S1x128.Idx → EReal) (ix2 0 c') = (m ((c.tc : Thread nD τ).loc main_arg11) : S128.Idx → EReal) (ix1 c') :=
  (congrFun (A5_eq m ρ c) (ix2 0 c')).trans (Ops1.asRow_at _ c')
theorem row6 (c : Dev nD) (c' : Fin 128) : (Gen.V15 m ρ c (Pipeline.arrRef spec3 6) : S1x128.Idx → EReal) (ix2 0 c') = (m ((c.tc : Thread nD τ).loc main_arg14) : S128.Idx → EReal) (ix1 c') :=
  (congrFun (A6_eq m ρ c) (ix2 0 c')).trans (Ops1.asRow_at _ c')
theorem row7 (c : Dev nD) (c' : Fin 128) : (Gen.V15 m ρ c (Pipeline.arrRef spec3 7) : S1x128.Idx → EReal) (ix2 0 c') = (m ((c.tc : Thread nD τ).loc main_arg13) : S128.Idx → EReal) (ix1 c') :=
  (congrFun (A7_eq m ρ c) (ix2 0 c')).trans (Ops1.asRow_at _ c')
theorem row8 (c : Dev nD) (c' : Fin 128) : (Gen.V15 m ρ c (Pipeline.arrRef spec3 8) : S1x128.Idx → EReal) (ix2 0 c') = (m ((c.tc : Thread nD τ).loc main_arg15) : S128.Idx → EReal) (ix1 c') :=
  (congrFun (A8_eq m ρ c) (ix2 0 c')).trans (Ops1.asRow_at _ c')
theorem row9 (c : Dev nD) (c' : Fin 128) : (Gen.V15 m ρ c (Pipeline.arrRef spec3 9) : S1x128.Idx → EReal) (ix2 0 c') = (m ((c.tc : Thread nD τ).loc main_arg16) : S128.Idx → EReal) (ix1 c') :=
  (congrFun (A9_eq m ρ c) (ix2 0 c')).trans (Ops1.asRow_at _ c')
theorem row10 (c : Dev nD) (c' : Fin 128) : (Gen.V15 m ρ c (Pipeline.arrRef spec3 10) : S1x128.Idx → EReal) (ix2 0 c') = (m ((c.tc : Thread nD τ).loc main_arg17) : S128.Idx → EReal) (ix1 c') :=
  (congrFun (A10_eq m ρ c) (ix2 0 c')).trans (Ops1.asRow_at _ c')

/-! ## The result -/

/-- Entry `(p, q)` of the second result: the second level's closed form on the launch contents of the arguments. -/
theorem kernel_out1 (c : Dev nD) (p : Fin 160000) (q : Fin 128) :
    (Gen.W16 (F := Ideal) m ρ c (Proc.devRef .tc main_v123) : S160000x128.Idx → EReal) (ix2 p q)
      = Cert.Spec.levelOut (N := 160000) (E := 640000) (by decide) 160000#32
          (m ((c.tc : Thread nD τ).loc main_arg1))
          (Cert.Spec.incRows (N := 10000) (E := 160000) (by decide) 10000#32 (fun e : Fin 160000 => (m ((c.tc : Thread nD τ).loc main_arg18) : S2x160000.Idx → BitVec 32) (ix2 1 e))
            (m ((c.tc : Thread nD τ).loc main_arg0)))
          (m ((c.tc : Thread nD τ).loc main_arg10)) (m ((c.tc : Thread nD τ).loc main_arg12))
          (fun k => (m ((c.tc : Thread nD τ).loc main_arg11) : S128.Idx → EReal) (ix1 k))
          (fun k => (m ((c.tc : Thread nD τ).loc main_arg14) : S128.Idx → EReal) (ix1 k))
          (fun k => (m ((c.tc : Thread nD τ).loc main_arg13) : S128.Idx → EReal) (ix1 k))
          (fun k => (m ((c.tc : Thread nD τ).loc main_arg15) : S128.Idx → EReal) (ix1 k))
          (fun k => (m ((c.tc : Thread nD τ).loc main_arg16) : S128.Idx → EReal) (ix1 k))
          (fun k => (m ((c.tc : Thread nD τ).loc main_arg17) : S128.Idx → EReal) (ix1 k))
          (fun e : Fin 640000 => (m ((c.tc : Thread nD τ).loc main_arg19) : S2x640000.Idx → BitVec 32) (ix2 0 e)) (fun e : Fin 640000 => (m ((c.tc : Thread nD τ).loc main_arg19) : S2x640000.Idx → BitVec 32) (ix2 1 e)) p q := by
  refine (congrFun (out1_eq m ρ c) (ix2 p q)).trans ?_
  refine (PostValue3.out11 (Gen.V15 m ρ) c p q).trans ?_
  exact levelOut_of_parts (N := 160000) (E := 640000) Ops2.hN 160000#32 _ _ _ _ _ _ _ _ _ _ _ _ p q
    (Gen.V15 m ρ c (Pipeline.arrRef spec3 0)) (Gen.V15 m ρ c (Pipeline.arrRef spec3 1)) (Gen.V15 m ρ c (Pipeline.arrRef spec3 2)) (Gen.V15 m ρ c (Pipeline.arrRef spec3 3)) (Gen.V15 m ρ c (Pipeline.arrRef spec3 4))
    (scale2 (F := Ideal) (src2 (F := Ideal) (m ((c.tc : Thread nD τ).loc main_arg19) : S2x640000.Idx → BitVec 32)))
    (Gen.V15 m ρ c (Pipeline.arrRef spec3 5)) (Gen.V15 m ρ c (Pipeline.arrRef spec3 6)) (Gen.V15 m ρ c (Pipeline.arrRef spec3 7)) (Gen.V15 m ρ c (Pipeline.arrRef spec3 8)) (Gen.V15 m ρ c (Pipeline.arrRef spec3 9)) (Gen.V15 m ρ c (Pipeline.arrRef spec3 10))
    (sendScale m c) (branchC m ρ c) (branchF m ρ c) (sumC m ρ c p) (sumF m ρ c p) (recvScale m ρ c p)
    (row5 m ρ c) (row6 m ρ c) (row7 m ρ c) (row8 m ρ c) (row9 m ρ c) (row10 m ρ c)

end Cert.KernelIdeal.Level1

end
-- ==== Proof.lean ====
/-
  Two levels of graph convolution on a graph and its line graph: the kernel against its reference, on the extended
  reals.

  Each level runs two branches of the same graph convolution (same graph, same degree scales) on two feature matrices
  and adds them, then normalises every row over its 128 columns, maps it affinely and clamps it at zero. The
  reference appends one self-loop per node to the edge list, so that degrees, gathered rows and the sum by
  destination all run over edges and loops. The kernel leaves the loops out of the edge list: it adds one to the edge
  counts, puts the two branches' row-scaled products side by side so that one gather and one sum by destination serve
  both, and adds the node's own row to the edge sum afterwards. On the extended reals addition is associative and
  commutative, so summing over edges and loops is summing over edges and adding the loop's term, and the side-by-side
  pass is two independent passes: both programs compute the closed form of SpecGraph (`Cert.Spec.levelOut`), entry by
  entry. No distributive law is used, so the finiteness of the inputs is never needed.
-/
import proofs.«181315_g23613730193938_cont_sun_m_512_6_alg».proof.Defs
import proofs.«181315_g23613730193938_cont_sun_m_512_6_alg».proof.Proof.Gen.Kernel
import proofs.«181315_g23613730193938_cont_sun_m_512_6_alg».proof.Proof.Gen.Kernel.Frame
import proofs.«181315_g23613730193938_cont_sun_m_512_6_alg».proof.Proof.Gen.KernelIdeal
import proofs.«181315_g23613730193938_cont_sun_m_512_6_alg».proof.Proof.Gen.KernelIdeal.Frame
import proofs.«181315_g23613730193938_cont_sun_m_512_6_alg».proof.Proof.Gen.ReferenceIdeal
import proofs.«181315_g23613730193938_cont_sun_m_512_6_alg».proof.Proof.Gen.Pre_finite_inputs
import proofs.«181315_g23613730193938_cont_sun_m_512_6_alg».proof.Proof.RefRun
import proofs.«181315_g23613730193938_cont_sun_m_512_6_alg».proof.Proof.RefReadEq
import proofs.«181315_g23613730193938_cont_sun_m_512_6_alg».proof.Proof.RefLevel0
import proofs.«181315_g23613730193938_cont_sun_m_512_6_alg».proof.Proof.RefLevel1
import proofs.«181315_g23613730193938_cont_sun_m_512_6_alg».proof.Proof.KernelRun
import proofs.«181315_g23613730193938_cont_sun_m_512_6_alg».proof.Proof.KernelLevel0
import proofs.«181315_g23613730193938_cont_sun_m_512_6_alg».proof.Proof.KernelLevel1
import Idealize.ShloMosaic.Adequacy
import Idealize.ShloMosaic.Init

set_option maxRecDepth 16384

noncomputable section

namespace Cert.Proof

open Idealize.ShloMosaic Idealize.ShloMosaic.ValueIdx Idealize.SL.Sem

/-- The kernel program runs and leaves its arguments as they were. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The first results agree: both are level one's closed form of the same arguments. -/
theorem result0_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Value.res_main_v140 m' c = Cert.KernelIdeal.Gen.W16 (F := Ideal) m ρ c (Proc.devRef .tc Cert.KernelIdeal.main_v63) := by
  rw [Cert.ReferenceIdeal.Read.val_main_v140_eq, h0, h1, h2, h3, h4, h5, h6, h7, h8, h9, h18]
  funext j
  obtain ⟨p, q, rfl⟩ : ∃ (p : Fin 10000) (q : Fin 128), j = ix2 p q := ⟨j 0, j 1, eq_ix2 j⟩
  exact (Cert.ReferenceIdeal.RefLevel0.level_out _ _ _ _ _ _ _ _ _ _ _ p q).trans (Cert.KernelIdeal.Level0.kernel_out0 m ρ c p q).symm

/-- The second results agree: both are level two's closed form of the same arguments. -/
theorem result1_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.Value.res_main_v277 m' c = Cert.KernelIdeal.Gen.W16 (F := Ideal) m ρ c (Proc.devRef .tc Cert.KernelIdeal.main_v123) := by
  rw [Cert.ReferenceIdeal.Read.val_main_v277_eq, h0, h1, h10, h11, h12, h13, h14, h15, h16, h17, h18, h19]
  funext j
  obtain ⟨p, q, rfl⟩ : ∃ (p : Fin 160000) (q : Fin 128), j = ix2 p q := ⟨j 0, j 1, eq_ix2 j⟩
  exact (Cert.ReferenceIdeal.RefLevel1.level_out _ _ _ _ _ _ _ _ _ _ _ _ p q).trans (Cert.KernelIdeal.Level1.kernel_out1 m ρ c p q).symm

/-- The ideal pass rewrote nothing: the idealised kernel is the kernel's own text read on the extended reals. -/
theorem preserves : Cert.preserves_Kernel_KernelIdeal := trivial

/-- From memories agreeing on the arguments, both programs run and end with the same two results. -/
theorem algebraic : Cert.algebraic_KernelIdeal_ReferenceIdeal := by
  intro m ρ m' ρ' _ hagree
  refine ⟨fun c => Cert.KernelIdeal.Gen.W16 (F := Ideal) m ρ c (Proc.devRef .tc Cert.KernelIdeal.main_v63),
    fun c => Cert.KernelIdeal.Gen.W16 (F := Ideal) m ρ c (Proc.devRef .tc Cert.KernelIdeal.main_v123),
    Cert.KernelIdeal.RunValue.run_values (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact result0_eq m ρ m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.2.2.2.2.2.2.2.2.1
  · exact result1_eq m ρ m' c (hagree c).1 (hagree c).2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
